-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v129) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v236) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x211200x7 : Shape := ⟨3, ![4, 211200, 7]⟩
abbrev S4x256x200x176 : Shape := ⟨4, ![4, 256, 200, 176]⟩
abbrev S4x4096x3 : Shape := ⟨3, ![4, 4096, 3]⟩
abbrev S_ : Shape := ⟨0, ![]⟩

class Facts : Prop where
  bcast_S_S4x211200x7 : S_.BroadcastsInDim S4x211200x7 (![] : Fin 0 → Fin S4x211200x7.rank)
  reducesTo_S4x211200x7_S_d0_1_2 : S4x211200x7.ReducesTo [0, 1, 2] S_
  h_S_ : 0 < S_.numel
  bcast_S_S4x256x200x176 : S_.BroadcastsInDim S4x256x200x176 (![] : Fin 0 → Fin S4x256x200x176.rank)
  reducesTo_S4x256x200x176_S_d0_1_2_3 : S4x256x200x176.ReducesTo [0, 1, 2, 3] S_
  bcast_S_S4x4096x3 : S_.BroadcastsInDim S4x4096x3 (![] : Fin 0 → Fin S4x4096x3.rank)
  reducesTo_S4x4096x3_S_d0_1_2 : S4x4096x3.ReducesTo [0, 1, 2] S_

variable [Facts]

def fn_part1 {F : FTy → Type} [FloatOps F] (main_v13 : IVec S_ 1) (main_v16 : IVec S4x4096x3 1) : IVec S_ 1 :=
  let main_c_5 : IVec S_ 1 := constantI S_ 1 1#1
  let main_v17 : IVec S_ 1 := (fun x v => Host.reduce IntOp.andi x v reducesTo_S4x4096x3_S_d0_1_2 h_S_) main_v16 main_c_5
  let main_v18 : IVec S_ 1 := andi main_v13 main_v17
  main_v18

def fn {F : FTy → Type} [FloatOps F] (main_arg0 : FVec F S4x211200x7 .f32) (main_arg1 : FVec F S4x211200x7 .f32) (main_arg2 : FVec F S4x256x200x176 .f32) (main_arg3 : FVec F S4x4096x3 .f32) : IVec S_ 1 :=
  let main_v0 : FVec F S4x211200x7 .f32 := Host.absf main_arg0
  let main_cst : FVec F S_ .f32 := constant S_ .f32 0x7F800000#32
  let main_v1 : FVec F S4x211200x7 .f32 := broadcastInDim S4x211200x7 ![] bcast_S_S4x211200x7 main_cst
  let main_v2 : IVec S4x211200x7 1 := cmpf .olt main_v0 main_v1
  let main_c : IVec S_ 1 := constantI S_ 1 1#1
  let main_v3 : IVec S_ 1 := (fun x v => Host.reduce IntOp.andi x v reducesTo_S4x211200x7_S_d0_1_2 h_S_) main_v2 main_c
  let main_v4 : FVec F S4x211200x7 .f32 := Host.absf main_arg1
  let main_cst_0 : FVec F S_ .f32 := constant S_ .f32 0x7F800000#32
  let main_v5 : FVec F S4x211200x7 .f32 := broadcastInDim S4x211200x7 ![] bcast_S_S4x211200x7 main_cst_0
  let main_v6 : IVec S4x211200x7 1 := cmpf .olt main_v4 main_v5
  let main_c_1 : IVec S_ 1 := constantI S_ 1 1#1
  let main_v7 : IVec S_ 1 := (fun x v => Host.reduce IntOp.andi x v reducesTo_S4x211200x7_S_d0_1_2 h_S_) main_v6 main_c_1
  let main_v8 : IVec S_ 1 := andi main_v3 main_v7
  let main_v9 : FVec F S4x256x200x176 .f32 := Host.absf main_arg2
  let main_cst_2 : FVec F S_ .f32 := constant S_ .f32 0x7F800000#32
  let main_v10 : FVec F S4x256x200x176 .f32 := broadcastInDim S4x256x200x176 ![] bcast_S_S4x256x200x176 main_cst_2
  let main_v11 : IVec S4x256x200x176 1 := cmpf .olt main_v9 main_v10
  let main_c_3 : IVec S_ 1 := constantI S_ 1 1#1
  let main_v12 : IVec S_ 1 := (fun x v => Host.reduce IntOp.andi x v reducesTo_S4x256x200x176_S_d0_1_2_3 h_S_) main_v11 main_c_3
  let main_v13 : IVec S_ 1 := andi main_v8 main_v12
  let main_v14 : FVec F S4x4096x3 .f32 := Host.absf main_arg3
  let main_cst_4 : FVec F S_ .f32 := constant S_ .f32 0x7F800000#32
  let main_v15 : FVec F S4x4096x3 .f32 := broadcastInDim S4x4096x3 ![] bcast_S_S4x4096x3 main_cst_4
  let main_v16 : IVec S4x4096x3 1 := cmpf .olt main_v14 main_v15
  fn_part1 (F := F) main_v13 main_v16
-- ==== Kernel.lean ====
abbrev S4x211200x7 : Shape := ⟨3, ![4, 211200, 7]⟩
abbrev S4x256x200x176 : Shape := ⟨4, ![4, 256, 200, 176]⟩
abbrev S4x4096x3 : Shape := ⟨3, ![4, 4096, 3]⟩
abbrev S2 : Shape := ⟨1, ![2]⟩
abbrev S1x2400x7 : Shape := ⟨3, ![1, 2400, 7]⟩
abbrev S2400x7 : Shape := ⟨2, ![2400, 7]⟩
abbrev S2400x1 : Shape := ⟨2, ![2400, 1]⟩
abbrev S1x2400x1 : Shape := ⟨3, ![1, 2400, 1]⟩
abbrev S4x4096x2 : Shape := ⟨3, ![4, 4096, 2]⟩
abbrev S1x1x2 : Shape := ⟨3, ![1, 1, 2]⟩
abbrev S_ : Shape := ⟨0, ![]⟩
abbrev S4x4096x1 : Shape := ⟨3, ![4, 4096, 1]⟩
abbrev S4x4096 : Shape := ⟨2, ![4, 4096]⟩
abbrev S176 : Shape := ⟨1, ![176]⟩
abbrev S1x176x1 : Shape := ⟨3, ![1, 176, 1]⟩
abbrev S4x1x4096 : Shape := ⟨3, ![4, 1, 4096]⟩
abbrev S4x176x4096 : Shape := ⟨3, ![4, 176, 4096]⟩
abbrev S200 : Shape := ⟨1, ![200]⟩
abbrev S1x200x1 : Shape := ⟨3, ![1, 200, 1]⟩
abbrev S4x200x4096 : Shape := ⟨3, ![4, 200, 4096]⟩
abbrev S4x256x4096 : Shape := ⟨3, ![4, 256, 4096]⟩
abbrev S1x256x8x176 : Shape := ⟨4, ![1, 256, 8, 176]⟩
abbrev S1x176x4096 : Shape := ⟨3, ![1, 176, 4096]⟩
abbrev S1x8x4096 : Shape := ⟨3, ![1, 8, 4096]⟩
abbrev S1x256x4096 : Shape := ⟨3, ![1, 256, 4096]⟩
abbrev S256x4096 : Shape := ⟨2, ![256, 4096]⟩
abbrev S256x8x176 : Shape := ⟨3, ![256, 8, 176]⟩
abbrev S176x4096 : Shape := ⟨2, ![176, 4096]⟩
abbrev S8x4096 : Shape := ⟨2, ![8, 4096]⟩
abbrev S256x1x176 : Shape := ⟨3, ![256, 1, 176]⟩
abbrev S256x176 : Shape := ⟨2, ![256, 176]⟩
abbrev S1x4096 : Shape := ⟨2, ![1, 4096]⟩

abbrev nBuf : Space → Nat
  | .hbm => 204
  | .vmem => 15
  | .smem => 0
  | _ => 0

abbrev hbmTy0_0 (i : Nat) : BufTy := match i % 128 with
  | 0 => ⟨S4x211200x7, .f32⟩
  | 1 => ⟨S4x211200x7, .f32⟩
  | 2 => ⟨S4x256x200x176, .f32⟩
  | 3 => ⟨S4x4096x3, .f32⟩
  | 4 => ⟨S2, .f32⟩
  | 5 => ⟨S2, .f32⟩
  | 6 => ⟨S2, .f32⟩
  | 7 => ⟨S4x211200x7, .f32⟩
  | 8 => ⟨S4x4096x2, .f32⟩
  | 9 => ⟨S1x1x2, .f32⟩
  | 10 => ⟨S4x4096x2, .f32⟩
  | 11 => ⟨S4x4096x2, .f32⟩
  | 12 => ⟨S_, .f32⟩
  | 13 => ⟨S2, .f32⟩
  | 14 => ⟨S2, .f32⟩
  | 15 => ⟨S1x1x2, .f32⟩
  | 16 => ⟨S4x4096x2, .f32⟩
  | 17 => ⟨S4x4096x2, .f32⟩
  | 18 => ⟨S_, .f32⟩
  | 19 => ⟨S4x4096x2, .f32⟩
  | 20 => ⟨S4x4096x2, .f32⟩
  | 21 => ⟨S1x1x2, .f32⟩
  | 22 => ⟨S4x4096x2, .f32⟩
  | 23 => ⟨S4x4096x2, .f32⟩
  | 24 => ⟨S_, .f32⟩
  | 25 => ⟨S2, .f32⟩
  | 26 => ⟨S2, .f32⟩
  | 27 => ⟨S1x1x2, .f32⟩
  | 28 => ⟨S4x4096x2, .f32⟩
  | 29 => ⟨S4x4096x2, .f32⟩
  | 30 => ⟨S_, .f32⟩
  | 31 => ⟨S4x4096x2, .f32⟩
  | 32 => ⟨S4x4096x2, .f32⟩
  | 33 => ⟨S_, .f32⟩
  | 34 => ⟨S4x4096x2, .f32⟩
  | 35 => ⟨S4x4096x2, .f32⟩
  | 36 => ⟨S4x4096x2, .f32⟩
  | 37 => ⟨S4x4096x1, .f32⟩
  | 38 => ⟨S4x4096, .f32⟩
  | 39 => ⟨S_, .f32⟩
  | 40 => ⟨S4x4096, .f32⟩
  | 41 => ⟨S4x4096, .f32⟩
  | 42 => ⟨S_, .f32⟩
  | 43 => ⟨S4x4096, .f32⟩
  | 44 => ⟨S4x4096, .f32⟩
  | 45 => ⟨S_, .f32⟩
  | 46 => ⟨S4x4096, .f32⟩
  | 47 => ⟨S4x4096, .f32⟩
  | 48 => ⟨S4x4096x1, .f32⟩
  | 49 => ⟨S4x4096, .f32⟩
  | 50 => ⟨S_, .f32⟩
  | 51 => ⟨S4x4096, .f32⟩
  | 52 => ⟨S4x4096, .f32⟩
  | 53 => ⟨S_, .f32⟩
  | 54 => ⟨S4x4096, .f32⟩
  | 55 => ⟨S4x4096, .f32⟩
  | 56 => ⟨S_, .f32⟩
  | 57 => ⟨S4x4096, .f32⟩
  | 58 => ⟨S4x4096, .f32⟩
  | 59 => ⟨S4x4096, .f32⟩
  | 60 => ⟨S4x4096, .f32⟩
  | 61 => ⟨S4x4096, .f32⟩
  | 62 => ⟨S4x4096, .f32⟩
  | 63 => ⟨S4x4096, .i32⟩
  | 64 => ⟨S4x4096, .i32⟩
  | 65 => ⟨S_, .i32⟩
  | 66 => ⟨S4x4096, .i32⟩
  | 67 => ⟨S4x4096, .i1⟩
  | 68 => ⟨S_, .i32⟩
  | 69 => ⟨S4x4096, .i32⟩
  | 70 => ⟨S4x4096, .i1⟩
  | 71 => ⟨S4x4096, .i1⟩
  | 72 => ⟨S_, .i32⟩
  | 73 => ⟨S4x4096, .i32⟩
  | 74 => ⟨S4x4096, .i32⟩
  | 75 => ⟨S_, .i32⟩
  | 76 => ⟨S4x4096, .i32⟩
  | 77 => ⟨S4x4096, .i1⟩
  | 78 => ⟨S_, .i32⟩
  | 79 => ⟨S4x4096, .i32⟩
  | 80 => ⟨S4x4096, .i32⟩
  | 81 => ⟨S_, .i32⟩
  | 82 => ⟨S4x4096, .i32⟩
  | 83 => ⟨S4x4096, .i1⟩
  | 84 => ⟨S4x4096, .i1⟩
  | 85 => ⟨S_, .i32⟩
  | 86 => ⟨S4x4096, .i32⟩
  | 87 => ⟨S4x4096, .i1⟩
  | 88 => ⟨S_, .i32⟩
  | 89 => ⟨S4x4096, .i32⟩
  | 90 => ⟨S4x4096, .i1⟩
  | 91 => ⟨S4x4096, .i1⟩
  | 92 => ⟨S_, .i32⟩
  | 93 => ⟨S4x4096, .i32⟩
  | 94 => ⟨S4x4096, .i32⟩
  | 95 => ⟨S_, .i32⟩
  | 96 => ⟨S4x4096, .i32⟩
  | 97 => ⟨S4x4096, .i1⟩
  | 98 => ⟨S_, .i32⟩
  | 99 => ⟨S4x4096, .i32⟩
  | 100 => ⟨S4x4096, .i32⟩
  | 101 => ⟨S_, .i32⟩
  | 102 => ⟨S4x4096, .i32⟩
  | 103 => ⟨S4x4096, .i1⟩
  | 104 => ⟨S4x4096, .i1⟩
  | 105 => ⟨S_, .f32⟩
  | 106 => ⟨S4x4096, .f32⟩
  | 107 => ⟨S4x4096, .f32⟩
  | 108 => ⟨S_, .f32⟩
  | 109 => ⟨S_, .f32⟩
  | 110 => ⟨S4x4096, .f32⟩
  | 111 => ⟨S4x4096, .f32⟩
  | 112 => ⟨S_, .f32⟩
  | 113 => ⟨S_, .f32⟩
  | 114 => ⟨S4x4096, .f32⟩
  | 115 => ⟨S4x4096, .f32⟩
  | 116 => ⟨S_, .f32⟩
  | 117 => ⟨S4x4096, .f32⟩
  | 118 => ⟨S4x4096, .f32⟩
  | 119 => ⟨S_, .f32⟩
  | 120 => ⟨S_, .f32⟩
  | 121 => ⟨S4x4096, .f32⟩
  | 122 => ⟨S4x4096, .f32⟩
  | 123 => ⟨S_, .f32⟩
  | 124 => ⟨S_, .f32⟩
  | 125 => ⟨S4x4096, .f32⟩
  | 126 => ⟨S4x4096, .f32⟩
  | 127 => ⟨S_, .i32⟩
  | _ => ⟨S4x211200x7, .f32⟩

abbrev hbmTy0_1 (i : Nat) : BufTy := match i % 128 with
  | 0 => ⟨S_, .i32⟩
  | 1 => ⟨S_, .i32⟩
  | 2 => ⟨S4x4096, .i32⟩
  | 3 => ⟨S4x4096, .i32⟩
  | 4 => ⟨S_, .i32⟩
  | 5 => ⟨S4x4096, .i32⟩
  | 6 => ⟨S4x4096, .i32⟩
  | 7 => ⟨S_, .i32⟩
  | 8 => ⟨S4x4096, .i32⟩
  | 9 => ⟨S4x4096, .i32⟩
  | 10 => ⟨S_, .i32⟩
  | 11 => ⟨S_, .i32⟩
  | 12 => ⟨S_, .i32⟩
  | 13 => ⟨S4x4096, .i32⟩
  | 14 => ⟨S4x4096, .i32⟩
  | 15 => ⟨S_, .i32⟩
  | 16 => ⟨S4x4096, .i32⟩
  | 17 => ⟨S4x4096, .i32⟩
  | 18 => ⟨S_, .i32⟩
  | 19 => ⟨S_, .i32⟩
  | 20 => ⟨S_, .i32⟩
  | 21 => ⟨S4x4096, .i32⟩
  | 22 => ⟨S4x4096, .i32⟩
  | 23 => ⟨S_, .i32⟩
  | 24 => ⟨S4x4096, .i32⟩
  | 25 => ⟨S4x4096, .i32⟩
  | 26 => ⟨S_, .i32⟩
  | 27 => ⟨S4x4096, .i32⟩
  | 28 => ⟨S4x4096, .i32⟩
  | 29 => ⟨S_, .i32⟩
  | 30 => ⟨S_, .i32⟩
  | 31 => ⟨S_, .i32⟩
  | 32 => ⟨S4x4096, .i32⟩
  | 33 => ⟨S4x4096, .i32⟩
  | 34 => ⟨S_, .i32⟩
  | 35 => ⟨S4x4096, .i32⟩
  | 36 => ⟨S4x4096, .i32⟩
  | 37 => ⟨S176, .i32⟩
  | 38 => ⟨S1x176x1, .i32⟩
  | 39 => ⟨S4x1x4096, .i32⟩
  | 40 => ⟨S4x176x4096, .i32⟩
  | 41 => ⟨S4x176x4096, .i32⟩
  | 42 => ⟨S4x176x4096, .i1⟩
  | 43 => ⟨S4x176x4096, .f32⟩
  | 44 => ⟨S4x1x4096, .f32⟩
  | 45 => ⟨S4x176x4096, .f32⟩
  | 46 => ⟨S4x176x4096, .f32⟩
  | 47 => ⟨S4x1x4096, .i32⟩
  | 48 => ⟨S4x176x4096, .i32⟩
  | 49 => ⟨S4x176x4096, .i32⟩
  | 50 => ⟨S4x176x4096, .i1⟩
  | 51 => ⟨S4x176x4096, .f32⟩
  | 52 => ⟨S4x1x4096, .f32⟩
  | 53 => ⟨S4x176x4096, .f32⟩
  | 54 => ⟨S4x176x4096, .f32⟩
  | 55 => ⟨S4x176x4096, .f32⟩
  | 56 => ⟨S200, .i32⟩
  | 57 => ⟨S1x200x1, .i32⟩
  | 58 => ⟨S4x1x4096, .i32⟩
  | 59 => ⟨S4x200x4096, .i32⟩
  | 60 => ⟨S4x200x4096, .i32⟩
  | 61 => ⟨S4x200x4096, .i1⟩
  | 62 => ⟨S4x200x4096, .f32⟩
  | 63 => ⟨S4x1x4096, .f32⟩
  | 64 => ⟨S4x200x4096, .f32⟩
  | 65 => ⟨S4x200x4096, .f32⟩
  | 66 => ⟨S4x1x4096, .i32⟩
  | 67 => ⟨S4x200x4096, .i32⟩
  | 68 => ⟨S4x200x4096, .i32⟩
  | 69 => ⟨S4x200x4096, .i1⟩
  | 70 => ⟨S4x200x4096, .f32⟩
  | 71 => ⟨S4x1x4096, .f32⟩
  | 72 => ⟨S4x200x4096, .f32⟩
  | 73 => ⟨S4x200x4096, .f32⟩
  | 74 => ⟨S4x200x4096, .f32⟩
  | 75 => ⟨S4x256x4096, .f32⟩
  | _ => ⟨S4x211200x7, .f32⟩

abbrev hbmTy (i : Nat) : BufTy := match i / 128 with
  | 0 => hbmTy0_0 i
  | 1 => hbmTy0_1 i
  | _ => ⟨S4x211200x7, .f32⟩

abbrev bufTy : (tb : Table) → Fin (tcTables nBuf tb) → BufTy
  | .hbm, ⟨i, _⟩ => hbmTy i
  | .local _ .vmem, ⟨0, _⟩ => ⟨S1x2400x7, .f32⟩
  | .local _ .vmem, ⟨1, _⟩ => ⟨S1x2400x7, .f32⟩
  | .local _ .vmem, ⟨2, _⟩ => ⟨S1x2400x7, .f32⟩
  | .local _ .vmem, ⟨3, _⟩ => ⟨S1x2400x7, .f32⟩
  | .local _ .vmem, ⟨4, _⟩ => ⟨S1x2400x7, .f32⟩
  | .local _ .vmem, ⟨5, _⟩ => ⟨S1x2400x7, .f32⟩
  | .local _ .vmem, ⟨6, _⟩ => ⟨S1x256x8x176, .f32⟩
  | .local _ .vmem, ⟨7, _⟩ => ⟨S1x256x8x176, .f32⟩
  | .local _ .vmem, ⟨8, _⟩ => ⟨S1x176x4096, .f32⟩
  | .local _ .vmem, ⟨9, _⟩ => ⟨S1x176x4096, .f32⟩
  | .local _ .vmem, ⟨10, _⟩ => ⟨S1x8x4096, .f32⟩
  | .local _ .vmem, ⟨11, _⟩ => ⟨S1x8x4096, .f32⟩
  | .local _ .vmem, ⟨12, _⟩ => ⟨S1x256x4096, .f32⟩
  | .local _ .vmem, ⟨13, _⟩ => ⟨S1x256x4096, .f32⟩
  | .local _ .vmem, ⟨14, _⟩ => ⟨S256x4096, .f32⟩
  | _, _ => ⟨S4x211200x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c : Ref sig .tc := ⟨.hbm, 65, rfl⟩
abbrev main_v47 : Ref sig .tc := ⟨.hbm, 66, rfl⟩
abbrev main_v48 : Ref sig .tc := ⟨.hbm, 67, rfl⟩
abbrev main_c_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_14 : Ref sig .tc := ⟨.hbm, 72, rfl⟩
abbrev main_v52 : Ref sig .tc := ⟨.hbm, 73, rfl⟩
abbrev main_v53 : Ref sig .tc := ⟨.hbm, 74, rfl⟩
abbrev main_c_15 : Ref sig .tc := ⟨.hbm, 75, rfl⟩
abbrev main_v54 : Ref sig .tc := ⟨.hbm, 76, rfl⟩
abbrev main_v55 : Ref sig .tc := ⟨.hbm, 77, rfl⟩
abbrev main_c_16 : Ref sig .tc := ⟨.hbm, 78, rfl⟩
abbrev main_v56 : Ref sig .tc := ⟨.hbm, 79, rfl⟩
abbrev main_v57 : Ref sig .tc := ⟨.hbm, 80, rfl⟩
abbrev main_c_17 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_18 : Ref sig .tc := ⟨.hbm, 85, rfl⟩
abbrev main_v61 : Ref sig .tc := ⟨.hbm, 86, rfl⟩
abbrev main_v62 : Ref sig .tc := ⟨.hbm, 87, rfl⟩
abbrev main_c_19 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_20 : Ref sig .tc := ⟨.hbm, 92, rfl⟩
abbrev main_v66 : Ref sig .tc := ⟨.hbm, 93, rfl⟩
abbrev main_v67 : Ref sig .tc := ⟨.hbm, 94, rfl⟩
abbrev main_c_21 : Ref sig .tc := ⟨.hbm, 95, rfl⟩
abbrev main_v68 : Ref sig .tc := ⟨.hbm, 96, rfl⟩
abbrev main_v69 : Ref sig .tc := ⟨.hbm, 97, rfl⟩
abbrev main_c_22 : Ref sig .tc := ⟨.hbm, 98, rfl⟩
abbrev main_v70 : Ref sig .tc := ⟨.hbm, 99, rfl⟩
abbrev main_v71 : Ref sig .tc := ⟨.hbm, 100, rfl⟩
abbrev main_c_23 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_24 : Ref sig .tc := ⟨.hbm, 105, rfl⟩
abbrev main_v75 : Ref sig .tc := ⟨.hbm, 106, rfl⟩
abbrev main_v76 : Ref sig .tc := ⟨.hbm, 107, rfl⟩
abbrev main_cst_25 : Ref sig .tc := ⟨.hbm, 108, rfl⟩
abbrev main_call1_v0 : Ref sig .tc := ⟨.hbm, 109, rfl⟩
abbrev main_call1_v1 : Ref sig .tc := ⟨.hbm, 110, rfl⟩
abbrev main_v77 : Ref sig .tc := ⟨.hbm, 111, rfl⟩
abbrev main_cst_26 : Ref sig .tc := ⟨.hbm, 112, rfl⟩
abbrev main_call2_v0 : Ref sig .tc := ⟨.hbm, 113, rfl⟩
abbrev main_call2_v1 : Ref sig .tc := ⟨.hbm, 114, rfl⟩
abbrev main_v78 : Ref sig .tc := ⟨.hbm, 115, rfl⟩
abbrev main_cst_27 : Ref sig .tc := ⟨.hbm, 116, rfl⟩
abbrev main_v79 : Ref sig .tc := ⟨.hbm, 117, rfl⟩
abbrev main_v80 : Ref sig .tc := ⟨.hbm, 118, rfl⟩
abbrev main_cst_28 : Ref sig .tc := ⟨.hbm, 119, rfl⟩
abbrev main_call3_v0 : Ref sig .tc := ⟨.hbm, 120, rfl⟩
abbrev main_call3_v1 : Ref sig .tc := ⟨.hbm, 121, rfl⟩
abbrev main_v81 : Ref sig .tc := ⟨.hbm, 122, rfl⟩
abbrev main_cst_29 : Ref sig .tc := ⟨.hbm, 123, rfl⟩
abbrev main_call4_v0 : Ref sig .tc := ⟨.hbm, 124, rfl⟩
abbrev main_call4_v1 : Ref sig .tc := ⟨.hbm, 125, rfl⟩
abbrev main_v82 : Ref sig .tc := ⟨.hbm, 126, rfl⟩
abbrev main_c_30 : Ref sig .tc := ⟨.hbm, 127, rfl⟩
abbrev main_c_31 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_v83 : Ref sig .tc := ⟨.hbm, 134, rfl⟩
abbrev main_c_32 : Ref sig .tc := ⟨.hbm, 135, rfl⟩
abbrev main_v84 : Ref sig .tc := ⟨.hbm, 136, rfl⟩
abbrev main_v85 : Ref sig .tc := ⟨.hbm, 137, rfl⟩
abbrev main_c_33 : Ref sig .tc := ⟨.hbm, 138, rfl⟩
abbrev main_c_34 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_v86 : Ref sig .tc := ⟨.hbm, 145, rfl⟩
abbrev main_c_35 : Ref sig .tc := ⟨.hbm, 146, rfl⟩
abbrev main_c_36 : Ref sig .tc := ⟨.hbm, 147, rfl⟩
abbrev main_call7_v0 : Ref sig .tc := ⟨.hbm, 148, rfl⟩
abbrev main_call7_v1 : Ref sig .tc := ⟨.hbm, 149, rfl⟩
abbrev main_call7_v2 : Ref sig .tc := ⟨.hbm, 150, rfl⟩
abbrev main_call7_v3 : Ref sig .tc := ⟨.hbm, 151, rfl⟩
abbrev main_call7_v4 : Ref sig .tc := ⟨.hbm, 152, rfl⟩
abbrev main_v87 : Ref sig .tc := ⟨.hbm, 153, rfl⟩
abbrev main_c_37 : Ref sig .tc := ⟨.hbm, 154, rfl⟩
abbrev main_v88 : Ref sig .tc := ⟨.hbm, 155, rfl⟩
abbrev main_v89 : Ref sig .tc := ⟨.hbm, 156, rfl⟩
abbrev main_c_38 : Ref sig .tc := ⟨.hbm, 157, rfl⟩
abbrev main_c_39 : Ref sig .tc := ⟨.hbm, 158, rfl⟩
abbrev main_call8_v0 : Ref sig .tc := ⟨.hbm, 159, rfl⟩
abbrev main_call8_v1 : Ref sig .tc := ⟨.hbm, 160, rfl⟩
abbrev main_call8_v2 : Ref sig .tc := ⟨.hbm, 161, rfl⟩
abbrev main_call8_v3 : Ref sig .tc := ⟨.hbm, 162, rfl⟩
abbrev main_call8_v4 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 88], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2400x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2400x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2400x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 25], ![false, false]⟩

def k1_cond2 (i : grid1.Coords) : BitVec 1 :=
  let arg1 : BitVec 32 := BitVec.ofNat 32 (i 1).val
  let c24_i32 : BitVec 32 := 24#32
  let v78 : BitVec 1 := Scalar.cmpi .eq arg1 c24_i32
  let v79 : BitVec 32 := Scalar.extui v78
  let c0_i32_21 : BitVec 32 := 0#32
  let v80 : BitVec 1 := Scalar.cmpi .ne v79 c0_i32_21
  v80

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x8x176 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x176x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1x2400x7_S1x2400x7_0_0_0 : ∀ a, (![0, 0, 0] : Fin 3 → Nat) a + S1x2400x7.size a ≤ S1x2400x7.size a
  h_S1x2400x7 : 0 < S1x2400x7.numel
  shapeCasts_S1x2400x7_S2400x7 : S1x2400x7.ShapeCasts S2400x7
  slices_S2400x7_o0_3_S2400x1 : S2400x7.Slices ![0, 3] S2400x1
  slices_S2400x7_o0_4_S2400x1 : S2400x7.Slices ![0, 4] S2400x1
  slices_S2400x7_o0_5_S2400x1 : S2400x7.Slices ![0, 5] S2400x1
  slices_S2400x7_o0_0_S2400x1 : S2400x7.Slices ![0, 0] S2400x1
  inb_S1x2400x7_S1x2400x1_0_0_0 : ∀ a, (![0, 0, 0] : Fin 3 → Nat) a + S1x2400x1.size a ≤ S1x2400x7.size a
  h_S1x2400x1 : 0 < S1x2400x1.numel
  shapeCasts_S1x2400x1_S2400x1 : S1x2400x1.ShapeCasts S2400x1
  shapeCasts_S2400x1_S1x2400x1 : S2400x1.ShapeCasts S1x2400x1
  slices_S2400x7_o0_1_S2400x1 : S2400x7.Slices ![0, 1] S2400x1
  inb_S1x2400x7_S1x2400x1_0_0_1 : ∀ a, (![0, 0, 1] : Fin 3 → Nat) a + S1x2400x1.size a ≤ S1x2400x7.size a
  slices_S2400x7_o0_2_S2400x1 : S2400x7.Slices ![0, 2] S2400x1
  inb_S1x2400x7_S1x2400x1_0_0_2 : ∀ a, (![0, 0, 2] : Fin 3 → Nat) a + S1x2400x1.size a ≤ S1x2400x7.size a
  inb_S1x2400x7_S1x2400x1_0_0_3 : ∀ a, (![0, 0, 3] : Fin 3 → Nat) a + S1x2400x1.size a ≤ S1x2400x7.size a
  inb_S1x2400x7_S1x2400x1_0_0_4 : ∀ a, (![0, 0, 4] : Fin 3 → Nat) a + S1x2400x1.size a ≤ S1x2400x7.size a
  inb_S1x2400x7_S1x2400x1_0_0_5 : ∀ a, (![0, 0, 5] : Fin 3 → Nat) a + S1x2400x1.size a ≤ S1x2400x7.size a
  slices_S2400x7_o0_6_S2400x1 : S2400x7.Slices ![0, 6] S2400x1
  inb_S1x2400x7_S1x2400x1_0_0_6 : ∀ a, (![0, 0, 6] : Fin 3 → Nat) a + S1x2400x1.size a ≤ S1x2400x7.size a
  slices_S4x4096x3_S4x4096x2_0_0_0 : S4x4096x3.Slices ![0, 0, 0] S4x4096x2
  bcast_S2_S1x1x2_2 : S2.BroadcastsInDim S1x1x2 (![2] : Fin 1 → Fin S1x1x2.rank)
  bcast_S1x1x2_S4x4096x2_0_1_2 : S1x1x2.BroadcastsInDim S4x4096x2 (![0, 1, 2] : Fin 3 → Fin S4x4096x2.rank)
  bcast_S_S2 : S_.BroadcastsInDim S2 (![] : Fin 0 → Fin S2.rank)
  bcast_S_S4x4096x2 : S_.BroadcastsInDim S4x4096x2 (![] : Fin 0 → Fin S4x4096x2.rank)
  slices_S4x4096x2_S4x4096x1_0_0_0 : S4x4096x2.Slices ![0, 0, 0] S4x4096x1
  shapeCasts_S4x4096x1_S4x4096 : S4x4096x1.ShapeCasts S4x4096
  bcast_S_S4x4096 : S_.BroadcastsInDim S4x4096 (![] : Fin 0 → Fin S4x4096.rank)
  slices_S4x4096x2_S4x4096x1_0_0_1 : S4x4096x2.Slices ![0, 0, 1] S4x4096x1
  bcast_S176_S1x176x1_1 : S176.BroadcastsInDim S1x176x1 (![1] : Fin 1 → Fin S1x176x1.rank)
  bcast_S4x4096_S4x1x4096_0_2 : S4x4096.BroadcastsInDim S4x1x4096 (![0, 2] : Fin 2 → Fin S4x1x4096.rank)
  bcast_S1x176x1_S4x176x4096_0_1_2 : S1x176x1.BroadcastsInDim S4x176x4096 (![0, 1, 2] : Fin 3 → Fin S4x176x4096.rank)
  bcast_S4x1x4096_S4x176x4096_0_1_2 : S4x1x4096.BroadcastsInDim S4x176x4096 (![0, 1, 2] : Fin 3 → Fin S4x176x4096.rank)
  bcast_S200_S1x200x1_1 : S200.BroadcastsInDim S1x200x1 (![1] : Fin 1 → Fin S1x200x1.rank)
  bcast_S1x200x1_S4x200x4096_0_1_2 : S1x200x1.BroadcastsInDim S4x200x4096 (![0, 1, 2] : Fin 3 → Fin S4x200x4096.rank)
  bcast_S4x1x4096_S4x200x4096_0_1_2 : S4x1x4096.BroadcastsInDim S4x200x4096 (![0, 1, 2] : Fin 3 → Fin S4x200x4096.rank)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256x8x176_S1x256x8x176_0_0_0_0 : ∀ a, (![0, 0, 0, 0] : Fin 4 → Nat) a + S1x256x8x176.size a ≤ S1x256x8x176.size a
  h_S1x256x8x176 : 0 < S1x256x8x176.numel
  shapeCasts_S1x256x8x176_S256x8x176 : S1x256x8x176.ShapeCasts S256x8x176
  inb_S1x176x4096_S1x176x4096_0_0_0 : ∀ a, (![0, 0, 0] : Fin 3 → Nat) a + S1x176x4096.size a ≤ S1x176x4096.size a
  h_S1x176x4096 : 0 < S1x176x4096.numel
  shapeCasts_S1x176x4096_S176x4096 : S1x176x4096.ShapeCasts S176x4096
  bitsLt_bf16_f32 : FTy.bits .bf16 < FTy.bits .f32
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  slices_S256x8x176_o0_0_0_S256x1x176 : S256x8x176.Slices ![0, 0, 0] S256x1x176
  shapeCasts_S256x1x176_S256x176 : S256x1x176.ShapeCasts S256x176
  slices_S8x4096_o0_0_S1x4096 : S8x4096.Slices ![0, 0] S1x4096
  broadcasts_S1x4096_S256x4096 : S1x4096.Broadcasts S256x4096
  slices_S256x8x176_o0_1_0_S256x1x176 : S256x8x176.Slices ![0, 1, 0] S256x1x176
  slices_S8x4096_o1_0_S1x4096 : S8x4096.Slices ![1, 0] S1x4096
  slices_S256x8x176_o0_2_0_S256x1x176 : S256x8x176.Slices ![0, 2, 0] S256x1x176
  slices_S8x4096_o2_0_S1x4096 : S8x4096.Slices ![2, 0] S1x4096
  slices_S256x8x176_o0_3_0_S256x1x176 : S256x8x176.Slices ![0, 3, 0] S256x1x176
  slices_S8x4096_o3_0_S1x4096 : S8x4096.Slices ![3, 0] S1x4096
  slices_S256x8x176_o0_4_0_S256x1x176 : S256x8x176.Slices ![0, 4, 0] S256x1x176
  slices_S8x4096_o4_0_S1x4096 : S8x4096.Slices ![4, 0] S1x4096
  slices_S256x8x176_o0_5_0_S256x1x176 : S256x8x176.Slices ![0, 5, 0] S256x1x176
  slices_S8x4096_o5_0_S1x4096 : S8x4096.Slices ![5, 0] S1x4096
  slices_S256x8x176_o0_6_0_S256x1x176 : S256x8x176.Slices ![0, 6, 0] S256x1x176
  slices_S8x4096_o6_0_S1x4096 : S8x4096.Slices ![6, 0] S1x4096
  slices_S256x8x176_o0_7_0_S256x1x176 : S256x8x176.Slices ![0, 7, 0] S256x1x176
  slices_S8x4096_o7_0_S1x4096 : S8x4096.Slices ![7, 0] S1x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  dot_S256x176_S176x4096_S256x4096_1_0_0_1_n_n_wf : DotDims.WF S256x176 S176x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2400x7.size a ≤ S4x211200x7.size a
  hwx0_0 : ∀ i : grid0.Coords, EltTy.bits .f32 = 32 ∨ (Rect.block (s := S4x211200x7) S1x2400x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2400x7.size a ≤ S4x211200x7.size a
  hwx0_1 : ∀ i : grid0.Coords, EltTy.bits .f32 = 32 ∨ (Rect.block (s := S4x211200x7) S1x2400x7.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2400x7.size a ≤ S4x211200x7.size a
  hwx0_2 : ∀ i : grid0.Coords, EltTy.bits .f32 = 32 ∨ (Rect.block (s := S4x211200x7) S1x2400x7.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x8x176.size a ≤ S4x256x200x176.size a
  hwx1_0 : ∀ i : grid1.Coords, EltTy.bits .f32 = 32 ∨ (Rect.block (s := S4x256x200x176) S1x256x8x176.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x176x4096.size a ≤ S4x176x4096.size a
  hwx1_1 : ∀ i : grid1.Coords, EltTy.bits .f32 = 32 ∨ (Rect.block (s := S4x176x4096) S1x176x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x4096.size a ≤ S4x200x4096.size a
  hwx1_2 : ∀ i : grid1.Coords, EltTy.bits .f32 = 32 ∨ (Rect.block (s := S4x200x4096) S1x8x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x4096.size a ≤ S4x256x4096.size a
  hwx1_3 : ∀ i : grid1.Coords, EltTy.bits .f32 = 32 ∨ (Rect.block (s := S4x256x4096) S1x256x4096.size (cc1_transform_3 i) (hinb1_3 i)).WholeWords (EltTy.packing .f32)

variable [Facts₀]

def dot_S256x176_S176x4096_S256x4096_1_0_0_1_n_n : DotDims S256x176 S176x4096 S256x4096 where
  lhsContracting := [1]
  rhsContracting := [0]
  lhsNonContracting := [0]
  rhsNonContracting := [1]
  lhsBatch := []
  rhsBatch := []
  wf := dot_S256x176_S176x4096_S256x4096_1_0_0_1_n_n_wf

abbrev win0_0 : Pipeline.Window sig grid0 :=
  Pipeline.Window.ofSpec (Memref.whole main_arg0) S1x2400x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2400x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2400x7.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1x256x8x176.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v109) S1x176x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v128) S1x8x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v129) S1x256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x211200x7 : Shape := ⟨3, ![4, 211200, 7]⟩
abbrev S4x256x200x176 : Shape := ⟨4, ![4, 256, 200, 176]⟩
abbrev S4x4096x3 : Shape := ⟨3, ![4, 4096, 3]⟩
abbrev S2 : Shape := ⟨1, ![2]⟩
abbrev S4x211200x3 : Shape := ⟨3, ![4, 211200, 3]⟩
abbrev S4x211200x1 : Shape := ⟨3, ![4, 211200, 1]⟩
abbrev S4x211200x2 : Shape := ⟨3, ![4, 211200, 2]⟩
abbrev S_ : Shape := ⟨0, ![]⟩
abbrev S4x211200 : Shape := ⟨2, ![4, 211200]⟩
abbrev S4x4096x2 : Shape := ⟨3, ![4, 4096, 2]⟩
abbrev S4x1x4096x2 : Shape := ⟨4, ![4, 1, 4096, 2]⟩
abbrev S1x1x1x2 : Shape := ⟨4, ![1, 1, 1, 2]⟩
abbrev S4x1x4096x1 : Shape := ⟨4, ![4, 1, 4096, 1]⟩
abbrev S4x1x4096 : Shape := ⟨3, ![4, 1, 4096]⟩
abbrev S4x256x1x4096 : Shape := ⟨4, ![4, 256, 1, 4096]⟩
abbrev S4x1x1x4096 : Shape := ⟨4, ![4, 1, 1, 4096]⟩
abbrev S4x256x4096 : Shape := ⟨3, ![4, 256, 4096]⟩

abbrev nBuf : Space → Nat
  | .hbm => 355
  | .vmem => 0
  | .smem => 0
  | _ => 0

abbrev hbmTy0_0 (i : Nat) : BufTy := match i % 128 with
  | 0 => ⟨S4x211200x7, .f32⟩
  | 1 => ⟨S4x211200x7, .f32⟩
  | 2 => ⟨S4x256x200x176, .f32⟩
  | 3 => ⟨S4x4096x3, .f32⟩
  | 4 => ⟨S2, .f32⟩
  | 5 => ⟨S2, .f32⟩
  | 6 => ⟨S2, .f32⟩
  | 7 => ⟨S4x211200x3, .f32⟩
  | 8 => ⟨S4x211200x3, .f32⟩
  | 9 => ⟨S4x211200x1, .f32⟩
  | 10 => ⟨S4x211200x3, .f32⟩
  | 11 => ⟨S4x211200x3, .f32⟩
  | 12 => ⟨S4x211200x1, .f32⟩
  | 13 => ⟨S4x211200x2, .f32⟩
  | 14 => ⟨S4x211200x1, .f32⟩
  | 15 => ⟨S4x211200x2, .f32⟩
  | 16 => ⟨S_, .f32⟩
  | 17 => ⟨S4x211200, .f32⟩
  | 18 => ⟨S4x211200x1, .f32⟩
  | 19 => ⟨S4x211200x1, .f32⟩
  | 20 => ⟨S4x211200x3, .f32⟩
  | 21 => ⟨S4x211200x3, .f32⟩
  | 22 => ⟨S4x211200x3, .f32⟩
  | 23 => ⟨S4x211200x3, .f32⟩
  | 24 => ⟨S4x211200x3, .f32⟩
  | 25 => ⟨S4x211200x1, .f32⟩
  | 26 => ⟨S4x211200x7, .f32⟩
  | 27 => ⟨S4x4096x2, .f32⟩
  | 28 => ⟨S4x1x4096x2, .f32⟩
  | 29 => ⟨S1x1x1x2, .f32⟩
  | 30 => ⟨S4x1x4096x2, .f32⟩
  | 31 => ⟨S4x1x4096x2, .f32⟩
  | 32 => ⟨S_, .f32⟩
  | 33 => ⟨S2, .f32⟩
  | 34 => ⟨S2, .f32⟩
  | 35 => ⟨S1x1x1x2, .f32⟩
  | 36 => ⟨S4x1x4096x2, .f32⟩
  | 37 => ⟨S4x1x4096x2, .f32⟩
  | 38 => ⟨S_, .f32⟩
  | 39 => ⟨S4x1x4096x2, .f32⟩
  | 40 => ⟨S4x1x4096x2, .f32⟩
  | 41 => ⟨S1x1x1x2, .f32⟩
  | 42 => ⟨S4x1x4096x2, .f32⟩
  | 43 => ⟨S4x1x4096x2, .f32⟩
  | 44 => ⟨S_, .f32⟩
  | 45 => ⟨S2, .f32⟩
  | 46 => ⟨S2, .f32⟩
  | 47 => ⟨S1x1x1x2, .f32⟩
  | 48 => ⟨S4x1x4096x2, .f32⟩
  | 49 => ⟨S4x1x4096x2, .f32⟩
  | 50 => ⟨S_, .f32⟩
  | 51 => ⟨S4x1x4096x2, .f32⟩
  | 52 => ⟨S4x1x4096x2, .f32⟩
  | 53 => ⟨S_, .f32⟩
  | 54 => ⟨S4x1x4096x2, .f32⟩
  | 55 => ⟨S4x1x4096x2, .f32⟩
  | 56 => ⟨S4x1x4096x2, .f32⟩
  | 57 => ⟨S4x1x4096x1, .f32⟩
  | 58 => ⟨S4x1x4096, .f32⟩
  | 59 => ⟨S_, .f32⟩
  | 60 => ⟨S4x1x4096, .f32⟩
  | 61 => ⟨S4x1x4096, .f32⟩
  | 62 => ⟨S_, .f32⟩
  | 63 => ⟨S4x1x4096, .f32⟩
  | 64 => ⟨S4x1x4096, .f32⟩
  | 65 => ⟨S_, .f32⟩
  | 66 => ⟨S4x1x4096, .f32⟩
  | 67 => ⟨S4x1x4096, .f32⟩
  | 68 => ⟨S4x1x4096x1, .f32⟩
  | 69 => ⟨S4x1x4096, .f32⟩
  | 70 => ⟨S_, .f32⟩
  | 71 => ⟨S4x1x4096, .f32⟩
  | 72 => ⟨S4x1x4096, .f32⟩
  | 73 => ⟨S_, .f32⟩
  | 74 => ⟨S4x1x4096, .f32⟩
  | 75 => ⟨S4x1x4096, .f32⟩
  | 76 => ⟨S_, .f32⟩
  | 77 => ⟨S4x1x4096, .f32⟩
  | 78 => ⟨S4x1x4096, .f32⟩
  | 79 => ⟨S4x1x4096, .f32⟩
  | 80 => ⟨S4x1x4096, .f32⟩
  | 81 => ⟨S4x1x4096, .f32⟩
  | 82 => ⟨S4x1x4096, .f32⟩
  | 83 => ⟨S_, .f32⟩
  | 84 => ⟨S4x1x4096, .f32⟩
  | 85 => ⟨S4x1x4096, .i1⟩
  | 86 => ⟨S_, .f32⟩
  | 87 => ⟨S4x1x4096, .f32⟩
  | 88 => ⟨S4x1x4096, .i1⟩
  | 89 => ⟨S4x1x4096, .i1⟩
  | 90 => ⟨S_, .f32⟩
  | 91 => ⟨S4x1x4096, .f32⟩
  | 92 => ⟨S4x1x4096, .i1⟩
  | 93 => ⟨S4x1x4096, .i1⟩
  | 94 => ⟨S_, .f32⟩
  | 95 => ⟨S4x1x4096, .f32⟩
  | 96 => ⟨S4x1x4096, .i1⟩
  | 97 => ⟨S4x1x4096, .i1⟩
  | 98 => ⟨S_, .i32⟩
  | 99 => ⟨S_, .i32⟩
  | 100 => ⟨S_, .f32⟩
  | 101 => ⟨S4x1x4096, .f32⟩
  | 102 => ⟨S4x1x4096, .f32⟩
  | 103 => ⟨S_, .f32⟩
  | 104 => ⟨S4x1x4096, .f32⟩
  | 105 => ⟨S4x1x4096, .f32⟩
  | 106 => ⟨S4x1x4096, .i32⟩
  | 107 => ⟨S_, .i32⟩
  | 108 => ⟨S_, .i32⟩
  | 109 => ⟨S_, .f32⟩
  | 110 => ⟨S4x1x4096, .f32⟩
  | 111 => ⟨S4x1x4096, .f32⟩
  | 112 => ⟨S_, .f32⟩
  | 113 => ⟨S4x1x4096, .f32⟩
  | 114 => ⟨S4x1x4096, .f32⟩
  | 115 => ⟨S4x1x4096, .i32⟩
  | 116 => ⟨S_, .i32⟩
  | 117 => ⟨S4x1x4096, .i32⟩
  | 118 => ⟨S4x1x4096, .i1⟩
  | 119 => ⟨S_, .i32⟩
  | 120 => ⟨S4x1x4096, .i32⟩
  | 121 => ⟨S4x1x4096, .i32⟩
  | 122 => ⟨S4x1x4096, .i32⟩
  | 123 => ⟨S_, .i32⟩
  | 124 => ⟨S4x1x4096, .i32⟩
  | 125 => ⟨S4x1x4096, .i1⟩
  | 126 => ⟨S_, .i32⟩
  | 127 => ⟨S4x1x4096, .i32⟩
  | _ => ⟨S4x211200x7, .f32⟩

abbrev hbmTy0_1 (i : Nat) : BufTy := match i % 128 with
  | 0 => ⟨S4x1x4096, .i32⟩
  | 1 => ⟨S4x1x4096, .i32⟩
  | 2 => ⟨S4x1x4096x1, .i32⟩
  | 3 => ⟨S4x1x4096x1, .i32⟩
  | 4 => ⟨S4x1x4096x2, .i32⟩
  | 5 => ⟨S4x256x1x4096, .f32⟩
  | 6 => ⟨S4x1x4096, .f32⟩
  | 7 => ⟨S4x1x1x4096, .f32⟩
  | 8 => ⟨S4x256x1x4096, .f32⟩
  | 9 => ⟨S4x256x1x4096, .f32⟩
  | 10 => ⟨S_, .f32⟩
  | 11 => ⟨S4x1x4096, .f32⟩
  | 12 => ⟨S4x1x4096, .f32⟩
  | 13 => ⟨S4x1x1x4096, .f32⟩
  | 14 => ⟨S4x256x1x4096, .f32⟩
  | 15 => ⟨S4x256x1x4096, .f32⟩
  | 16 => ⟨S_, .f32⟩
  | 17 => ⟨S4x1x4096, .f32⟩
  | 18 => ⟨S4x1x4096, .f32⟩
  | 19 => ⟨S4x1x1x4096, .f32⟩
  | 20 => ⟨S4x256x1x4096, .f32⟩
  | 21 => ⟨S4x256x1x4096, .f32⟩
  | 22 => ⟨S_, .f32⟩
  | 23 => ⟨S4x1x4096, .f32⟩
  | 24 => ⟨S4x1x4096, .f32⟩
  | 25 => ⟨S_, .f32⟩
  | 26 => ⟨S4x1x4096, .f32⟩
  | 27 => ⟨S4x1x4096, .i1⟩
  | 28 => ⟨S_, .f32⟩
  | 29 => ⟨S4x1x4096, .f32⟩
  | 30 => ⟨S4x1x4096, .i1⟩
  | 31 => ⟨S4x1x4096, .i1⟩
  | 32 => ⟨S_, .f32⟩
  | 33 => ⟨S4x1x4096, .f32⟩
  | 34 => ⟨S4x1x4096, .i1⟩
  | 35 => ⟨S4x1x4096, .i1⟩
  | 36 => ⟨S_, .f32⟩
  | 37 => ⟨S4x1x4096, .f32⟩
  | 38 => ⟨S4x1x4096, .i1⟩
  | 39 => ⟨S4x1x4096, .i1⟩
  | 40 => ⟨S_, .i32⟩
  | 41 => ⟨S_, .i32⟩
  | 42 => ⟨S_, .f32⟩
  | 43 => ⟨S4x1x4096, .f32⟩
  | 44 => ⟨S4x1x4096, .f32⟩
  | 45 => ⟨S_, .f32⟩
  | 46 => ⟨S4x1x4096, .f32⟩
  | 47 => ⟨S4x1x4096, .f32⟩
  | 48 => ⟨S4x1x4096, .i32⟩
  | 49 => ⟨S_, .i32⟩
  | 50 => ⟨S_, .i32⟩
  | 51 => ⟨S_, .f32⟩
  | 52 => ⟨S4x1x4096, .f32⟩
  | 53 => ⟨S4x1x4096, .f32⟩
  | 54 => ⟨S_, .f32⟩
  | 55 => ⟨S4x1x4096, .f32⟩
  | 56 => ⟨S4x1x4096, .f32⟩
  | 57 => ⟨S4x1x4096, .i32⟩
  | 58 => ⟨S_, .i32⟩
  | 59 => ⟨S4x1x4096, .i32⟩
  | 60 => ⟨S4x1x4096, .i1⟩
  | 61 => ⟨S_, .i32⟩
  | 62 => ⟨S4x1x4096, .i32⟩
  | 63 => ⟨S4x1x4096, .i32⟩
  | 64 => ⟨S4x1x4096, .i32⟩
  | 65 => ⟨S_, .i32⟩
  | 66 => ⟨S4x1x4096, .i32⟩
  | 67 => ⟨S4x1x4096, .i1⟩
  | 68 => ⟨S_, .i32⟩
  | 69 => ⟨S4x1x4096, .i32⟩
  | 70 => ⟨S4x1x4096, .i32⟩
  | 71 => ⟨S4x1x4096, .i32⟩
  | 72 => ⟨S4x1x4096x1, .i32⟩
  | 73 => ⟨S4x1x4096x1, .i32⟩
  | 74 => ⟨S4x1x4096x2, .i32⟩
  | 75 => ⟨S4x256x1x4096, .f32⟩
  | 76 => ⟨S4x1x4096, .f32⟩
  | 77 => ⟨S4x1x1x4096, .f32⟩
  | 78 => ⟨S4x256x1x4096, .f32⟩
  | 79 => ⟨S4x256x1x4096, .f32⟩
  | 80 => ⟨S4x1x1x4096, .f32⟩
  | 81 => ⟨S4x256x1x4096, .f32⟩
  | 82 => ⟨S4x256x1x4096, .f32⟩
  | 83 => ⟨S_, .f32⟩
  | 84 => ⟨S4x1x4096, .f32⟩
  | 85 => ⟨S4x1x4096, .f32⟩
  | 86 => ⟨S4x1x1x4096, .f32⟩
  | 87 => ⟨S4x256x1x4096, .f32⟩
  | 88 => ⟨S4x256x1x4096, .f32⟩
  | 89 => ⟨S4x256x1x4096, .f32⟩
  | 90 => ⟨S_, .f32⟩
  | 91 => ⟨S4x1x4096, .f32⟩
  | 92 => ⟨S4x1x4096, .f32⟩
  | 93 => ⟨S_, .f32⟩
  | 94 => ⟨S4x1x4096, .f32⟩
  | 95 => ⟨S4x1x4096, .i1⟩
  | 96 => ⟨S_, .f32⟩
  | 97 => ⟨S4x1x4096, .f32⟩
  | 98 => ⟨S4x1x4096, .i1⟩
  | 99 => ⟨S4x1x4096, .i1⟩
  | 100 => ⟨S_, .f32⟩
  | 101 => ⟨S4x1x4096, .f32⟩
  | 102 => ⟨S4x1x4096, .i1⟩
  | 103 => ⟨S4x1x4096, .i1⟩
  | 104 => ⟨S_, .f32⟩
  | 105 => ⟨S4x1x4096, .f32⟩
  | 106 => ⟨S4x1x4096, .i1⟩
  | 107 => ⟨S4x1x4096, .i1⟩
  | 108 => ⟨S_, .i32⟩
  | 109 => ⟨S_, .i32⟩
  | 110 => ⟨S_, .f32⟩
  | 111 => ⟨S4x1x4096, .f32⟩
  | 112 => ⟨S4x1x4096, .f32⟩
  | 113 => ⟨S_, .f32⟩
  | 114 => ⟨S4x1x4096, .f32⟩
  | 115 => ⟨S4x1x4096, .f32⟩
  | 116 => ⟨S4x1x4096, .i32⟩
  | 117 => ⟨S_, .i32⟩
  | 118 => ⟨S_, .i32⟩
  | 119 => ⟨S_, .f32⟩
  | 120 => ⟨S4x1x4096, .f32⟩
  | 121 => ⟨S4x1x4096, .f32⟩
  | 122 => ⟨S_, .f32⟩
  | 123 => ⟨S4x1x4096, .f32⟩
  | 124 => ⟨S4x1x4096, .f32⟩
  | 125 => ⟨S4x1x4096, .i32⟩
  | 126 => ⟨S_, .i32⟩
  | 127 => ⟨S4x1x4096, .i32⟩
  | _ => ⟨S4x211200x7, .f32⟩

abbrev hbmTy0_2 (i : Nat) : BufTy := match i % 128 with
  | 0 => ⟨S4x1x4096, .i1⟩
  | 1 => ⟨S_, .i32⟩
  | 2 => ⟨S4x1x4096, .i32⟩
  | 3 => ⟨S4x1x4096, .i32⟩
  | 4 => ⟨S4x1x4096, .i32⟩
  | 5 => ⟨S_, .i32⟩
  | 6 => ⟨S4x1x4096, .i32⟩
  | 7 => ⟨S4x1x4096, .i1⟩
  | 8 => ⟨S_, .i32⟩
  | 9 => ⟨S4x1x4096, .i32⟩
  | 10 => ⟨S4x1x4096, .i32⟩
  | 11 => ⟨S4x1x4096, .i32⟩
  | 12 => ⟨S4x1x4096x1, .i32⟩
  | 13 => ⟨S4x1x4096x1, .i32⟩
  | 14 => ⟨S4x1x4096x2, .i32⟩
  | 15 => ⟨S4x256x1x4096, .f32⟩
  | 16 => ⟨S4x1x4096, .f32⟩
  | 17 => ⟨S4x1x1x4096, .f32⟩
  | 18 => ⟨S4x256x1x4096, .f32⟩
  | 19 => ⟨S4x256x1x4096, .f32⟩
  | 20 => ⟨S_, .f32⟩
  | 21 => ⟨S4x1x4096, .f32⟩
  | 22 => ⟨S4x1x4096, .f32⟩
  | 23 => ⟨S4x1x1x4096, .f32⟩
  | 24 => ⟨S4x256x1x4096, .f32⟩
  | 25 => ⟨S4x256x1x4096, .f32⟩
  | 26 => ⟨S4x1x1x4096, .f32⟩
  | 27 => ⟨S4x256x1x4096, .f32⟩
  | 28 => ⟨S4x256x1x4096, .f32⟩
  | 29 => ⟨S4x256x1x4096, .f32⟩
  | 30 => ⟨S_, .f32⟩
  | 31 => ⟨S4x1x4096, .f32⟩
  | 32 => ⟨S4x1x4096, .f32⟩
  | 33 => ⟨S_, .f32⟩
  | 34 => ⟨S4x1x4096, .f32⟩
  | 35 => ⟨S4x1x4096, .f32⟩
  | 36 => ⟨S_, .f32⟩
  | 37 => ⟨S4x1x4096, .f32⟩
  | 38 => ⟨S4x1x4096, .i1⟩
  | 39 => ⟨S_, .f32⟩
  | 40 => ⟨S4x1x4096, .f32⟩
  | 41 => ⟨S4x1x4096, .i1⟩
  | 42 => ⟨S4x1x4096, .i1⟩
  | 43 => ⟨S_, .f32⟩
  | 44 => ⟨S4x1x4096, .f32⟩
  | 45 => ⟨S4x1x4096, .i1⟩
  | 46 => ⟨S4x1x4096, .i1⟩
  | 47 => ⟨S_, .f32⟩
  | 48 => ⟨S4x1x4096, .f32⟩
  | 49 => ⟨S4x1x4096, .i1⟩
  | 50 => ⟨S4x1x4096, .i1⟩
  | 51 => ⟨S_, .i32⟩
  | 52 => ⟨S_, .i32⟩
  | 53 => ⟨S_, .f32⟩
  | 54 => ⟨S4x1x4096, .f32⟩
  | 55 => ⟨S4x1x4096, .f32⟩
  | 56 => ⟨S_, .f32⟩
  | 57 => ⟨S4x1x4096, .f32⟩
  | 58 => ⟨S4x1x4096, .f32⟩
  | 59 => ⟨S4x1x4096, .i32⟩
  | 60 => ⟨S_, .i32⟩
  | 61 => ⟨S_, .i32⟩
  | 62 => ⟨S_, .f32⟩
  | 63 => ⟨S4x1x4096, .f32⟩
  | 64 => ⟨S4x1x4096, .f32⟩
  | 65 => ⟨S_, .f32⟩
  | 66 => ⟨S4x1x4096, .f32⟩
  | 67 => ⟨S4x1x4096, .f32⟩
  | 68 => ⟨S4x1x4096, .i32⟩
  | 69 => ⟨S_, .i32⟩
  | 70 => ⟨S4x1x4096, .i32⟩
  | 71 => ⟨S4x1x4096, .i1⟩
  | 72 => ⟨S_, .i32⟩
  | 73 => ⟨S4x1x4096, .i32⟩
  | 74 => ⟨S4x1x4096, .i32⟩
  | 75 => ⟨S4x1x4096, .i32⟩
  | 76 => ⟨S_, .i32⟩
  | 77 => ⟨S4x1x4096, .i32⟩
  | 78 => ⟨S4x1x4096, .i1⟩
  | 79 => ⟨S_, .i32⟩
  | 80 => ⟨S4x1x4096, .i32⟩
  | 81 => ⟨S4x1x4096, .i32⟩
  | 82 => ⟨S4x1x4096, .i32⟩
  | 83 => ⟨S4x1x4096x1, .i32⟩
  | 84 => ⟨S4x1x4096x1, .i32⟩
  | 85 => ⟨S4x1x4096x2, .i32⟩
  | 86 => ⟨S4x256x1x4096, .f32⟩
  | 87 => ⟨S4x1x4096, .f32⟩
  | 88 => ⟨S4x1x1x4096, .f32⟩
  | 89 => ⟨S4x256x1x4096, .f32⟩
  | 90 => ⟨S4x256x1x4096, .f32⟩
  | 91 => ⟨S4x1x1x4096, .f32⟩
  | 92 => ⟨S4x256x1x4096, .f32⟩
  | 93 => ⟨S4x256x1x4096, .f32⟩
  | 94 => ⟨S4x1x1x4096, .f32⟩
  | 95 => ⟨S4x256x1x4096, .f32⟩
  | 96 => ⟨S4x256x1x4096, .f32⟩
  | 97 => ⟨S4x256x1x4096, .f32⟩
  | 98 => ⟨S4x256x4096, .f32⟩
  | _ => ⟨S4x211200x7, .f32⟩

abbrev hbmTy (i : Nat) : BufTy := match i / 128 with
  | 0 => hbmTy0_0 i
  | 1 => hbmTy0_1 i
  | 2 => hbmTy0_2 i
  | _ => ⟨S4x211200x7, .f32⟩

abbrev bufTy : (tb : Table) → Fin (tcTables nBuf tb) → BufTy
  | .hbm, ⟨i, _⟩ => hbmTy i
  | _, _ => ⟨S4x211200x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c : Ref sig .tc := ⟨.hbm, 98, rfl⟩
abbrev main_c_17 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_c_19 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_v74 : Ref sig .tc := ⟨.hbm, 114, rfl⟩
abbrev main_v75 : Ref sig .tc := ⟨.hbm, 115, rfl⟩
abbrev main_c_20 : Ref sig .tc := ⟨.hbm, 116, rfl⟩
abbrev main_v76 : Ref sig .tc := ⟨.hbm, 117, rfl⟩
abbrev main_v77 : Ref sig .tc := ⟨.hbm, 118, rfl⟩
abbrev main_c_21 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_22 : Ref sig .tc := ⟨.hbm, 123, rfl⟩
abbrev main_v81 : Ref sig .tc := ⟨.hbm, 124, rfl⟩
abbrev main_v82 : Ref sig .tc := ⟨.hbm, 125, rfl⟩
abbrev main_c_23 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_24 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_25 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_26 : Ref sig .tc := ⟨.hbm, 150, rfl⟩
abbrev main_v104 : Ref sig .tc := ⟨.hbm, 151, rfl⟩
abbrev main_v105 : Ref sig .tc := ⟨.hbm, 152, rfl⟩
abbrev main_cst_27 : Ref sig .tc := ⟨.hbm, 153, rfl⟩
abbrev main_v106 : Ref sig .tc := ⟨.hbm, 154, rfl⟩
abbrev main_v107 : Ref sig .tc := ⟨.hbm, 155, rfl⟩
abbrev main_cst_28 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_29 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_30 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_c_31 : Ref sig .tc := ⟨.hbm, 168, rfl⟩
abbrev main_c_32 : Ref sig .tc := ⟨.hbm, 169, rfl⟩
abbrev main_call4_v0 : Ref sig .tc := ⟨.hbm, 170, rfl⟩
abbrev main_call4_v1 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_v117 : Ref sig .tc := ⟨.hbm, 175, rfl⟩
abbrev main_v118 : Ref sig .tc := ⟨.hbm, 176, rfl⟩
abbrev main_c_33 : Ref sig .tc := ⟨.hbm, 177, rfl⟩
abbrev main_c_34 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_v119 : Ref sig .tc := ⟨.hbm, 184, rfl⟩
abbrev main_v120 : Ref sig .tc := ⟨.hbm, 185, rfl⟩
abbrev main_c_35 : Ref sig .tc := ⟨.hbm, 186, rfl⟩
abbrev main_v121 : Ref sig .tc := ⟨.hbm, 187, rfl⟩
abbrev main_v122 : Ref sig .tc := ⟨.hbm, 188, rfl⟩
abbrev main_c_36 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_c_37 : Ref sig .tc := ⟨.hbm, 193, rfl⟩
abbrev main_v126 : Ref sig .tc := ⟨.hbm, 194, rfl⟩
abbrev main_v127 : Ref sig .tc := ⟨.hbm, 195, rfl⟩
abbrev main_c_38 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_cst_39 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_cst_40 : Ref sig .tc := ⟨.hbm, 218, rfl⟩
abbrev main_v148 : Ref sig .tc := ⟨.hbm, 219, rfl⟩
abbrev main_v149 : Ref sig .tc := ⟨.hbm, 220, rfl⟩
abbrev main_cst_41 : Ref sig .tc := ⟨.hbm, 221, rfl⟩
abbrev main_v150 : Ref sig .tc := ⟨.hbm, 222, rfl⟩
abbrev main_v151 : Ref sig .tc := ⟨.hbm, 223, rfl⟩
abbrev main_cst_42 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_43 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_cst_44 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_c_45 : Ref sig .tc := ⟨.hbm, 236, rfl⟩
abbrev main_c_46 : Ref sig .tc := ⟨.hbm, 237, rfl⟩
abbrev main_call6_v0 : Ref sig .tc := ⟨.hbm, 238, rfl⟩
abbrev main_call6_v1 : Ref sig .tc := ⟨.hbm, 239, rfl⟩
abbrev main_call6_v2 : Ref sig .tc := ⟨.hbm, 240, rfl⟩
abbrev main_call6_v3 : Ref sig .tc := ⟨.hbm, 241, rfl⟩
abbrev main_call6_v4 : Ref sig .tc := ⟨.hbm, 242, rfl⟩
abbrev main_v161 : Ref sig .tc := ⟨.hbm, 243, rfl⟩
abbrev main_v162 : Ref sig .tc := ⟨.hbm, 244, rfl⟩
abbrev main_c_47 : Ref sig .tc := ⟨.hbm, 245, rfl⟩
abbrev main_c_48 : Ref sig .tc := ⟨.hbm, 246, rfl⟩
abbrev main_call7_v0 : Ref sig .tc := ⟨.hbm, 247, rfl⟩
abbrev main_call7_v1 : Ref sig .tc := ⟨.hbm, 248, rfl⟩
abbrev main_call7_v2 : Ref sig .tc := ⟨.hbm, 249, rfl⟩
abbrev main_call7_v3 : Ref sig .tc := ⟨.hbm, 250, rfl⟩
abbrev main_call7_v4 : Ref sig .tc := ⟨.hbm, 251, rfl⟩
abbrev main_v163 : Ref sig .tc := ⟨.hbm, 252, rfl⟩
abbrev main_v164 : Ref sig .tc := ⟨.hbm, 253, rfl⟩
abbrev main_c_49 : Ref sig .tc := ⟨.hbm, 254, rfl⟩
abbrev main_v165 : Ref sig .tc := ⟨.hbm, 255, rfl⟩
abbrev main_v166 : Ref sig .tc := ⟨.hbm, 256, rfl⟩
abbrev main_c_50 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_c_51 : Ref sig .tc := ⟨.hbm, 261, rfl⟩
abbrev main_v170 : Ref sig .tc := ⟨.hbm, 262, rfl⟩
abbrev main_v171 : Ref sig .tc := ⟨.hbm, 263, rfl⟩
abbrev main_c_52 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_cst_53 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_cst_54 : Ref sig .tc := ⟨.hbm, 286, rfl⟩
abbrev main_v192 : Ref sig .tc := ⟨.hbm, 287, rfl⟩
abbrev main_v193 : Ref sig .tc := ⟨.hbm, 288, rfl⟩
abbrev main_cst_55 : Ref sig .tc := ⟨.hbm, 289, rfl⟩
abbrev main_v194 : Ref sig .tc := ⟨.hbm, 290, rfl⟩
abbrev main_v195 : Ref sig .tc := ⟨.hbm, 291, rfl⟩
abbrev main_cst_56 : Ref sig .tc := ⟨.hbm, 292, rfl⟩
abbrev main_v196 : Ref sig .tc := ⟨.hbm, 293, rfl⟩
abbrev main_v197 : Ref sig .tc := ⟨.hbm, 294, rfl⟩
abbrev main_cst_57 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_cst_58 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_cst_59 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_c_60 : Ref sig .tc := ⟨.hbm, 307, rfl⟩
abbrev main_c_61 : Ref sig .tc := ⟨.hbm, 308, rfl⟩
abbrev main_call8_v0 : Ref sig .tc := ⟨.hbm, 309, rfl⟩
abbrev main_call8_v1 : Ref sig .tc := ⟨.hbm, 310, rfl⟩
abbrev main_call8_v2 : Ref sig .tc := ⟨.hbm, 311, rfl⟩
abbrev main_call8_v3 : Ref sig .tc := ⟨.hbm, 312, rfl⟩
abbrev main_call8_v4 : Ref sig .tc := ⟨.hbm, 313, rfl⟩
abbrev main_v207 : Ref sig .tc := ⟨.hbm, 314, rfl⟩
abbrev main_v208 : Ref sig .tc := ⟨.hbm, 315, rfl⟩
abbrev main_c_62 : Ref sig .tc := ⟨.hbm, 316, rfl⟩
abbrev main_c_63 : Ref sig .tc := ⟨.hbm, 317, rfl⟩
abbrev main_call9_v0 : Ref sig .tc := ⟨.hbm, 318, rfl⟩
abbrev main_call9_v1 : Ref sig .tc := ⟨.hbm, 319, rfl⟩
abbrev main_call9_v2 : Ref sig .tc := ⟨.hbm, 320, rfl⟩
abbrev main_call9_v3 : Ref sig .tc := ⟨.hbm, 321, rfl⟩
abbrev main_call9_v4 : Ref sig .tc := ⟨.hbm, 322, rfl⟩
abbrev main_v209 : Ref sig .tc := ⟨.hbm, 323, rfl⟩
abbrev main_v210 : Ref sig .tc := ⟨.hbm, 324, rfl⟩
abbrev main_c_64 : Ref sig .tc := ⟨.hbm, 325, rfl⟩
abbrev main_v211 : Ref sig .tc := ⟨.hbm, 326, rfl⟩
abbrev main_v212 : Ref sig .tc := ⟨.hbm, 327, rfl⟩
abbrev main_c_65 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_c_66 : Ref sig .tc := ⟨.hbm, 332, rfl⟩
abbrev main_v216 : Ref sig .tc := ⟨.hbm, 333, rfl⟩
abbrev main_v217 : Ref sig .tc := ⟨.hbm, 334, rfl⟩
abbrev main_c_67 : Ref sig .tc := ⟨.hbm, 335, rfl⟩
abbrev main_v218 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩

abbrev nD : Nat := 1
abbrev τ : Topo := Topo.v7x

variable {F : FTy → Type} [FloatOps F]

class Facts₀ : Prop where
  slices_S4x211200x7_S4x211200x3_0_0_0 : S4x211200x7.Slices ![0, 0, 0] S4x211200x3
  slices_S4x211200x7_S4x211200x3_0_0_3 : S4x211200x7.Slices ![0, 0, 3] S4x211200x3
  slices_S4x211200x7_S4x211200x1_0_0_6 : S4x211200x7.Slices ![0, 0, 6] S4x211200x1
  slices_S4x211200x3_S4x211200x2_0_0_0 : S4x211200x3.Slices ![0, 0, 0] S4x211200x2
  slices_S4x211200x3_S4x211200x1_0_0_2 : S4x211200x3.Slices ![0, 0, 2] S4x211200x1
  reducesTo_S4x211200x2_S4x211200_d2 : S4x211200x2.ReducesTo [2] S4x211200
  h_S_ : 0 < S_.numel
  bcast_S4x211200_S4x211200x1_0_1 : S4x211200.BroadcastsInDim S4x211200x1 (![0, 1] : Fin 2 → Fin S4x211200x1.rank)
  concatenates_S4x211200x1_S4x211200x1_S4x211200x1_S4x211200x3_d2 : Shape.Concatenates [S4x211200x1, S4x211200x1, S4x211200x1] S4x211200x3 2
  concatenates_S4x211200x3_S4x211200x3_S4x211200x1_S4x211200x7_d2 : Shape.Concatenates [S4x211200x3, S4x211200x3, S4x211200x1] S4x211200x7 2
  slices_S4x4096x3_S4x4096x2_0_0_0 : S4x4096x3.Slices ![0, 0, 0] S4x4096x2
  bcast_S4x4096x2_S4x1x4096x2_0_2_3 : S4x4096x2.BroadcastsInDim S4x1x4096x2 (![0, 2, 3] : Fin 3 → Fin S4x1x4096x2.rank)
  bcast_S2_S1x1x1x2_3 : S2.BroadcastsInDim S1x1x1x2 (![3] : Fin 1 → Fin S1x1x1x2.rank)
  bcast_S1x1x1x2_S4x1x4096x2_0_1_2_3 : S1x1x1x2.BroadcastsInDim S4x1x4096x2 (![0, 1, 2, 3] : Fin 4 → Fin S4x1x4096x2.rank)
  bcast_S_S2 : S_.BroadcastsInDim S2 (![] : Fin 0 → Fin S2.rank)
  bcast_S_S4x1x4096x2 : S_.BroadcastsInDim S4x1x4096x2 (![] : Fin 0 → Fin S4x1x4096x2.rank)
  slices_S4x1x4096x2_S4x1x4096x1_0_0_0_0 : S4x1x4096x2.Slices ![0, 0, 0, 0] S4x1x4096x1
  shapeCasts_S4x1x4096x1_S4x1x4096 : S4x1x4096x1.ShapeCasts S4x1x4096
  bcast_S_S4x1x4096 : S_.BroadcastsInDim S4x1x4096 (![] : Fin 0 → Fin S4x1x4096.rank)
  slices_S4x1x4096x2_S4x1x4096x1_0_0_0_1 : S4x1x4096x2.Slices ![0, 0, 0, 1] S4x1x4096x1
  bcast_S4x1x4096_S4x1x4096x1_0_1_2 : S4x1x4096.BroadcastsInDim S4x1x4096x1 (![0, 1, 2] : Fin 3 → Fin S4x1x4096x1.rank)
  concatenates_S4x1x4096x1_S4x1x4096x1_S4x1x4096x2_d3 : Shape.Concatenates [S4x1x4096x1, S4x1x4096x1] S4x1x4096x2 3
  bcast_S4x1x4096_S4x1x1x4096_0_2_3 : S4x1x4096.BroadcastsInDim S4x1x1x4096 (![0, 2, 3] : Fin 3 → Fin S4x1x1x4096.rank)
  bcast_S4x1x1x4096_S4x256x1x4096_0_1_2_3 : S4x1x1x4096.BroadcastsInDim S4x256x1x4096 (![0, 1, 2, 3] : Fin 4 → Fin S4x256x1x4096.rank)
  shapeCasts_S4x256x1x4096_S4x256x4096 : S4x256x1x4096.ShapeCasts S4x256x4096
  gather_S4x256x200x176_S4x1x4096x2_S4x256x1x4096_1_23_0_0_23_3_125611_wf : GatherDims.WF S4x256x200x176 S4x1x4096x2 S4x256x1x4096 [1] [2, 3] [0] [2, 3] [0] 3 ![1, 256, 1, 1]

variable [Facts₀]

def gather_S4x256x200x176_S4x1x4096x2_S4x256x1x4096_1_23_0_0_23_3_125611 : GatherDims S4x256x200x176 S4x1x4096x2 S4x256x1x4096 where
  offsetDims := [1]
  collapsedSliceDims := [2, 3]
  operandBatchingDims := [0]
  startIndicesBatchingDims := [0]
  startIndexMap := [2, 3]
  indexVectorDim := 3
  sliceSizes := ![1, 256, 1, 1]
  wf := gather_S4x256x200x176_S4x1x4096x2_S4x256x1x4096_1_23_0_0_23_3_125611_wf

class Facts : Prop extends Facts₀ where

variable [Facts]
-- ==== Proof.K.Reg0.lean ====
/-
  Pallas call 0 (the box decoder) of the program, at the buffer contents `V` the region is entered with.

  The grid is 4 × 88; at a point the body is handed the point's block [1, 2400, 7] of the two input arrays
  (regression deltas, anchors) and the output block of the same shape. It loads the two input blocks whole,
  and writes the output block one column at a time: columns 0, 1 hold  δ·√(w² + l²) + a  (w, l the anchor's
  columns 3, 4), column 2 holds  δ·h + a  (h the anchor's column 5), columns 3, 4, 5 hold  exp(δ)·a  and
  column 6 holds  δ + a.  Before each column's store the body also loads that column of the output block;
  the loaded value is used nowhere. The seven column rectangles tile the block, so after the body the output
  block is the overlay of the seven stored columns, a function of the two input blocks alone.

  Stated here: what the output block holds after the body (`out0_2`), the body's triple, the region's proof
  data (`dat0`) and the body obligation the launch theorem takes, for any float instance.
-/
import proofs.«127700_j42417097016364_2_alg».proof.Proof.Gen.Kernel.Launch
import proofs.«127700_j42417097016364_2_alg».proof.Proof.Gen.Kernel.Skeleton
import proofs.«127700_j42417097016364_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block at every point: both inputs are fetched at every
    point, and a point that did not fetch would find the block of the same index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: the whole block, and its seven columns -/

abbrev rW : Rect S1x2400x7 := Rect.unit (s := S1x2400x7) ![0, 0, 0] S1x2400x7.size inb_S1x2400x7_S1x2400x7_0_0_0
abbrev rC0 : Rect S1x2400x7 := Rect.unit (s := S1x2400x7) ![0, 0, 0] S1x2400x1.size inb_S1x2400x7_S1x2400x1_0_0_0
abbrev rC1 : Rect S1x2400x7 := Rect.unit (s := S1x2400x7) ![0, 0, 1] S1x2400x1.size inb_S1x2400x7_S1x2400x1_0_0_1
abbrev rC2 : Rect S1x2400x7 := Rect.unit (s := S1x2400x7) ![0, 0, 2] S1x2400x1.size inb_S1x2400x7_S1x2400x1_0_0_2
abbrev rC3 : Rect S1x2400x7 := Rect.unit (s := S1x2400x7) ![0, 0, 3] S1x2400x1.size inb_S1x2400x7_S1x2400x1_0_0_3
abbrev rC4 : Rect S1x2400x7 := Rect.unit (s := S1x2400x7) ![0, 0, 4] S1x2400x1.size inb_S1x2400x7_S1x2400x1_0_0_4
abbrev rC5 : Rect S1x2400x7 := Rect.unit (s := S1x2400x7) ![0, 0, 5] S1x2400x1.size inb_S1x2400x7_S1x2400x1_0_0_5
abbrev rC6 : Rect S1x2400x7 := Rect.unit (s := S1x2400x7) ![0, 0, 6] S1x2400x1.size inb_S1x2400x7_S1x2400x1_0_0_6

/-! ## What the body leaves in the output block -/

/-- The output block after the body, from the two input blocks `x0` (deltas) and `x1` (anchors): the seven
    stored columns overlaid, the last store first. -/
def out0_2 (x0 x1 : Vec F S1x2400x7 .f32) : Vec F S1x2400x7 .f32 :=
  View.canon
    [ ⟨rC6, k0_pay4 (k0_pay5 (View.ld x0 rW)) (k0_pay6 (View.ld x1 rW))⟩,
      ⟨rC5, k0_pay3 (k0_pay5 (View.ld x0 rW)) (k0_pay9 (View.ld x1 rW))⟩,
      ⟨rC4, k0_pay2 (k0_pay5 (View.ld x0 rW)) (k0_pay8 (View.ld x1 rW))⟩,
      ⟨rC3, k0_pay1 (k0_pay14 (View.ld x0 rW) (View.ld x1 rW))⟩,
      ⟨rC2, k0_pay13 (View.ld x0 rW) (View.ld x1 rW)⟩,
      ⟨rC1, k0_pay12 (View.ld x0 rW) (View.ld x1 rW)⟩,
      ⟨rC0, k0_pay11 (View.ld x0 rW) (View.ld x1 rW)⟩ ]

/-- The seven columns tile the block, so every index of the block lies in one of them. -/
theorem cover0_2 (p6 p5 p4 p3 p2 p1 p0 : Vec F S1x2400x1 .f32) (y : S1x2400x7.Idx) :
    ∃ pc ∈ ([⟨rC6, p6⟩, ⟨rC5, p5⟩, ⟨rC4, p4⟩, ⟨rC3, p3⟩, ⟨rC2, p2⟩, ⟨rC1, p1⟩, ⟨rC0, p0⟩] : List (View.Piece (Elt F) S1x2400x7 .f32)), y ∈ pc.1.set :=
  View.cover_of_tiled [⟨rC6, p6⟩, ⟨rC5, p5⟩, ⟨rC4, p4⟩, ⟨rC3, p3⟩, ⟨rC2, p2⟩, ⟨rC1, p1⟩, ⟨rC0, p0⟩] S1x2400x1.size (by rfl) y

/-! ## The body's triple -/

set_option maxHeartbeats 2000000 in
/-- The body on whole staging buffers, the two inputs' at contents reading `x0`, `x1` and the output's at any
    contents: it ends with the inputs' buffers as they were and the output's reading `out0_2 x0 x1`. -/
theorem sound_kernel0 (c : Dev nD) (E : Set ℕ) (i : grid0.Coords)
    (arg2 : Memref sig .tc .vmem S1x2400x7 .f32) (harg2 : arg2.IsWhole)
    (arg3 : Memref sig .tc .vmem S1x2400x7 .f32) (harg3 : arg3.IsWhole)
    (arg4 : Memref sig .tc .vmem S1x2400x7 .f32) (harg4 : arg4.IsWhole)
    (x0 x1 : Vec F S1x2400x7 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _)

/-! ## The region's proof data -/

/-- The proof data of the decoder's pipeline on core `c`: the arrays as the region finds them; after the body at
    point `t` each input's buffer still at its block and the output's at `out0_2` of the two input blocks; the
    invariant is the scoped buffers no window stages and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.K.Reg1.lean ====
/- The second pallas_call's kernel body at every grid point, for any float instance. The body keeps a running
   accumulator in a scratch buffer across the 25 points of a batch: reset to zero at the first point, increased at
   each point by the eight row terms of the point's blocks, copied (shape-cast) into the output block at the last.
   Stated here: one step of the accumulator as a function of the old accumulator and the three input blocks; the
   accumulator after each point, by recursion on the point; what each window's buffer holds after the body; the
   invariant that tracks the scratch between points; and the proof that the body, run at any point in whichever
   of its three control cases the point is in (first, middle, last of a batch), takes the invariant and the
   windows' buffers as they are before the point to what they are after it. Everything is stated at arbitrary
   contents of the buffers on entry. -/
import proofs.«127700_j42417097016364_2_alg».proof.Proof.Gen.Kernel.Launch
import proofs.«127700_j42417097016364_2_alg».proof.Proof.Gen.Kernel.Skeleton
import proofs.«127700_j42417097016364_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store of the body is through the whole-buffer rectangle of its operand -/

abbrev r2 : Rect S1x256x8x176 := Rect.unit (s := S1x256x8x176) ![0, 0, 0, 0] S1x256x8x176.size inb_S1x256x8x176_S1x256x8x176_0_0_0_0
abbrev r3 : Rect S1x176x4096 := Rect.unit (s := S1x176x4096) ![0, 0, 0] S1x176x4096.size inb_S1x176x4096_S1x176x4096_0_0_0
abbrev r4 : Rect S1x8x4096 := Rect.unit (s := S1x8x4096) ![0, 0, 0] S1x8x4096.size inb_S1x8x4096_S1x8x4096_0_0_0
abbrev r5 : Rect S1x256x4096 := Rect.unit (s := S1x256x4096) ![0, 0, 0] S1x256x4096.size inb_S1x256x4096_S1x256x4096_0_0_0
abbrev r6 : Rect S256x4096 := Rect.unit (s := S256x4096) ![0, 0] S256x4096.size inb_S256x4096_S256x4096_0_0

/-! ## The body's two conditionals, from the grid coordinates -/

/-- The first conditional (the reset of the accumulator): the second grid coordinate is 0. -/
abbrev cond1_0 (i : grid1.Coords) : Prop := (Scalar.cmpi .ne (Scalar.extui (Scalar.cmpi .eq (BitVec.ofNat 32 (i 1).val) 0#32)) 0#32) = 1#1
/-- The second conditional (the store of the accumulator into the output block): the second grid coordinate is 24. -/
abbrev cond1_1 (i : grid1.Coords) : Prop := k1_cond2 i = 1#1

/-! ## What the body computes -/

/-- The accumulator after the reset: the zero splat stored whole. -/
def zero1 : Vec F S256x4096 .f32 := View.canon [⟨r6, k1_pay3 (F := F)⟩]

/-- The accumulator after the body, from the accumulator the body's second load of it reads and the three input blocks:
    the one whole store of the accumulation's payload (the sum over the 8 rows of the block of
    matmul(bf16 feature row, bf16 Rx) * broadcast(Ry row), added to the old accumulator). -/
def step1 (acc : Vec F S256x4096 .f32) (x0 : Vec F S1x256x8x176 .f32) (x1 : Vec F S1x176x4096 .f32) (x2 : Vec F S1x8x4096 .f32) : Vec F S256x4096 .f32 :=
  View.canon [⟨r6, k1_pay1 (k1_pay4 (View.ld x0 r2)) (k1_pay5 (View.ld x1 r3)) (k1_pay6 (View.ld x2 r4)) (k1_pay7 (View.ld x0 r2) (View.ld x1 r3) (View.ld x2 r4) (View.ld acc r6)) (k1_pay8 (View.ld x0 r2) (View.ld x1 r3))⟩]

/-- The output block after the last point's store: the accumulator read back whole and shape-cast to the block's shape. -/
def out1 (acc : Vec F S256x4096 .f32) : Vec F S1x256x4096 .f32 :=
  View.canon [⟨r5, k1_pay2 (View.ld acc r6)⟩]

/-- A whole store covers the accumulator; -/
theorem cover1_6 (p0 : Vec F S256x4096 .f32) (y : S256x4096.Idx) :
    ∃ pc ∈ ([⟨r6, p0⟩] : List (View.Piece (Elt F) S256x4096 .f32)), y ∈ pc.1.set :=
  View.cover_of_tiled [⟨r6, p0⟩] S256x4096.size (by rfl) y
/-- and the output block. -/
theorem cover1_5 (p0 : Vec F S1x256x4096 .f32) (y : S1x256x4096.Idx) :
    ∃ pc ∈ ([⟨r5, p0⟩] : List (View.Piece (Elt F) S1x256x4096 .f32)), y ∈ pc.1.set :=
  View.cover_of_tiled [⟨r5, p0⟩] S1x256x4096.size (by rfl) y

theorem off2_zero : (![0, 0] : Fin 2 → Nat) = fun _ => 0 := funext fun a => by fin_cases a <;> rfl
theorem off3_zero : (![0, 0, 0] : Fin 3 → Nat) = fun _ => 0 := funext fun a => by fin_cases a <;> rfl
theorem off4_zero : (![0, 0, 0, 0] : Fin 4 → Nat) = fun _ => 0 := funext fun a => by fin_cases a <;> rfl

/-- The accumulator's rectangle is the whole shape. -/
theorem mem_r6 (y : S256x4096.Idx) : y ∈ (r6 : Rect S256x4096).set :=
  View.mem_set_unit_zero off2_zero inb_S256x4096_S256x4096_0_0 y

/-- A list of writes whose last is a whole store of the accumulator covers it. -/
theorem cover_cons_r6 (p0 : Vec F S256x4096 .f32) (L : List (View.Piece (Elt F) S256x4096 .f32)) (y : S256x4096.Idx) :
    ∃ pc ∈ ((⟨r6, p0⟩ : View.Piece (Elt F) S256x4096 .f32) :: L), y ∈ pc.1.set :=
  ⟨⟨r6, p0⟩, List.mem_cons_self, mem_r6 y⟩

/-- A write that covers the whole shape hides every earlier one. -/
theorem canon_cons_of_cover {S : Shape} {e : EltTy} (r : Rect S) (w : r.shape.Idx → Elt F e) (L : List (View.Piece (Elt F) S e))
    (h : ∀ y, y ∈ r.set) : View.canon (⟨r, w⟩ :: L) = View.canon [⟨r, w⟩] := by
  funext y
  have hy := h y
  rw [← Rect.map_emb_univ, Finset.mem_map] at hy
  obtain ⟨x, -, rfl⟩ := hy
  rw [View.canon_cons_emb, View.canon_cons_emb]

/-! ## The contents without the rectangles: every access is whole -/

/-- The zero splat. -/
theorem zero1_eq : (zero1 : Vec F S256x4096 .f32) = k1_pay3 (F := F) :=
  View.canon_unit_zero (Val := Elt F) off2_zero inb_S256x4096_S256x4096_0_0 _

/-- One step of the accumulation, over the whole blocks. -/
theorem step1_eq (acc : Vec F S256x4096 .f32) (x0 : Vec F S1x256x8x176 .f32) (x1 : Vec F S1x176x4096 .f32) (x2 : Vec F S1x8x4096 .f32) :
    step1 acc x0 x1 x2 = k1_pay1 (k1_pay4 x0) (k1_pay5 x1) (k1_pay6 x2) (k1_pay7 x0 x1 x2 acc) (k1_pay8 x0 x1) := by
  unfold step1
  rw [View.canon_unit_zero (Val := Elt F) off2_zero inb_S256x4096_S256x4096_0_0,
    View.ld_unit_zero (Val := Elt F) off4_zero inb_S1x256x8x176_S1x256x8x176_0_0_0_0 x0,
    View.ld_unit_zero (Val := Elt F) off3_zero inb_S1x176x4096_S1x176x4096_0_0_0 x1,
    View.ld_unit_zero (Val := Elt F) off3_zero inb_S1x8x4096_S1x8x4096_0_0_0 x2,
    View.ld_unit_zero (Val := Elt F) off2_zero inb_S256x4096_S256x4096_0_0 acc]

/-- The output block: the accumulator shape-cast. -/
theorem out1_eq (acc : Vec F S256x4096 .f32) :
    out1 acc = shapeCast S1x256x4096 acc shapeCasts_S256x4096_S1x256x4096 := by
  unfold out1
  rw [View.canon_unit_zero (Val := Elt F) off3_zero inb_S1x256x4096_S1x256x4096_0_0_0,
    View.ld_unit_zero (Val := Elt F) off2_zero inb_S256x4096_S256x4096_0_0 acc]
  rfl

/-! ## The body's triple, case by case -/

set_option maxHeartbeats 1000000 in
theorem sound_kernel1_mid (c : Dev nD) (E : Set ℕ) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : ¬cond1_0 i) (hc1 : ¬cond1_1 i)
    (x0 : Vec F S1x256x8x176 .f32) (x1 : Vec F S1x176x4096 .f32) (x2 : Vec F S1x8x4096 .f32) (xi : Vec F S1x256x4096 .f32) (xs : Vec F S256x4096 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (step1 xs x0 x1 x2)) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (cover1_6 _)

set_option maxHeartbeats 1000000 in
theorem sound_kernel1_first (c : Dev nD) (E : Set ℕ) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : cond1_0 i) (hc1 : ¬cond1_1 i)
    (x0 : Vec F S1x256x8x176 .f32) (x1 : Vec F S1x176x4096 .f32) (x2 : Vec F S1x8x4096 .f32) (xi : Vec F S1x256x4096 .f32) (xs : Vec F S256x4096 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (step1 zero1 x0 x1 x2)) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  unfold sound_kernel1_first.sl.r_3 sound_kernel1_first.sl.v10 sound_kernel1_first.sl.HS_1
  rw [View.read_writes_eq_canon _ _ _ (cover_cons_r6 _ _), canon_cons_of_cover _ _ _ mem_r6,
    View.readCov_eq_canon_ld _ _ _ (cover1_6 _)]
  rfl

set_option maxHeartbeats 1000000 in
theorem sound_kernel1_last (c : Dev nD) (E : Set ℕ) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : ¬cond1_0 i) (hc1 : cond1_1 i)
    (x0 : Vec F S1x256x8x176 .f32) (x1 : Vec F S1x176x4096 .f32) (x2 : Vec F S1x8x4096 .f32) (xi : Vec F S1x256x4096 .f32) (xs : Vec F S256x4096 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (out1 (step1 xs x0 x1 x2)) ∗ owns (c : Thread nD τ) arg6 fullShare (step1 xs x0 x1 x2)) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    unfold sound_kernel1_last.sl.v81 sound_kernel1_last.sl.HS_1
    rw [View.read_writes_eq_canon _ _ _ (cover1_5 _), View.readCov_eq_canon_ld _ _ _ (cover1_6 _)]
    rfl
  iexists _; isplitr
  swap; · iexact HS
  ipureintro
  unfold sound_kernel1_last.sl.HS_1
  exact View.read_writes_eq_canon _ _ _ (cover1_6 _)

/-! # The region at its entry contents -/

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (the second
    window is fetched only when the first grid coordinate moves: its block index does not move in between), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions in closed form, and where the output window is idle -/

/-- The reset is taken at the points ≡ 0 (mod 25) — decided over the grid. -/
theorem hcond1_0 : ∀ t : Fin cfg1.N, cond1_0 (grid1.coords t) ↔ t.val % 25 = 0 :=
  (by decide +kernel : ∀ t : Fin grid1.N, cond1_0 (grid1.coords t) ↔ t.val % 25 = 0)
/-- The output store is taken at the points ≡ 24 (mod 25). -/
theorem hcond1_1 : ∀ t : Fin cfg1.N, cond1_1 (grid1.coords t) ↔ t.val % 25 = 24 :=
  (by decide +kernel : ∀ t : Fin grid1.N, cond1_1 (grid1.coords t) ↔ t.val % 25 = 24)

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the body does not store the output block the window is idle, and the pipeline does not write it back; -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- where it does, the window is live. -/
theorem liveAt1_3 : ∀ t : Fin cfg1.N, cond1_1 (grid1.coords t) → cfg1.idle 3 (grid1.coords t) = false := by decide +kernel

/-! ## The accumulation -/

/-- The accumulator after the body at position `n`: one step from the zero splat at the first point of a row of the
    grid (n ≡ 0 mod 25: the body resets it first), else one step from what the point before left. -/
def acc1 (c : Dev nD) : (n : ℕ) → n < cfg1.N → Vec F S256x4096 .f32
  | 0, hn => step1 zero1 (iblk1 V c 0 ⟨0, hn⟩) (iblk1 V c 1 ⟨0, hn⟩) (iblk1 V c 2 ⟨0, hn⟩)
  | n + 1, hn => step1 (if (n + 1) % 25 = 0 then zero1 else acc1 c n (Nat.lt_of_succ_lt hn))
      (iblk1 V c 0 ⟨n + 1, hn⟩) (iblk1 V c 1 ⟨n + 1, hn⟩) (iblk1 V c 2 ⟨n + 1, hn⟩)

theorem acc1_first (c : Dev nD) (t : Fin cfg1.N) (h : t.val % 25 = 0) :
    acc1 V c t.val t.isLt = step1 zero1 (iblk1 V c 0 t) (iblk1 V c 1 t) (iblk1 V c 2 t) := by
  obtain ⟨n, hn⟩ := t
  cases n with
  | zero => rfl
  | succ n => exact congrArg (fun a => step1 a (iblk1 V c 0 ⟨n + 1, hn⟩) (iblk1 V c 1 ⟨n + 1, hn⟩) (iblk1 V c 2 ⟨n + 1, hn⟩)) (if_pos h)

theorem acc1_next (c : Dev nD) (t : Fin cfg1.N) (h : t.val % 25 ≠ 0) :
    acc1 V c t.val t.isLt = step1 (acc1 V c (t.val - 1) (Nat.lt_of_le_of_lt (Nat.sub_le _ _) t.isLt)) (iblk1 V c 0 t) (iblk1 V c 1 t) (iblk1 V c 2 t) := by
  obtain ⟨n, hn⟩ := t
  cases n with
  | zero => exact absurd (Nat.zero_mod _) h
  | succ n => exact congrArg (fun a => step1 a (iblk1 V c 0 ⟨n + 1, hn⟩) (iblk1 V c 1 ⟨n + 1, hn⟩) (iblk1 V c 2 ⟨n + 1, hn⟩)) (if_neg h)

/-! ## The invariant: the scratch the kernel carries between points, at its tracked contents -/

/-- The scratch operand: a whole scoped buffer of the kernel's own. -/
abbrev scM : Memref sig .tc .vmem S256x4096 .f32 := Memref.whole cc1_scratch0

/-- The region's invariant with the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM fullShare d)) ∗ (∃ r, prngReg c r)) := by
  unfold Pipeline.ΦA; rw [scopedRest1_eq]; simp only [scM, owns_whole]; try rfl

/-- The invariant before position `n`: before the first point the launch's (every scoped buffer at anything);
    afterwards the accumulator at what the point before left in it, the other scoped buffers at anything. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (acc1 V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (acc1 V c n hn)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (acc1 V c (n - 1) (by omega))) ∗ (∃ r, prngReg c r)) := by
  cases n with
  | zero => exact absurd rfl hz
  | succ n => rfl

/-! ## The pipeline's proof data -/

/-- The proof data of the pipeline on core `c`: the arrays as the region finds them; after the body each input's
    buffer at its block and the output's at the accumulator read back and shape-cast (what the last point of a row
    stores; elsewhere the window is idle and nothing reads this); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (acc1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (acc1 V c t.val t.isLt) := by dsimp only [dat1]

/-- At a last point of a row the output block is the accumulator after that point, read back whole and shape-cast. -/
theorem after1_3_last (c : Dev nD) (t : Fin cfg1.N) (h : t.val % 25 = 24) :
    (dat1 V c).after 3 t = out1 (acc1 V c t.val t.isLt) := after1_3 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the accumulator at what the point before left (at anything at the very first point)
    and takes it back at this point's contents; where the output window is idle its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 100 := lt_of_lt_of_eq t.isLt (show cfg1.N = 100 from N_1)
  by_cases h0 : t.val % 25 = 0
  · have h1 : ¬t.val % 25 = 24 := by omega
    rw [Dat.leavesExact_idle (dat1 V c) 3 t (idleAt1_3 t (fun h => h1 ((hcond1_1 t).mp h))) (noFlush1_3 t (fun h => h1 ((hcond1_1 t).mp h)))]
    rw [acc1_first V c t h0]
    by_cases hz : t.val = 0
    · rw [PhiS_castSucc V c t, PhiS_zero V c _ _ hz, PhiA1_eq]
      iintro ⟨⟨⟨HA0, HA1, HA2, HA3, HA4, HA5, ⟨%ds, HS⟩⟩, Hg⟩, Ho, ⟨%d0, H0⟩, ⟨%d1, H1⟩, ⟨%d2, H2⟩, ⟨%d3, H3⟩⟩
      iapply (sound_kernel1_first c Set.univ (grid1.coords t) _ _ _ _ _ _ _ _ _ _ ((hcond1_0 t).mpr h0) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HA0 HA1 HA2 HA3 HA4 HA5 HS Hg]
      · isplitr [Hg]
        · isplitl [HA0]; · iexact HA0
          isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA0, HA1, HA2, HA3, HA4, HA5, HS⟩, Hg⟩, Ho, ⟨%d0, H0⟩, ⟨%d1, H1⟩, ⟨%d2, H2⟩, ⟨%d3, H3⟩⟩
      iapply (sound_kernel1_first c Set.univ (grid1.coords t) _ _ _ _ _ _ _ _ _ _ ((hcond1_0 t).mpr h0) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HA0 HA1 HA2 HA3 HA4 HA5 HS Hg]
      · isplitr [Hg]
        · isplitl [HA0]; · iexact HA0
          isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 25 = 24
    · rw [show (dat1 V c).leavesExact 3 t = owns (c : Thread nD τ) (st1_3 t) fullShare ((dat1 V c).after 3 t) from by
        unfold Dat.leavesExact; rw [liveAt1_3 t ((hcond1_1 t).mpr h1)], after1_3]
      rw [acc1_next V c t h0]
      rw [PhiS_castSucc V c t, PhiS_pos V c _ _ hz]
      iintro ⟨⟨⟨HA0, HA1, HA2, HA3, HA4, HA5, HS⟩, Hg⟩, Ho, ⟨%d0, H0⟩, ⟨%d1, H1⟩, ⟨%d2, H2⟩, ⟨%d3, H3⟩⟩
      iapply (sound_kernel1_last c Set.univ (grid1.coords t) _ _ _ _ _ _ _ _ _ _ (fun h => h0 ((hcond1_0 t).mp h)) ((hcond1_1 t).mpr h1) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HA0 HA1 HA2 HA3 HA4 HA5 HS Hg]
      · isplitr [Hg]
        · isplitl [HA0]; · iexact HA0
          isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [acc1_next V c t h0]
      rw [PhiS_castSucc V c t, PhiS_pos V c _ _ hz]
      iintro ⟨⟨⟨HA0, HA1, HA2, HA3, HA4, HA5, HS⟩, Hg⟩, Ho, ⟨%d0, H0⟩, ⟨%d1, H1⟩, ⟨%d2, H2⟩, ⟨%d3, H3⟩⟩
      iapply (sound_kernel1_mid c Set.univ (grid1.coords t) _ _ _ _ _ _ _ _ _ _ (fun h => h0 ((hcond1_0 t).mp h)) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HA0 HA1 HA2 HA3 HA4 HA5 HS Hg]
      · isplitr [Hg]
        · isplitl [HA0]; · iexact HA0
          isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      iexists _; iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA0, HA1, HA2, HA3, HA4, HA5, HS⟩, Hg⟩
  isplitr [Hg]
  · isplitl [HA0]; · iexact HA0
    isplitl [HA1]; · iexact HA1
    isplitl [HA2]; · iexact HA2
    isplitl [HA3]; · iexact HA3
    isplitl [HA4]; · iexact HA4
    isplitl [HA5]; · iexact HA5
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 100 := N_1; omega)

end Region

end Cert.Kernel.R1

end
-- ==== Proof.K.Keeps.lean ====
/- Each stretch of host operations between the two kernel regions writes only the buffers of its own results:
   it allocates no buffer, and it leaves the four argument arrays and the first region's result array as they were. -/
import proofs.«127700_j42417097016364_2_alg».proof.Proof.Gen.Kernel.Launch
import Idealize.ShloMosaic.Lib.Pipeline.RegionsLoop
import Idealize.ShloMosaic.Lib.Pipeline.FrameSuffix

set_option maxRecDepth 16384

noncomputable section

namespace Cert.Kernel.Keeps

open Idealize.ShloMosaic Idealize.ShloMosaic.TcCoe
open Idealize.SL Idealize.SL.Sem
open Cert.Kernel Cert.Kernel.Gen

variable {F : FTy → Type} [FloatOps F]

/-- The buffers no host stretch writes: the four arguments and the first region's result. -/
def Kept (b : Ref sig .tc) : Prop := b = main_arg0 ∨ b = main_arg1 ∨ b = main_arg2 ∨ b = main_arg3 ∨ b = main_v0

theorem hostOps0_fresh : (hostOps0 : List (HloOp τ sig (Elt F))).Forall fun op => op.fresh = ∅ := by
  simp only [hostOps0, List.Forall]; repeat' constructor

theorem hostOps0_keeps (W : Valuation τ sig (Elt F)) (b : Ref sig .tc) (hb : Kept b) :
    StableHlo.after (hostOps0 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_fresh : (hostOps1 : List (HloOp τ sig (Elt F))).Forall fun op => op.fresh = ∅ := by
  simp only [hostOps1, List.Forall]; repeat' constructor

theorem hostOps1_keeps (W : Valuation τ sig (Elt F)) (b : Ref sig .tc) (hb : Kept b) :
    StableHlo.after (hostOps1 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_1_fresh : (hostOps1_1 : List (HloOp τ sig (Elt F))).Forall fun op => op.fresh = ∅ := by
  simp only [hostOps1_1, List.Forall]; repeat' constructor

theorem hostOps1_1_keeps (W : Valuation τ sig (Elt F)) (b : Ref sig .tc) (hb : Kept b) :
    StableHlo.after (hostOps1_1 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_2_fresh : (hostOps1_2 : List (HloOp τ sig (Elt F))).Forall fun op => op.fresh = ∅ := by
  simp only [hostOps1_2, List.Forall]; repeat' constructor

theorem hostOps1_2_keeps (W : Valuation τ sig (Elt F)) (b : Ref sig .tc) (hb : Kept b) :
    StableHlo.after (hostOps1_2 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_3_fresh : (hostOps1_3 : List (HloOp τ sig (Elt F))).Forall fun op => op.fresh = ∅ := by
  simp only [hostOps1_3, List.Forall]; repeat' constructor

theorem hostOps1_3_keeps (W : Valuation τ sig (Elt F)) (b : Ref sig .tc) (hb : Kept b) :
    StableHlo.after (hostOps1_3 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_4_fresh : (hostOps1_4 : List (HloOp τ sig (Elt F))).Forall fun op => op.fresh = ∅ := by
  simp only [hostOps1_4, List.Forall]; repeat' constructor

theorem hostOps1_4_keeps (W : Valuation τ sig (Elt F)) (b : Ref sig .tc) (hb : Kept b) :
    StableHlo.after (hostOps1_4 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_5_fresh : (hostOps1_5 : List (HloOp τ sig (Elt F))).Forall fun op => op.fresh = ∅ := by
  simp only [hostOps1_5, List.Forall]; repeat' constructor

theorem hostOps1_5_keeps (W : Valuation τ sig (Elt F)) (b : Ref sig .tc) (hb : Kept b) :
    StableHlo.after (hostOps1_5 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_6_fresh : (hostOps1_6 : List (HloOp τ sig (Elt F))).Forall fun op => op.fresh = ∅ := by
  simp only [hostOps1_6, List.Forall]; repeat' constructor

theorem hostOps1_6_keeps (W : Valuation τ sig (Elt F)) (b : Ref sig .tc) (hb : Kept b) :
    StableHlo.after (hostOps1_6 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_7_fresh : (hostOps1_7 : List (HloOp τ sig (Elt F))).Forall fun op => op.fresh = ∅ := by
  simp only [hostOps1_7, List.Forall]; repeat' constructor

theorem hostOps1_7_keeps (W : Valuation τ sig (Elt F)) (b : Ref sig .tc) (hb : Kept b) :
    StableHlo.after (hostOps1_7 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_8_fresh : (hostOps1_8 : List (HloOp τ sig (Elt F))).Forall fun op => op.fresh = ∅ := by
  simp only [hostOps1_8, List.Forall]; repeat' constructor

theorem hostOps1_8_keeps (W : Valuation τ sig (Elt F)) (b : Ref sig .tc) (hb : Kept b) :
    StableHlo.after (hostOps1_8 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_9_fresh : (hostOps1_9 : List (HloOp τ sig (Elt F))).Forall fun op => op.fresh = ∅ := by
  simp only [hostOps1_9, List.Forall]; repeat' constructor

theorem hostOps1_9_keeps (W : Valuation τ sig (Elt F)) (b : Ref sig .tc) (hb : Kept b) :
    StableHlo.after (hostOps1_9 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_10_fresh : (hostOps1_10 : List (HloOp τ sig (Elt F))).Forall fun op => op.fresh = ∅ := by
  simp only [hostOps1_10, List.Forall]; repeat' constructor

theorem hostOps1_10_keeps (W : Valuation τ sig (Elt F)) (b : Ref sig .tc) (hb : Kept b) :
    StableHlo.after (hostOps1_10 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_11_fresh : (hostOps1_11 : List (HloOp τ sig (Elt F))).Forall fun op => op.fresh = ∅ := by
  simp only [hostOps1_11, List.Forall]; repeat' constructor

theorem hostOps1_11_keeps (W : Valuation τ sig (Elt F)) (b : Ref sig .tc) (hb : Kept b) :
    StableHlo.after (hostOps1_11 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_12_fresh : (hostOps1_12 : List (HloOp τ sig (Elt F))).Forall fun op => op.fresh = ∅ := by
  simp only [hostOps1_12, List.Forall]; repeat' constructor

theorem hostOps1_12_keeps (W : Valuation τ sig (Elt F)) (b : Ref sig .tc) (hb : Kept b) :
    StableHlo.after (hostOps1_12 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_12, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_13_fresh : (hostOps1_13 : List (HloOp τ sig (Elt F))).Forall fun op => op.fresh = ∅ := by
  simp only [hostOps1_13, List.Forall]; repeat' constructor

theorem hostOps1_13_keeps (W : Valuation τ sig (Elt F)) (b : Ref sig .tc) (hb : Kept b) :
    StableHlo.after (hostOps1_13 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_13, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_14_fresh : (hostOps1_14 : List (HloOp τ sig (Elt F))).Forall fun op => op.fresh = ∅ := by
  simp only [hostOps1_14, List.Forall]; repeat' constructor

theorem hostOps1_14_keeps (W : Valuation τ sig (Elt F)) (b : Ref sig .tc) (hb : Kept b) :
    StableHlo.after (hostOps1_14 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_14, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_15_fresh : (hostOps1_15 : List (HloOp τ sig (Elt F))).Forall fun op => op.fresh = ∅ := by
  simp only [hostOps1_15, List.Forall]; repeat' constructor

theorem hostOps1_15_keeps (W : Valuation τ sig (Elt F)) (b : Ref sig .tc) (hb : Kept b) :
    StableHlo.after (hostOps1_15 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_15, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_16_fresh : (hostOps1_16 : List (HloOp τ sig (Elt F))).Forall fun op => op.fresh = ∅ := by
  simp only [hostOps1_16, List.Forall]; repeat' constructor

theorem hostOps1_16_keeps (W : Valuation τ sig (Elt F)) (b : Ref sig .tc) (hb : Kept b) :
    StableHlo.after (hostOps1_16 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_16, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_17_fresh : (hostOps1_17 : List (HloOp τ sig (Elt F))).Forall fun op => op.fresh = ∅ := by
  simp only [hostOps1_17, List.Forall]; repeat' constructor

theorem hostOps1_17_keeps (W : Valuation τ sig (Elt F)) (b : Ref sig .tc) (hb : Kept b) :
    StableHlo.after (hostOps1_17 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_17, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_18_fresh : (hostOps1_18 : List (HloOp τ sig (Elt F))).Forall fun op => op.fresh = ∅ := by
  simp only [hostOps1_18, List.Forall]; repeat' constructor

theorem hostOps1_18_keeps (W : Valuation τ sig (Elt F)) (b : Ref sig .tc) (hb : Kept b) :
    StableHlo.after (hostOps1_18 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_18, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Kernel.Keeps

end
-- ==== Proof.K.Run.lean ====
/-
  The run of the whole program: @main is a stretch of three constants, the decoder's region, nineteen stretches
  of host operations (the index arithmetic of the bilinear sampling, ending in the two selection matrices), and the
  gather's region. The buffer contents at each boundary are a fold from the launch memory: a stretch applies its
  operations, a region leaves its windows' arrays at what its write-backs folded and every other buffer as entered.
  No host operation and no region writes an argument array, and nothing after the first region writes its result,
  so the final memory holds the arguments as launched, the first result at the first region's folded write-backs
  and the second result at the second region's.
-/
import proofs.«127700_j42417097016364_2_alg».proof.Proof.K.Reg0
import proofs.«127700_j42417097016364_2_alg».proof.Proof.K.Reg1
import proofs.«127700_j42417097016364_2_alg».proof.Proof.K.Keeps

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.R0 Cert.Kernel.R1 Cert.Kernel.Keeps

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the three constants: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After each of the nineteen stretches between the regions, in order. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
abbrev W9 : Dev nD → Valuation τ sig (Elt F) := fun c => StableHlo.after hostOps1_6 (W8 m ρ c)
abbrev W10 : Dev nD → Valuation τ sig (Elt F) := fun c => StableHlo.after hostOps1_7 (W9 m ρ c)
abbrev W11 : Dev nD → Valuation τ sig (Elt F) := fun c => StableHlo.after hostOps1_8 (W10 m ρ c)
abbrev W12 : Dev nD → Valuation τ sig (Elt F) := fun c => StableHlo.after hostOps1_9 (W11 m ρ c)
abbrev W13 : Dev nD → Valuation τ sig (Elt F) := fun c => StableHlo.after hostOps1_10 (W12 m ρ c)
abbrev W14 : Dev nD → Valuation τ sig (Elt F) := fun c => StableHlo.after hostOps1_11 (W13 m ρ c)
abbrev W15 : Dev nD → Valuation τ sig (Elt F) := fun c => StableHlo.after hostOps1_12 (W14 m ρ c)
abbrev W16 : Dev nD → Valuation τ sig (Elt F) := fun c => StableHlo.after hostOps1_13 (W15 m ρ c)
abbrev W17 : Dev nD → Valuation τ sig (Elt F) := fun c => StableHlo.after hostOps1_14 (W16 m ρ c)
abbrev W18 : Dev nD → Valuation τ sig (Elt F) := fun c => StableHlo.after hostOps1_15 (W17 m ρ c)
abbrev W19 : Dev nD → Valuation τ sig (Elt F) := fun c => StableHlo.after hostOps1_16 (W18 m ρ c)
abbrev W20 : Dev nD → Valuation τ sig (Elt F) := fun c => StableHlo.after hostOps1_17 (W19 m ρ c)
abbrev W21 : Dev nD → Valuation τ sig (Elt F) := fun c => StableHlo.after hostOps1_18 (W20 m ρ c)
/-- The second region's entry contents, read at the TensorCore's references. -/
abbrev V21 : (c : Dev nD) → (b : Ref sig .tc) → Buf (Elt F) ((c : Thread nD τ).loc b) := fun c b => W21 m ρ c b
/-- At the second region's exit. -/
def W22 (c : Dev nD) : Valuation τ sig (Elt F) :=
  Pipeline.withArrays spec1 c (W21 m ρ c) fun w => (dat1 (V21 m ρ) c).arrAt w cfg1.N
theorem W22_arr (c : Dev nD) (w : Fin cfg1.W) :
    W22 m ρ c (Proc.devRef .tc (Pipeline.arrRef spec1 w)) = (dat1 (V21 m ρ) c).arrAt w cfg1.N := by
  unfold W22; exact Pipeline.withArrays_arr spec1 launch1.win.arr_inj c _ _ w
theorem W22_of_ne (c : Dev nD) (b : Ref sig .tc) (hb : ∀ w, Pipeline.arrRef spec1 w ≠ b) :
    W22 m ρ c (Proc.devRef .tc b) = W21 m ρ c (Proc.devRef .tc b) := by
  unfold W22; exact Pipeline.withArrays_of_ne spec1 c _ _ b hb
abbrev V22 : (c : Dev nD) → (b : Ref sig .tc) → Buf (Elt F) ((c : Thread nD τ).loc b) := fun c b => W22 m ρ c b
theorem hF1 (c : Dev nD) (w : Fin cfg1.W) : (dat1 (V21 m ρ) c).arrAt w cfg1.N = V22 m ρ c (Pipeline.arrRef spec1 w) :=
  (W22_arr m ρ c w).symm
theorem hrest1 (c : Dev nD) : ∀ b, b ∉ Finset.univ.image (Pipeline.arrRef spec1) → V22 m ρ c b = V21 m ρ c b :=
  fun b hb => W22_of_ne m ρ c b fun w e => hb (Finset.mem_image.mpr ⟨w, Finset.mem_univ _, e⟩)

/-! ## Nothing between the regions writes an argument or the first result -/

/-- The nineteen stretches leave the arguments and the first result as the first region left them. -/
theorem W21_kept (c : Dev nD) (b : Ref sig .tc) (hb : Kept b) : W21 m ρ c (Proc.devRef .tc b) = W2 m ρ c (Proc.devRef .tc b) :=
  calc W21 m ρ c (Proc.devRef .tc b)
    _ = W20 m ρ c (Proc.devRef .tc b) := hostOps1_18_keeps _ b hb
    _ = W19 m ρ c (Proc.devRef .tc b) := hostOps1_17_keeps _ b hb
    _ = W18 m ρ c (Proc.devRef .tc b) := hostOps1_16_keeps _ b hb
    _ = W17 m ρ c (Proc.devRef .tc b) := hostOps1_15_keeps _ b hb
    _ = W16 m ρ c (Proc.devRef .tc b) := hostOps1_14_keeps _ b hb
    _ = W15 m ρ c (Proc.devRef .tc b) := hostOps1_13_keeps _ b hb
    _ = W14 m ρ c (Proc.devRef .tc b) := hostOps1_12_keeps _ b hb
    _ = W13 m ρ c (Proc.devRef .tc b) := hostOps1_11_keeps _ b hb
    _ = W12 m ρ c (Proc.devRef .tc b) := hostOps1_10_keeps _ b hb
    _ = W11 m ρ c (Proc.devRef .tc b) := hostOps1_9_keeps _ b hb
    _ = W10 m ρ c (Proc.devRef .tc b) := hostOps1_8_keeps _ b hb
    _ = W9 m ρ c (Proc.devRef .tc b) := hostOps1_7_keeps _ b hb
    _ = W8 m ρ c (Proc.devRef .tc b) := hostOps1_6_keeps _ b hb
    _ = W7 m ρ c (Proc.devRef .tc b) := hostOps1_5_keeps _ b hb
    _ = W6 m ρ c (Proc.devRef .tc b) := hostOps1_4_keeps _ b hb
    _ = W5 m ρ c (Proc.devRef .tc b) := hostOps1_3_keeps _ b hb
    _ = W4 m ρ c (Proc.devRef .tc b) := hostOps1_2_keeps _ b hb
    _ = W3 m ρ c (Proc.devRef .tc b) := hostOps1_1_keeps _ b hb
    _ = W2 m ρ c (Proc.devRef .tc b) := hostOps1_keeps _ b hb

theorem W1_kept (c : Dev nD) (b : Ref sig .tc) (hb : Kept b) : W1 m ρ c (Proc.devRef .tc b) = W0 m ρ c (Proc.devRef .tc b) :=
  hostOps0_keeps _ b hb

theorem W22_main_arg0 (c : Dev nD) : W22 m ρ c (Proc.devRef .tc main_arg0) = m ((c : Thread nD τ).loc main_arg0) :=
  calc W22 m ρ c (Proc.devRef .tc main_arg0)
    _ = W21 m ρ c (Proc.devRef .tc main_arg0) := W22_of_ne m ρ c main_arg0 (by decide)
    _ = W2 m ρ c (Proc.devRef .tc main_arg0) := W21_kept m ρ c main_arg0 (Or.inl rfl)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_kept m ρ c main_arg0 (Or.inl rfl)
    _ = m ((c : Thread nD τ).loc main_arg0) := rfl

theorem W22_main_arg1 (c : Dev nD) : W22 m ρ c (Proc.devRef .tc main_arg1) = m ((c : Thread nD τ).loc main_arg1) :=
  calc W22 m ρ c (Proc.devRef .tc main_arg1)
    _ = W21 m ρ c (Proc.devRef .tc main_arg1) := W22_of_ne m ρ c main_arg1 (by decide)
    _ = W2 m ρ c (Proc.devRef .tc main_arg1) := W21_kept m ρ c main_arg1 (Or.inr (Or.inl rfl))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_kept m ρ c main_arg1 (Or.inr (Or.inl rfl))
    _ = m ((c : Thread nD τ).loc main_arg1) := rfl

theorem W22_main_arg2 (c : Dev nD) : W22 m ρ c (Proc.devRef .tc main_arg2) = m ((c : Thread nD τ).loc main_arg2) :=
  calc W22 m ρ c (Proc.devRef .tc main_arg2)
    _ = W21 m ρ c (Proc.devRef .tc main_arg2) := (W22_arr m ρ c 0).trans (((dat1 (V21 m ρ) c).arrAt_in 0 rfl _).trans (A_eq1 (V21 m ρ) c 0))
    _ = W2 m ρ c (Proc.devRef .tc main_arg2) := W21_kept m ρ c main_arg2 (Or.inr (Or.inr (Or.inl rfl)))
    _ = W1 m ρ c (Proc.devRef .tc main_arg2) := W2_of_ne m ρ c main_arg2 (by decide)
    _ = W0 m ρ c (Proc.devRef .tc main_arg2) := W1_kept m ρ c main_arg2 (Or.inr (Or.inr (Or.inl rfl)))
    _ = m ((c : Thread nD τ).loc main_arg2) := rfl

theorem W22_main_arg3 (c : Dev nD) : W22 m ρ c (Proc.devRef .tc main_arg3) = m ((c : Thread nD τ).loc main_arg3) :=
  calc W22 m ρ c (Proc.devRef .tc main_arg3)
    _ = W21 m ρ c (Proc.devRef .tc main_arg3) := W22_of_ne m ρ c main_arg3 (by decide)
    _ = W2 m ρ c (Proc.devRef .tc main_arg3) := W21_kept m ρ c main_arg3 (Or.inr (Or.inr (Or.inr (Or.inl rfl))))
    _ = W1 m ρ c (Proc.devRef .tc main_arg3) := W2_of_ne m ρ c main_arg3 (by decide)
    _ = W0 m ρ c (Proc.devRef .tc main_arg3) := W1_kept m ρ c main_arg3 (Or.inr (Or.inr (Or.inr (Or.inl rfl))))
    _ = m ((c : Thread nD τ).loc main_arg3) := rfl

/-- The first result ends at what the first region's write-backs folded. -/
theorem W22_main_v0 (c : Dev nD) : W22 m ρ c (Proc.devRef .tc main_v0) = (dat0 (V1 m ρ) c).arrAt 2 cfg0.N :=
  calc W22 m ρ c (Proc.devRef .tc main_v0)
    _ = W21 m ρ c (Proc.devRef .tc main_v0) := W22_of_ne m ρ c main_v0 (by decide)
    _ = W2 m ρ c (Proc.devRef .tc main_v0) := W21_kept m ρ c main_v0 (Or.inr (Or.inr (Or.inr (Or.inr rfl))))
    _ = (dat0 (V1 m ρ) c).arrAt 2 cfg0.N := W2_arr m ρ c 2

/-- The second result ends at what the second region's write-backs folded. -/
theorem W22_main_v129 (c : Dev nD) : W22 m ρ c (Proc.devRef .tc main_v129) = (dat1 (V21 m ρ) c).arrAt 3 cfg1.N :=
  W22_arr m ρ c 3

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V21 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W22 m ρ c) ∗ ∃ r, prngReg c r)

/-! ## The regions as segments -/

set_option backward.isDefEq.respectTransparency.types false in
/-- The decoder's region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather's region over the thread state: entered from every unscoped buffer at `W21`, left at `W22`. Its
    invariant carries the accumulator scratch: at the first point it is made from the scoped buffers the launch
    hands over, and after the last point it gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V21 m ρ) c).loose
  hwaits := Pipeline.hwaits_of_owed_zero _ _ _ _ L lv 1 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V21 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V21 m ρ) c).Φ 0 from rfl]
    refine .trans ?_ (hin1 (V21 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V21 m ρ) c).Φ (Fin.last cfg1.N) from rfl]
    refine (hout1 (V21 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V21 m ρ c) (V22 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .host (hseg hostOps1_9 hostOps1_9_sub hostOps1_9_fresh (W11 m ρ)),
    .host (hseg hostOps1_10 hostOps1_10_sub hostOps1_10_fresh (W12 m ρ)),
    .host (hseg hostOps1_11 hostOps1_11_sub hostOps1_11_fresh (W13 m ρ)),
    .host (hseg hostOps1_12 hostOps1_12_sub hostOps1_12_fresh (W14 m ρ)),
    .host (hseg hostOps1_13 hostOps1_13_sub hostOps1_13_fresh (W15 m ρ)),
    .host (hseg hostOps1_14 hostOps1_14_sub hostOps1_14_fresh (W16 m ρ)),
    .host (hseg hostOps1_15 hostOps1_15_sub hostOps1_15_fresh (W17 m ρ)),
    .host (hseg hostOps1_16 hostOps1_16_sub hostOps1_16_fresh (W18 m ρ)),
    .host (hseg hostOps1_17 hostOps1_17_sub hostOps1_17_fresh (W19 m ρ)),
    .host (hseg hostOps1_18 hostOps1_18_sub hostOps1_18_fresh (W20 m ρ)),
    .region (reg1 m ρ) ]

/-- @main is the run of the segments. -/
theorem main_run (c : Dev nD) : main (F := F) c = Pipeline.Seg.run (segs m ρ) := (main_chain c).trans (by chain_rfl)

/-- What the final memory holds on core `c`: the two results at the regions' folded write-backs, the arguments as
    launched. -/
def Post (r : PUnit × MemSt nD τ sig (Elt F)) : Prop := ∀ c : Dev nD,
  r.2.mem ((c.tc : Thread nD τ).loc main_v0) = (dat0 (V1 m ρ) c).arrAt 2 cfg0.N
  ∧ r.2.mem ((c.tc : Thread nD τ).loc main_v129) = (dat1 (V21 m ρ) c).arrAt 3 cfg1.N
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

set_option backward.isDefEq.respectTransparency.types false in
/-- Every weakly fair execution of @main terminates, nothing faulting, in a memory satisfying `Post`. -/
theorem run_main : θ_run defs (onTc (τ := τ) (main (F := F))) ⟨m, fun _ => 0, ρ⟩ (Post m ρ) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨(h c _ (mem_uc main_v0 (by decide))).trans (W22_main_v0 m ρ c),
       (h c _ (mem_uc main_v129 (by decide))).trans (W22_main_v129 m ρ c),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2.2) (run_main m ρ)

end Cert.Kernel.Run

end
-- ==== Proof.KI.Reg0.lean ====
/-
  Pallas call 0 (the box decoder) of the program, at the buffer contents `V` the region is entered with.

  The grid is 4 × 88; at a point the body is handed the point's block [1, 2400, 7] of the two input arrays
  (regression deltas, anchors) and the output block of the same shape. It loads the two input blocks whole,
  and writes the output block one column at a time: columns 0, 1 hold  δ·√(w² + l²) + a  (w, l the anchor's
  columns 3, 4), column 2 holds  δ·h + a  (h the anchor's column 5), columns 3, 4, 5 hold  exp(δ)·a  and
  column 6 holds  δ + a.  Before each column's store the body also loads that column of the output block;
  the loaded value is used nowhere. The seven column rectangles tile the block, so after the body the output
  block is the overlay of the seven stored columns, a function of the two input blocks alone.

  Stated here: what the output block holds after the body (`out0_2`), the body's triple, the region's proof
  data (`dat0`) and the body obligation the launch theorem takes, for any float instance.
-/
import proofs.«127700_j42417097016364_2_alg».proof.Proof.Gen.KernelIdeal.Launch
import proofs.«127700_j42417097016364_2_alg».proof.Proof.Gen.KernelIdeal.Skeleton
import proofs.«127700_j42417097016364_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block at every point: both inputs are fetched at every
    point, and a point that did not fetch would find the block of the same index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: the whole block, and its seven columns -/

abbrev rW : Rect S1x2400x7 := Rect.unit (s := S1x2400x7) ![0, 0, 0] S1x2400x7.size inb_S1x2400x7_S1x2400x7_0_0_0
abbrev rC0 : Rect S1x2400x7 := Rect.unit (s := S1x2400x7) ![0, 0, 0] S1x2400x1.size inb_S1x2400x7_S1x2400x1_0_0_0
abbrev rC1 : Rect S1x2400x7 := Rect.unit (s := S1x2400x7) ![0, 0, 1] S1x2400x1.size inb_S1x2400x7_S1x2400x1_0_0_1
abbrev rC2 : Rect S1x2400x7 := Rect.unit (s := S1x2400x7) ![0, 0, 2] S1x2400x1.size inb_S1x2400x7_S1x2400x1_0_0_2
abbrev rC3 : Rect S1x2400x7 := Rect.unit (s := S1x2400x7) ![0, 0, 3] S1x2400x1.size inb_S1x2400x7_S1x2400x1_0_0_3
abbrev rC4 : Rect S1x2400x7 := Rect.unit (s := S1x2400x7) ![0, 0, 4] S1x2400x1.size inb_S1x2400x7_S1x2400x1_0_0_4
abbrev rC5 : Rect S1x2400x7 := Rect.unit (s := S1x2400x7) ![0, 0, 5] S1x2400x1.size inb_S1x2400x7_S1x2400x1_0_0_5
abbrev rC6 : Rect S1x2400x7 := Rect.unit (s := S1x2400x7) ![0, 0, 6] S1x2400x1.size inb_S1x2400x7_S1x2400x1_0_0_6

/-! ## What the body leaves in the output block -/

/-- The output block after the body, from the two input blocks `x0` (deltas) and `x1` (anchors): the seven
    stored columns overlaid, the last store first. -/
def out0_2 (x0 x1 : Vec F S1x2400x7 .f32) : Vec F S1x2400x7 .f32 :=
  View.canon
    [ ⟨rC6, k0_pay4 (k0_pay5 (View.ld x0 rW)) (k0_pay6 (View.ld x1 rW))⟩,
      ⟨rC5, k0_pay3 (k0_pay5 (View.ld x0 rW)) (k0_pay9 (View.ld x1 rW))⟩,
      ⟨rC4, k0_pay2 (k0_pay5 (View.ld x0 rW)) (k0_pay8 (View.ld x1 rW))⟩,
      ⟨rC3, k0_pay1 (k0_pay14 (View.ld x0 rW) (View.ld x1 rW))⟩,
      ⟨rC2, k0_pay13 (View.ld x0 rW) (View.ld x1 rW)⟩,
      ⟨rC1, k0_pay12 (View.ld x0 rW) (View.ld x1 rW)⟩,
      ⟨rC0, k0_pay11 (View.ld x0 rW) (View.ld x1 rW)⟩ ]

/-- The seven columns tile the block, so every index of the block lies in one of them. -/
theorem cover0_2 (p6 p5 p4 p3 p2 p1 p0 : Vec F S1x2400x1 .f32) (y : S1x2400x7.Idx) :
    ∃ pc ∈ ([⟨rC6, p6⟩, ⟨rC5, p5⟩, ⟨rC4, p4⟩, ⟨rC3, p3⟩, ⟨rC2, p2⟩, ⟨rC1, p1⟩, ⟨rC0, p0⟩] : List (View.Piece (Elt F) S1x2400x7 .f32)), y ∈ pc.1.set :=
  View.cover_of_tiled [⟨rC6, p6⟩, ⟨rC5, p5⟩, ⟨rC4, p4⟩, ⟨rC3, p3⟩, ⟨rC2, p2⟩, ⟨rC1, p1⟩, ⟨rC0, p0⟩] S1x2400x1.size (by rfl) y

/-! ## The body's triple -/

set_option maxHeartbeats 2000000 in
/-- The body on whole staging buffers, the two inputs' at contents reading `x0`, `x1` and the output's at any
    contents: it ends with the inputs' buffers as they were and the output's reading `out0_2 x0 x1`. -/
theorem sound_kernel0 (c : Dev nD) (E : Set ℕ) (i : grid0.Coords)
    (arg2 : Memref sig .tc .vmem S1x2400x7 .f32) (harg2 : arg2.IsWhole)
    (arg3 : Memref sig .tc .vmem S1x2400x7 .f32) (harg3 : arg3.IsWhole)
    (arg4 : Memref sig .tc .vmem S1x2400x7 .f32) (harg4 : arg4.IsWhole)
    (x0 x1 : Vec F S1x2400x7 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _)

/-! ## The region's proof data -/

/-- The proof data of the decoder's pipeline on core `c`: the arrays as the region finds them; after the body at
    point `t` each input's buffer still at its block and the output's at `out0_2` of the two input blocks; the
    invariant is the scoped buffers no window stages and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI.Reg1.lean ====
/- The second pallas_call's kernel body at every grid point, for any float instance. The body keeps a running
   accumulator in a scratch buffer across the 25 points of a batch: reset to zero at the first point, increased at
   each point by the eight row terms of the point's blocks, copied (shape-cast) into the output block at the last.
   Stated here: one step of the accumulator as a function of the old accumulator and the three input blocks; the
   accumulator after each point, by recursion on the point; what each window's buffer holds after the body; the
   invariant that tracks the scratch between points; and the proof that the body, run at any point in whichever
   of its three control cases the point is in (first, middle, last of a batch), takes the invariant and the
   windows' buffers as they are before the point to what they are after it. Everything is stated at arbitrary
   contents of the buffers on entry. -/
import proofs.«127700_j42417097016364_2_alg».proof.Proof.Gen.KernelIdeal.Launch
import proofs.«127700_j42417097016364_2_alg».proof.Proof.Gen.KernelIdeal.Skeleton
import proofs.«127700_j42417097016364_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store of the body is through the whole-buffer rectangle of its operand -/

abbrev r2 : Rect S1x256x8x176 := Rect.unit (s := S1x256x8x176) ![0, 0, 0, 0] S1x256x8x176.size inb_S1x256x8x176_S1x256x8x176_0_0_0_0
abbrev r3 : Rect S1x176x4096 := Rect.unit (s := S1x176x4096) ![0, 0, 0] S1x176x4096.size inb_S1x176x4096_S1x176x4096_0_0_0
abbrev r4 : Rect S1x8x4096 := Rect.unit (s := S1x8x4096) ![0, 0, 0] S1x8x4096.size inb_S1x8x4096_S1x8x4096_0_0_0
abbrev r5 : Rect S1x256x4096 := Rect.unit (s := S1x256x4096) ![0, 0, 0] S1x256x4096.size inb_S1x256x4096_S1x256x4096_0_0_0
abbrev r6 : Rect S256x4096 := Rect.unit (s := S256x4096) ![0, 0] S256x4096.size inb_S256x4096_S256x4096_0_0

/-! ## The body's two conditionals, from the grid coordinates -/

/-- The first conditional (the reset of the accumulator): the second grid coordinate is 0. -/
abbrev cond1_0 (i : grid1.Coords) : Prop := (Scalar.cmpi .ne (Scalar.extui (Scalar.cmpi .eq (BitVec.ofNat 32 (i 1).val) 0#32)) 0#32) = 1#1
/-- The second conditional (the store of the accumulator into the output block): the second grid coordinate is 24. -/
abbrev cond1_1 (i : grid1.Coords) : Prop := k1_cond2 i = 1#1

/-! ## What the body computes -/

/-- The accumulator after the reset: the zero splat stored whole. -/
def zero1 : Vec F S256x4096 .f32 := View.canon [⟨r6, k1_pay3 (F := F)⟩]

/-- The accumulator after the body, from the accumulator the body's second load of it reads and the three input blocks:
    the one whole store of the accumulation's payload (the sum over the 8 rows of the block of
    matmul(bf16 feature row, bf16 Rx) * broadcast(Ry row), added to the old accumulator). -/
def step1 (acc : Vec F S256x4096 .f32) (x0 : Vec F S1x256x8x176 .f32) (x1 : Vec F S1x176x4096 .f32) (x2 : Vec F S1x8x4096 .f32) : Vec F S256x4096 .f32 :=
  View.canon [⟨r6, k1_pay1 (k1_pay4 (View.ld x0 r2)) (k1_pay5 (View.ld x1 r3)) (k1_pay6 (View.ld x2 r4)) (k1_pay7 (View.ld x0 r2) (View.ld x1 r3) (View.ld x2 r4) (View.ld acc r6)) (k1_pay8 (View.ld x0 r2) (View.ld x1 r3))⟩]

/-- The output block after the last point's store: the accumulator read back whole and shape-cast to the block's shape. -/
def out1 (acc : Vec F S256x4096 .f32) : Vec F S1x256x4096 .f32 :=
  View.canon [⟨r5, k1_pay2 (View.ld acc r6)⟩]

/-- A whole store covers the accumulator; -/
theorem cover1_6 (p0 : Vec F S256x4096 .f32) (y : S256x4096.Idx) :
    ∃ pc ∈ ([⟨r6, p0⟩] : List (View.Piece (Elt F) S256x4096 .f32)), y ∈ pc.1.set :=
  View.cover_of_tiled [⟨r6, p0⟩] S256x4096.size (by rfl) y
/-- and the output block. -/
theorem cover1_5 (p0 : Vec F S1x256x4096 .f32) (y : S1x256x4096.Idx) :
    ∃ pc ∈ ([⟨r5, p0⟩] : List (View.Piece (Elt F) S1x256x4096 .f32)), y ∈ pc.1.set :=
  View.cover_of_tiled [⟨r5, p0⟩] S1x256x4096.size (by rfl) y

theorem off2_zero : (![0, 0] : Fin 2 → Nat) = fun _ => 0 := funext fun a => by fin_cases a <;> rfl
theorem off3_zero : (![0, 0, 0] : Fin 3 → Nat) = fun _ => 0 := funext fun a => by fin_cases a <;> rfl
theorem off4_zero : (![0, 0, 0, 0] : Fin 4 → Nat) = fun _ => 0 := funext fun a => by fin_cases a <;> rfl

/-- The accumulator's rectangle is the whole shape. -/
theorem mem_r6 (y : S256x4096.Idx) : y ∈ (r6 : Rect S256x4096).set :=
  View.mem_set_unit_zero off2_zero inb_S256x4096_S256x4096_0_0 y

/-- A list of writes whose last is a whole store of the accumulator covers it. -/
theorem cover_cons_r6 (p0 : Vec F S256x4096 .f32) (L : List (View.Piece (Elt F) S256x4096 .f32)) (y : S256x4096.Idx) :
    ∃ pc ∈ ((⟨r6, p0⟩ : View.Piece (Elt F) S256x4096 .f32) :: L), y ∈ pc.1.set :=
  ⟨⟨r6, p0⟩, List.mem_cons_self, mem_r6 y⟩

/-- A write that covers the whole shape hides every earlier one. -/
theorem canon_cons_of_cover {S : Shape} {e : EltTy} (r : Rect S) (w : r.shape.Idx → Elt F e) (L : List (View.Piece (Elt F) S e))
    (h : ∀ y, y ∈ r.set) : View.canon (⟨r, w⟩ :: L) = View.canon [⟨r, w⟩] := by
  funext y
  have hy := h y
  rw [← Rect.map_emb_univ, Finset.mem_map] at hy
  obtain ⟨x, -, rfl⟩ := hy
  rw [View.canon_cons_emb, View.canon_cons_emb]

/-! ## The contents without the rectangles: every access is whole -/

/-- The zero splat. -/
theorem zero1_eq : (zero1 : Vec F S256x4096 .f32) = k1_pay3 (F := F) :=
  View.canon_unit_zero (Val := Elt F) off2_zero inb_S256x4096_S256x4096_0_0 _

/-- One step of the accumulation, over the whole blocks. -/
theorem step1_eq (acc : Vec F S256x4096 .f32) (x0 : Vec F S1x256x8x176 .f32) (x1 : Vec F S1x176x4096 .f32) (x2 : Vec F S1x8x4096 .f32) :
    step1 acc x0 x1 x2 = k1_pay1 (k1_pay4 x0) (k1_pay5 x1) (k1_pay6 x2) (k1_pay7 x0 x1 x2 acc) (k1_pay8 x0 x1) := by
  unfold step1
  rw [View.canon_unit_zero (Val := Elt F) off2_zero inb_S256x4096_S256x4096_0_0,
    View.ld_unit_zero (Val := Elt F) off4_zero inb_S1x256x8x176_S1x256x8x176_0_0_0_0 x0,
    View.ld_unit_zero (Val := Elt F) off3_zero inb_S1x176x4096_S1x176x4096_0_0_0 x1,
    View.ld_unit_zero (Val := Elt F) off3_zero inb_S1x8x4096_S1x8x4096_0_0_0 x2,
    View.ld_unit_zero (Val := Elt F) off2_zero inb_S256x4096_S256x4096_0_0 acc]

/-- The output block: the accumulator shape-cast. -/
theorem out1_eq (acc : Vec F S256x4096 .f32) :
    out1 acc = shapeCast S1x256x4096 acc shapeCasts_S256x4096_S1x256x4096 := by
  unfold out1
  rw [View.canon_unit_zero (Val := Elt F) off3_zero inb_S1x256x4096_S1x256x4096_0_0_0,
    View.ld_unit_zero (Val := Elt F) off2_zero inb_S256x4096_S256x4096_0_0 acc]
  rfl

/-! ## The body's triple, case by case -/

set_option maxHeartbeats 1000000 in
theorem sound_kernel1_mid (c : Dev nD) (E : Set ℕ) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : ¬cond1_0 i) (hc1 : ¬cond1_1 i)
    (x0 : Vec F S1x256x8x176 .f32) (x1 : Vec F S1x176x4096 .f32) (x2 : Vec F S1x8x4096 .f32) (xi : Vec F S1x256x4096 .f32) (xs : Vec F S256x4096 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (step1 xs x0 x1 x2)) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (cover1_6 _)

set_option maxHeartbeats 1000000 in
theorem sound_kernel1_first (c : Dev nD) (E : Set ℕ) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : cond1_0 i) (hc1 : ¬cond1_1 i)
    (x0 : Vec F S1x256x8x176 .f32) (x1 : Vec F S1x176x4096 .f32) (x2 : Vec F S1x8x4096 .f32) (xi : Vec F S1x256x4096 .f32) (xs : Vec F S256x4096 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (step1 zero1 x0 x1 x2)) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  unfold sound_kernel1_first.sl.r_3 sound_kernel1_first.sl.v10 sound_kernel1_first.sl.HS_1
  rw [View.read_writes_eq_canon _ _ _ (cover_cons_r6 _ _), canon_cons_of_cover _ _ _ mem_r6,
    View.readCov_eq_canon_ld _ _ _ (cover1_6 _)]
  rfl

set_option maxHeartbeats 1000000 in
theorem sound_kernel1_last (c : Dev nD) (E : Set ℕ) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : ¬cond1_0 i) (hc1 : cond1_1 i)
    (x0 : Vec F S1x256x8x176 .f32) (x1 : Vec F S1x176x4096 .f32) (x2 : Vec F S1x8x4096 .f32) (xi : Vec F S1x256x4096 .f32) (xs : Vec F S256x4096 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (out1 (step1 xs x0 x1 x2)) ∗ owns (c : Thread nD τ) arg6 fullShare (step1 xs x0 x1 x2)) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    unfold sound_kernel1_last.sl.v81 sound_kernel1_last.sl.HS_1
    rw [View.read_writes_eq_canon _ _ _ (cover1_5 _), View.readCov_eq_canon_ld _ _ _ (cover1_6 _)]
    rfl
  iexists _; isplitr
  swap; · iexact HS
  ipureintro
  unfold sound_kernel1_last.sl.HS_1
  exact View.read_writes_eq_canon _ _ _ (cover1_6 _)

/-! # The region at its entry contents -/

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (the second
    window is fetched only when the first grid coordinate moves: its block index does not move in between), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions in closed form, and where the output window is idle -/

/-- The reset is taken at the points ≡ 0 (mod 25) — decided over the grid. -/
theorem hcond1_0 : ∀ t : Fin cfg1.N, cond1_0 (grid1.coords t) ↔ t.val % 25 = 0 :=
  (by decide +kernel : ∀ t : Fin grid1.N, cond1_0 (grid1.coords t) ↔ t.val % 25 = 0)
/-- The output store is taken at the points ≡ 24 (mod 25). -/
theorem hcond1_1 : ∀ t : Fin cfg1.N, cond1_1 (grid1.coords t) ↔ t.val % 25 = 24 :=
  (by decide +kernel : ∀ t : Fin grid1.N, cond1_1 (grid1.coords t) ↔ t.val % 25 = 24)

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the body does not store the output block the window is idle, and the pipeline does not write it back; -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- where it does, the window is live. -/
theorem liveAt1_3 : ∀ t : Fin cfg1.N, cond1_1 (grid1.coords t) → cfg1.idle 3 (grid1.coords t) = false := by decide +kernel

/-! ## The accumulation -/

/-- The accumulator after the body at position `n`: one step from the zero splat at the first point of a row of the
    grid (n ≡ 0 mod 25: the body resets it first), else one step from what the point before left. -/
def acc1 (c : Dev nD) : (n : ℕ) → n < cfg1.N → Vec F S256x4096 .f32
  | 0, hn => step1 zero1 (iblk1 V c 0 ⟨0, hn⟩) (iblk1 V c 1 ⟨0, hn⟩) (iblk1 V c 2 ⟨0, hn⟩)
  | n + 1, hn => step1 (if (n + 1) % 25 = 0 then zero1 else acc1 c n (Nat.lt_of_succ_lt hn))
      (iblk1 V c 0 ⟨n + 1, hn⟩) (iblk1 V c 1 ⟨n + 1, hn⟩) (iblk1 V c 2 ⟨n + 1, hn⟩)

theorem acc1_first (c : Dev nD) (t : Fin cfg1.N) (h : t.val % 25 = 0) :
    acc1 V c t.val t.isLt = step1 zero1 (iblk1 V c 0 t) (iblk1 V c 1 t) (iblk1 V c 2 t) := by
  obtain ⟨n, hn⟩ := t
  cases n with
  | zero => rfl
  | succ n => exact congrArg (fun a => step1 a (iblk1 V c 0 ⟨n + 1, hn⟩) (iblk1 V c 1 ⟨n + 1, hn⟩) (iblk1 V c 2 ⟨n + 1, hn⟩)) (if_pos h)

theorem acc1_next (c : Dev nD) (t : Fin cfg1.N) (h : t.val % 25 ≠ 0) :
    acc1 V c t.val t.isLt = step1 (acc1 V c (t.val - 1) (Nat.lt_of_le_of_lt (Nat.sub_le _ _) t.isLt)) (iblk1 V c 0 t) (iblk1 V c 1 t) (iblk1 V c 2 t) := by
  obtain ⟨n, hn⟩ := t
  cases n with
  | zero => exact absurd (Nat.zero_mod _) h
  | succ n => exact congrArg (fun a => step1 a (iblk1 V c 0 ⟨n + 1, hn⟩) (iblk1 V c 1 ⟨n + 1, hn⟩) (iblk1 V c 2 ⟨n + 1, hn⟩)) (if_neg h)

/-! ## The invariant: the scratch the kernel carries between points, at its tracked contents -/

/-- The scratch operand: a whole scoped buffer of the kernel's own. -/
abbrev scM : Memref sig .tc .vmem S256x4096 .f32 := Memref.whole cc1_scratch0

/-- The region's invariant with the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM fullShare d)) ∗ (∃ r, prngReg c r)) := by
  unfold Pipeline.ΦA; rw [scopedRest1_eq]; simp only [scM, owns_whole]; try rfl

/-- The invariant before position `n`: before the first point the launch's (every scoped buffer at anything);
    afterwards the accumulator at what the point before left in it, the other scoped buffers at anything. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (acc1 V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (acc1 V c n hn)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (acc1 V c (n - 1) (by omega))) ∗ (∃ r, prngReg c r)) := by
  cases n with
  | zero => exact absurd rfl hz
  | succ n => rfl

/-! ## The pipeline's proof data -/

/-- The proof data of the pipeline on core `c`: the arrays as the region finds them; after the body each input's
    buffer at its block and the output's at the accumulator read back and shape-cast (what the last point of a row
    stores; elsewhere the window is idle and nothing reads this); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (acc1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 (acc1 V c t.val t.isLt) := by dsimp only [dat1]

/-- At a last point of a row the output block is the accumulator after that point, read back whole and shape-cast. -/
theorem after1_3_last (c : Dev nD) (t : Fin cfg1.N) (h : t.val % 25 = 24) :
    (dat1 V c).after 3 t = out1 (acc1 V c t.val t.isLt) := after1_3 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the accumulator at what the point before left (at anything at the very first point)
    and takes it back at this point's contents; where the output window is idle its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 100 := lt_of_lt_of_eq t.isLt (show cfg1.N = 100 from N_1)
  by_cases h0 : t.val % 25 = 0
  · have h1 : ¬t.val % 25 = 24 := by omega
    rw [Dat.leavesExact_idle (dat1 V c) 3 t (idleAt1_3 t (fun h => h1 ((hcond1_1 t).mp h))) (noFlush1_3 t (fun h => h1 ((hcond1_1 t).mp h)))]
    rw [acc1_first V c t h0]
    by_cases hz : t.val = 0
    · rw [PhiS_castSucc V c t, PhiS_zero V c _ _ hz, PhiA1_eq]
      iintro ⟨⟨⟨HA0, HA1, HA2, HA3, HA4, HA5, ⟨%ds, HS⟩⟩, Hg⟩, Ho, ⟨%d0, H0⟩, ⟨%d1, H1⟩, ⟨%d2, H2⟩, ⟨%d3, H3⟩⟩
      iapply (sound_kernel1_first c Set.univ (grid1.coords t) _ _ _ _ _ _ _ _ _ _ ((hcond1_0 t).mpr h0) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HA0 HA1 HA2 HA3 HA4 HA5 HS Hg]
      · isplitr [Hg]
        · isplitl [HA0]; · iexact HA0
          isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA0, HA1, HA2, HA3, HA4, HA5, HS⟩, Hg⟩, Ho, ⟨%d0, H0⟩, ⟨%d1, H1⟩, ⟨%d2, H2⟩, ⟨%d3, H3⟩⟩
      iapply (sound_kernel1_first c Set.univ (grid1.coords t) _ _ _ _ _ _ _ _ _ _ ((hcond1_0 t).mpr h0) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HA0 HA1 HA2 HA3 HA4 HA5 HS Hg]
      · isplitr [Hg]
        · isplitl [HA0]; · iexact HA0
          isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 25 = 24
    · rw [show (dat1 V c).leavesExact 3 t = owns (c : Thread nD τ) (st1_3 t) fullShare ((dat1 V c).after 3 t) from by
        unfold Dat.leavesExact; rw [liveAt1_3 t ((hcond1_1 t).mpr h1)], after1_3]
      rw [acc1_next V c t h0]
      rw [PhiS_castSucc V c t, PhiS_pos V c _ _ hz]
      iintro ⟨⟨⟨HA0, HA1, HA2, HA3, HA4, HA5, HS⟩, Hg⟩, Ho, ⟨%d0, H0⟩, ⟨%d1, H1⟩, ⟨%d2, H2⟩, ⟨%d3, H3⟩⟩
      iapply (sound_kernel1_last c Set.univ (grid1.coords t) _ _ _ _ _ _ _ _ _ _ (fun h => h0 ((hcond1_0 t).mp h)) ((hcond1_1 t).mpr h1) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HA0 HA1 HA2 HA3 HA4 HA5 HS Hg]
      · isplitr [Hg]
        · isplitl [HA0]; · iexact HA0
          isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [acc1_next V c t h0]
      rw [PhiS_castSucc V c t, PhiS_pos V c _ _ hz]
      iintro ⟨⟨⟨HA0, HA1, HA2, HA3, HA4, HA5, HS⟩, Hg⟩, Ho, ⟨%d0, H0⟩, ⟨%d1, H1⟩, ⟨%d2, H2⟩, ⟨%d3, H3⟩⟩
      iapply (sound_kernel1_mid c Set.univ (grid1.coords t) _ _ _ _ _ _ _ _ _ _ (fun h => h0 ((hcond1_0 t).mp h)) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HA0 HA1 HA2 HA3 HA4 HA5 HS Hg]
      · isplitr [Hg]
        · isplitl [HA0]; · iexact HA0
          isplitl [HA1]; · iexact HA1
          isplitl [HA2]; · iexact HA2
          isplitl [HA3]; · iexact HA3
          isplitl [HA4]; · iexact HA4
          isplitl [HA5]; · iexact HA5
          iexact HS
        iexact Hg
      isplitl [Ho]; · iexact Ho
      isplitl [H0]; · iexact H0
      isplitl [H1]; · iexact H1
      isplitl [H2]; · iexact H2
      iexists _; iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA0, HA1, HA2, HA3, HA4, HA5, HS⟩, Hg⟩
  isplitr [Hg]
  · isplitl [HA0]; · iexact HA0
    isplitl [HA1]; · iexact HA1
    isplitl [HA2]; · iexact HA2
    isplitl [HA3]; · iexact HA3
    isplitl [HA4]; · iexact HA4
    isplitl [HA5]; · iexact HA5
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 100 := N_1; omega)

end Region

end Cert.KernelIdeal.R1

end
-- ==== Proof.KI.Keeps.lean ====
/- Each stretch of host operations between the two kernel regions writes only the buffers of its own results:
   it allocates no buffer, and it leaves the four argument arrays and the first region's result array as they were. -/
import proofs.«127700_j42417097016364_2_alg».proof.Proof.Gen.KernelIdeal.Launch
import Idealize.ShloMosaic.Lib.Pipeline.RegionsLoop
import Idealize.ShloMosaic.Lib.Pipeline.FrameSuffix

set_option maxRecDepth 16384

noncomputable section

namespace Cert.KernelIdeal.Keeps

open Idealize.ShloMosaic Idealize.ShloMosaic.TcCoe
open Idealize.SL Idealize.SL.Sem
open Cert.KernelIdeal Cert.KernelIdeal.Gen

variable {F : FTy → Type} [FloatOps F]

/-- The buffers no host stretch writes: the four arguments and the first region's result. -/
def Kept (b : Ref sig .tc) : Prop := b = main_arg0 ∨ b = main_arg1 ∨ b = main_arg2 ∨ b = main_arg3 ∨ b = main_v0

theorem hostOps0_fresh : (hostOps0 : List (HloOp τ sig (Elt F))).Forall fun op => op.fresh = ∅ := by
  simp only [hostOps0, List.Forall]; repeat' constructor

theorem hostOps0_keeps (W : Valuation τ sig (Elt F)) (b : Ref sig .tc) (hb : Kept b) :
    StableHlo.after (hostOps0 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_fresh : (hostOps1 : List (HloOp τ sig (Elt F))).Forall fun op => op.fresh = ∅ := by
  simp only [hostOps1, List.Forall]; repeat' constructor

theorem hostOps1_keeps (W : Valuation τ sig (Elt F)) (b : Ref sig .tc) (hb : Kept b) :
    StableHlo.after (hostOps1 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_1_fresh : (hostOps1_1 : List (HloOp τ sig (Elt F))).Forall fun op => op.fresh = ∅ := by
  simp only [hostOps1_1, List.Forall]; repeat' constructor

theorem hostOps1_1_keeps (W : Valuation τ sig (Elt F)) (b : Ref sig .tc) (hb : Kept b) :
    StableHlo.after (hostOps1_1 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_2_fresh : (hostOps1_2 : List (HloOp τ sig (Elt F))).Forall fun op => op.fresh = ∅ := by
  simp only [hostOps1_2, List.Forall]; repeat' constructor

theorem hostOps1_2_keeps (W : Valuation τ sig (Elt F)) (b : Ref sig .tc) (hb : Kept b) :
    StableHlo.after (hostOps1_2 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_3_fresh : (hostOps1_3 : List (HloOp τ sig (Elt F))).Forall fun op => op.fresh = ∅ := by
  simp only [hostOps1_3, List.Forall]; repeat' constructor

theorem hostOps1_3_keeps (W : Valuation τ sig (Elt F)) (b : Ref sig .tc) (hb : Kept b) :
    StableHlo.after (hostOps1_3 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_4_fresh : (hostOps1_4 : List (HloOp τ sig (Elt F))).Forall fun op => op.fresh = ∅ := by
  simp only [hostOps1_4, List.Forall]; repeat' constructor

theorem hostOps1_4_keeps (W : Valuation τ sig (Elt F)) (b : Ref sig .tc) (hb : Kept b) :
    StableHlo.after (hostOps1_4 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_5_fresh : (hostOps1_5 : List (HloOp τ sig (Elt F))).Forall fun op => op.fresh = ∅ := by
  simp only [hostOps1_5, List.Forall]; repeat' constructor

theorem hostOps1_5_keeps (W : Valuation τ sig (Elt F)) (b : Ref sig .tc) (hb : Kept b) :
    StableHlo.after (hostOps1_5 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_6_fresh : (hostOps1_6 : List (HloOp τ sig (Elt F))).Forall fun op => op.fresh = ∅ := by
  simp only [hostOps1_6, List.Forall]; repeat' constructor

theorem hostOps1_6_keeps (W : Valuation τ sig (Elt F)) (b : Ref sig .tc) (hb : Kept b) :
    StableHlo.after (hostOps1_6 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_7_fresh : (hostOps1_7 : List (HloOp τ sig (Elt F))).Forall fun op => op.fresh = ∅ := by
  simp only [hostOps1_7, List.Forall]; repeat' constructor

theorem hostOps1_7_keeps (W : Valuation τ sig (Elt F)) (b : Ref sig .tc) (hb : Kept b) :
    StableHlo.after (hostOps1_7 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_8_fresh : (hostOps1_8 : List (HloOp τ sig (Elt F))).Forall fun op => op.fresh = ∅ := by
  simp only [hostOps1_8, List.Forall]; repeat' constructor

theorem hostOps1_8_keeps (W : Valuation τ sig (Elt F)) (b : Ref sig .tc) (hb : Kept b) :
    StableHlo.after (hostOps1_8 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_9_fresh : (hostOps1_9 : List (HloOp τ sig (Elt F))).Forall fun op => op.fresh = ∅ := by
  simp only [hostOps1_9, List.Forall]; repeat' constructor

theorem hostOps1_9_keeps (W : Valuation τ sig (Elt F)) (b : Ref sig .tc) (hb : Kept b) :
    StableHlo.after (hostOps1_9 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_10_fresh : (hostOps1_10 : List (HloOp τ sig (Elt F))).Forall fun op => op.fresh = ∅ := by
  simp only [hostOps1_10, List.Forall]; repeat' constructor

theorem hostOps1_10_keeps (W : Valuation τ sig (Elt F)) (b : Ref sig .tc) (hb : Kept b) :
    StableHlo.after (hostOps1_10 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_11_fresh : (hostOps1_11 : List (HloOp τ sig (Elt F))).Forall fun op => op.fresh = ∅ := by
  simp only [hostOps1_11, List.Forall]; repeat' constructor

theorem hostOps1_11_keeps (W : Valuation τ sig (Elt F)) (b : Ref sig .tc) (hb : Kept b) :
    StableHlo.after (hostOps1_11 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_12_fresh : (hostOps1_12 : List (HloOp τ sig (Elt F))).Forall fun op => op.fresh = ∅ := by
  simp only [hostOps1_12, List.Forall]; repeat' constructor

theorem hostOps1_12_keeps (W : Valuation τ sig (Elt F)) (b : Ref sig .tc) (hb : Kept b) :
    StableHlo.after (hostOps1_12 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_12, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_13_fresh : (hostOps1_13 : List (HloOp τ sig (Elt F))).Forall fun op => op.fresh = ∅ := by
  simp only [hostOps1_13, List.Forall]; repeat' constructor

theorem hostOps1_13_keeps (W : Valuation τ sig (Elt F)) (b : Ref sig .tc) (hb : Kept b) :
    StableHlo.after (hostOps1_13 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_13, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_14_fresh : (hostOps1_14 : List (HloOp τ sig (Elt F))).Forall fun op => op.fresh = ∅ := by
  simp only [hostOps1_14, List.Forall]; repeat' constructor

theorem hostOps1_14_keeps (W : Valuation τ sig (Elt F)) (b : Ref sig .tc) (hb : Kept b) :
    StableHlo.after (hostOps1_14 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_14, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_15_fresh : (hostOps1_15 : List (HloOp τ sig (Elt F))).Forall fun op => op.fresh = ∅ := by
  simp only [hostOps1_15, List.Forall]; repeat' constructor

theorem hostOps1_15_keeps (W : Valuation τ sig (Elt F)) (b : Ref sig .tc) (hb : Kept b) :
    StableHlo.after (hostOps1_15 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_15, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_16_fresh : (hostOps1_16 : List (HloOp τ sig (Elt F))).Forall fun op => op.fresh = ∅ := by
  simp only [hostOps1_16, List.Forall]; repeat' constructor

theorem hostOps1_16_keeps (W : Valuation τ sig (Elt F)) (b : Ref sig .tc) (hb : Kept b) :
    StableHlo.after (hostOps1_16 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_16, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_17_fresh : (hostOps1_17 : List (HloOp τ sig (Elt F))).Forall fun op => op.fresh = ∅ := by
  simp only [hostOps1_17, List.Forall]; repeat' constructor

theorem hostOps1_17_keeps (W : Valuation τ sig (Elt F)) (b : Ref sig .tc) (hb : Kept b) :
    StableHlo.after (hostOps1_17 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_17, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps1_18_fresh : (hostOps1_18 : List (HloOp τ sig (Elt F))).Forall fun op => op.fresh = ∅ := by
  simp only [hostOps1_18, List.Forall]; repeat' constructor

theorem hostOps1_18_keeps (W : Valuation τ sig (Elt F)) (b : Ref sig .tc) (hb : Kept b) :
    StableHlo.after (hostOps1_18 : List (HloOp τ sig (Elt F))) W (Proc.devRef .tc b) = W (Proc.devRef .tc b) := by
  rcases hb with rfl | rfl | rfl | rfl | rfl <;>
  exact StableHlo.after_of_forall_not_mem (b := Proc.devRef .tc _) _ _ (List.forall_iff_forall_mem.mp (by
    simp only [hostOps1_18, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Keeps

end
-- ==== Proof.KI.Run.lean ====
/-
  The run of the whole program: @main is a stretch of three constants, the decoder's region, nineteen stretches
  of host operations (the index arithmetic of the bilinear sampling, ending in the two selection matrices), and the
  gather's region. The buffer contents at each boundary are a fold from the launch memory: a stretch applies its
  operations, a region leaves its windows' arrays at what its write-backs folded and every other buffer as entered.
  No host operation and no region writes an argument array, and nothing after the first region writes its result,
  so the final memory holds the arguments as launched, the first result at the first region's folded write-backs
  and the second result at the second region's.
-/
import proofs.«127700_j42417097016364_2_alg».proof.Proof.KI.Reg0
import proofs.«127700_j42417097016364_2_alg».proof.Proof.KI.Reg1
import proofs.«127700_j42417097016364_2_alg».proof.Proof.KI.Keeps

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.R0 Cert.KernelIdeal.R1 Cert.KernelIdeal.Keeps

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the three constants: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After each of the nineteen stretches between the regions, in order. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
abbrev W9 : Dev nD → Valuation τ sig (Elt F) := fun c => StableHlo.after hostOps1_6 (W8 m ρ c)
abbrev W10 : Dev nD → Valuation τ sig (Elt F) := fun c => StableHlo.after hostOps1_7 (W9 m ρ c)
abbrev W11 : Dev nD → Valuation τ sig (Elt F) := fun c => StableHlo.after hostOps1_8 (W10 m ρ c)
abbrev W12 : Dev nD → Valuation τ sig (Elt F) := fun c => StableHlo.after hostOps1_9 (W11 m ρ c)
abbrev W13 : Dev nD → Valuation τ sig (Elt F) := fun c => StableHlo.after hostOps1_10 (W12 m ρ c)
abbrev W14 : Dev nD → Valuation τ sig (Elt F) := fun c => StableHlo.after hostOps1_11 (W13 m ρ c)
abbrev W15 : Dev nD → Valuation τ sig (Elt F) := fun c => StableHlo.after hostOps1_12 (W14 m ρ c)
abbrev W16 : Dev nD → Valuation τ sig (Elt F) := fun c => StableHlo.after hostOps1_13 (W15 m ρ c)
abbrev W17 : Dev nD → Valuation τ sig (Elt F) := fun c => StableHlo.after hostOps1_14 (W16 m ρ c)
abbrev W18 : Dev nD → Valuation τ sig (Elt F) := fun c => StableHlo.after hostOps1_15 (W17 m ρ c)
abbrev W19 : Dev nD → Valuation τ sig (Elt F) := fun c => StableHlo.after hostOps1_16 (W18 m ρ c)
abbrev W20 : Dev nD → Valuation τ sig (Elt F) := fun c => StableHlo.after hostOps1_17 (W19 m ρ c)
abbrev W21 : Dev nD → Valuation τ sig (Elt F) := fun c => StableHlo.after hostOps1_18 (W20 m ρ c)
/-- The second region's entry contents, read at the TensorCore's references. -/
abbrev V21 : (c : Dev nD) → (b : Ref sig .tc) → Buf (Elt F) ((c : Thread nD τ).loc b) := fun c b => W21 m ρ c b
/-- At the second region's exit. -/
def W22 (c : Dev nD) : Valuation τ sig (Elt F) :=
  Pipeline.withArrays spec1 c (W21 m ρ c) fun w => (dat1 (V21 m ρ) c).arrAt w cfg1.N
theorem W22_arr (c : Dev nD) (w : Fin cfg1.W) :
    W22 m ρ c (Proc.devRef .tc (Pipeline.arrRef spec1 w)) = (dat1 (V21 m ρ) c).arrAt w cfg1.N := by
  unfold W22; exact Pipeline.withArrays_arr spec1 launch1.win.arr_inj c _ _ w
theorem W22_of_ne (c : Dev nD) (b : Ref sig .tc) (hb : ∀ w, Pipeline.arrRef spec1 w ≠ b) :
    W22 m ρ c (Proc.devRef .tc b) = W21 m ρ c (Proc.devRef .tc b) := by
  unfold W22; exact Pipeline.withArrays_of_ne spec1 c _ _ b hb
abbrev V22 : (c : Dev nD) → (b : Ref sig .tc) → Buf (Elt F) ((c : Thread nD τ).loc b) := fun c b => W22 m ρ c b
theorem hF1 (c : Dev nD) (w : Fin cfg1.W) : (dat1 (V21 m ρ) c).arrAt w cfg1.N = V22 m ρ c (Pipeline.arrRef spec1 w) :=
  (W22_arr m ρ c w).symm
theorem hrest1 (c : Dev nD) : ∀ b, b ∉ Finset.univ.image (Pipeline.arrRef spec1) → V22 m ρ c b = V21 m ρ c b :=
  fun b hb => W22_of_ne m ρ c b fun w e => hb (Finset.mem_image.mpr ⟨w, Finset.mem_univ _, e⟩)

/-! ## Nothing between the regions writes an argument or the first result -/

/-- The nineteen stretches leave the arguments and the first result as the first region left them. -/
theorem W21_kept (c : Dev nD) (b : Ref sig .tc) (hb : Kept b) : W21 m ρ c (Proc.devRef .tc b) = W2 m ρ c (Proc.devRef .tc b) :=
  calc W21 m ρ c (Proc.devRef .tc b)
    _ = W20 m ρ c (Proc.devRef .tc b) := hostOps1_18_keeps _ b hb
    _ = W19 m ρ c (Proc.devRef .tc b) := hostOps1_17_keeps _ b hb
    _ = W18 m ρ c (Proc.devRef .tc b) := hostOps1_16_keeps _ b hb
    _ = W17 m ρ c (Proc.devRef .tc b) := hostOps1_15_keeps _ b hb
    _ = W16 m ρ c (Proc.devRef .tc b) := hostOps1_14_keeps _ b hb
    _ = W15 m ρ c (Proc.devRef .tc b) := hostOps1_13_keeps _ b hb
    _ = W14 m ρ c (Proc.devRef .tc b) := hostOps1_12_keeps _ b hb
    _ = W13 m ρ c (Proc.devRef .tc b) := hostOps1_11_keeps _ b hb
    _ = W12 m ρ c (Proc.devRef .tc b) := hostOps1_10_keeps _ b hb
    _ = W11 m ρ c (Proc.devRef .tc b) := hostOps1_9_keeps _ b hb
    _ = W10 m ρ c (Proc.devRef .tc b) := hostOps1_8_keeps _ b hb
    _ = W9 m ρ c (Proc.devRef .tc b) := hostOps1_7_keeps _ b hb
    _ = W8 m ρ c (Proc.devRef .tc b) := hostOps1_6_keeps _ b hb
    _ = W7 m ρ c (Proc.devRef .tc b) := hostOps1_5_keeps _ b hb
    _ = W6 m ρ c (Proc.devRef .tc b) := hostOps1_4_keeps _ b hb
    _ = W5 m ρ c (Proc.devRef .tc b) := hostOps1_3_keeps _ b hb
    _ = W4 m ρ c (Proc.devRef .tc b) := hostOps1_2_keeps _ b hb
    _ = W3 m ρ c (Proc.devRef .tc b) := hostOps1_1_keeps _ b hb
    _ = W2 m ρ c (Proc.devRef .tc b) := hostOps1_keeps _ b hb

theorem W1_kept (c : Dev nD) (b : Ref sig .tc) (hb : Kept b) : W1 m ρ c (Proc.devRef .tc b) = W0 m ρ c (Proc.devRef .tc b) :=
  hostOps0_keeps _ b hb

theorem W22_main_arg0 (c : Dev nD) : W22 m ρ c (Proc.devRef .tc main_arg0) = m ((c : Thread nD τ).loc main_arg0) :=
  calc W22 m ρ c (Proc.devRef .tc main_arg0)
    _ = W21 m ρ c (Proc.devRef .tc main_arg0) := W22_of_ne m ρ c main_arg0 (by decide)
    _ = W2 m ρ c (Proc.devRef .tc main_arg0) := W21_kept m ρ c main_arg0 (Or.inl rfl)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_kept m ρ c main_arg0 (Or.inl rfl)
    _ = m ((c : Thread nD τ).loc main_arg0) := rfl

theorem W22_main_arg1 (c : Dev nD) : W22 m ρ c (Proc.devRef .tc main_arg1) = m ((c : Thread nD τ).loc main_arg1) :=
  calc W22 m ρ c (Proc.devRef .tc main_arg1)
    _ = W21 m ρ c (Proc.devRef .tc main_arg1) := W22_of_ne m ρ c main_arg1 (by decide)
    _ = W2 m ρ c (Proc.devRef .tc main_arg1) := W21_kept m ρ c main_arg1 (Or.inr (Or.inl rfl))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_kept m ρ c main_arg1 (Or.inr (Or.inl rfl))
    _ = m ((c : Thread nD τ).loc main_arg1) := rfl

theorem W22_main_arg2 (c : Dev nD) : W22 m ρ c (Proc.devRef .tc main_arg2) = m ((c : Thread nD τ).loc main_arg2) :=
  calc W22 m ρ c (Proc.devRef .tc main_arg2)
    _ = W21 m ρ c (Proc.devRef .tc main_arg2) := (W22_arr m ρ c 0).trans (((dat1 (V21 m ρ) c).arrAt_in 0 rfl _).trans (A_eq1 (V21 m ρ) c 0))
    _ = W2 m ρ c (Proc.devRef .tc main_arg2) := W21_kept m ρ c main_arg2 (Or.inr (Or.inr (Or.inl rfl)))
    _ = W1 m ρ c (Proc.devRef .tc main_arg2) := W2_of_ne m ρ c main_arg2 (by decide)
    _ = W0 m ρ c (Proc.devRef .tc main_arg2) := W1_kept m ρ c main_arg2 (Or.inr (Or.inr (Or.inl rfl)))
    _ = m ((c : Thread nD τ).loc main_arg2) := rfl

theorem W22_main_arg3 (c : Dev nD) : W22 m ρ c (Proc.devRef .tc main_arg3) = m ((c : Thread nD τ).loc main_arg3) :=
  calc W22 m ρ c (Proc.devRef .tc main_arg3)
    _ = W21 m ρ c (Proc.devRef .tc main_arg3) := W22_of_ne m ρ c main_arg3 (by decide)
    _ = W2 m ρ c (Proc.devRef .tc main_arg3) := W21_kept m ρ c main_arg3 (Or.inr (Or.inr (Or.inr (Or.inl rfl))))
    _ = W1 m ρ c (Proc.devRef .tc main_arg3) := W2_of_ne m ρ c main_arg3 (by decide)
    _ = W0 m ρ c (Proc.devRef .tc main_arg3) := W1_kept m ρ c main_arg3 (Or.inr (Or.inr (Or.inr (Or.inl rfl))))
    _ = m ((c : Thread nD τ).loc main_arg3) := rfl

/-- The first result ends at what the first region's write-backs folded. -/
theorem W22_main_v0 (c : Dev nD) : W22 m ρ c (Proc.devRef .tc main_v0) = (dat0 (V1 m ρ) c).arrAt 2 cfg0.N :=
  calc W22 m ρ c (Proc.devRef .tc main_v0)
    _ = W21 m ρ c (Proc.devRef .tc main_v0) := W22_of_ne m ρ c main_v0 (by decide)
    _ = W2 m ρ c (Proc.devRef .tc main_v0) := W21_kept m ρ c main_v0 (Or.inr (Or.inr (Or.inr (Or.inr rfl))))
    _ = (dat0 (V1 m ρ) c).arrAt 2 cfg0.N := W2_arr m ρ c 2

/-- The second result ends at what the second region's write-backs folded. -/
theorem W22_main_v129 (c : Dev nD) : W22 m ρ c (Proc.devRef .tc main_v129) = (dat1 (V21 m ρ) c).arrAt 3 cfg1.N :=
  W22_arr m ρ c 3

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V21 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W22 m ρ c) ∗ ∃ r, prngReg c r)

/-! ## The regions as segments -/

set_option backward.isDefEq.respectTransparency.types false in
/-- The decoder's region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather's region over the thread state: entered from every unscoped buffer at `W21`, left at `W22`. Its
    invariant carries the accumulator scratch: at the first point it is made from the scoped buffers the launch
    hands over, and after the last point it gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V21 m ρ) c).loose
  hwaits := Pipeline.hwaits_of_owed_zero _ _ _ _ L lv 1 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V21 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V21 m ρ) c).Φ 0 from rfl]
    refine .trans ?_ (hin1 (V21 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V21 m ρ) c).Φ (Fin.last cfg1.N) from rfl]
    refine (hout1 (V21 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V21 m ρ c) (V22 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .host (hseg hostOps1_9 hostOps1_9_sub hostOps1_9_fresh (W11 m ρ)),
    .host (hseg hostOps1_10 hostOps1_10_sub hostOps1_10_fresh (W12 m ρ)),
    .host (hseg hostOps1_11 hostOps1_11_sub hostOps1_11_fresh (W13 m ρ)),
    .host (hseg hostOps1_12 hostOps1_12_sub hostOps1_12_fresh (W14 m ρ)),
    .host (hseg hostOps1_13 hostOps1_13_sub hostOps1_13_fresh (W15 m ρ)),
    .host (hseg hostOps1_14 hostOps1_14_sub hostOps1_14_fresh (W16 m ρ)),
    .host (hseg hostOps1_15 hostOps1_15_sub hostOps1_15_fresh (W17 m ρ)),
    .host (hseg hostOps1_16 hostOps1_16_sub hostOps1_16_fresh (W18 m ρ)),
    .host (hseg hostOps1_17 hostOps1_17_sub hostOps1_17_fresh (W19 m ρ)),
    .host (hseg hostOps1_18 hostOps1_18_sub hostOps1_18_fresh (W20 m ρ)),
    .region (reg1 m ρ) ]

/-- @main is the run of the segments. -/
theorem main_run (c : Dev nD) : main (F := F) c = Pipeline.Seg.run (segs m ρ) := (main_chain c).trans (by chain_rfl)

/-- What the final memory holds on core `c`: the two results at the regions' folded write-backs, the arguments as
    launched. -/
def Post (r : PUnit × MemSt nD τ sig (Elt F)) : Prop := ∀ c : Dev nD,
  r.2.mem ((c.tc : Thread nD τ).loc main_v0) = (dat0 (V1 m ρ) c).arrAt 2 cfg0.N
  ∧ r.2.mem ((c.tc : Thread nD τ).loc main_v129) = (dat1 (V21 m ρ) c).arrAt 3 cfg1.N
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

set_option backward.isDefEq.respectTransparency.types false in
/-- Every weakly fair execution of @main terminates, nothing faulting, in a memory satisfying `Post`. -/
theorem run_main : θ_run defs (onTc (τ := τ) (main (F := F))) ⟨m, fun _ => 0, ρ⟩ (Post m ρ) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨(h c _ (mem_uc main_v0 (by decide))).trans (W22_main_v0 m ρ c),
       (h c _ (mem_uc main_v129 (by decide))).trans (W22_main_v129 m ρ c),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2.2) (run_main m ρ)

end Cert.KernelIdeal.Run

end
-- ==== Proof.Ref.Ops0.lean ====
/- A call of a module-local function is listed as the callee's own operations over that call's buffers
   (the inliner's substitution: the callee's argument is the caller's buffer, each value of its body the
   buffer the call's record names). Every operation writes exactly one buffer, its result, and no two
   operations of the program write the same one; `ops_part0_W` lists the buffers written here. -/
import proofs.«127700_j42417097016364_2_alg».proof.Proof.Gen.ReferenceIdeal
import Idealize.ShloMosaic.Lib.StableHlo.Run

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 0's 64 operations, in order. -/
abbrev ops_part0 : List (HloOp τ sig (Elt F)) :=
  [ nullary main_cst (fun i => FloatOps.ofBits .f32 (lit0 (S2.rowMajor i))),
    nullary main_cst_0 (constant S2 .f32 0x3D4CCCCD#32),
    nullary main_cst_1 (fun i => FloatOps.ofBits .f32 (lit1 (S2.rowMajor i))),
    unary main_arg0 main_v0 ((extractStridedSlice S4x211200x3 ![0, 0, 0] · slices_S4x211200x7_S4x211200x3_0_0_0) : (⟨S4x211200x7, .f32⟩ : BufTy).Contents (Elt F) → (⟨S4x211200x3, .f32⟩ : BufTy).Contents (Elt F)),
    unary main_arg0 main_v1 ((extractStridedSlice S4x211200x3 ![0, 0, 3] · slices_S4x211200x7_S4x211200x3_0_0_3) : (⟨S4x211200x7, .f32⟩ : BufTy).Contents (Elt F) → (⟨S4x211200x3, .f32⟩ : BufTy).Contents (Elt F)),
    unary main_arg0 main_v2 ((extractStridedSlice S4x211200x1 ![0, 0, 6] · slices_S4x211200x7_S4x211200x1_0_0_6) : (⟨S4x211200x7, .f32⟩ : BufTy).Contents (Elt F) → (⟨S4x211200x1, .f32⟩ : BufTy).Contents (Elt F)),
    unary main_arg1 main_v3 ((extractStridedSlice S4x211200x3 ![0, 0, 0] · slices_S4x211200x7_S4x211200x3_0_0_0) : (⟨S4x211200x7, .f32⟩ : BufTy).Contents (Elt F) → (⟨S4x211200x3, .f32⟩ : BufTy).Contents (Elt F)),
    unary main_arg1 main_v4 ((extractStridedSlice S4x211200x3 ![0, 0, 3] · slices_S4x211200x7_S4x211200x3_0_0_3) : (⟨S4x211200x7, .f32⟩ : BufTy).Contents (Elt F) → (⟨S4x211200x3, .f32⟩ : BufTy).Contents (Elt F)),
    unary main_arg1 main_v5 ((extractStridedSlice S4x211200x1 ![0, 0, 6] · slices_S4x211200x7_S4x211200x1_0_0_6) : (⟨S4x211200x7, .f32⟩ : BufTy).Contents (Elt F) → (⟨S4x211200x1, .f32⟩ : BufTy).Contents (Elt F)),
    unary main_v4 main_v6 ((extractStridedSlice S4x211200x2 ![0, 0, 0] · slices_S4x211200x3_S4x211200x2_0_0_0) : (⟨S4x211200x3, .f32⟩ : BufTy).Contents (Elt F) → (⟨S4x211200x2, .f32⟩ : BufTy).Contents (Elt F)),
    unary main_v4 main_v7 ((extractStridedSlice S4x211200x1 ![0, 0, 2] · slices_S4x211200x3_S4x211200x1_0_0_2) : (⟨S4x211200x3, .f32⟩ : BufTy).Contents (Elt F) → (⟨S4x211200x1, .f32⟩ : BufTy).Contents (Elt F)),
    binary main_v6 main_v6 main_call0_v0 (mulf : (⟨S4x211200x2, .f32⟩ : BufTy).Contents (Elt F) → (⟨S4x211200x2, .f32⟩ : BufTy).Contents (Elt F) → (⟨S4x211200x2, .f32⟩ : BufTy).Contents (Elt F)),
    nullary main_call0_cst (constant S_ .f32 0x00000000#32),
    binary main_call0_v0 main_call0_cst main_call0_v1 ((fun x v => Host.reduceAdd x v reducesTo_S4x211200x2_S4x211200_d2 h_S_) : (⟨S4x211200x2, .f32⟩ : BufTy).Contents (Elt F) → (⟨S_, .f32⟩ : BufTy).Contents (Elt F) → (⟨S4x211200, .f32⟩ : BufTy).Contents (Elt F)),
    unary main_call0_v1 main_call0_v2 (broadcastInDim S4x211200x1 ![0, 1] bcast_S4x211200_S4x211200x1_0_1 : (⟨S4x211200, .f32⟩ : BufTy).Contents (Elt F) → (⟨S4x211200x1, .f32⟩ : BufTy).Contents (Elt F)),
    unary main_call0_v2 main_v8 (Host.sqrt : (⟨S4x211200x1, .f32⟩ : BufTy).Contents (Elt F) → (⟨S4x211200x1, .f32⟩ : BufTy).Contents (Elt F)),
    nary ![main_v8, main_v8, main_v7] main_v9 (fun u => concatenate S4x211200x3 2 [⟨S4x211200x1, u 0⟩, ⟨S4x211200x1, u 1⟩, ⟨S4x211200x1, u 2⟩] concatenates_S4x211200x1_S4x211200x1_S4x211200x1_S4x211200x3_d2),
    binary main_v0 main_v9 main_v10 (mulf : (⟨S4x211200x3, .f32⟩ : BufTy).Contents (Elt F) → (⟨S4x211200x3, .f32⟩ : BufTy).Contents (Elt F) → (⟨S4x211200x3, .f32⟩ : BufTy).Contents (Elt F)),
    binary main_v10 main_v3 main_v11 (addf : (⟨S4x211200x3, .f32⟩ : BufTy).Contents (Elt F) → (⟨S4x211200x3, .f32⟩ : BufTy).Contents (Elt F) → (⟨S4x211200x3, .f32⟩ : BufTy).Contents (Elt F)),
    unary main_v1 main_v12 (Host.exp : (⟨S4x211200x3, .f32⟩ : BufTy).Contents (Elt F) → (⟨S4x211200x3, .f32⟩ : BufTy).Contents (Elt F)),
    binary main_v12 main_v4 main_v13 (mulf : (⟨S4x211200x3, .f32⟩ : BufTy).Contents (Elt F) → (⟨S4x211200x3, .f32⟩ : BufTy).Contents (Elt F) → (⟨S4x211200x3, .f32⟩ : BufTy).Contents (Elt F)),
    binary main_v2 main_v5 main_v14 (addf : (⟨S4x211200x1, .f32⟩ : BufTy).Contents (Elt F) → (⟨S4x211200x1, .f32⟩ : BufTy).Contents (Elt F) → (⟨S4x211200x1, .f32⟩ : BufTy).Contents (Elt F)),
    nary ![main_v11, main_v13, main_v14] main_v15 (fun u => concatenate S4x211200x7 2 [⟨S4x211200x3, u 0⟩, ⟨S4x211200x3, u 1⟩, ⟨S4x211200x1, u 2⟩] concatenates_S4x211200x3_S4x211200x3_S4x211200x1_S4x211200x7_d2),
    unary main_arg3 main_v16 ((extractStridedSlice S4x4096x2 ![0, 0, 0] · slices_S4x4096x3_S4x4096x2_0_0_0) : (⟨S4x4096x3, .f32⟩ : BufTy).Contents (Elt F) → (⟨S4x4096x2, .f32⟩ : BufTy).Contents (Elt F)),
    unary main_v16 main_v17 (broadcastInDim S4x1x4096x2 ![0, 2, 3] bcast_S4x4096x2_S4x1x4096x2_0_2_3 : (⟨S4x4096x2, .f32⟩ : BufTy).Contents (Elt F) → (⟨S4x1x4096x2, .f32⟩ : BufTy).Contents (Elt F)),
    unary main_cst main_v18 (broadcastInDim S1x1x1x2 ![3] bcast_S2_S1x1x1x2_3 : (⟨S2, .f32⟩ : BufTy).Contents (Elt F) → (⟨S1x1x1x2, .f32⟩ : BufTy).Contents (Elt F)),
    unary main_v18 main_v19 (broadcastInDim S4x1x4096x2 ![0, 1, 2, 3] bcast_S1x1x1x2_S4x1x4096x2_0_1_2_3 : (⟨S1x1x1x2, .f32⟩ : BufTy).Contents (Elt F) → (⟨S4x1x4096x2, .f32⟩ : BufTy).Contents (Elt F)),
    binary main_v17 main_v19 main_v20 (subf : (⟨S4x1x4096x2, .f32⟩ : BufTy).Contents (Elt F) → (⟨S4x1x4096x2, .f32⟩ : BufTy).Contents (Elt F) → (⟨S4x1x4096x2, .f32⟩ : BufTy).Contents (Elt F)),
    nullary main_cst_2 (constant S_ .f32 0x41000000#32),
    unary main_cst_2 main_v21 (broadcastInDim S2 ![] bcast_S_S2 : (⟨S_, .f32⟩ : BufTy).Contents (Elt F) → (⟨S2, .f32⟩ : BufTy).Contents (Elt F)),
    binary main_cst_0 main_v21 main_v22 (mulf : (⟨S2, .f32⟩ : BufTy).Contents (Elt F) → (⟨S2, .f32⟩ : BufTy).Contents (Elt F) → (⟨S2, .f32⟩ : BufTy).Contents (Elt F)),
    unary main_v22 main_v23 (broadcastInDim S1x1x1x2 ![3] bcast_S2_S1x1x1x2_3 : (⟨S2, .f32⟩ : BufTy).Contents (Elt F) → (⟨S1x1x1x2, .f32⟩ : BufTy).Contents (Elt F)),
    unary main_v23 main_v24 (broadcastInDim S4x1x4096x2 ![0, 1, 2, 3] bcast_S1x1x1x2_S4x1x4096x2_0_1_2_3 : (⟨S1x1x1x2, .f32⟩ : BufTy).Contents (Elt F) → (⟨S4x1x4096x2, .f32⟩ : BufTy).Contents (Elt F)),
    binary main_v20 main_v24 main_v25 (Host.divf : (⟨S4x1x4096x2, .f32⟩ : BufTy).Contents (Elt F) → (⟨S4x1x4096x2, .f32⟩ : BufTy).Contents (Elt F) → (⟨S4x1x4096x2, .f32⟩ : BufTy).Contents (Elt F)),
    nullary main_cst_3 (constant S_ .f32 0x00000000#32),
    unary main_cst_3 main_v26 (broadcastInDim S4x1x4096x2 ![] bcast_S_S4x1x4096x2 : (⟨S_, .f32⟩ : BufTy).Contents (Elt F) → (⟨S4x1x4096x2, .f32⟩ : BufTy).Contents (Elt F)),
    binary main_v25 main_v26 main_v27 (maximumf : (⟨S4x1x4096x2, .f32⟩ : BufTy).Contents (Elt F) → (⟨S4x1x4096x2, .f32⟩ : BufTy).Contents (Elt F) → (⟨S4x1x4096x2, .f32⟩ : BufTy).Contents (Elt F)),
    unary main_cst_1 main_v28 (broadcastInDim S1x1x1x2 ![3] bcast_S2_S1x1x1x2_3 : (⟨S2, .f32⟩ : BufTy).Contents (Elt F) → (⟨S1x1x1x2, .f32⟩ : BufTy).Contents (Elt F)),
    unary main_v28 main_v29 (broadcastInDim S4x1x4096x2 ![0, 1, 2, 3] bcast_S1x1x1x2_S4x1x4096x2_0_1_2_3 : (⟨S1x1x1x2, .f32⟩ : BufTy).Contents (Elt F) → (⟨S4x1x4096x2, .f32⟩ : BufTy).Contents (Elt F)),
    binary main_v27 main_v29 main_v30 (minimumf : (⟨S4x1x4096x2, .f32⟩ : BufTy).Contents (Elt F) → (⟨S4x1x4096x2, .f32⟩ : BufTy).Contents (Elt F) → (⟨S4x1x4096x2, .f32⟩ : BufTy).Contents (Elt F)),
    nullary main_cst_4 (constant S_ .f32 0x3F800000#32),
    unary main_cst_4 main_v31 (broadcastInDim S2 ![] bcast_S_S2 : (⟨S_, .f32⟩ : BufTy).Contents (Elt F) → (⟨S2, .f32⟩ : BufTy).Contents (Elt F)),
    binary main_cst_1 main_v31 main_v32 (subf : (⟨S2, .f32⟩ : BufTy).Contents (Elt F) → (⟨S2, .f32⟩ : BufTy).Contents (Elt F) → (⟨S2, .f32⟩ : BufTy).Contents (Elt F)),
    unary main_v32 main_v33 (broadcastInDim S1x1x1x2 ![3] bcast_S2_S1x1x1x2_3 : (⟨S2, .f32⟩ : BufTy).Contents (Elt F) → (⟨S1x1x1x2, .f32⟩ : BufTy).Contents (Elt F)),
    unary main_v33 main_v34 (broadcastInDim S4x1x4096x2 ![0, 1, 2, 3] bcast_S1x1x1x2_S4x1x4096x2_0_1_2_3 : (⟨S1x1x1x2, .f32⟩ : BufTy).Contents (Elt F) → (⟨S4x1x4096x2, .f32⟩ : BufTy).Contents (Elt F)),
    binary main_v30 main_v34 main_v35 (Host.divf : (⟨S4x1x4096x2, .f32⟩ : BufTy).Contents (Elt F) → (⟨S4x1x4096x2, .f32⟩ : BufTy).Contents (Elt F) → (⟨S4x1x4096x2, .f32⟩ : BufTy).Contents (Elt F)),
    nullary main_cst_5 (constant S_ .f32 0x40000000#32),
    unary main_cst_5 main_v36 (broadcastInDim S4x1x4096x2 ![] bcast_S_S4x1x4096x2 : (⟨S_, .f32⟩ : BufTy).Contents (Elt F) → (⟨S4x1x4096x2, .f32⟩ : BufTy).Contents (Elt F)),
    binary main_v36 main_v35 main_v37 (mulf : (⟨S4x1x4096x2, .f32⟩ : BufTy).Contents (Elt F) → (⟨S4x1x4096x2, .f32⟩ : BufTy).Contents (Elt F) → (⟨S4x1x4096x2, .f32⟩ : BufTy).Contents (Elt F)),
    nullary main_cst_6 (constant S_ .f32 0x3F800000#32),
    unary main_cst_6 main_v38 (broadcastInDim S4x1x4096x2 ![] bcast_S_S4x1x4096x2 : (⟨S_, .f32⟩ : BufTy).Contents (Elt F) → (⟨S4x1x4096x2, .f32⟩ : BufTy).Contents (Elt F)),
    binary main_v37 main_v38 main_v39 (subf : (⟨S4x1x4096x2, .f32⟩ : BufTy).Contents (Elt F) → (⟨S4x1x4096x2, .f32⟩ : BufTy).Contents (Elt F) → (⟨S4x1x4096x2, .f32⟩ : BufTy).Contents (Elt F)),
    unary main_v39 main_v40 (Host.reverse [3] : (⟨S4x1x4096x2, .f32⟩ : BufTy).Contents (Elt F) → (⟨S4x1x4096x2, .f32⟩ : BufTy).Contents (Elt F)),
    unary main_v40 main_v41 ((extractStridedSlice S4x1x4096x1 ![0, 0, 0, 0] · slices_S4x1x4096x2_S4x1x4096x1_0_0_0_0) : (⟨S4x1x4096x2, .f32⟩ : BufTy).Contents (Elt F) → (⟨S4x1x4096x1, .f32⟩ : BufTy).Contents (Elt F)),
    reshape main_v41 main_v42 rfl shapeCasts_S4x1x4096x1_S4x1x4096,
    nullary main_cst_7 (constant S_ .f32 0x3F800000#32),
    unary main_cst_7 main_v43 (broadcastInDim S4x1x4096 ![] bcast_S_S4x1x4096 : (⟨S_, .f32⟩ : BufTy).Contents (Elt F) → (⟨S4x1x4096, .f32⟩ : BufTy).Contents (Elt F)),
    binary main_v42 main_v43 main_v44 (addf : (⟨S4x1x4096, .f32⟩ : BufTy).Contents (Elt F) → (⟨S4x1x4096, .f32⟩ : BufTy).Contents (Elt F) → (⟨S4x1x4096, .f32⟩ : BufTy).Contents (Elt F)),
    nullary main_cst_8 (constant S_ .f32 0x3F000000#32),
    unary main_cst_8 main_v45 (broadcastInDim S4x1x4096 ![] bcast_S_S4x1x4096 : (⟨S_, .f32⟩ : BufTy).Contents (Elt F) → (⟨S4x1x4096, .f32⟩ : BufTy).Contents (Elt F)),
    binary main_v44 main_v45 main_v46 (mulf : (⟨S4x1x4096, .f32⟩ : BufTy).Contents (Elt F) → (⟨S4x1x4096, .f32⟩ : BufTy).Contents (Elt F) → (⟨S4x1x4096, .f32⟩ : BufTy).Contents (Elt F)),
    nullary main_cst_9 (constant S_ .f32 0x432F0000#32),
    unary main_cst_9 main_v47 (broadcastInDim S4x1x4096 ![] bcast_S_S4x1x4096 : (⟨S_, .f32⟩ : BufTy).Contents (Elt F) → (⟨S4x1x4096, .f32⟩ : BufTy).Contents (Elt F)),
    binary main_v46 main_v47 main_v48 (mulf : (⟨S4x1x4096, .f32⟩ : BufTy).Contents (Elt F) → (⟨S4x1x4096, .f32⟩ : BufTy).Contents (Elt F) → (⟨S4x1x4096, .f32⟩ : BufTy).Contents (Elt F)) ]

set_option maxRecDepth 8192 in
set_option maxHeartbeats 4000000 in
/-- The window is that line: both sides are one chain of `hlo` steps once the callees' bodies are unfolded at
    their calls and sequencing is reassociated; a typed reference built from a literal one carries the
    identity transport, so the callee's operation over it is the plain operation over the buffer. -/
theorem main_part0_eq (c : Dev nD) : main_part0 (F := F) c = seq ops_part0 := by
  simp only [main_part0, fn_norm.body, fn_flip.body, seq, bind_assoc, pure_bind]
  rfl

set_option maxRecDepth 8192 in
/-- Every operation of the window touches TensorCore references only. -/
theorem ops_part0_sub : (ops_part0 : List (HloOp τ sig (Elt F))).Forall fun op => op.bufs ⊆ tcRefs τ sig :=
  ⟨nullary_bufs_sub .., nullary_bufs_sub .., nullary_bufs_sub .., unary_bufs_sub .., unary_bufs_sub .., unary_bufs_sub .., unary_bufs_sub .., unary_bufs_sub .., unary_bufs_sub .., unary_bufs_sub .., unary_bufs_sub .., binary_bufs_sub .., nullary_bufs_sub .., binary_bufs_sub .., unary_bufs_sub .., unary_bufs_sub .., nary_bufs_sub .., binary_bufs_sub .., binary_bufs_sub .., unary_bufs_sub .., binary_bufs_sub .., binary_bufs_sub .., nary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
/-- Every operation of the window determines the contents of what it writes. -/
theorem ops_part0_fresh : ∀ op ∈ (ops_part0 : List (HloOp τ sig (Elt F))), op.fresh = ∅ := by
  intro _ h; (repeat (cases h with | head => rfl | tail _ h => ?_)); exact nomatch h

/-- The buffers the window's operations write, in order. -/
abbrev ops_part0_W : List (Ref sig .tc) := [main_cst, main_cst_0, main_cst_1, main_v0, main_v1, main_v2, main_v3, main_v4, main_v5, main_v6, main_v7, main_call0_v0, main_call0_cst, main_call0_v1, main_call0_v2, main_v8, main_v9, main_v10, main_v11, main_v12, main_v13, main_v14, main_v15, main_v16, main_v17, main_v18, main_v19, main_v20, main_cst_2, main_v21, main_v22, main_v23, main_v24, main_v25, main_cst_3, main_v26, main_v27, main_v28, main_v29, main_v30, main_cst_4, main_v31, main_v32, main_v33, main_v34, main_v35, main_cst_5, main_v36, main_v37, main_cst_6, main_v38, main_v39, main_v40, main_v41, main_v42, main_cst_7, main_v43, main_v44, main_cst_8, main_v45, main_v46, main_cst_9, main_v47, main_v48]

set_option maxRecDepth 8192 in
/-- Each operation writes only the buffer listed for it. -/
theorem ops_part0_writes : (ops_part0 : List (HloOp τ sig (Elt F))).Forall fun op => op.writes ⊆ (ops_part0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
       Finset.singleton_subset_iff, List.mem_toFinset]; exact List.mem_map_of_mem (by decide))

/-- A buffer the window does not write keeps its contents through it. -/
theorem ops_part0_keep (V : Valuation τ sig (Elt F)) (r : Ref sig .tc) (h : r ∉ ops_part0_W) :
    after (ops_part0 (F := F)) V (Proc.devRef .tc r) = V (Proc.devRef .tc r) :=
  after_of_writes_sub ops_part0 V ops_part0_writes h

end Cert.ReferenceIdeal.HandRun

end
-- ==== Proof.Ref.Ops1.lean ====
/- A call of a module-local function is listed as the callee's own operations over that call's buffers
   (the inliner's substitution: the callee's argument is the caller's buffer, each value of its body the
   buffer the call's record names). Every operation writes exactly one buffer, its result, and no two
   operations of the program write the same one; `ops_part1_W` lists the buffers written here. -/
import proofs.«127700_j42417097016364_2_alg».proof.Proof.Gen.ReferenceIdeal
import Idealize.ShloMosaic.Lib.StableHlo.Run

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 1's 70 operations, in order. -/
abbrev ops_part1 : List (HloOp τ sig (Elt F)) :=
  [ unary main_v40 main_v49 ((extractStridedSlice S4x1x4096x1 ![0, 0, 0, 1] · slices_S4x1x4096x2_S4x1x4096x1_0_0_0_1) : (⟨S4x1x4096x2, .f32⟩ : BufTy).Contents (Elt F) → (⟨S4x1x4096x1, .f32⟩ : BufTy).Contents (Elt F)),
    reshape main_v49 main_v50 rfl shapeCasts_S4x1x4096x1_S4x1x4096,
    nullary main_cst_10 (constant S_ .f32 0x3F800000#32),
    unary main_cst_10 main_v51 (broadcastInDim S4x1x4096 ![] bcast_S_S4x1x4096 : (⟨S_, .f32⟩ : BufTy).Contents (Elt F) → (⟨S4x1x4096, .f32⟩ : BufTy).Contents (Elt F)),
    binary main_v50 main_v51 main_v52 (addf : (⟨S4x1x4096, .f32⟩ : BufTy).Contents (Elt F) → (⟨S4x1x4096, .f32⟩ : BufTy).Contents (Elt F) → (⟨S4x1x4096, .f32⟩ : BufTy).Contents (Elt F)),
    nullary main_cst_11 (constant S_ .f32 0x3F000000#32),
    unary main_cst_11 main_v53 (broadcastInDim S4x1x4096 ![] bcast_S_S4x1x4096 : (⟨S_, .f32⟩ : BufTy).Contents (Elt F) → (⟨S4x1x4096, .f32⟩ : BufTy).Contents (Elt F)),
    binary main_v52 main_v53 main_v54 (mulf : (⟨S4x1x4096, .f32⟩ : BufTy).Contents (Elt F) → (⟨S4x1x4096, .f32⟩ : BufTy).Contents (Elt F) → (⟨S4x1x4096, .f32⟩ : BufTy).Contents (Elt F)),
    nullary main_cst_12 (constant S_ .f32 0x43470000#32),
    unary main_cst_12 main_v55 (broadcastInDim S4x1x4096 ![] bcast_S_S4x1x4096 : (⟨S_, .f32⟩ : BufTy).Contents (Elt F) → (⟨S4x1x4096, .f32⟩ : BufTy).Contents (Elt F)),
    binary main_v54 main_v55 main_v56 (mulf : (⟨S4x1x4096, .f32⟩ : BufTy).Contents (Elt F) → (⟨S4x1x4096, .f32⟩ : BufTy).Contents (Elt F) → (⟨S4x1x4096, .f32⟩ : BufTy).Contents (Elt F)),
    unary main_v48 main_v57 (Host.floor : (⟨S4x1x4096, .f32⟩ : BufTy).Contents (Elt F) → (⟨S4x1x4096, .f32⟩ : BufTy).Contents (Elt F)),
    unary main_v56 main_v58 (Host.floor : (⟨S4x1x4096, .f32⟩ : BufTy).Contents (Elt F) → (⟨S4x1x4096, .f32⟩ : BufTy).Contents (Elt F)),
    binary main_v48 main_v57 main_v59 (subf : (⟨S4x1x4096, .f32⟩ : BufTy).Contents (Elt F) → (⟨S4x1x4096, .f32⟩ : BufTy).Contents (Elt F) → (⟨S4x1x4096, .f32⟩ : BufTy).Contents (Elt F)),
    binary main_v56 main_v58 main_v60 (subf : (⟨S4x1x4096, .f32⟩ : BufTy).Contents (Elt F) → (⟨S4x1x4096, .f32⟩ : BufTy).Contents (Elt F) → (⟨S4x1x4096, .f32⟩ : BufTy).Contents (Elt F)),
    nullary main_cst_13 (constant S_ .f32 0x00000000#32),
    unary main_cst_13 main_v61 (broadcastInDim S4x1x4096 ![] bcast_S_S4x1x4096 : (⟨S_, .f32⟩ : BufTy).Contents (Elt F) → (⟨S4x1x4096, .f32⟩ : BufTy).Contents (Elt F)),
    binary main_v57 main_v61 main_v62 (cmpf .oge : (⟨S4x1x4096, .f32⟩ : BufTy).Contents (Elt F) → (⟨S4x1x4096, .f32⟩ : BufTy).Contents (Elt F) → (⟨S4x1x4096, .i1⟩ : BufTy).Contents (Elt F)),
    nullary main_cst_14 (constant S_ .f32 0x432F0000#32),
    unary main_cst_14 main_v63 (broadcastInDim S4x1x4096 ![] bcast_S_S4x1x4096 : (⟨S_, .f32⟩ : BufTy).Contents (Elt F) → (⟨S4x1x4096, .f32⟩ : BufTy).Contents (Elt F)),
    binary main_v57 main_v63 main_v64 (cmpf .ole : (⟨S4x1x4096, .f32⟩ : BufTy).Contents (Elt F) → (⟨S4x1x4096, .f32⟩ : BufTy).Contents (Elt F) → (⟨S4x1x4096, .i1⟩ : BufTy).Contents (Elt F)),
    binary main_v62 main_v64 main_v65 (andi : (⟨S4x1x4096, .i1⟩ : BufTy).Contents (Elt F) → (⟨S4x1x4096, .i1⟩ : BufTy).Contents (Elt F) → (⟨S4x1x4096, .i1⟩ : BufTy).Contents (Elt F)),
    nullary main_cst_15 (constant S_ .f32 0x00000000#32),
    unary main_cst_15 main_v66 (broadcastInDim S4x1x4096 ![] bcast_S_S4x1x4096 : (⟨S_, .f32⟩ : BufTy).Contents (Elt F) → (⟨S4x1x4096, .f32⟩ : BufTy).Contents (Elt F)),
    binary main_v58 main_v66 main_v67 (cmpf .oge : (⟨S4x1x4096, .f32⟩ : BufTy).Contents (Elt F) → (⟨S4x1x4096, .f32⟩ : BufTy).Contents (Elt F) → (⟨S4x1x4096, .i1⟩ : BufTy).Contents (Elt F)),
    binary main_v65 main_v67 main_v68 (andi : (⟨S4x1x4096, .i1⟩ : BufTy).Contents (Elt F) → (⟨S4x1x4096, .i1⟩ : BufTy).Contents (Elt F) → (⟨S4x1x4096, .i1⟩ : BufTy).Contents (Elt F)),
    nullary main_cst_16 (constant S_ .f32 0x43470000#32),
    unary main_cst_16 main_v69 (broadcastInDim S4x1x4096 ![] bcast_S_S4x1x4096 : (⟨S_, .f32⟩ : BufTy).Contents (Elt F) → (⟨S4x1x4096, .f32⟩ : BufTy).Contents (Elt F)),
    binary main_v58 main_v69 main_v70 (cmpf .ole : (⟨S4x1x4096, .f32⟩ : BufTy).Contents (Elt F) → (⟨S4x1x4096, .f32⟩ : BufTy).Contents (Elt F) → (⟨S4x1x4096, .i1⟩ : BufTy).Contents (Elt F)),
    binary main_v68 main_v70 main_v71 (andi : (⟨S4x1x4096, .i1⟩ : BufTy).Contents (Elt F) → (⟨S4x1x4096, .i1⟩ : BufTy).Contents (Elt F) → (⟨S4x1x4096, .i1⟩ : BufTy).Contents (Elt F)),
    nullary main_c (constantI S_ 32 0#32),
    nullary main_c_17 (constantI S_ 32 175#32),
    unary main_c main_call2_v0 (sitofp .f32 : (⟨S_, .i32⟩ : BufTy).Contents (Elt F) → (⟨S_, .f32⟩ : BufTy).Contents (Elt F)),
    unary main_call2_v0 main_call2_v1 (broadcastInDim S4x1x4096 ![] bcast_S_S4x1x4096 : (⟨S_, .f32⟩ : BufTy).Contents (Elt F) → (⟨S4x1x4096, .f32⟩ : BufTy).Contents (Elt F)),
    binary main_call2_v1 main_v57 main_call2_v2 (maximumf : (⟨S4x1x4096, .f32⟩ : BufTy).Contents (Elt F) → (⟨S4x1x4096, .f32⟩ : BufTy).Contents (Elt F) → (⟨S4x1x4096, .f32⟩ : BufTy).Contents (Elt F)),
    unary main_c_17 main_call2_v3 (sitofp .f32 : (⟨S_, .i32⟩ : BufTy).Contents (Elt F) → (⟨S_, .f32⟩ : BufTy).Contents (Elt F)),
    unary main_call2_v3 main_call2_v4 (broadcastInDim S4x1x4096 ![] bcast_S_S4x1x4096 : (⟨S_, .f32⟩ : BufTy).Contents (Elt F) → (⟨S4x1x4096, .f32⟩ : BufTy).Contents (Elt F)),
    binary main_call2_v4 main_call2_v2 main_v72 (minimumf : (⟨S4x1x4096, .f32⟩ : BufTy).Contents (Elt F) → (⟨S4x1x4096, .f32⟩ : BufTy).Contents (Elt F) → (⟨S4x1x4096, .f32⟩ : BufTy).Contents (Elt F)),
    unary main_v72 main_v73 (fptosi 32 : (⟨S4x1x4096, .f32⟩ : BufTy).Contents (Elt F) → (⟨S4x1x4096, .i32⟩ : BufTy).Contents (Elt F)),
    nullary main_c_18 (constantI S_ 32 0#32),
    nullary main_c_19 (constantI S_ 32 199#32),
    unary main_c_18 main_call3_v0 (sitofp .f32 : (⟨S_, .i32⟩ : BufTy).Contents (Elt F) → (⟨S_, .f32⟩ : BufTy).Contents (Elt F)),
    unary main_call3_v0 main_call3_v1 (broadcastInDim S4x1x4096 ![] bcast_S_S4x1x4096 : (⟨S_, .f32⟩ : BufTy).Contents (Elt F) → (⟨S4x1x4096, .f32⟩ : BufTy).Contents (Elt F)),
    binary main_call3_v1 main_v58 main_call3_v2 (maximumf : (⟨S4x1x4096, .f32⟩ : BufTy).Contents (Elt F) → (⟨S4x1x4096, .f32⟩ : BufTy).Contents (Elt F) → (⟨S4x1x4096, .f32⟩ : BufTy).Contents (Elt F)),
    unary main_c_19 main_call3_v3 (sitofp .f32 : (⟨S_, .i32⟩ : BufTy).Contents (Elt F) → (⟨S_, .f32⟩ : BufTy).Contents (Elt F)),
    unary main_call3_v3 main_call3_v4 (broadcastInDim S4x1x4096 ![] bcast_S_S4x1x4096 : (⟨S_, .f32⟩ : BufTy).Contents (Elt F) → (⟨S4x1x4096, .f32⟩ : BufTy).Contents (Elt F)),
    binary main_call3_v4 main_call3_v2 main_v74 (minimumf : (⟨S4x1x4096, .f32⟩ : BufTy).Contents (Elt F) → (⟨S4x1x4096, .f32⟩ : BufTy).Contents (Elt F) → (⟨S4x1x4096, .f32⟩ : BufTy).Contents (Elt F)),
    unary main_v74 main_v75 (fptosi 32 : (⟨S4x1x4096, .f32⟩ : BufTy).Contents (Elt F) → (⟨S4x1x4096, .i32⟩ : BufTy).Contents (Elt F)),
    nullary main_c_20 (constantI S_ 32 0#32),
    unary main_c_20 main_v76 (broadcastInDim S4x1x4096 ![] bcast_S_S4x1x4096 : (⟨S_, .i32⟩ : BufTy).Contents (Elt F) → (⟨S4x1x4096, .i32⟩ : BufTy).Contents (Elt F)),
    binary main_v75 main_v76 main_v77 (cmpi .slt : (⟨S4x1x4096, .i32⟩ : BufTy).Contents (Elt F) → (⟨S4x1x4096, .i32⟩ : BufTy).Contents (Elt F) → (⟨S4x1x4096, .i1⟩ : BufTy).Contents (Elt F)),
    nullary main_c_21 (constantI S_ 32 200#32),
    unary main_c_21 main_v78 (broadcastInDim S4x1x4096 ![] bcast_S_S4x1x4096 : (⟨S_, .i32⟩ : BufTy).Contents (Elt F) → (⟨S4x1x4096, .i32⟩ : BufTy).Contents (Elt F)),
    binary main_v75 main_v78 main_v79 (addi : (⟨S4x1x4096, .i32⟩ : BufTy).Contents (Elt F) → (⟨S4x1x4096, .i32⟩ : BufTy).Contents (Elt F) → (⟨S4x1x4096, .i32⟩ : BufTy).Contents (Elt F)),
    ternary main_v77 main_v79 main_v75 main_v80 (select : (⟨S4x1x4096, .i1⟩ : BufTy).Contents (Elt F) → (⟨S4x1x4096, .i32⟩ : BufTy).Contents (Elt F) → (⟨S4x1x4096, .i32⟩ : BufTy).Contents (Elt F) → (⟨S4x1x4096, .i32⟩ : BufTy).Contents (Elt F)),
    nullary main_c_22 (constantI S_ 32 0#32),
    unary main_c_22 main_v81 (broadcastInDim S4x1x4096 ![] bcast_S_S4x1x4096 : (⟨S_, .i32⟩ : BufTy).Contents (Elt F) → (⟨S4x1x4096, .i32⟩ : BufTy).Contents (Elt F)),
    binary main_v73 main_v81 main_v82 (cmpi .slt : (⟨S4x1x4096, .i32⟩ : BufTy).Contents (Elt F) → (⟨S4x1x4096, .i32⟩ : BufTy).Contents (Elt F) → (⟨S4x1x4096, .i1⟩ : BufTy).Contents (Elt F)),
    nullary main_c_23 (constantI S_ 32 176#32),
    unary main_c_23 main_v83 (broadcastInDim S4x1x4096 ![] bcast_S_S4x1x4096 : (⟨S_, .i32⟩ : BufTy).Contents (Elt F) → (⟨S4x1x4096, .i32⟩ : BufTy).Contents (Elt F)),
    binary main_v73 main_v83 main_v84 (addi : (⟨S4x1x4096, .i32⟩ : BufTy).Contents (Elt F) → (⟨S4x1x4096, .i32⟩ : BufTy).Contents (Elt F) → (⟨S4x1x4096, .i32⟩ : BufTy).Contents (Elt F)),
    ternary main_v82 main_v84 main_v73 main_v85 (select : (⟨S4x1x4096, .i1⟩ : BufTy).Contents (Elt F) → (⟨S4x1x4096, .i32⟩ : BufTy).Contents (Elt F) → (⟨S4x1x4096, .i32⟩ : BufTy).Contents (Elt F) → (⟨S4x1x4096, .i32⟩ : BufTy).Contents (Elt F)),
    unary main_v80 main_v86 (broadcastInDim S4x1x4096x1 ![0, 1, 2] bcast_S4x1x4096_S4x1x4096x1_0_1_2 : (⟨S4x1x4096, .i32⟩ : BufTy).Contents (Elt F) → (⟨S4x1x4096x1, .i32⟩ : BufTy).Contents (Elt F)),
    unary main_v85 main_v87 (broadcastInDim S4x1x4096x1 ![0, 1, 2] bcast_S4x1x4096_S4x1x4096x1_0_1_2 : (⟨S4x1x4096, .i32⟩ : BufTy).Contents (Elt F) → (⟨S4x1x4096x1, .i32⟩ : BufTy).Contents (Elt F)),
    binary main_v86 main_v87 main_v88 ((fun a b => concatenate S4x1x4096x2 3 [⟨S4x1x4096x1, a⟩, ⟨S4x1x4096x1, b⟩] concatenates_S4x1x4096x1_S4x1x4096x1_S4x1x4096x2_d3) : (⟨S4x1x4096x1, .i32⟩ : BufTy).Contents (Elt F) → (⟨S4x1x4096x1, .i32⟩ : BufTy).Contents (Elt F) → (⟨S4x1x4096x2, .i32⟩ : BufTy).Contents (Elt F)),
    binary main_arg2 main_v88 main_v89 ((fun x i => Host.gather gather_S4x256x200x176_S4x1x4096x2_S4x256x1x4096_1_23_0_0_23_3_125611 x i) : (⟨S4x256x200x176, .f32⟩ : BufTy).Contents (Elt F) → (⟨S4x1x4096x2, .i32⟩ : BufTy).Contents (Elt F) → (⟨S4x256x1x4096, .f32⟩ : BufTy).Contents (Elt F)),
    unary main_v71 main_v90 (uitofp .f32 : (⟨S4x1x4096, .i1⟩ : BufTy).Contents (Elt F) → (⟨S4x1x4096, .f32⟩ : BufTy).Contents (Elt F)),
    unary main_v90 main_v91 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)),
    unary main_v91 main_v92 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v89 main_v92 main_v93 (mulf : (⟨S4x256x1x4096, .f32⟩ : BufTy).Contents (Elt F) → (⟨S4x256x1x4096, .f32⟩ : BufTy).Contents (Elt F) → (⟨S4x256x1x4096, .f32⟩ : BufTy).Contents (Elt F)) ]

set_option maxRecDepth 8192 in
set_option maxHeartbeats 4000000 in
/-- The window is that line: both sides are one chain of `hlo` steps once the callees' bodies are unfolded at
    their calls and sequencing is reassociated; a typed reference built from a literal one carries the
    identity transport, so the callee's operation over it is the plain operation over the buffer. -/
theorem main_part1_eq (c : Dev nD) : main_part1 (F := F) c = seq ops_part1 := by
  simp only [main_part1, fn_clip.body, seq, bind_assoc, pure_bind]
  rfl

set_option maxRecDepth 8192 in
/-- Every operation of the window touches TensorCore references only. -/
theorem ops_part1_sub : (ops_part1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub ..⟩

set_option maxRecDepth 8192 in
/-- Every operation of the window determines the contents of what it writes. -/
theorem ops_part1_fresh : ∀ op ∈ (ops_part1 : List (HloOp τ sig (Elt F))), op.fresh = ∅ := by
  intro _ h; (repeat (cases h with | head => rfl | tail _ h => ?_)); exact nomatch h

/-- The buffers the window's operations write, in order. -/
abbrev ops_part1_W : List (Ref sig .tc) := [main_v49, main_v50, main_cst_10, main_v51, main_v52, main_cst_11, main_v53, main_v54, main_cst_12, main_v55, main_v56, main_v57, main_v58, main_v59, main_v60, main_cst_13, main_v61, main_v62, main_cst_14, main_v63, main_v64, main_v65, main_cst_15, main_v66, main_v67, main_v68, main_cst_16, main_v69, main_v70, main_v71, main_c, main_c_17, main_call2_v0, main_call2_v1, main_call2_v2, main_call2_v3, main_call2_v4, main_v72, main_v73, main_c_18, main_c_19, main_call3_v0, main_call3_v1, main_call3_v2, main_call3_v3, main_call3_v4, main_v74, main_v75, main_c_20, main_v76, main_v77, main_c_21, main_v78, main_v79, main_v80, main_c_22, main_v81, main_v82, main_c_23, main_v83, main_v84, main_v85, main_v86, main_v87, main_v88, main_v89, main_v90, main_v91, main_v92, main_v93]

set_option maxRecDepth 8192 in
/-- Each operation writes only the buffer listed for it. -/
theorem ops_part1_writes : (ops_part1 : List (HloOp τ sig (Elt F))).Forall fun op => op.writes ⊆ (ops_part1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
       Finset.singleton_subset_iff, List.mem_toFinset]; exact List.mem_map_of_mem (by decide))

/-- A buffer the window does not write keeps its contents through it. -/
theorem ops_part1_keep (V : Valuation τ sig (Elt F)) (r : Ref sig .tc) (h : r ∉ ops_part1_W) :
    after (ops_part1 (F := F)) V (Proc.devRef .tc r) = V (Proc.devRef .tc r) :=
  after_of_writes_sub ops_part1 V ops_part1_writes h

end Cert.ReferenceIdeal.HandRun

end
-- ==== Proof.Ref.Ops2.lean ====
/- A call of a module-local function is listed as the callee's own operations over that call's buffers
   (the inliner's substitution: the callee's argument is the caller's buffer, each value of its body the
   buffer the call's record names). Every operation writes exactly one buffer, its result, and no two
   operations of the program write the same one; `ops_part2_W` lists the buffers written here. -/
import proofs.«127700_j42417097016364_2_alg».proof.Proof.Gen.ReferenceIdeal
import Idealize.ShloMosaic.Lib.StableHlo.Run

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 2's 70 operations, in order. -/
abbrev ops_part2 : List (HloOp τ sig (Elt F)) :=
  [ nullary main_cst_24 (constant S_ .f32 0x3F800000#32),
    unary main_cst_24 main_v94 (broadcastInDim S4x1x4096 ![] bcast_S_S4x1x4096 : (⟨S_, .f32⟩ : BufTy).Contents (Elt F) → (⟨S4x1x4096, .f32⟩ : BufTy).Contents (Elt F)),
    binary main_v94 main_v59 main_v95 (subf : (⟨S4x1x4096, .f32⟩ : BufTy).Contents (Elt F) → (⟨S4x1x4096, .f32⟩ : BufTy).Contents (Elt F) → (⟨S4x1x4096, .f32⟩ : BufTy).Contents (Elt F)),
    unary main_v95 main_v96 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)),
    unary main_v96 main_v97 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v93 main_v97 main_v98 (mulf : (⟨S4x256x1x4096, .f32⟩ : BufTy).Contents (Elt F) → (⟨S4x256x1x4096, .f32⟩ : BufTy).Contents (Elt F) → (⟨S4x256x1x4096, .f32⟩ : BufTy).Contents (Elt F)),
    nullary main_cst_25 (constant S_ .f32 0x3F800000#32),
    unary main_cst_25 main_v99 (broadcastInDim S4x1x4096 ![] bcast_S_S4x1x4096 : (⟨S_, .f32⟩ : BufTy).Contents (Elt F) → (⟨S4x1x4096, .f32⟩ : BufTy).Contents (Elt F)),
    binary main_v99 main_v60 main_v100 (subf : (⟨S4x1x4096, .f32⟩ : BufTy).Contents (Elt F) → (⟨S4x1x4096, .f32⟩ : BufTy).Contents (Elt F) → (⟨S4x1x4096, .f32⟩ : BufTy).Contents (Elt F)),
    unary main_v100 main_v101 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)),
    unary main_v101 main_v102 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v98 main_v102 main_v103 (mulf : (⟨S4x256x1x4096, .f32⟩ : BufTy).Contents (Elt F) → (⟨S4x256x1x4096, .f32⟩ : BufTy).Contents (Elt F) → (⟨S4x256x1x4096, .f32⟩ : BufTy).Contents (Elt F)),
    nullary main_cst_26 (constant S_ .f32 0x3F800000#32),
    unary main_cst_26 main_v104 (broadcastInDim S4x1x4096 ![] bcast_S_S4x1x4096 : (⟨S_, .f32⟩ : BufTy).Contents (Elt F) → (⟨S4x1x4096, .f32⟩ : BufTy).Contents (Elt F)),
    binary main_v57 main_v104 main_v105 (addf : (⟨S4x1x4096, .f32⟩ : BufTy).Contents (Elt F) → (⟨S4x1x4096, .f32⟩ : BufTy).Contents (Elt F) → (⟨S4x1x4096, .f32⟩ : BufTy).Contents (Elt F)),
    nullary main_cst_27 (constant S_ .f32 0x00000000#32),
    unary main_cst_27 main_v106 (broadcastInDim S4x1x4096 ![] bcast_S_S4x1x4096 : (⟨S_, .f32⟩ : BufTy).Contents (Elt F) → (⟨S4x1x4096, .f32⟩ : BufTy).Contents (Elt F)),
    binary main_v105 main_v106 main_v107 (cmpf .oge : (⟨S4x1x4096, .f32⟩ : BufTy).Contents (Elt F) → (⟨S4x1x4096, .f32⟩ : BufTy).Contents (Elt F) → (⟨S4x1x4096, .i1⟩ : BufTy).Contents (Elt F)),
    nullary main_cst_28 (constant S_ .f32 0x432F0000#32),
    unary main_cst_28 main_v108 (broadcastInDim S4x1x4096 ![] bcast_S_S4x1x4096 : (⟨S_, .f32⟩ : BufTy).Contents (Elt F) → (⟨S4x1x4096, .f32⟩ : BufTy).Contents (Elt F)),
    binary main_v105 main_v108 main_v109 (cmpf .ole : (⟨S4x1x4096, .f32⟩ : BufTy).Contents (Elt F) → (⟨S4x1x4096, .f32⟩ : BufTy).Contents (Elt F) → (⟨S4x1x4096, .i1⟩ : BufTy).Contents (Elt F)),
    binary main_v107 main_v109 main_v110 (andi : (⟨S4x1x4096, .i1⟩ : BufTy).Contents (Elt F) → (⟨S4x1x4096, .i1⟩ : BufTy).Contents (Elt F) → (⟨S4x1x4096, .i1⟩ : BufTy).Contents (Elt F)),
    nullary main_cst_29 (constant S_ .f32 0x00000000#32),
    unary main_cst_29 main_v111 (broadcastInDim S4x1x4096 ![] bcast_S_S4x1x4096 : (⟨S_, .f32⟩ : BufTy).Contents (Elt F) → (⟨S4x1x4096, .f32⟩ : BufTy).Contents (Elt F)),
    binary main_v58 main_v111 main_v112 (cmpf .oge : (⟨S4x1x4096, .f32⟩ : BufTy).Contents (Elt F) → (⟨S4x1x4096, .f32⟩ : BufTy).Contents (Elt F) → (⟨S4x1x4096, .i1⟩ : BufTy).Contents (Elt F)),
    binary main_v110 main_v112 main_v113 (andi : (⟨S4x1x4096, .i1⟩ : BufTy).Contents (Elt F) → (⟨S4x1x4096, .i1⟩ : BufTy).Contents (Elt F) → (⟨S4x1x4096, .i1⟩ : BufTy).Contents (Elt F)),
    nullary main_cst_30 (constant S_ .f32 0x43470000#32),
    unary main_cst_30 main_v114 (broadcastInDim S4x1x4096 ![] bcast_S_S4x1x4096 : (⟨S_, .f32⟩ : BufTy).Contents (Elt F) → (⟨S4x1x4096, .f32⟩ : BufTy).Contents (Elt F)),
    binary main_v58 main_v114 main_v115 (cmpf .ole : (⟨S4x1x4096, .f32⟩ : BufTy).Contents (Elt F) → (⟨S4x1x4096, .f32⟩ : BufTy).Contents (Elt F) → (⟨S4x1x4096, .i1⟩ : BufTy).Contents (Elt F)),
    binary main_v113 main_v115 main_v116 (andi : (⟨S4x1x4096, .i1⟩ : BufTy).Contents (Elt F) → (⟨S4x1x4096, .i1⟩ : BufTy).Contents (Elt F) → (⟨S4x1x4096, .i1⟩ : BufTy).Contents (Elt F)),
    nullary main_c_31 (constantI S_ 32 0#32),
    nullary main_c_32 (constantI S_ 32 175#32),
    unary main_c_31 main_call4_v0 (sitofp .f32 : (⟨S_, .i32⟩ : BufTy).Contents (Elt F) → (⟨S_, .f32⟩ : BufTy).Contents (Elt F)),
    unary main_call4_v0 main_call4_v1 (broadcastInDim S4x1x4096 ![] bcast_S_S4x1x4096 : (⟨S_, .f32⟩ : BufTy).Contents (Elt F) → (⟨S4x1x4096, .f32⟩ : BufTy).Contents (Elt F)),
    binary main_call4_v1 main_v105 main_call4_v2 (maximumf : (⟨S4x1x4096, .f32⟩ : BufTy).Contents (Elt F) → (⟨S4x1x4096, .f32⟩ : BufTy).Contents (Elt F) → (⟨S4x1x4096, .f32⟩ : BufTy).Contents (Elt F)),
    unary main_c_32 main_call4_v3 (sitofp .f32 : (⟨S_, .i32⟩ : BufTy).Contents (Elt F) → (⟨S_, .f32⟩ : BufTy).Contents (Elt F)),
    unary main_call4_v3 main_call4_v4 (broadcastInDim S4x1x4096 ![] bcast_S_S4x1x4096 : (⟨S_, .f32⟩ : BufTy).Contents (Elt F) → (⟨S4x1x4096, .f32⟩ : BufTy).Contents (Elt F)),
    binary main_call4_v4 main_call4_v2 main_v117 (minimumf : (⟨S4x1x4096, .f32⟩ : BufTy).Contents (Elt F) → (⟨S4x1x4096, .f32⟩ : BufTy).Contents (Elt F) → (⟨S4x1x4096, .f32⟩ : BufTy).Contents (Elt F)),
    unary main_v117 main_v118 (fptosi 32 : (⟨S4x1x4096, .f32⟩ : BufTy).Contents (Elt F) → (⟨S4x1x4096, .i32⟩ : BufTy).Contents (Elt F)),
    nullary main_c_33 (constantI S_ 32 0#32),
    nullary main_c_34 (constantI S_ 32 199#32),
    unary main_c_33 main_call5_v0 (sitofp .f32 : (⟨S_, .i32⟩ : BufTy).Contents (Elt F) → (⟨S_, .f32⟩ : BufTy).Contents (Elt F)),
    unary main_call5_v0 main_call5_v1 (broadcastInDim S4x1x4096 ![] bcast_S_S4x1x4096 : (⟨S_, .f32⟩ : BufTy).Contents (Elt F) → (⟨S4x1x4096, .f32⟩ : BufTy).Contents (Elt F)),
    binary main_call5_v1 main_v58 main_call5_v2 (maximumf : (⟨S4x1x4096, .f32⟩ : BufTy).Contents (Elt F) → (⟨S4x1x4096, .f32⟩ : BufTy).Contents (Elt F) → (⟨S4x1x4096, .f32⟩ : BufTy).Contents (Elt F)),
    unary main_c_34 main_call5_v3 (sitofp .f32 : (⟨S_, .i32⟩ : BufTy).Contents (Elt F) → (⟨S_, .f32⟩ : BufTy).Contents (Elt F)),
    unary main_call5_v3 main_call5_v4 (broadcastInDim S4x1x4096 ![] bcast_S_S4x1x4096 : (⟨S_, .f32⟩ : BufTy).Contents (Elt F) → (⟨S4x1x4096, .f32⟩ : BufTy).Contents (Elt F)),
    binary main_call5_v4 main_call5_v2 main_v119 (minimumf : (⟨S4x1x4096, .f32⟩ : BufTy).Contents (Elt F) → (⟨S4x1x4096, .f32⟩ : BufTy).Contents (Elt F) → (⟨S4x1x4096, .f32⟩ : BufTy).Contents (Elt F)),
    unary main_v119 main_v120 (fptosi 32 : (⟨S4x1x4096, .f32⟩ : BufTy).Contents (Elt F) → (⟨S4x1x4096, .i32⟩ : BufTy).Contents (Elt F)),
    nullary main_c_35 (constantI S_ 32 0#32),
    unary main_c_35 main_v121 (broadcastInDim S4x1x4096 ![] bcast_S_S4x1x4096 : (⟨S_, .i32⟩ : BufTy).Contents (Elt F) → (⟨S4x1x4096, .i32⟩ : BufTy).Contents (Elt F)),
    binary main_v120 main_v121 main_v122 (cmpi .slt : (⟨S4x1x4096, .i32⟩ : BufTy).Contents (Elt F) → (⟨S4x1x4096, .i32⟩ : BufTy).Contents (Elt F) → (⟨S4x1x4096, .i1⟩ : BufTy).Contents (Elt F)),
    nullary main_c_36 (constantI S_ 32 200#32),
    unary main_c_36 main_v123 (broadcastInDim S4x1x4096 ![] bcast_S_S4x1x4096 : (⟨S_, .i32⟩ : BufTy).Contents (Elt F) → (⟨S4x1x4096, .i32⟩ : BufTy).Contents (Elt F)),
    binary main_v120 main_v123 main_v124 (addi : (⟨S4x1x4096, .i32⟩ : BufTy).Contents (Elt F) → (⟨S4x1x4096, .i32⟩ : BufTy).Contents (Elt F) → (⟨S4x1x4096, .i32⟩ : BufTy).Contents (Elt F)),
    ternary main_v122 main_v124 main_v120 main_v125 (select : (⟨S4x1x4096, .i1⟩ : BufTy).Contents (Elt F) → (⟨S4x1x4096, .i32⟩ : BufTy).Contents (Elt F) → (⟨S4x1x4096, .i32⟩ : BufTy).Contents (Elt F) → (⟨S4x1x4096, .i32⟩ : BufTy).Contents (Elt F)),
    nullary main_c_37 (constantI S_ 32 0#32),
    unary main_c_37 main_v126 (broadcastInDim S4x1x4096 ![] bcast_S_S4x1x4096 : (⟨S_, .i32⟩ : BufTy).Contents (Elt F) → (⟨S4x1x4096, .i32⟩ : BufTy).Contents (Elt F)),
    binary main_v118 main_v126 main_v127 (cmpi .slt : (⟨S4x1x4096, .i32⟩ : BufTy).Contents (Elt F) → (⟨S4x1x4096, .i32⟩ : BufTy).Contents (Elt F) → (⟨S4x1x4096, .i1⟩ : BufTy).Contents (Elt F)),
    nullary main_c_38 (constantI S_ 32 176#32),
    unary main_c_38 main_v128 (broadcastInDim S4x1x4096 ![] bcast_S_S4x1x4096 : (⟨S_, .i32⟩ : BufTy).Contents (Elt F) → (⟨S4x1x4096, .i32⟩ : BufTy).Contents (Elt F)),
    binary main_v118 main_v128 main_v129 (addi : (⟨S4x1x4096, .i32⟩ : BufTy).Contents (Elt F) → (⟨S4x1x4096, .i32⟩ : BufTy).Contents (Elt F) → (⟨S4x1x4096, .i32⟩ : BufTy).Contents (Elt F)),
    ternary main_v127 main_v129 main_v118 main_v130 (select : (⟨S4x1x4096, .i1⟩ : BufTy).Contents (Elt F) → (⟨S4x1x4096, .i32⟩ : BufTy).Contents (Elt F) → (⟨S4x1x4096, .i32⟩ : BufTy).Contents (Elt F) → (⟨S4x1x4096, .i32⟩ : BufTy).Contents (Elt F)),
    unary main_v125 main_v131 (broadcastInDim S4x1x4096x1 ![0, 1, 2] bcast_S4x1x4096_S4x1x4096x1_0_1_2 : (⟨S4x1x4096, .i32⟩ : BufTy).Contents (Elt F) → (⟨S4x1x4096x1, .i32⟩ : BufTy).Contents (Elt F)),
    unary main_v130 main_v132 (broadcastInDim S4x1x4096x1 ![0, 1, 2] bcast_S4x1x4096_S4x1x4096x1_0_1_2 : (⟨S4x1x4096, .i32⟩ : BufTy).Contents (Elt F) → (⟨S4x1x4096x1, .i32⟩ : BufTy).Contents (Elt F)),
    binary main_v131 main_v132 main_v133 ((fun a b => concatenate S4x1x4096x2 3 [⟨S4x1x4096x1, a⟩, ⟨S4x1x4096x1, b⟩] concatenates_S4x1x4096x1_S4x1x4096x1_S4x1x4096x2_d3) : (⟨S4x1x4096x1, .i32⟩ : BufTy).Contents (Elt F) → (⟨S4x1x4096x1, .i32⟩ : BufTy).Contents (Elt F) → (⟨S4x1x4096x2, .i32⟩ : BufTy).Contents (Elt F)),
    binary main_arg2 main_v133 main_v134 ((fun x i => Host.gather gather_S4x256x200x176_S4x1x4096x2_S4x256x1x4096_1_23_0_0_23_3_125611 x i) : (⟨S4x256x200x176, .f32⟩ : BufTy).Contents (Elt F) → (⟨S4x1x4096x2, .i32⟩ : BufTy).Contents (Elt F) → (⟨S4x256x1x4096, .f32⟩ : BufTy).Contents (Elt F)),
    unary main_v116 main_v135 (uitofp .f32 : (⟨S4x1x4096, .i1⟩ : BufTy).Contents (Elt F) → (⟨S4x1x4096, .f32⟩ : BufTy).Contents (Elt F)),
    unary main_v135 main_v136 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)),
    unary main_v136 main_v137 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v134 main_v137 main_v138 (mulf : (⟨S4x256x1x4096, .f32⟩ : BufTy).Contents (Elt F) → (⟨S4x256x1x4096, .f32⟩ : BufTy).Contents (Elt F) → (⟨S4x256x1x4096, .f32⟩ : BufTy).Contents (Elt F)) ]

set_option maxRecDepth 8192 in
set_option maxHeartbeats 4000000 in
/-- The window is that line: both sides are one chain of `hlo` steps once the callees' bodies are unfolded at
    their calls and sequencing is reassociated; a typed reference built from a literal one carries the
    identity transport, so the callee's operation over it is the plain operation over the buffer. -/
theorem main_part2_eq (c : Dev nD) : main_part2 (F := F) c = seq ops_part2 := by
  simp only [main_part2, fn_clip.body, seq, bind_assoc, pure_bind]
  rfl

set_option maxRecDepth 8192 in
/-- Every operation of the window touches TensorCore references only. -/
theorem ops_part2_sub : (ops_part2 : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub ..⟩

set_option maxRecDepth 8192 in
/-- Every operation of the window determines the contents of what it writes. -/
theorem ops_part2_fresh : ∀ op ∈ (ops_part2 : List (HloOp τ sig (Elt F))), op.fresh = ∅ := by
  intro _ h; (repeat (cases h with | head => rfl | tail _ h => ?_)); exact nomatch h

/-- The buffers the window's operations write, in order. -/
abbrev ops_part2_W : List (Ref sig .tc) := [main_cst_24, main_v94, main_v95, main_v96, main_v97, main_v98, main_cst_25, main_v99, main_v100, main_v101, main_v102, main_v103, main_cst_26, main_v104, main_v105, main_cst_27, main_v106, main_v107, main_cst_28, main_v108, main_v109, main_v110, main_cst_29, main_v111, main_v112, main_v113, main_cst_30, main_v114, main_v115, main_v116, main_c_31, main_c_32, main_call4_v0, main_call4_v1, main_call4_v2, main_call4_v3, main_call4_v4, main_v117, main_v118, main_c_33, main_c_34, main_call5_v0, main_call5_v1, main_call5_v2, main_call5_v3, main_call5_v4, main_v119, main_v120, main_c_35, main_v121, main_v122, main_c_36, main_v123, main_v124, main_v125, main_c_37, main_v126, main_v127, main_c_38, main_v128, main_v129, main_v130, main_v131, main_v132, main_v133, main_v134, main_v135, main_v136, main_v137, main_v138]

set_option maxRecDepth 8192 in
/-- Each operation writes only the buffer listed for it. -/
theorem ops_part2_writes : (ops_part2 : List (HloOp τ sig (Elt F))).Forall fun op => op.writes ⊆ (ops_part2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
       Finset.singleton_subset_iff, List.mem_toFinset]; exact List.mem_map_of_mem (by decide))

/-- A buffer the window does not write keeps its contents through it. -/
theorem ops_part2_keep (V : Valuation τ sig (Elt F)) (r : Ref sig .tc) (h : r ∉ ops_part2_W) :
    after (ops_part2 (F := F)) V (Proc.devRef .tc r) = V (Proc.devRef .tc r) :=
  after_of_writes_sub ops_part2 V ops_part2_writes h

end Cert.ReferenceIdeal.HandRun

end
-- ==== Proof.Ref.Ops3.lean ====
/- A call of a module-local function is listed as the callee's own operations over that call's buffers
   (the inliner's substitution: the callee's argument is the caller's buffer, each value of its body the
   buffer the call's record names). Every operation writes exactly one buffer, its result, and no two
   operations of the program write the same one; `ops_part3_W` lists the buffers written here. -/
import proofs.«127700_j42417097016364_2_alg».proof.Proof.Gen.ReferenceIdeal
import Idealize.ShloMosaic.Lib.StableHlo.Run

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 3's 70 operations, in order. -/
abbrev ops_part3 : List (HloOp τ sig (Elt F)) :=
  [ unary main_v59 main_v139 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)),
    unary main_v139 main_v140 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v138 main_v140 main_v141 (mulf : (⟨S4x256x1x4096, .f32⟩ : BufTy).Contents (Elt F) → (⟨S4x256x1x4096, .f32⟩ : BufTy).Contents (Elt F) → (⟨S4x256x1x4096, .f32⟩ : BufTy).Contents (Elt F)),
    nullary main_cst_39 (constant S_ .f32 0x3F800000#32),
    unary main_cst_39 main_v142 (broadcastInDim S4x1x4096 ![] bcast_S_S4x1x4096 : (⟨S_, .f32⟩ : BufTy).Contents (Elt F) → (⟨S4x1x4096, .f32⟩ : BufTy).Contents (Elt F)),
    binary main_v142 main_v60 main_v143 (subf : (⟨S4x1x4096, .f32⟩ : BufTy).Contents (Elt F) → (⟨S4x1x4096, .f32⟩ : BufTy).Contents (Elt F) → (⟨S4x1x4096, .f32⟩ : BufTy).Contents (Elt F)),
    unary main_v143 main_v144 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)),
    unary main_v144 main_v145 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v141 main_v145 main_v146 (mulf : (⟨S4x256x1x4096, .f32⟩ : BufTy).Contents (Elt F) → (⟨S4x256x1x4096, .f32⟩ : BufTy).Contents (Elt F) → (⟨S4x256x1x4096, .f32⟩ : BufTy).Contents (Elt F)),
    binary main_v103 main_v146 main_v147 (addf : (⟨S4x256x1x4096, .f32⟩ : BufTy).Contents (Elt F) → (⟨S4x256x1x4096, .f32⟩ : BufTy).Contents (Elt F) → (⟨S4x256x1x4096, .f32⟩ : BufTy).Contents (Elt F)),
    nullary main_cst_40 (constant S_ .f32 0x3F800000#32),
    unary main_cst_40 main_v148 (broadcastInDim S4x1x4096 ![] bcast_S_S4x1x4096 : (⟨S_, .f32⟩ : BufTy).Contents (Elt F) → (⟨S4x1x4096, .f32⟩ : BufTy).Contents (Elt F)),
    binary main_v58 main_v148 main_v149 (addf : (⟨S4x1x4096, .f32⟩ : BufTy).Contents (Elt F) → (⟨S4x1x4096, .f32⟩ : BufTy).Contents (Elt F) → (⟨S4x1x4096, .f32⟩ : BufTy).Contents (Elt F)),
    nullary main_cst_41 (constant S_ .f32 0x00000000#32),
    unary main_cst_41 main_v150 (broadcastInDim S4x1x4096 ![] bcast_S_S4x1x4096 : (⟨S_, .f32⟩ : BufTy).Contents (Elt F) → (⟨S4x1x4096, .f32⟩ : BufTy).Contents (Elt F)),
    binary main_v57 main_v150 main_v151 (cmpf .oge : (⟨S4x1x4096, .f32⟩ : BufTy).Contents (Elt F) → (⟨S4x1x4096, .f32⟩ : BufTy).Contents (Elt F) → (⟨S4x1x4096, .i1⟩ : BufTy).Contents (Elt F)),
    nullary main_cst_42 (constant S_ .f32 0x432F0000#32),
    unary main_cst_42 main_v152 (broadcastInDim S4x1x4096 ![] bcast_S_S4x1x4096 : (⟨S_, .f32⟩ : BufTy).Contents (Elt F) → (⟨S4x1x4096, .f32⟩ : BufTy).Contents (Elt F)),
    binary main_v57 main_v152 main_v153 (cmpf .ole : (⟨S4x1x4096, .f32⟩ : BufTy).Contents (Elt F) → (⟨S4x1x4096, .f32⟩ : BufTy).Contents (Elt F) → (⟨S4x1x4096, .i1⟩ : BufTy).Contents (Elt F)),
    binary main_v151 main_v153 main_v154 (andi : (⟨S4x1x4096, .i1⟩ : BufTy).Contents (Elt F) → (⟨S4x1x4096, .i1⟩ : BufTy).Contents (Elt F) → (⟨S4x1x4096, .i1⟩ : BufTy).Contents (Elt F)),
    nullary main_cst_43 (constant S_ .f32 0x00000000#32),
    unary main_cst_43 main_v155 (broadcastInDim S4x1x4096 ![] bcast_S_S4x1x4096 : (⟨S_, .f32⟩ : BufTy).Contents (Elt F) → (⟨S4x1x4096, .f32⟩ : BufTy).Contents (Elt F)),
    binary main_v149 main_v155 main_v156 (cmpf .oge : (⟨S4x1x4096, .f32⟩ : BufTy).Contents (Elt F) → (⟨S4x1x4096, .f32⟩ : BufTy).Contents (Elt F) → (⟨S4x1x4096, .i1⟩ : BufTy).Contents (Elt F)),
    binary main_v154 main_v156 main_v157 (andi : (⟨S4x1x4096, .i1⟩ : BufTy).Contents (Elt F) → (⟨S4x1x4096, .i1⟩ : BufTy).Contents (Elt F) → (⟨S4x1x4096, .i1⟩ : BufTy).Contents (Elt F)),
    nullary main_cst_44 (constant S_ .f32 0x43470000#32),
    unary main_cst_44 main_v158 (broadcastInDim S4x1x4096 ![] bcast_S_S4x1x4096 : (⟨S_, .f32⟩ : BufTy).Contents (Elt F) → (⟨S4x1x4096, .f32⟩ : BufTy).Contents (Elt F)),
    binary main_v149 main_v158 main_v159 (cmpf .ole : (⟨S4x1x4096, .f32⟩ : BufTy).Contents (Elt F) → (⟨S4x1x4096, .f32⟩ : BufTy).Contents (Elt F) → (⟨S4x1x4096, .i1⟩ : BufTy).Contents (Elt F)),
    binary main_v157 main_v159 main_v160 (andi : (⟨S4x1x4096, .i1⟩ : BufTy).Contents (Elt F) → (⟨S4x1x4096, .i1⟩ : BufTy).Contents (Elt F) → (⟨S4x1x4096, .i1⟩ : BufTy).Contents (Elt F)),
    nullary main_c_45 (constantI S_ 32 0#32),
    nullary main_c_46 (constantI S_ 32 175#32),
    unary main_c_45 main_call6_v0 (sitofp .f32 : (⟨S_, .i32⟩ : BufTy).Contents (Elt F) → (⟨S_, .f32⟩ : BufTy).Contents (Elt F)),
    unary main_call6_v0 main_call6_v1 (broadcastInDim S4x1x4096 ![] bcast_S_S4x1x4096 : (⟨S_, .f32⟩ : BufTy).Contents (Elt F) → (⟨S4x1x4096, .f32⟩ : BufTy).Contents (Elt F)),
    binary main_call6_v1 main_v57 main_call6_v2 (maximumf : (⟨S4x1x4096, .f32⟩ : BufTy).Contents (Elt F) → (⟨S4x1x4096, .f32⟩ : BufTy).Contents (Elt F) → (⟨S4x1x4096, .f32⟩ : BufTy).Contents (Elt F)),
    unary main_c_46 main_call6_v3 (sitofp .f32 : (⟨S_, .i32⟩ : BufTy).Contents (Elt F) → (⟨S_, .f32⟩ : BufTy).Contents (Elt F)),
    unary main_call6_v3 main_call6_v4 (broadcastInDim S4x1x4096 ![] bcast_S_S4x1x4096 : (⟨S_, .f32⟩ : BufTy).Contents (Elt F) → (⟨S4x1x4096, .f32⟩ : BufTy).Contents (Elt F)),
    binary main_call6_v4 main_call6_v2 main_v161 (minimumf : (⟨S4x1x4096, .f32⟩ : BufTy).Contents (Elt F) → (⟨S4x1x4096, .f32⟩ : BufTy).Contents (Elt F) → (⟨S4x1x4096, .f32⟩ : BufTy).Contents (Elt F)),
    unary main_v161 main_v162 (fptosi 32 : (⟨S4x1x4096, .f32⟩ : BufTy).Contents (Elt F) → (⟨S4x1x4096, .i32⟩ : BufTy).Contents (Elt F)),
    nullary main_c_47 (constantI S_ 32 0#32),
    nullary main_c_48 (constantI S_ 32 199#32),
    unary main_c_47 main_call7_v0 (sitofp .f32 : (⟨S_, .i32⟩ : BufTy).Contents (Elt F) → (⟨S_, .f32⟩ : BufTy).Contents (Elt F)),
    unary main_call7_v0 main_call7_v1 (broadcastInDim S4x1x4096 ![] bcast_S_S4x1x4096 : (⟨S_, .f32⟩ : BufTy).Contents (Elt F) → (⟨S4x1x4096, .f32⟩ : BufTy).Contents (Elt F)),
    binary main_call7_v1 main_v149 main_call7_v2 (maximumf : (⟨S4x1x4096, .f32⟩ : BufTy).Contents (Elt F) → (⟨S4x1x4096, .f32⟩ : BufTy).Contents (Elt F) → (⟨S4x1x4096, .f32⟩ : BufTy).Contents (Elt F)),
    unary main_c_48 main_call7_v3 (sitofp .f32 : (⟨S_, .i32⟩ : BufTy).Contents (Elt F) → (⟨S_, .f32⟩ : BufTy).Contents (Elt F)),
    unary main_call7_v3 main_call7_v4 (broadcastInDim S4x1x4096 ![] bcast_S_S4x1x4096 : (⟨S_, .f32⟩ : BufTy).Contents (Elt F) → (⟨S4x1x4096, .f32⟩ : BufTy).Contents (Elt F)),
    binary main_call7_v4 main_call7_v2 main_v163 (minimumf : (⟨S4x1x4096, .f32⟩ : BufTy).Contents (Elt F) → (⟨S4x1x4096, .f32⟩ : BufTy).Contents (Elt F) → (⟨S4x1x4096, .f32⟩ : BufTy).Contents (Elt F)),
    unary main_v163 main_v164 (fptosi 32 : (⟨S4x1x4096, .f32⟩ : BufTy).Contents (Elt F) → (⟨S4x1x4096, .i32⟩ : BufTy).Contents (Elt F)),
    nullary main_c_49 (constantI S_ 32 0#32),
    unary main_c_49 main_v165 (broadcastInDim S4x1x4096 ![] bcast_S_S4x1x4096 : (⟨S_, .i32⟩ : BufTy).Contents (Elt F) → (⟨S4x1x4096, .i32⟩ : BufTy).Contents (Elt F)),
    binary main_v164 main_v165 main_v166 (cmpi .slt : (⟨S4x1x4096, .i32⟩ : BufTy).Contents (Elt F) → (⟨S4x1x4096, .i32⟩ : BufTy).Contents (Elt F) → (⟨S4x1x4096, .i1⟩ : BufTy).Contents (Elt F)),
    nullary main_c_50 (constantI S_ 32 200#32),
    unary main_c_50 main_v167 (broadcastInDim S4x1x4096 ![] bcast_S_S4x1x4096 : (⟨S_, .i32⟩ : BufTy).Contents (Elt F) → (⟨S4x1x4096, .i32⟩ : BufTy).Contents (Elt F)),
    binary main_v164 main_v167 main_v168 (addi : (⟨S4x1x4096, .i32⟩ : BufTy).Contents (Elt F) → (⟨S4x1x4096, .i32⟩ : BufTy).Contents (Elt F) → (⟨S4x1x4096, .i32⟩ : BufTy).Contents (Elt F)),
    ternary main_v166 main_v168 main_v164 main_v169 (select : (⟨S4x1x4096, .i1⟩ : BufTy).Contents (Elt F) → (⟨S4x1x4096, .i32⟩ : BufTy).Contents (Elt F) → (⟨S4x1x4096, .i32⟩ : BufTy).Contents (Elt F) → (⟨S4x1x4096, .i32⟩ : BufTy).Contents (Elt F)),
    nullary main_c_51 (constantI S_ 32 0#32),
    unary main_c_51 main_v170 (broadcastInDim S4x1x4096 ![] bcast_S_S4x1x4096 : (⟨S_, .i32⟩ : BufTy).Contents (Elt F) → (⟨S4x1x4096, .i32⟩ : BufTy).Contents (Elt F)),
    binary main_v162 main_v170 main_v171 (cmpi .slt : (⟨S4x1x4096, .i32⟩ : BufTy).Contents (Elt F) → (⟨S4x1x4096, .i32⟩ : BufTy).Contents (Elt F) → (⟨S4x1x4096, .i1⟩ : BufTy).Contents (Elt F)),
    nullary main_c_52 (constantI S_ 32 176#32),
    unary main_c_52 main_v172 (broadcastInDim S4x1x4096 ![] bcast_S_S4x1x4096 : (⟨S_, .i32⟩ : BufTy).Contents (Elt F) → (⟨S4x1x4096, .i32⟩ : BufTy).Contents (Elt F)),
    binary main_v162 main_v172 main_v173 (addi : (⟨S4x1x4096, .i32⟩ : BufTy).Contents (Elt F) → (⟨S4x1x4096, .i32⟩ : BufTy).Contents (Elt F) → (⟨S4x1x4096, .i32⟩ : BufTy).Contents (Elt F)),
    ternary main_v171 main_v173 main_v162 main_v174 (select : (⟨S4x1x4096, .i1⟩ : BufTy).Contents (Elt F) → (⟨S4x1x4096, .i32⟩ : BufTy).Contents (Elt F) → (⟨S4x1x4096, .i32⟩ : BufTy).Contents (Elt F) → (⟨S4x1x4096, .i32⟩ : BufTy).Contents (Elt F)),
    unary main_v169 main_v175 (broadcastInDim S4x1x4096x1 ![0, 1, 2] bcast_S4x1x4096_S4x1x4096x1_0_1_2 : (⟨S4x1x4096, .i32⟩ : BufTy).Contents (Elt F) → (⟨S4x1x4096x1, .i32⟩ : BufTy).Contents (Elt F)),
    unary main_v174 main_v176 (broadcastInDim S4x1x4096x1 ![0, 1, 2] bcast_S4x1x4096_S4x1x4096x1_0_1_2 : (⟨S4x1x4096, .i32⟩ : BufTy).Contents (Elt F) → (⟨S4x1x4096x1, .i32⟩ : BufTy).Contents (Elt F)),
    binary main_v175 main_v176 main_v177 ((fun a b => concatenate S4x1x4096x2 3 [⟨S4x1x4096x1, a⟩, ⟨S4x1x4096x1, b⟩] concatenates_S4x1x4096x1_S4x1x4096x1_S4x1x4096x2_d3) : (⟨S4x1x4096x1, .i32⟩ : BufTy).Contents (Elt F) → (⟨S4x1x4096x1, .i32⟩ : BufTy).Contents (Elt F) → (⟨S4x1x4096x2, .i32⟩ : BufTy).Contents (Elt F)),
    binary main_arg2 main_v177 main_v178 ((fun x i => Host.gather gather_S4x256x200x176_S4x1x4096x2_S4x256x1x4096_1_23_0_0_23_3_125611 x i) : (⟨S4x256x200x176, .f32⟩ : BufTy).Contents (Elt F) → (⟨S4x1x4096x2, .i32⟩ : BufTy).Contents (Elt F) → (⟨S4x256x1x4096, .f32⟩ : BufTy).Contents (Elt F)),
    unary main_v160 main_v179 (uitofp .f32 : (⟨S4x1x4096, .i1⟩ : BufTy).Contents (Elt F) → (⟨S4x1x4096, .f32⟩ : BufTy).Contents (Elt F)),
    unary main_v179 main_v180 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)),
    unary main_v180 main_v181 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v178 main_v181 main_v182 (mulf : (⟨S4x256x1x4096, .f32⟩ : BufTy).Contents (Elt F) → (⟨S4x256x1x4096, .f32⟩ : BufTy).Contents (Elt F) → (⟨S4x256x1x4096, .f32⟩ : BufTy).Contents (Elt F)),
    nullary main_cst_53 (constant S_ .f32 0x3F800000#32),
    unary main_cst_53 main_v183 (broadcastInDim S4x1x4096 ![] bcast_S_S4x1x4096 : (⟨S_, .f32⟩ : BufTy).Contents (Elt F) → (⟨S4x1x4096, .f32⟩ : BufTy).Contents (Elt F)) ]

set_option maxRecDepth 8192 in
set_option maxHeartbeats 4000000 in
/-- The window is that line: both sides are one chain of `hlo` steps once the callees' bodies are unfolded at
    their calls and sequencing is reassociated; a typed reference built from a literal one carries the
    identity transport, so the callee's operation over it is the plain operation over the buffer. -/
theorem main_part3_eq (c : Dev nD) : main_part3 (F := F) c = seq ops_part3 := by
  simp only [main_part3, fn_clip.body, seq, bind_assoc, pure_bind]
  rfl

set_option maxRecDepth 8192 in
/-- Every operation of the window touches TensorCore references only. -/
theorem ops_part3_sub : (ops_part3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., nullary_bufs_sub .., unary_bufs_sub ..⟩

set_option maxRecDepth 8192 in
/-- Every operation of the window determines the contents of what it writes. -/
theorem ops_part3_fresh : ∀ op ∈ (ops_part3 : List (HloOp τ sig (Elt F))), op.fresh = ∅ := by
  intro _ h; (repeat (cases h with | head => rfl | tail _ h => ?_)); exact nomatch h

/-- The buffers the window's operations write, in order. -/
abbrev ops_part3_W : List (Ref sig .tc) := [main_v139, main_v140, main_v141, main_cst_39, main_v142, main_v143, main_v144, main_v145, main_v146, main_v147, main_cst_40, main_v148, main_v149, main_cst_41, main_v150, main_v151, main_cst_42, main_v152, main_v153, main_v154, main_cst_43, main_v155, main_v156, main_v157, main_cst_44, main_v158, main_v159, main_v160, main_c_45, main_c_46, main_call6_v0, main_call6_v1, main_call6_v2, main_call6_v3, main_call6_v4, main_v161, main_v162, main_c_47, main_c_48, main_call7_v0, main_call7_v1, main_call7_v2, main_call7_v3, main_call7_v4, main_v163, main_v164, main_c_49, main_v165, main_v166, main_c_50, main_v167, main_v168, main_v169, main_c_51, main_v170, main_v171, main_c_52, main_v172, main_v173, main_v174, main_v175, main_v176, main_v177, main_v178, main_v179, main_v180, main_v181, main_v182, main_cst_53, main_v183]

set_option maxRecDepth 8192 in
/-- Each operation writes only the buffer listed for it. -/
theorem ops_part3_writes : (ops_part3 : List (HloOp τ sig (Elt F))).Forall fun op => op.writes ⊆ (ops_part3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
       Finset.singleton_subset_iff, List.mem_toFinset]; exact List.mem_map_of_mem (by decide))

/-- A buffer the window does not write keeps its contents through it. -/
theorem ops_part3_keep (V : Valuation τ sig (Elt F)) (r : Ref sig .tc) (h : r ∉ ops_part3_W) :
    after (ops_part3 (F := F)) V (Proc.devRef .tc r) = V (Proc.devRef .tc r) :=
  after_of_writes_sub ops_part3 V ops_part3_writes h

end Cert.ReferenceIdeal.HandRun

end
-- ==== Proof.Ref.Ops4.lean ====
/- A call of a module-local function is listed as the callee's own operations over that call's buffers
   (the inliner's substitution: the callee's argument is the caller's buffer, each value of its body the
   buffer the call's record names). Every operation writes exactly one buffer, its result, and no two
   operations of the program write the same one; `ops_part4_W` lists the buffers written here. -/
import proofs.«127700_j42417097016364_2_alg».proof.Proof.Gen.ReferenceIdeal
import Idealize.ShloMosaic.Lib.StableHlo.Run

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 4's 70 operations, in order. -/
abbrev ops_part4 : List (HloOp τ sig (Elt F)) :=
  [ binary main_v183 main_v59 main_v184 (subf : (⟨S4x1x4096, .f32⟩ : BufTy).Contents (Elt F) → (⟨S4x1x4096, .f32⟩ : BufTy).Contents (Elt F) → (⟨S4x1x4096, .f32⟩ : BufTy).Contents (Elt F)),
    unary main_v184 main_v185 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)),
    unary main_v185 main_v186 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v182 main_v186 main_v187 (mulf : (⟨S4x256x1x4096, .f32⟩ : BufTy).Contents (Elt F) → (⟨S4x256x1x4096, .f32⟩ : BufTy).Contents (Elt F) → (⟨S4x256x1x4096, .f32⟩ : BufTy).Contents (Elt F)),
    unary main_v60 main_v188 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)),
    unary main_v188 main_v189 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v187 main_v189 main_v190 (mulf : (⟨S4x256x1x4096, .f32⟩ : BufTy).Contents (Elt F) → (⟨S4x256x1x4096, .f32⟩ : BufTy).Contents (Elt F) → (⟨S4x256x1x4096, .f32⟩ : BufTy).Contents (Elt F)),
    binary main_v147 main_v190 main_v191 (addf : (⟨S4x256x1x4096, .f32⟩ : BufTy).Contents (Elt F) → (⟨S4x256x1x4096, .f32⟩ : BufTy).Contents (Elt F) → (⟨S4x256x1x4096, .f32⟩ : BufTy).Contents (Elt F)),
    nullary main_cst_54 (constant S_ .f32 0x3F800000#32),
    unary main_cst_54 main_v192 (broadcastInDim S4x1x4096 ![] bcast_S_S4x1x4096 : (⟨S_, .f32⟩ : BufTy).Contents (Elt F) → (⟨S4x1x4096, .f32⟩ : BufTy).Contents (Elt F)),
    binary main_v58 main_v192 main_v193 (addf : (⟨S4x1x4096, .f32⟩ : BufTy).Contents (Elt F) → (⟨S4x1x4096, .f32⟩ : BufTy).Contents (Elt F) → (⟨S4x1x4096, .f32⟩ : BufTy).Contents (Elt F)),
    nullary main_cst_55 (constant S_ .f32 0x3F800000#32),
    unary main_cst_55 main_v194 (broadcastInDim S4x1x4096 ![] bcast_S_S4x1x4096 : (⟨S_, .f32⟩ : BufTy).Contents (Elt F) → (⟨S4x1x4096, .f32⟩ : BufTy).Contents (Elt F)),
    binary main_v57 main_v194 main_v195 (addf : (⟨S4x1x4096, .f32⟩ : BufTy).Contents (Elt F) → (⟨S4x1x4096, .f32⟩ : BufTy).Contents (Elt F) → (⟨S4x1x4096, .f32⟩ : BufTy).Contents (Elt F)),
    nullary main_cst_56 (constant S_ .f32 0x00000000#32),
    unary main_cst_56 main_v196 (broadcastInDim S4x1x4096 ![] bcast_S_S4x1x4096 : (⟨S_, .f32⟩ : BufTy).Contents (Elt F) → (⟨S4x1x4096, .f32⟩ : BufTy).Contents (Elt F)),
    binary main_v195 main_v196 main_v197 (cmpf .oge : (⟨S4x1x4096, .f32⟩ : BufTy).Contents (Elt F) → (⟨S4x1x4096, .f32⟩ : BufTy).Contents (Elt F) → (⟨S4x1x4096, .i1⟩ : BufTy).Contents (Elt F)),
    nullary main_cst_57 (constant S_ .f32 0x432F0000#32),
    unary main_cst_57 main_v198 (broadcastInDim S4x1x4096 ![] bcast_S_S4x1x4096 : (⟨S_, .f32⟩ : BufTy).Contents (Elt F) → (⟨S4x1x4096, .f32⟩ : BufTy).Contents (Elt F)),
    binary main_v195 main_v198 main_v199 (cmpf .ole : (⟨S4x1x4096, .f32⟩ : BufTy).Contents (Elt F) → (⟨S4x1x4096, .f32⟩ : BufTy).Contents (Elt F) → (⟨S4x1x4096, .i1⟩ : BufTy).Contents (Elt F)),
    binary main_v197 main_v199 main_v200 (andi : (⟨S4x1x4096, .i1⟩ : BufTy).Contents (Elt F) → (⟨S4x1x4096, .i1⟩ : BufTy).Contents (Elt F) → (⟨S4x1x4096, .i1⟩ : BufTy).Contents (Elt F)),
    nullary main_cst_58 (constant S_ .f32 0x00000000#32),
    unary main_cst_58 main_v201 (broadcastInDim S4x1x4096 ![] bcast_S_S4x1x4096 : (⟨S_, .f32⟩ : BufTy).Contents (Elt F) → (⟨S4x1x4096, .f32⟩ : BufTy).Contents (Elt F)),
    binary main_v193 main_v201 main_v202 (cmpf .oge : (⟨S4x1x4096, .f32⟩ : BufTy).Contents (Elt F) → (⟨S4x1x4096, .f32⟩ : BufTy).Contents (Elt F) → (⟨S4x1x4096, .i1⟩ : BufTy).Contents (Elt F)),
    binary main_v200 main_v202 main_v203 (andi : (⟨S4x1x4096, .i1⟩ : BufTy).Contents (Elt F) → (⟨S4x1x4096, .i1⟩ : BufTy).Contents (Elt F) → (⟨S4x1x4096, .i1⟩ : BufTy).Contents (Elt F)),
    nullary main_cst_59 (constant S_ .f32 0x43470000#32),
    unary main_cst_59 main_v204 (broadcastInDim S4x1x4096 ![] bcast_S_S4x1x4096 : (⟨S_, .f32⟩ : BufTy).Contents (Elt F) → (⟨S4x1x4096, .f32⟩ : BufTy).Contents (Elt F)),
    binary main_v193 main_v204 main_v205 (cmpf .ole : (⟨S4x1x4096, .f32⟩ : BufTy).Contents (Elt F) → (⟨S4x1x4096, .f32⟩ : BufTy).Contents (Elt F) → (⟨S4x1x4096, .i1⟩ : BufTy).Contents (Elt F)),
    binary main_v203 main_v205 main_v206 (andi : (⟨S4x1x4096, .i1⟩ : BufTy).Contents (Elt F) → (⟨S4x1x4096, .i1⟩ : BufTy).Contents (Elt F) → (⟨S4x1x4096, .i1⟩ : BufTy).Contents (Elt F)),
    nullary main_c_60 (constantI S_ 32 0#32),
    nullary main_c_61 (constantI S_ 32 175#32),
    unary main_c_60 main_call8_v0 (sitofp .f32 : (⟨S_, .i32⟩ : BufTy).Contents (Elt F) → (⟨S_, .f32⟩ : BufTy).Contents (Elt F)),
    unary main_call8_v0 main_call8_v1 (broadcastInDim S4x1x4096 ![] bcast_S_S4x1x4096 : (⟨S_, .f32⟩ : BufTy).Contents (Elt F) → (⟨S4x1x4096, .f32⟩ : BufTy).Contents (Elt F)),
    binary main_call8_v1 main_v195 main_call8_v2 (maximumf : (⟨S4x1x4096, .f32⟩ : BufTy).Contents (Elt F) → (⟨S4x1x4096, .f32⟩ : BufTy).Contents (Elt F) → (⟨S4x1x4096, .f32⟩ : BufTy).Contents (Elt F)),
    unary main_c_61 main_call8_v3 (sitofp .f32 : (⟨S_, .i32⟩ : BufTy).Contents (Elt F) → (⟨S_, .f32⟩ : BufTy).Contents (Elt F)),
    unary main_call8_v3 main_call8_v4 (broadcastInDim S4x1x4096 ![] bcast_S_S4x1x4096 : (⟨S_, .f32⟩ : BufTy).Contents (Elt F) → (⟨S4x1x4096, .f32⟩ : BufTy).Contents (Elt F)),
    binary main_call8_v4 main_call8_v2 main_v207 (minimumf : (⟨S4x1x4096, .f32⟩ : BufTy).Contents (Elt F) → (⟨S4x1x4096, .f32⟩ : BufTy).Contents (Elt F) → (⟨S4x1x4096, .f32⟩ : BufTy).Contents (Elt F)),
    unary main_v207 main_v208 (fptosi 32 : (⟨S4x1x4096, .f32⟩ : BufTy).Contents (Elt F) → (⟨S4x1x4096, .i32⟩ : BufTy).Contents (Elt F)),
    nullary main_c_62 (constantI S_ 32 0#32),
    nullary main_c_63 (constantI S_ 32 199#32),
    unary main_c_62 main_call9_v0 (sitofp .f32 : (⟨S_, .i32⟩ : BufTy).Contents (Elt F) → (⟨S_, .f32⟩ : BufTy).Contents (Elt F)),
    unary main_call9_v0 main_call9_v1 (broadcastInDim S4x1x4096 ![] bcast_S_S4x1x4096 : (⟨S_, .f32⟩ : BufTy).Contents (Elt F) → (⟨S4x1x4096, .f32⟩ : BufTy).Contents (Elt F)),
    binary main_call9_v1 main_v193 main_call9_v2 (maximumf : (⟨S4x1x4096, .f32⟩ : BufTy).Contents (Elt F) → (⟨S4x1x4096, .f32⟩ : BufTy).Contents (Elt F) → (⟨S4x1x4096, .f32⟩ : BufTy).Contents (Elt F)),
    unary main_c_63 main_call9_v3 (sitofp .f32 : (⟨S_, .i32⟩ : BufTy).Contents (Elt F) → (⟨S_, .f32⟩ : BufTy).Contents (Elt F)),
    unary main_call9_v3 main_call9_v4 (broadcastInDim S4x1x4096 ![] bcast_S_S4x1x4096 : (⟨S_, .f32⟩ : BufTy).Contents (Elt F) → (⟨S4x1x4096, .f32⟩ : BufTy).Contents (Elt F)),
    binary main_call9_v4 main_call9_v2 main_v209 (minimumf : (⟨S4x1x4096, .f32⟩ : BufTy).Contents (Elt F) → (⟨S4x1x4096, .f32⟩ : BufTy).Contents (Elt F) → (⟨S4x1x4096, .f32⟩ : BufTy).Contents (Elt F)),
    unary main_v209 main_v210 (fptosi 32 : (⟨S4x1x4096, .f32⟩ : BufTy).Contents (Elt F) → (⟨S4x1x4096, .i32⟩ : BufTy).Contents (Elt F)),
    nullary main_c_64 (constantI S_ 32 0#32),
    unary main_c_64 main_v211 (broadcastInDim S4x1x4096 ![] bcast_S_S4x1x4096 : (⟨S_, .i32⟩ : BufTy).Contents (Elt F) → (⟨S4x1x4096, .i32⟩ : BufTy).Contents (Elt F)),
    binary main_v210 main_v211 main_v212 (cmpi .slt : (⟨S4x1x4096, .i32⟩ : BufTy).Contents (Elt F) → (⟨S4x1x4096, .i32⟩ : BufTy).Contents (Elt F) → (⟨S4x1x4096, .i1⟩ : BufTy).Contents (Elt F)),
    nullary main_c_65 (constantI S_ 32 200#32),
    unary main_c_65 main_v213 (broadcastInDim S4x1x4096 ![] bcast_S_S4x1x4096 : (⟨S_, .i32⟩ : BufTy).Contents (Elt F) → (⟨S4x1x4096, .i32⟩ : BufTy).Contents (Elt F)),
    binary main_v210 main_v213 main_v214 (addi : (⟨S4x1x4096, .i32⟩ : BufTy).Contents (Elt F) → (⟨S4x1x4096, .i32⟩ : BufTy).Contents (Elt F) → (⟨S4x1x4096, .i32⟩ : BufTy).Contents (Elt F)),
    ternary main_v212 main_v214 main_v210 main_v215 (select : (⟨S4x1x4096, .i1⟩ : BufTy).Contents (Elt F) → (⟨S4x1x4096, .i32⟩ : BufTy).Contents (Elt F) → (⟨S4x1x4096, .i32⟩ : BufTy).Contents (Elt F) → (⟨S4x1x4096, .i32⟩ : BufTy).Contents (Elt F)),
    nullary main_c_66 (constantI S_ 32 0#32),
    unary main_c_66 main_v216 (broadcastInDim S4x1x4096 ![] bcast_S_S4x1x4096 : (⟨S_, .i32⟩ : BufTy).Contents (Elt F) → (⟨S4x1x4096, .i32⟩ : BufTy).Contents (Elt F)),
    binary main_v208 main_v216 main_v217 (cmpi .slt : (⟨S4x1x4096, .i32⟩ : BufTy).Contents (Elt F) → (⟨S4x1x4096, .i32⟩ : BufTy).Contents (Elt F) → (⟨S4x1x4096, .i1⟩ : BufTy).Contents (Elt F)),
    nullary main_c_67 (constantI S_ 32 176#32),
    unary main_c_67 main_v218 (broadcastInDim S4x1x4096 ![] bcast_S_S4x1x4096 : (⟨S_, .i32⟩ : BufTy).Contents (Elt F) → (⟨S4x1x4096, .i32⟩ : BufTy).Contents (Elt F)),
    binary main_v208 main_v218 main_v219 (addi : (⟨S4x1x4096, .i32⟩ : BufTy).Contents (Elt F) → (⟨S4x1x4096, .i32⟩ : BufTy).Contents (Elt F) → (⟨S4x1x4096, .i32⟩ : BufTy).Contents (Elt F)),
    ternary main_v217 main_v219 main_v208 main_v220 (select : (⟨S4x1x4096, .i1⟩ : BufTy).Contents (Elt F) → (⟨S4x1x4096, .i32⟩ : BufTy).Contents (Elt F) → (⟨S4x1x4096, .i32⟩ : BufTy).Contents (Elt F) → (⟨S4x1x4096, .i32⟩ : BufTy).Contents (Elt F)),
    unary main_v215 main_v221 (broadcastInDim S4x1x4096x1 ![0, 1, 2] bcast_S4x1x4096_S4x1x4096x1_0_1_2 : (⟨S4x1x4096, .i32⟩ : BufTy).Contents (Elt F) → (⟨S4x1x4096x1, .i32⟩ : BufTy).Contents (Elt F)),
    unary main_v220 main_v222 (broadcastInDim S4x1x4096x1 ![0, 1, 2] bcast_S4x1x4096_S4x1x4096x1_0_1_2 : (⟨S4x1x4096, .i32⟩ : BufTy).Contents (Elt F) → (⟨S4x1x4096x1, .i32⟩ : BufTy).Contents (Elt F)),
    binary main_v221 main_v222 main_v223 ((fun a b => concatenate S4x1x4096x2 3 [⟨S4x1x4096x1, a⟩, ⟨S4x1x4096x1, b⟩] concatenates_S4x1x4096x1_S4x1x4096x1_S4x1x4096x2_d3) : (⟨S4x1x4096x1, .i32⟩ : BufTy).Contents (Elt F) → (⟨S4x1x4096x1, .i32⟩ : BufTy).Contents (Elt F) → (⟨S4x1x4096x2, .i32⟩ : BufTy).Contents (Elt F)),
    binary main_arg2 main_v223 main_v224 ((fun x i => Host.gather gather_S4x256x200x176_S4x1x4096x2_S4x256x1x4096_1_23_0_0_23_3_125611 x i) : (⟨S4x256x200x176, .f32⟩ : BufTy).Contents (Elt F) → (⟨S4x1x4096x2, .i32⟩ : BufTy).Contents (Elt F) → (⟨S4x256x1x4096, .f32⟩ : BufTy).Contents (Elt F)),
    unary main_v206 main_v225 (uitofp .f32 : (⟨S4x1x4096, .i1⟩ : BufTy).Contents (Elt F) → (⟨S4x1x4096, .f32⟩ : BufTy).Contents (Elt F)),
    unary main_v225 main_v226 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)),
    unary main_v226 main_v227 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v224 main_v227 main_v228 (mulf : (⟨S4x256x1x4096, .f32⟩ : BufTy).Contents (Elt F) → (⟨S4x256x1x4096, .f32⟩ : BufTy).Contents (Elt F) → (⟨S4x256x1x4096, .f32⟩ : BufTy).Contents (Elt F)),
    unary main_v59 main_v229 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)) ]

set_option maxRecDepth 8192 in
set_option maxHeartbeats 4000000 in
/-- The window is that line: both sides are one chain of `hlo` steps once the callees' bodies are unfolded at
    their calls and sequencing is reassociated; a typed reference built from a literal one carries the
    identity transport, so the callee's operation over it is the plain operation over the buffer. -/
theorem main_part4_eq (c : Dev nD) : main_part4 (F := F) c = seq ops_part4 := by
  simp only [main_part4, fn_clip.body, seq, bind_assoc, pure_bind]
  rfl

set_option maxRecDepth 8192 in
/-- Every operation of the window touches TensorCore references only. -/
theorem ops_part4_sub : (ops_part4 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., unary_bufs_sub ..⟩

set_option maxRecDepth 8192 in
/-- Every operation of the window determines the contents of what it writes. -/
theorem ops_part4_fresh : ∀ op ∈ (ops_part4 : List (HloOp τ sig (Elt F))), op.fresh = ∅ := by
  intro _ h; (repeat (cases h with | head => rfl | tail _ h => ?_)); exact nomatch h

/-- The buffers the window's operations write, in order. -/
abbrev ops_part4_W : List (Ref sig .tc) := [main_v184, main_v185, main_v186, main_v187, main_v188, main_v189, main_v190, main_v191, main_cst_54, main_v192, main_v193, main_cst_55, main_v194, main_v195, main_cst_56, main_v196, main_v197, main_cst_57, main_v198, main_v199, main_v200, main_cst_58, main_v201, main_v202, main_v203, main_cst_59, main_v204, main_v205, main_v206, main_c_60, main_c_61, main_call8_v0, main_call8_v1, main_call8_v2, main_call8_v3, main_call8_v4, main_v207, main_v208, main_c_62, main_c_63, main_call9_v0, main_call9_v1, main_call9_v2, main_call9_v3, main_call9_v4, main_v209, main_v210, main_c_64, main_v211, main_v212, main_c_65, main_v213, main_v214, main_v215, main_c_66, main_v216, main_v217, main_c_67, main_v218, main_v219, main_v220, main_v221, main_v222, main_v223, main_v224, main_v225, main_v226, main_v227, main_v228, main_v229]

set_option maxRecDepth 8192 in
/-- Each operation writes only the buffer listed for it. -/
theorem ops_part4_writes : (ops_part4 : List (HloOp τ sig (Elt F))).Forall fun op => op.writes ⊆ (ops_part4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
       Finset.singleton_subset_iff, List.mem_toFinset]; exact List.mem_map_of_mem (by decide))

/-- A buffer the window does not write keeps its contents through it. -/
theorem ops_part4_keep (V : Valuation τ sig (Elt F)) (r : Ref sig .tc) (h : r ∉ ops_part4_W) :
    after (ops_part4 (F := F)) V (Proc.devRef .tc r) = V (Proc.devRef .tc r) :=
  after_of_writes_sub ops_part4 V ops_part4_writes h

end Cert.ReferenceIdeal.HandRun

end
-- ==== Proof.Ref.Ops5.lean ====
/- A call of a module-local function is listed as the callee's own operations over that call's buffers
   (the inliner's substitution: the callee's argument is the caller's buffer, each value of its body the
   buffer the call's record names). Every operation writes exactly one buffer, its result, and no two
   operations of the program write the same one; `ops_part5_W` lists the buffers written here. -/
import proofs.«127700_j42417097016364_2_alg».proof.Proof.Gen.ReferenceIdeal
import Idealize.ShloMosaic.Lib.StableHlo.Run

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 5's 7 operations, in order. -/
abbrev ops_part5 : List (HloOp τ sig (Elt F)) :=
  [ unary main_v229 main_v230 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v228 main_v230 main_v231 (mulf : (⟨S4x256x1x4096, .f32⟩ : BufTy).Contents (Elt F) → (⟨S4x256x1x4096, .f32⟩ : BufTy).Contents (Elt F) → (⟨S4x256x1x4096, .f32⟩ : BufTy).Contents (Elt F)),
    unary main_v60 main_v232 (broadcastInDim S4x1x1x4096 ![0, 2, 3] bcast_S4x1x4096_S4x1x1x4096_0_2_3 : (⟨S4x1x4096, .f32⟩ : BufTy).Contents (Elt F) → (⟨S4x1x1x4096, .f32⟩ : BufTy).Contents (Elt F)),
    unary main_v232 main_v233 (broadcastInDim S4x256x1x4096 ![0, 1, 2, 3] bcast_S4x1x1x4096_S4x256x1x4096_0_1_2_3 : (⟨S4x1x1x4096, .f32⟩ : BufTy).Contents (Elt F) → (⟨S4x256x1x4096, .f32⟩ : BufTy).Contents (Elt F)),
    binary main_v231 main_v233 main_v234 (mulf : (⟨S4x256x1x4096, .f32⟩ : BufTy).Contents (Elt F) → (⟨S4x256x1x4096, .f32⟩ : BufTy).Contents (Elt F) → (⟨S4x256x1x4096, .f32⟩ : BufTy).Contents (Elt F)),
    binary main_v191 main_v234 main_v235 (addf : (⟨S4x256x1x4096, .f32⟩ : BufTy).Contents (Elt F) → (⟨S4x256x1x4096, .f32⟩ : BufTy).Contents (Elt F) → (⟨S4x256x1x4096, .f32⟩ : BufTy).Contents (Elt F)),
    reshape main_v235 main_v236 rfl shapeCasts_S4x256x1x4096_S4x256x4096 ]

set_option maxRecDepth 8192 in
set_option maxHeartbeats 4000000 in
/-- The window is that line: both sides are one chain of `hlo` steps once the callees' bodies are unfolded at
    their calls and sequencing is reassociated; a typed reference built from a literal one carries the
    identity transport, so the callee's operation over it is the plain operation over the buffer. -/
theorem main_part5_eq (c : Dev nD) : main_part5 (F := F) c = seq ops_part5 := rfl

set_option maxRecDepth 8192 in
/-- Every operation of the window touches TensorCore references only. -/
theorem ops_part5_sub : (ops_part5 : List (HloOp τ sig (Elt F))).Forall fun op => op.bufs ⊆ tcRefs τ sig :=
  ⟨unary_bufs_sub .., binary_bufs_sub .., unary_bufs_sub .., unary_bufs_sub .., binary_bufs_sub .., binary_bufs_sub .., reshape_bufs_sub ..⟩

set_option maxRecDepth 8192 in
/-- Every operation of the window determines the contents of what it writes. -/
theorem ops_part5_fresh : ∀ op ∈ (ops_part5 : List (HloOp τ sig (Elt F))), op.fresh = ∅ := by
  intro _ h; (repeat (cases h with | head => rfl | tail _ h => ?_)); exact nomatch h

/-- The buffers the window's operations write, in order. -/
abbrev ops_part5_W : List (Ref sig .tc) := [main_v230, main_v231, main_v232, main_v233, main_v234, main_v235, main_v236]

set_option maxRecDepth 8192 in
/-- Each operation writes only the buffer listed for it. -/
theorem ops_part5_writes : (ops_part5 : List (HloOp τ sig (Elt F))).Forall fun op => op.writes ⊆ (ops_part5_W.map (Proc.devRef (τ := τ) .tc)).toFinset := by
  simp only [List.Forall]
  refine ⟨?_, ?_, ?_, ?_, ?_, ?_, ?_⟩ <;>
    (simp only [nullary_writes, unary_writes, binary_writes, ternary_writes, reshape_writes, nary_writes,
       Finset.singleton_subset_iff, List.mem_toFinset]; exact List.mem_map_of_mem (by decide))

/-- A buffer the window does not write keeps its contents through it. -/
theorem ops_part5_keep (V : Valuation τ sig (Elt F)) (r : Ref sig .tc) (h : r ∉ ops_part5_W) :
    after (ops_part5 (F := F)) V (Proc.devRef .tc r) = V (Proc.devRef .tc r) :=
  after_of_writes_sub ops_part5 V ops_part5_writes h

end Cert.ReferenceIdeal.HandRun

end
-- ==== Proof.Ref.Run.lean ====
/- The reference's run. Its @main is host operations only, printed in six windows that run in order; each
   window is a list of operations (Ops0 … Ops5), so @main is the line `ops` of all 351 of them, and the run of a
   line of host operations from any memory with zero counters terminates with every TensorCore buffer at the
   fold `after ops` of the operations' results over the launch contents. The two results are stated through
   that fold, kept folded; the four arguments are written by no operation (every operation writes one buffer
   of its own, none of them an argument), so they end as they started. -/
import proofs.«127700_j42417097016364_2_alg».proof.Proof.Ref.Ops0
import proofs.«127700_j42417097016364_2_alg».proof.Proof.Ref.Ops1
import proofs.«127700_j42417097016364_2_alg».proof.Proof.Ref.Ops2
import proofs.«127700_j42417097016364_2_alg».proof.Proof.Ref.Ops3
import proofs.«127700_j42417097016364_2_alg».proof.Proof.Ref.Ops4
import proofs.«127700_j42417097016364_2_alg».proof.Proof.Ref.Ops5
import Idealize.ShloMosaic.Lib.StableHlo.Run
import Idealize.ShloMosaic.Lib.Pipeline.Frame
import Idealize.ShloMosaic.PureOps.Ideal

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 351 operations, in order: the six windows' lines one after the other. -/
abbrev ops : List (HloOp τ sig (Elt F)) :=
  ops_part0 ++ (ops_part1 ++ (ops_part2 ++ (ops_part3 ++ (ops_part4 ++ ops_part5))))

set_option maxRecDepth 8192 in
/-- @main runs its windows in order and each window is its line, so @main is the concatenated line. -/
theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h, List.forall_iff_forall_mem.mp ops_part5_sub op h]

/-- Every operation determines what it writes: window by window. -/
theorem ops_fresh : ∀ op ∈ (ops : List (HloOp τ sig (Elt F))), op.fresh = ∅ := fun op h => by
  simp only [ops, List.mem_append] at h
  rcases h with h | h | h | h | h | h
  exacts [ops_part0_fresh op h, ops_part1_fresh op h, ops_part2_fresh op h, ops_part3_fresh op h,
    ops_part4_fresh op h, ops_part5_fresh op h]

/-- The fold over the whole line is the windows' folds composed, first window innermost. -/
theorem after_ops (V : Valuation τ sig (Elt F)) :
    after ops V = after ops_part5 (after ops_part4 (after ops_part3 (after ops_part2 (after ops_part1 (after ops_part0 V))))) := by
  simp only [ops, after_append]

/-- A buffer no window writes holds at the end what it held at the start. -/
theorem after_ops_keep (V : Valuation τ sig (Elt F)) (r : Ref sig .tc) (h0 : r ∉ ops_part0_W) (h1 : r ∉ ops_part1_W)
    (h2 : r ∉ ops_part2_W) (h3 : r ∉ ops_part3_W) (h4 : r ∉ ops_part4_W) (h5 : r ∉ ops_part5_W) :
    after (ops (F := F)) V (Proc.devRef .tc r) = V (Proc.devRef .tc r) := by
  rw [after_ops, ops_part5_keep _ r h5, ops_part4_keep _ r h4, ops_part3_keep _ r h3, ops_part2_keep _ r h2,
    ops_part1_keep _ r h1, ops_part0_keep _ r h0]

/-- The four arguments are written by no operation. -/
theorem after_ops_main_arg0 (V : Valuation τ sig (Elt F)) : after (ops (F := F)) V (Proc.devRef .tc main_arg0) = V (Proc.devRef .tc main_arg0) :=
  after_ops_keep V main_arg0 (by decide) (by decide) (by decide) (by decide) (by decide) (by decide)
theorem after_ops_main_arg1 (V : Valuation τ sig (Elt F)) : after (ops (F := F)) V (Proc.devRef .tc main_arg1) = V (Proc.devRef .tc main_arg1) :=
  after_ops_keep V main_arg1 (by decide) (by decide) (by decide) (by decide) (by decide) (by decide)
theorem after_ops_main_arg2 (V : Valuation τ sig (Elt F)) : after (ops (F := F)) V (Proc.devRef .tc main_arg2) = V (Proc.devRef .tc main_arg2) :=
  after_ops_keep V main_arg2 (by decide) (by decide) (by decide) (by decide) (by decide) (by decide)
theorem after_ops_main_arg3 (V : Valuation τ sig (Elt F)) : after (ops (F := F)) V (Proc.devRef .tc main_arg3) = V (Proc.devRef .tc main_arg3) :=
  after_ops_keep V main_arg3 (by decide) (by decide) (by decide) (by decide) (by decide) (by decide)

/-- On every device, for any float values, from any memory with zero counters: every weakly fair execution of @main
    terminates, each of the two results holding the fold of the operations over the launch contents at its buffer and
    each argument what it held at launch. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v15) = after ops (fun b => m (c, b)) (Proc.devRef .tc main_v15)
      ∧ r.2.mem ((c.tc : Thread nD τ).loc main_v236) = after ops (fun b => m (c, b)) (Proc.devRef .tc main_v236)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c main_v15, h c main_v236,
      (h c main_arg0).trans (after_ops_main_arg0 (launchContents m c)),
      (h c main_arg1).trans (after_ops_main_arg1 (launchContents m c)),
      (h c main_arg2).trans (after_ops_main_arg2 (launchContents m c)),
      (h c main_arg3).trans (after_ops_main_arg3 (launchContents m c))⟩)
    (run_seq scopedRefs_eq scopedSems_eq defs main (fun _ => ops) main_eq (fun _ => ops_sub) m ρ (fun _ => ops_fresh))

/-- The arguments are unchanged by the run: the run's statement, forgetting the results. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2.2.1, (h c).2.2.2.1, (h c).2.2.2.2.1, (h c).2.2.2.2.2⟩) (run (F := Ideal) m ρ)

end Cert.ReferenceIdeal.HandRun

end
-- ==== Proof.Math.Box.lean ====
/-
  One decoded box. From a regression row `p` and an anchor row `q` (seven entries each: centre x, y, z, size
  w, l, h, yaw) the decoded row is: the centre's x and y moved by the regression times the anchor's ground
  diagonal √(w² + l²), its z by the regression times the anchor's height, the three sizes scaled by the exponential
  of the regression, and the yaw shifted by it.
-/
import Idealize.ShloMosaic.PureOps.Ideal

noncomputable section

namespace Cert.BevMath

open Idealize.ShloMosaic

/-- Column `k` of the decoded box of the regression row `p` and the anchor row `q`, on the extended reals. -/
def boxS (p q : Fin 7 → EReal) (k : Fin 7) : EReal :=
  ![ p 0 * Ideal.sqrt (q 3 * q 3 + q 4 * q 4) + q 0,
     p 1 * Ideal.sqrt (q 3 * q 3 + q 4 * q 4) + q 1,
     p 2 * q 5 + q 2,
     Ideal.exp (p 3) * q 3,
     Ideal.exp (p 4) * q 4,
     Ideal.exp (p 5) * q 5,
     p 6 + q 6 ] k

end Cert.BevMath

end
-- ==== Proof.KI.BoxesValue.lean ====
/-
  The first result at the ideal instance: the box decoder's output array, row by row, is the decoded box of the
  regression row and the anchor row.

  A grid point (b, n) of the 4 × 88 grid handles rows 2400·n … 2400·n + 2399 of batch b. The body writes the seven
  columns of its [1, 2400, 7] block one by one; read at row r, the column-k store is the k-th entry of the decoded box
  of row r of the two input blocks. So the block the point writes back is the block of one whole-array function, and
  the 352 blocks tile the array.
-/
import proofs.«127700_j42417097016364_2_alg».proof.Proof.KI.Reg0
import proofs.«127700_j42417097016364_2_alg».proof.Proof.Math.Box
import Idealize.ShloMosaic.Lib.ValueIdx
import Idealize.ShloMosaic.Lib.ValueLayout
import Idealize.ShloMosaic.Lib.Pipeline.Value

set_option maxRecDepth 16384

noncomputable section

namespace Cert.KernelIdeal.BoxesValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.R0 Cert.BevMath

/-! ## The body's columns read at a row -/

/-- Row `r` of a [1, 2400, 7] block. -/
def rowOf (x : Vec Ideal S1x2400x7 .f32) (r : Fin 2400) : Fin 7 → EReal := fun k => x (ix3 (0 : Fin 1) r k)

/-- Column `o` of a [2400, 7] value, read at row `r`. -/
theorem col_apply (o : Nat) (ho : o < 7) (v : Vec Ideal S2400x7 .f32) (h : S2400x7.Slices ![0, o] S2400x1) (r : Fin 2400) (z : Fin 1) :
    extractStridedSlice S2400x1 ![0, o] v h (ix2 r z) = v (ix2 r ⟨o, ho⟩) :=
  slice2_axis1_apply o v h r z ⟨o, ho⟩ (by have := z.isLt; show o = o + z.val; omega)

theorem sqrtv_apply {s : Shape} (v : FVec Ideal s .f32) (i : s.Idx) : sqrt v i = Ideal.sqrt (v i) := rfl
theorem expv_apply {s : Shape} (v : FVec Ideal s .f32) (i : s.Idx) : exp v i = Ideal.exp (v i) := rfl

theorem pay5_apply (x : Vec Ideal S1x2400x7 .f32) (r : Fin 2400) (k : Fin 7) : k0_pay5 x (ix2 r k) = rowOf x r k := by
  unfold k0_pay5 rowOf; exact shapeCast_1ab_ab_apply x _ r k
theorem pay6_apply (x : Vec Ideal S1x2400x7 .f32) (r : Fin 2400) (k : Fin 7) : k0_pay6 x (ix2 r k) = rowOf x r k := by
  unfold k0_pay6 rowOf; exact shapeCast_1ab_ab_apply x _ r k

theorem pay11_apply (x0 x1 : Vec Ideal S1x2400x7 .f32) (u : Fin 1) (r : Fin 2400) (z : Fin 1) :
    k0_pay11 x0 x1 (ix3 u r z) = boxS (rowOf x0 r) (rowOf x1 r) 0 := by
  unfold k0_pay11 k0_pay10 k0_pay7 k0_pay8
  try dsimp only
  rw [shapeCast_ab_1ab_apply]
  simp only [addf_apply, mulf_apply, sqrtv_apply, col_apply 0 (by decide), col_apply 3 (by decide), col_apply 4 (by decide), pay5_apply, pay6_apply]
  rfl

theorem pay12_apply (x0 x1 : Vec Ideal S1x2400x7 .f32) (u : Fin 1) (r : Fin 2400) (z : Fin 1) :
    k0_pay12 x0 x1 (ix3 u r z) = boxS (rowOf x0 r) (rowOf x1 r) 1 := by
  unfold k0_pay12 k0_pay10 k0_pay7 k0_pay8
  try dsimp only
  rw [shapeCast_ab_1ab_apply]
  simp only [addf_apply, mulf_apply, sqrtv_apply, col_apply 1 (by decide), col_apply 3 (by decide), col_apply 4 (by decide), pay5_apply, pay6_apply]
  rfl

theorem pay13_apply (x0 x1 : Vec Ideal S1x2400x7 .f32) (u : Fin 1) (r : Fin 2400) (z : Fin 1) :
    k0_pay13 x0 x1 (ix3 u r z) = boxS (rowOf x0 r) (rowOf x1 r) 2 := by
  unfold k0_pay13 k0_pay9
  try dsimp only
  rw [shapeCast_ab_1ab_apply]
  simp only [addf_apply, mulf_apply, col_apply 2 (by decide), col_apply 5 (by decide), pay5_apply, pay6_apply]
  rfl

theorem pay1_apply (x0 x1 : Vec Ideal S1x2400x7 .f32) (u : Fin 1) (r : Fin 2400) (z : Fin 1) :
    k0_pay1 (k0_pay14 x0 x1) (ix3 u r z) = boxS (rowOf x0 r) (rowOf x1 r) 3 := by
  unfold k0_pay1 k0_pay14 k0_pay7
  try dsimp only
  rw [shapeCast_ab_1ab_apply]
  simp only [mulf_apply, expv_apply, col_apply 3 (by decide), pay5_apply, pay6_apply]
  rfl

theorem pay2_apply (x0 x1 : Vec Ideal S1x2400x7 .f32) (u : Fin 1) (r : Fin 2400) (z : Fin 1) :
    k0_pay2 (k0_pay5 x0) (k0_pay8 x1) (ix3 u r z) = boxS (rowOf x0 r) (rowOf x1 r) 4 := by
  unfold k0_pay2 k0_pay8
  try dsimp only
  rw [shapeCast_ab_1ab_apply]
  simp only [mulf_apply, expv_apply, col_apply 4 (by decide), pay5_apply, pay6_apply]
  rfl

theorem pay3_apply (x0 x1 : Vec Ideal S1x2400x7 .f32) (u : Fin 1) (r : Fin 2400) (z : Fin 1) :
    k0_pay3 (k0_pay5 x0) (k0_pay9 x1) (ix3 u r z) = boxS (rowOf x0 r) (rowOf x1 r) 5 := by
  unfold k0_pay3 k0_pay9
  try dsimp only
  rw [shapeCast_ab_1ab_apply]
  simp only [mulf_apply, expv_apply, col_apply 5 (by decide), pay5_apply, pay6_apply]
  rfl

theorem pay4_apply (x0 x1 : Vec Ideal S1x2400x7 .f32) (u : Fin 1) (r : Fin 2400) (z : Fin 1) :
    k0_pay4 (k0_pay5 x0) (k0_pay6 x1) (ix3 u r z) = boxS (rowOf x0 r) (rowOf x1 r) 6 := by
  unfold k0_pay4
  try dsimp only
  rw [shapeCast_ab_1ab_apply]
  simp only [addf_apply, col_apply 6 (by decide), pay5_apply, pay6_apply]
  rfl

/-! ## The block the body leaves is the block of one function -/

/-- The decoded boxes of a pair of [1, 2400, 7] blocks. -/
def Gblk (x0 x1 : Vec Ideal S1x2400x7 .f32) : S1x2400x7.Idx → EReal :=
  fun j => boxS (rowOf x0 (j 1)) (rowOf x1 (j 1)) (j 2)

theorem Gblk_emb (o : Nat) (ho : o < 7) (inb : ∀ a, (![0, 0, o] : Fin 3 → Nat) a + S1x2400x1.size a ≤ S1x2400x7.size a)
    (x0 x1 : Vec Ideal S1x2400x7 .f32) (u : Fin 1) (r : Fin 2400) (z : Fin 1) :
    Gblk x0 x1 ((Rect.unit (s := S1x2400x7) ![0, 0, o] S1x2400x1.size inb).emb (ix3 u r z)) = boxS (rowOf x0 r) (rowOf x1 r) ⟨o, ho⟩ := by
  have h1 : ((Rect.unit (s := S1x2400x7) ![0, 0, o] S1x2400x1.size inb).emb (ix3 u r z)) 1 = r :=
    Fin.ext (by rw [Rect.emb_apply]; show 0 + 1 * r.val = r.val; omega)
  have h2 : ((Rect.unit (s := S1x2400x7) ![0, 0, o] S1x2400x1.size inb).emb (ix3 u r z)) 2 = (⟨o, ho⟩ : Fin 7) :=
    Fin.ext (by rw [Rect.emb_apply]; show o + 1 * z.val = o; have := z.isLt; omega)
  unfold Gblk; rw [h1, h2]

theorem hz3 : (![0, 0, 0] : Fin 3 → Nat) = fun _ => 0 := funext fun a => by fin_cases a <;> rfl

set_option maxHeartbeats 1000000 in
theorem out0_2_eq (x0 x1 : Vec Ideal S1x2400x7 .f32) : out0_2 x0 x1 = Gblk x0 x1 := by
  funext j
  unfold out0_2
  simp only [View.ld_unit_zero (S := S1x2400x7) hz3]
  refine View.canon_apply_of_pieces (Val := Elt Ideal) (Gblk x0 x1) _ ?_ j (cover0_2 _ _ _ _ _ _ _ j)
  intro p hp x
  simp only [List.mem_cons, List.not_mem_nil, or_false] at hp
  rcases hp with rfl | rfl | rfl | rfl | rfl | rfl | rfl
  all_goals
    obtain ⟨u, r, z, rfl⟩ : ∃ (u : Fin 1) (r : Fin 2400) (z : Fin 1), x = ix3 u r z := ⟨x 0, x 1, x 2, eq_ix3 x⟩
  · exact (pay4_apply x0 x1 u r z).trans (Gblk_emb 6 (by decide) inb_S1x2400x7_S1x2400x1_0_0_6 x0 x1 u r z).symm
  · exact (pay3_apply x0 x1 u r z).trans (Gblk_emb 5 (by decide) inb_S1x2400x7_S1x2400x1_0_0_5 x0 x1 u r z).symm
  · exact (pay2_apply x0 x1 u r z).trans (Gblk_emb 4 (by decide) inb_S1x2400x7_S1x2400x1_0_0_4 x0 x1 u r z).symm
  · exact (pay1_apply x0 x1 u r z).trans (Gblk_emb 3 (by decide) inb_S1x2400x7_S1x2400x1_0_0_3 x0 x1 u r z).symm
  · exact (pay13_apply x0 x1 u r z).trans (Gblk_emb 2 (by decide) inb_S1x2400x7_S1x2400x1_0_0_2 x0 x1 u r z).symm
  · exact (pay12_apply x0 x1 u r z).trans (Gblk_emb 1 (by decide) inb_S1x2400x7_S1x2400x1_0_0_1 x0 x1 u r z).symm
  · exact (pay11_apply x0 x1 u r z).trans (Gblk_emb 0 (by decide) inb_S1x2400x7_S1x2400x1_0_0_0 x0 x1 u r z).symm

/-! ## From the blocks to the array -/

variable (V : (c : Dev nD) → (b : Ref sig .tc) → Buf (Elt Ideal) ((c : Thread nD τ).loc b))

/-- The decoded boxes of two whole [4, 211200, 7] arrays. -/
def G0 (a0 a1 : S4x211200x7.Idx → EReal) : S4x211200x7.Idx → EReal :=
  fun i => boxS (fun k => a0 (ix3 (n0 := 4) (n1 := 211200) (n2 := 7) (i 0) (i 1) k)) (fun k => a1 (ix3 (n0 := 4) (n1 := 211200) (n2 := 7) (i 0) (i 1) k)) (i 2)

/-- The three windows move together over the grid: the same block index, its last coordinate zero. -/
theorem idx_facts : ∀ t : Fin cfg0.N,
    win0_0.index t (0 : Fin 3) = win0_2.index t (0 : Fin 3) ∧ win0_0.index t (1 : Fin 3) = win0_2.index t (1 : Fin 3) ∧ win0_0.index t (2 : Fin 3) = win0_2.index t (2 : Fin 3)
    ∧ win0_1.index t (0 : Fin 3) = win0_2.index t (0 : Fin 3) ∧ win0_1.index t (1 : Fin 3) = win0_2.index t (1 : Fin 3) ∧ win0_1.index t (2 : Fin 3) = win0_2.index t (2 : Fin 3)
    ∧ win0_2.index t (2 : Fin 3) = 0 ∧ win0_2.index t (0 : Fin 3) < 4 ∧ win0_2.index t (1 : Fin 3) < 88 :=
  (by decide +kernel : ∀ t : Fin grid0.N, _)

/-- Every (batch, row tile) is some point's. -/
theorem idx_onto : ∀ (q0 : Fin 4) (q1 : Fin 88), ∃ t : Fin cfg0.N, win0_2.index t (0 : Fin 3) = q0.val ∧ win0_2.index t (1 : Fin 3) = q1.val :=
  (by decide +kernel : ∀ (q0 : Fin 4) (q1 : Fin 88), ∃ t : Fin grid0.N, win0_2.index t (0 : Fin 3) = q0.val ∧ win0_2.index t (1 : Fin 3) = q1.val)

set_option maxHeartbeats 1000000 in
/-- What point `t` writes back is block `t` of the decoded boxes of the two argument arrays as the region finds them. -/
theorem flushed_eq (c : Dev nD) (t : Fin cfg0.N) :
    (dat0 V c).flushed 2 t = ((cfg0.win 2).blk t).view.read (Elt Ideal) (G0 (V c main_arg0) (V c main_arg1)) := by
  show (cfg0.win 2).cut (grid0.coords t) ((dat0 V c).after 2 t) = _
  rw [after0_2, out0_2_eq]
  obtain ⟨e00, e01, e02, e10, e11, e12, hz, hb, hn⟩ := idx_facts t
  funext j
  show Gblk (iblk0 V c 0 t) (iblk0 V c 1 t) j = G0 (V c main_arg0) (V c main_arg1) (((cfg0.win 2).blk t).view.emb j)
  have hj0 : (j 0).val = 0 := by have h := (j 0).isLt; change (j 0).val < 1 at h; omega
  have hK : (((cfg0.win 2).blk t).view.emb j) 2 = j 2 :=
    Fin.ext (by show win0_2.index t (2 : Fin 3) * 7 + 1 * (j 2).val = (j 2).val; omega)
  have hA0 : ∀ k : Fin 7, iblk0 V c 0 t (ix3 (0 : Fin 1) (j 1) k)
      = V c main_arg0 (ix3 (n0 := 4) (n1 := 211200) (n2 := 7) ((((cfg0.win 2).blk t).view.emb j) 0) ((((cfg0.win 2).blk t).view.emb j) 1) k) := fun k => by
    show V c main_arg0 (((cfg0.win 0).blk t).view.emb (ix3 (0 : Fin 1) (j 1) k)) = _
    refine congrArg (V c main_arg0) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 2400 + 1 * (j 1).val = win0_2.index t (1 : Fin 3) * 2400 + 1 * (j 1).val; omega
    | ⟨2, _⟩ => show win0_0.index t (2 : Fin 3) * 7 + 1 * k.val = k.val; omega
  have hA1 : ∀ k : Fin 7, iblk0 V c 1 t (ix3 (0 : Fin 1) (j 1) k)
      = V c main_arg1 (ix3 (n0 := 4) (n1 := 211200) (n2 := 7) ((((cfg0.win 2).blk t).view.emb j) 0) ((((cfg0.win 2).blk t).view.emb j) 1) k) := fun k => by
    show V c main_arg1 (((cfg0.win 1).blk t).view.emb (ix3 (0 : Fin 1) (j 1) k)) = _
    refine congrArg (V c main_arg1) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 2400 + 1 * (j 1).val = win0_2.index t (1 : Fin 3) * 2400 + 1 * (j 1).val; omega
    | ⟨2, _⟩ => show win0_1.index t (2 : Fin 3) * 7 + 1 * k.val = k.val; omega
  unfold Gblk G0 rowOf
  rw [hK]
  simp only [hA0, hA1]

/-- Every index of the array lies in the block of the point of its batch and row tile. -/
theorem covered (i : S4x211200x7.Idx) : ∃ t : Fin cfg0.N, (cfg0.win 2).flush t = true ∧ i ∈ ((cfg0.win 2).blk t).view.set := by
  have h0 : (i 0).val < 4 := (i 0).isLt
  have h1 : (i 1).val < 211200 := (i 1).isLt
  have h2 : (i 2).val < 7 := (i 2).isLt
  obtain ⟨t, ht0, ht1⟩ := idx_onto ⟨(i 0).val, h0⟩ ⟨(i 1).val / 2400, by omega⟩
  obtain ⟨-, -, -, -, -, -, hz, -, -⟩ := idx_facts t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; simp only [ht0]; omega
  | ⟨1, _⟩ => show win0_2.index t (1 : Fin 3) * 2400 ≤ (i 1).val ∧ (i 1).val < win0_2.index t (1 : Fin 3) * 2400 + 2400; simp only [ht1]; omega
  | ⟨2, _⟩ => show win0_2.index t (2 : Fin 3) * 7 ≤ (i 2).val ∧ (i 2).val < win0_2.index t (2 : Fin 3) * 7 + 7; omega

/-- The first result array after the run: the decoded boxes of the two argument arrays as the region finds them. -/
theorem final0 (c : Dev nD) : (dat0 V c).arrAt 2 cfg0.N = G0 (V c main_arg0) (V c main_arg1) :=
  (dat0 V c).arrAt_eq_of_cover 2 (G0 (V c main_arg0) (V c main_arg1)) (fun t _ => flushed_eq V c t) covered

end Cert.KernelIdeal.BoxesValue

end
-- ==== Proof.Ref.ReadBox.lean ====
/- The reference's first result read at an index. The first result is written by the first window alone, where it is
   the side-by-side layout of three arrays: the centre (the regression's columns 0–2 times the scale — the anchors'
   ground diagonal √(w² + l²) twice, then their height — plus the anchors' centre), the sizes (the exponential of
   the regression's columns 3–5 times the anchors' sizes) and the yaw (the sum of the two column 6). `boxT` is that
   array as a function of the two row arguments; read at `(b, n, k)` at the ideal instance it is the scalar
   decoding `Cert.BevMath.boxS` of row `(b, n)` of the two arguments: the slices move a column index, the
   layouts pick a piece, the reduction over two columns from zero is the sum of the two, the elementwise operations
   are the extended reals'. -/
import proofs.«127700_j42417097016364_2_alg».proof.Proof.Ref.Run
import proofs.«127700_j42417097016364_2_alg».proof.Proof.Math.Box
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.HandRun

open Cert.ReferenceIdeal Cert.ReferenceIdeal.Gen Idealize.ShloMosaic Idealize.ShloMosaic.TcCoe Idealize.SL.Sem Idealize.ShloMosaic.StableHlo Idealize.ShloMosaic.ValueIdx

section Layout
variable {α : Type}

/-- A rank-3 array cut along its last axis from `o` reads, at `(a, e, j)`, the source at `(a, e, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (e : Fin n1) (j : Fin m) (k : Fin n2) (hk : k.val = o + j.val) :
    extractStridedSlice ⟨3, ![n0, n1, m]⟩ ![0, 0, o] X h (ix3 a e j) = X (ix3 a e k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Three one-column pieces laid side by side along the last axis: column `k` of the result is piece `k`'s only column. -/
theorem concat111_apply (u0 u1 u2 : S4x211200x1.Idx → α)
    (h : Shape.Concatenates [S4x211200x1, S4x211200x1, S4x211200x1] S4x211200x3 2) (b : Fin 4) (n : Fin 211200) (k : Fin 3) :
    concatenate S4x211200x3 2 [⟨S4x211200x1, u0⟩, ⟨S4x211200x1, u1⟩, ⟨S4x211200x1, u2⟩] h (ix3 b n k)
      = ![u0 (ix3 b n 0), u1 (ix3 b n 0), u2 (ix3 b n 0)] k := by
  match k with
  | ⟨0, _⟩ =>
    refine (congrArg u0 (funext fun ax => ?_) : concatenate S4x211200x3 2 [⟨S4x211200x1, u0⟩, ⟨S4x211200x1, u1⟩, ⟨S4x211200x1, u2⟩] h (ix3 b n ⟨0, _⟩) = u0 (ix3 b n 0))
    match ax with
    | ⟨0, _⟩ => rfl
    | ⟨1, _⟩ => rfl
    | ⟨2, _⟩ => rfl
  | ⟨1, _⟩ =>
    refine (congrArg u1 (funext fun ax => ?_) : concatenate S4x211200x3 2 [⟨S4x211200x1, u0⟩, ⟨S4x211200x1, u1⟩, ⟨S4x211200x1, u2⟩] h (ix3 b n ⟨1, _⟩) = u1 (ix3 b n 0))
    match ax with
    | ⟨0, _⟩ => rfl
    | ⟨1, _⟩ => rfl
    | ⟨2, _⟩ => rfl
  | ⟨2, _⟩ =>
    refine (congrArg u2 (funext fun ax => ?_) : concatenate S4x211200x3 2 [⟨S4x211200x1, u0⟩, ⟨S4x211200x1, u1⟩, ⟨S4x211200x1, u2⟩] h (ix3 b n ⟨2, _⟩) = u2 (ix3 b n 0))
    match ax with
    | ⟨0, _⟩ => rfl
    | ⟨1, _⟩ => rfl
    | ⟨2, _⟩ => rfl

/-- Two three-column pieces and a one-column piece laid side by side along the last axis: columns 0–2 of the result are the first piece's, 3–5 the second's, 6 the third's only column. -/
theorem concat331_apply (u0 u1 : S4x211200x3.Idx → α) (u2 : S4x211200x1.Idx → α)
    (h : Shape.Concatenates [S4x211200x3, S4x211200x3, S4x211200x1] S4x211200x7 2) (b : Fin 4) (n : Fin 211200) (k : Fin 7) :
    concatenate S4x211200x7 2 [⟨S4x211200x3, u0⟩, ⟨S4x211200x3, u1⟩, ⟨S4x211200x1, u2⟩] h (ix3 b n k)
      = ![u0 (ix3 b n 0), u0 (ix3 b n 1), u0 (ix3 b n 2), u1 (ix3 b n 0), u1 (ix3 b n 1), u1 (ix3 b n 2), u2 (ix3 b n 0)] k := by
  match k with
  | ⟨0, _⟩ =>
    refine (congrArg u0 (funext fun ax => ?_) : concatenate S4x211200x7 2 [⟨S4x211200x3, u0⟩, ⟨S4x211200x3, u1⟩, ⟨S4x211200x1, u2⟩] h (ix3 b n ⟨0, _⟩) = u0 (ix3 b n 0))
    match ax with
    | ⟨0, _⟩ => rfl
    | ⟨1, _⟩ => rfl
    | ⟨2, _⟩ => rfl
  | ⟨1, _⟩ =>
    refine (congrArg u0 (funext fun ax => ?_) : concatenate S4x211200x7 2 [⟨S4x211200x3, u0⟩, ⟨S4x211200x3, u1⟩, ⟨S4x211200x1, u2⟩] h (ix3 b n ⟨1, _⟩) = u0 (ix3 b n 1))
    match ax with
    | ⟨0, _⟩ => rfl
    | ⟨1, _⟩ => rfl
    | ⟨2, _⟩ => rfl
  | ⟨2, _⟩ =>
    refine (congrArg u0 (funext fun ax => ?_) : concatenate S4x211200x7 2 [⟨S4x211200x3, u0⟩, ⟨S4x211200x3, u1⟩, ⟨S4x211200x1, u2⟩] h (ix3 b n ⟨2, _⟩) = u0 (ix3 b n 2))
    match ax with
    | ⟨0, _⟩ => rfl
    | ⟨1, _⟩ => rfl
    | ⟨2, _⟩ => rfl
  | ⟨3, _⟩ =>
    refine (congrArg u1 (funext fun ax => ?_) : concatenate S4x211200x7 2 [⟨S4x211200x3, u0⟩, ⟨S4x211200x3, u1⟩, ⟨S4x211200x1, u2⟩] h (ix3 b n ⟨3, _⟩) = u1 (ix3 b n 0))
    match ax with
    | ⟨0, _⟩ => rfl
    | ⟨1, _⟩ => rfl
    | ⟨2, _⟩ => rfl
  | ⟨4, _⟩ =>
    refine (congrArg u1 (funext fun ax => ?_) : concatenate S4x211200x7 2 [⟨S4x211200x3, u0⟩, ⟨S4x211200x3, u1⟩, ⟨S4x211200x1, u2⟩] h (ix3 b n ⟨4, _⟩) = u1 (ix3 b n 1))
    match ax with
    | ⟨0, _⟩ => rfl
    | ⟨1, _⟩ => rfl
    | ⟨2, _⟩ => rfl
  | ⟨5, _⟩ =>
    refine (congrArg u1 (funext fun ax => ?_) : concatenate S4x211200x7 2 [⟨S4x211200x3, u0⟩, ⟨S4x211200x3, u1⟩, ⟨S4x211200x1, u2⟩] h (ix3 b n ⟨5, _⟩) = u1 (ix3 b n 2))
    match ax with
    | ⟨0, _⟩ => rfl
    | ⟨1, _⟩ => rfl
    | ⟨2, _⟩ => rfl
  | ⟨6, _⟩ =>
    refine (congrArg u2 (funext fun ax => ?_) : concatenate S4x211200x7 2 [⟨S4x211200x3, u0⟩, ⟨S4x211200x3, u1⟩, ⟨S4x211200x1, u2⟩] h (ix3 b n ⟨6, _⟩) = u2 (ix3 b n 0))
    match ax with
    | ⟨0, _⟩ => rfl
    | ⟨1, _⟩ => rfl
    | ⟨2, _⟩ => rfl

end Layout

section AnyF
variable {F : FTy → Type} [FloatOps F]

/-- Columns 0–2 of a row array (the centre). -/
def cols012 (X : (⟨S4x211200x7, .f32⟩ : BufTy).Contents (Elt F)) : (⟨S4x211200x3, .f32⟩ : BufTy).Contents (Elt F) :=
  extractStridedSlice S4x211200x3 ![0, 0, 0] X slices_S4x211200x7_S4x211200x3_0_0_0
/-- Columns 3–5 of a row array (the sizes). -/
def cols345 (X : (⟨S4x211200x7, .f32⟩ : BufTy).Contents (Elt F)) : (⟨S4x211200x3, .f32⟩ : BufTy).Contents (Elt F) :=
  extractStridedSlice S4x211200x3 ![0, 0, 3] X slices_S4x211200x7_S4x211200x3_0_0_3
/-- Column 6 of a row array (the yaw). -/
def col6 (X : (⟨S4x211200x7, .f32⟩ : BufTy).Contents (Elt F)) : (⟨S4x211200x1, .f32⟩ : BufTy).Contents (Elt F) :=
  extractStridedSlice S4x211200x1 ![0, 0, 6] X slices_S4x211200x7_S4x211200x1_0_0_6
/-- The anchors' ground sizes (columns 3 and 4). -/
def wlT (Y : (⟨S4x211200x7, .f32⟩ : BufTy).Contents (Elt F)) : (⟨S4x211200x2, .f32⟩ : BufTy).Contents (Elt F) :=
  extractStridedSlice S4x211200x2 ![0, 0, 0] (cols345 Y) slices_S4x211200x3_S4x211200x2_0_0_0
/-- The anchors' height (column 5). -/
def hT (Y : (⟨S4x211200x7, .f32⟩ : BufTy).Contents (Elt F)) : (⟨S4x211200x1, .f32⟩ : BufTy).Contents (Elt F) :=
  extractStridedSlice S4x211200x1 ![0, 0, 2] (cols345 Y) slices_S4x211200x3_S4x211200x1_0_0_2
/-- The anchors' ground diagonal: the root of the sum of the squared ground sizes, one column. -/
def diagT (Y : (⟨S4x211200x7, .f32⟩ : BufTy).Contents (Elt F)) : (⟨S4x211200x1, .f32⟩ : BufTy).Contents (Elt F) :=
  Host.sqrt (broadcastInDim S4x211200x1 ![0, 1] bcast_S4x211200_S4x211200x1_0_1
    (Host.reduceAdd (mulf (wlT Y) (wlT Y)) (constant S_ .f32 0x00000000#32) reducesTo_S4x211200x2_S4x211200_d2 h_S_))
/-- The scale of the centre's regression: diagonal, diagonal, height. -/
def normT (Y : (⟨S4x211200x7, .f32⟩ : BufTy).Contents (Elt F)) : (⟨S4x211200x3, .f32⟩ : BufTy).Contents (Elt F) :=
  concatenate S4x211200x3 2 [⟨S4x211200x1, diagT Y⟩, ⟨S4x211200x1, diagT Y⟩, ⟨S4x211200x1, hT Y⟩]
    concatenates_S4x211200x1_S4x211200x1_S4x211200x1_S4x211200x3_d2
/-- The decoded boxes as one array: centre, sizes, yaw laid side by side. -/
def boxT (X Y : (⟨S4x211200x7, .f32⟩ : BufTy).Contents (Elt F)) : (⟨S4x211200x7, .f32⟩ : BufTy).Contents (Elt F) :=
  concatenate S4x211200x7 2
    [⟨S4x211200x3, addf (mulf (cols012 X) (normT Y)) (cols012 Y)⟩,
     ⟨S4x211200x3, mulf (Host.exp (cols345 X)) (cols345 Y)⟩,
     ⟨S4x211200x1, addf (col6 X) (col6 Y)⟩]
    concatenates_S4x211200x3_S4x211200x3_S4x211200x1_S4x211200x7_d2

set_option maxRecDepth 8192 in
set_option maxHeartbeats 2000000 in
/-- The first window leaves the first result's buffer at the decoded boxes of the two row arguments. -/
theorem after_part0_main_v15 (V : Valuation τ sig (Elt F)) :
    after (ops_part0 (F := F)) V (Proc.devRef .tc main_v15) = boxT (V (Proc.devRef .tc main_arg0)) (V (Proc.devRef .tc main_arg1)) := by
  simp only [ops_part0]
  after_results_simp
  try dsimp only [Matrix.cons_val]
  try after_results_simp
  try dsimp only [Matrix.cons_val]
  try after_results_simp
  rfl

end AnyF

section AtIdeal

/-- A column array `[4, 211200]` broadcast to `[4, 211200, 1]` reads, at `(b, n, 0)`, the column at `(b, n)`. -/
theorem bcast_col_apply {α : Type} (w : S4x211200.Idx → α) (h : S4x211200.BroadcastsInDim S4x211200x1 ![0, 1]) (b : Fin 4) (n : Fin 211200) (z : Fin 1) :
    broadcastInDim S4x211200x1 ![0, 1] h w (ix3 b n z) = w (ix2 b n) :=
  broadcastInDim_apply _ _ _ _ (ix2 b n) (fun ax => by
    match ax with
    | ⟨0, _⟩ => exact (if_neg (show ¬ ((4 : Nat) = 1) by decide)).symm
    | ⟨1, _⟩ => exact (if_neg (show ¬ ((211200 : Nat) = 1) by decide)).symm)

/-- The sum over the last axis of a two-column array, from the initial value zero, is the sum of the two columns. -/
theorem reduce_pair_apply (W : FVec Ideal S4x211200x2 .f32) (h : S4x211200x2.ReducesTo [2] S4x211200) (hu : 0 < S_.numel) (b : Fin 4) (n : Fin 211200) :
    Host.reduceAdd W (constant (F := Ideal) S_ .f32 0x00000000#32) h hu (ix2 b n) = W (ix3 b n 0) + W (ix3 b n 1) := by
  have hr : S4x211200x2.Reduces [2] S4x211200 := by decide
  rw [hostReduceAdd_apply, Ideal.hostReduceAdd_single h hr, constant_apply, Ideal.ofBits_zero_f32, zero_add]
  have e : ∀ k : Fin 2, hr.lift (ix2 b n) k = ix3 b n k := fun k => by
    funext c
    refine Fin.ext ?_
    match c with
    | ⟨0, _⟩ => rfl
    | ⟨1, _⟩ => rfl
    | ⟨2, _⟩ => rfl
  show (∑ k : Fin 2, W (hr.lift (ix2 b n) k)) = _
  rw [Fin.sum_univ_two, e, e]

variable (X Y : FVec Ideal S4x211200x7 .f32) (b : Fin 4) (n : Fin 211200)

theorem cols012_apply (k : Fin 3) (k' : Fin 7) (hk : k'.val = 0 + k.val) : cols012 (F := Ideal) X (ix3 b n k) = X (ix3 b n k') :=
  slice3_axis2_apply 0 X _ b n k k' hk
theorem cols345_apply (k : Fin 3) (k' : Fin 7) (hk : k'.val = 3 + k.val) : cols345 (F := Ideal) X (ix3 b n k) = X (ix3 b n k') :=
  slice3_axis2_apply 3 X _ b n k k' hk
theorem col6_apply (z : Fin 1) : col6 (F := Ideal) X (ix3 b n z) = X (ix3 b n 6) :=
  slice3_axis2_apply 6 X _ b n z 6 (by have := z.isLt; omega)
theorem wlT_apply (k : Fin 2) (k' : Fin 7) (hk : k'.val = 3 + k.val) : wlT (F := Ideal) Y (ix3 b n k) = Y (ix3 b n k') := by
  unfold wlT
  rw [slice3_axis2_apply 0 (cols345 (F := Ideal) Y) _ b n k ⟨k.val, by have := k.isLt; omega⟩ (Nat.zero_add _).symm]
  exact cols345_apply Y b n _ k' hk
theorem hT_apply (z : Fin 1) : hT (F := Ideal) Y (ix3 b n z) = Y (ix3 b n 5) := by
  unfold hT
  rw [slice3_axis2_apply 2 (cols345 (F := Ideal) Y) _ b n z 2 (by have := z.isLt; omega)]
  exact cols345_apply Y b n 2 5 rfl

/-- The anchors' ground diagonal at a row: the root of the sum of the squares of columns 3 and 4. -/
theorem diagT_apply (z : Fin 1) :
    diagT (F := Ideal) Y (ix3 b n z) = Ideal.sqrt (Y (ix3 b n 3) * Y (ix3 b n 3) + Y (ix3 b n 4) * Y (ix3 b n 4)) := by
  unfold diagT
  show FloatOps.hostUnary (F := Ideal) .sqrt _ = _
  rw [Ideal.hostUnary_sqrt_def, bcast_col_apply, reduce_pair_apply, mulf_apply, mulf_apply,
    wlT_apply Y b n 0 3 rfl, wlT_apply Y b n 1 4 rfl]

end AtIdeal

section Result
variable (X Y : FVec Ideal S4x211200x7 .f32) (b : Fin 4) (n : Fin 211200)

/-- The decoded boxes read at a row and a column: the scalar decoding of the two argument rows. -/
theorem boxT_apply (k : Fin 7) :
    boxT (F := Ideal) X Y (ix3 b n k) = Cert.BevMath.boxS (fun k' => X (ix3 b n k')) (fun k' => Y (ix3 b n k')) k := by
  unfold boxT
  rw [concat331_apply]
  match k with
  | ⟨0, _⟩ =>
    show (cols012 (F := Ideal) X (ix3 b n 0) * normT (F := Ideal) Y (ix3 b n 0) + cols012 (F := Ideal) Y (ix3 b n 0)) = _
    rw [cols012_apply X b n 0 0 rfl, cols012_apply Y b n 0 0 rfl]
    unfold normT
    rw [concat111_apply]
    show X (ix3 b n 0) * diagT (F := Ideal) Y (ix3 b n 0) + Y (ix3 b n 0) = _
    rw [diagT_apply]
    rfl
  | ⟨1, _⟩ =>
    show (cols012 (F := Ideal) X (ix3 b n 1) * normT (F := Ideal) Y (ix3 b n 1) + cols012 (F := Ideal) Y (ix3 b n 1)) = _
    rw [cols012_apply X b n 1 1 rfl, cols012_apply Y b n 1 1 rfl]
    unfold normT
    rw [concat111_apply]
    show X (ix3 b n 1) * diagT (F := Ideal) Y (ix3 b n 0) + Y (ix3 b n 1) = _
    rw [diagT_apply]
    rfl
  | ⟨2, _⟩ =>
    show (cols012 (F := Ideal) X (ix3 b n 2) * normT (F := Ideal) Y (ix3 b n 2) + cols012 (F := Ideal) Y (ix3 b n 2)) = _
    rw [cols012_apply X b n 2 2 rfl, cols012_apply Y b n 2 2 rfl]
    unfold normT
    rw [concat111_apply]
    show X (ix3 b n 2) * hT (F := Ideal) Y (ix3 b n 0) + Y (ix3 b n 2) = _
    rw [hT_apply]
    rfl
  | ⟨3, _⟩ =>
    show FloatOps.hostUnary (F := Ideal) .exp (cols345 (F := Ideal) X (ix3 b n 0)) * cols345 (F := Ideal) Y (ix3 b n 0) = _
    rw [cols345_apply X b n 0 3 rfl, cols345_apply Y b n 0 3 rfl, Ideal.hostUnary_exp_def]
    rfl
  | ⟨4, _⟩ =>
    show FloatOps.hostUnary (F := Ideal) .exp (cols345 (F := Ideal) X (ix3 b n 1)) * cols345 (F := Ideal) Y (ix3 b n 1) = _
    rw [cols345_apply X b n 1 4 rfl, cols345_apply Y b n 1 4 rfl, Ideal.hostUnary_exp_def]
    rfl
  | ⟨5, _⟩ =>
    show FloatOps.hostUnary (F := Ideal) .exp (cols345 (F := Ideal) X (ix3 b n 2)) * cols345 (F := Ideal) Y (ix3 b n 2) = _
    rw [cols345_apply X b n 2 5 rfl, cols345_apply Y b n 2 5 rfl, Ideal.hostUnary_exp_def]
    rfl
  | ⟨6, _⟩ =>
    show col6 (F := Ideal) X (ix3 b n 0) + col6 (F := Ideal) Y (ix3 b n 0) = _
    rw [col6_apply, col6_apply]
    rfl

end Result

/-- The first result's buffer is written in the first window only: over the whole line it holds what that window leaves. -/
theorem after_ops_main_v15 {F : FTy → Type} [FloatOps F] (V : Valuation τ sig (Elt F)) :
    after (ops (F := F)) V (Proc.devRef .tc main_v15) = boxT (V (Proc.devRef .tc main_arg0)) (V (Proc.devRef .tc main_arg1)) := by
  rw [after_ops, ops_part5_keep _ main_v15 (by decide), ops_part4_keep _ main_v15 (by decide), ops_part3_keep _ main_v15 (by decide),
    ops_part2_keep _ main_v15 (by decide), ops_part1_keep _ main_v15 (by decide)]
  exact after_part0_main_v15 V

/-- THE FIRST RESULT READ AT AN INDEX: after the whole line, element `(b, n, k)` of the first result is column `k` of the
    decoded box of row `(b, n)` of the two row arguments as the launch memory holds them. -/
theorem main_v15_apply (m : (ℓ : Loc nD τ sig) → Buf (Elt Ideal) ℓ) (c : Dev nD) (b : Fin 4) (n : Fin 211200) (k : Fin 7) :
    after (ops (F := Ideal)) (fun x => m (c, x)) (Proc.devRef .tc main_v15) (ix3 b n k)
      = Cert.BevMath.boxS (fun k' => m ((c.tc : Thread nD τ).loc main_arg0) (ix3 b n k'))
          (fun k' => m ((c.tc : Thread nD τ).loc main_arg1) (ix3 b n k')) k := by
  rw [after_ops_main_v15]
  exact boxT_apply _ _ b n k

end Cert.ReferenceIdeal.HandRun

end
-- ==== Proof.Alg.First.lean ====
/-
  The two programs' first results agree: the reference's array, read row by row, and the array the decoder's
  write-backs leave are both the decoded boxes of the two argument arrays.
-/
import proofs.«127700_j42417097016364_2_alg».proof.Proof.KI.Run
import proofs.«127700_j42417097016364_2_alg».proof.Proof.KI.BoxesValue
import proofs.«127700_j42417097016364_2_alg».proof.Proof.Ref.ReadBox

noncomputable section

namespace Cert.Proof.Alg

open Idealize.ShloMosaic Idealize.ShloMosaic.TcCoe Idealize.ShloMosaic.ValueIdx Idealize.SL.Sem
open Cert.BevMath

/-- The three constants before the decoder's region leave the arguments as launched. -/
theorem V1_arg0 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Run.V1 m ρ c Cert.KernelIdeal.main_arg0 = m ((c.tc : Thread Cert.KernelIdeal.nD Cert.KernelIdeal.τ).loc Cert.KernelIdeal.main_arg0) :=
  Cert.KernelIdeal.Run.W1_kept m ρ c Cert.KernelIdeal.main_arg0 (Or.inl rfl)
theorem V1_arg1 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Run.V1 m ρ c Cert.KernelIdeal.main_arg1 = m ((c.tc : Thread Cert.KernelIdeal.nD Cert.KernelIdeal.τ).loc Cert.KernelIdeal.main_arg1) :=
  Cert.KernelIdeal.Run.W1_kept m ρ c Cert.KernelIdeal.main_arg1 (Or.inr (Or.inl rfl))

theorem first_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    StableHlo.after (Cert.ReferenceIdeal.HandRun.ops (F := Ideal)) (fun b => m' (c, b)) (Proc.devRef .tc Cert.ReferenceIdeal.main_v15)
      = (Cert.KernelIdeal.R0.dat0 (Cert.KernelIdeal.Run.V1 m ρ) c).arrAt 2 Cert.KernelIdeal.cfg0.N := by
  rw [Cert.KernelIdeal.BoxesValue.final0]
  funext i
  obtain ⟨b, n, k, rfl⟩ : ∃ (b : Fin 4) (n : Fin 211200) (k : Fin 7), i = ix3 b n k := ⟨i 0, i 1, i 2, eq_ix3 i⟩
  refine (Cert.ReferenceIdeal.HandRun.main_v15_apply m' c b n k).trans ?_
  rw [h0, h1, ← V1_arg0 m ρ c, ← V1_arg1 m ρ c]
  rfl

end Cert.Proof.Alg

end
-- ==== Proof.LibBilinear.lean ====
import Idealize.ShloMosaic.PureOps.Ideal
import Mathlib.Algebra.BigOperators.Fin
import Mathlib.Tactic

/-!
# Bilinear sampling: the separable (one-hot matrix) form against the four-corner form

Everything here is about extended reals that are coercions of reals: products
distribute over sums only there, so every statement asks its inputs to be real.
-/

namespace Cert.BevMath

open scoped BigOperators

/-- A finite sum of coerced reals is the coercion of the real sum. -/
theorem coe_finset_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The 1/0 factor of a condition, as an extended real. -/
noncomputable def ind (c : Prop) [Decidable c] : EReal := if c then 1 else 0

theorem ind_coe (c : Prop) [Decidable c] : ind c = (((if c then 1 else 0 : ℝ)) : EReal) := by
  unfold ind; split_ifs <;> simp

@[simp] theorem ind_true : ind True = 1 := rfl
@[simp] theorem ind_false : ind False = 0 := rfl
theorem ind_pos {c : Prop} [Decidable c] (h : c) : ind c = 1 := if_pos h
theorem ind_neg {c : Prop} [Decidable c] (h : ¬c) : ind c = 0 := if_neg h

/-- A real-valued extended real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem isReal_ite (c : Prop) [Decidable c] {x y : EReal} (hx : IsReal x) (hy : IsReal y) :
    IsReal (if c then x else y) := by split_ifs <;> assumption
theorem isReal_ind (c : Prop) [Decidable c] : IsReal (ind c) := isReal_ite c isReal_one isReal_zero

/-- The real identity behind the separable form: contracting a grid with two
    two-point weight vectors leaves the four corner terms. The two points of an
    axis may coincide. -/
theorem separable_real (f : Fin 200 → Fin 176 → ℝ) (p0 p1 q0 q1 : ℝ) (a0 a1 : Fin 176) (b0 b1 : Fin 200) :
    (∑ h : Fin 200, (∑ w : Fin 176,
        f h w * ((if w = a0 then 1 else 0) * p0 + (if w = a1 then 1 else 0) * p1))
        * ((if h = b0 then 1 else 0) * q0 + (if h = b1 then 1 else 0) * q1))
      = f b0 a0 * p0 * q0 + f b0 a1 * p1 * q0 + f b1 a0 * p0 * q1 + f b1 a1 * p1 * q1 := by
  have hw : ∀ h : Fin 200, (∑ w : Fin 176,
        f h w * ((if w = a0 then 1 else 0) * p0 + (if w = a1 then 1 else 0) * p1))
      = f h a0 * p0 + f h a1 * p1 := by
    intro h
    simp only [mul_add, Finset.sum_add_distrib, ite_mul, one_mul, zero_mul, mul_ite, mul_zero,
      Finset.sum_ite_eq', Finset.mem_univ, if_true]
  simp only [hw, mul_add, Finset.sum_add_distrib, ite_mul, one_mul, zero_mul, mul_ite, mul_zero,
      Finset.sum_ite_eq', Finset.mem_univ, if_true]
  ring

/-- The separable form over the extended reals, real weights: the double contraction is the
    (coerced) four-corner sum. -/
theorem separable_coe (f : Fin 200 → Fin 176 → ℝ) (p0 p1 q0 q1 : ℝ) (a0 a1 : Fin 176) (b0 b1 : Fin 200) :
    (∑ h : Fin 200, (∑ w : Fin 176,
        (f h w : EReal) * (ind (w = a0) * (p0 : EReal) + ind (w = a1) * (p1 : EReal)))
        * (ind (h = b0) * (q0 : EReal) + ind (h = b1) * (q1 : EReal)))
      = ((f b0 a0 * p0 * q0 + f b0 a1 * p1 * q0 + f b1 a0 * p0 * q1 + f b1 a1 * p1 * q1 : ℝ) : EReal) := by
  rw [← separable_real]
  simp only [ind_coe, ← EReal.coe_mul, ← EReal.coe_add, coe_finset_sum]

/-- **The join.** Separable form (one-hot selection weights along each axis, the
    validity masks folded into the weights) = four-corner form (each corner's value times the
    1/0 factor of both its masks, times its two weights, associated to the left, the four
    terms added left to right). -/
theorem bilinear_join (f : Fin 200 → Fin 176 → ℝ) (wx wy : ℝ) (a0 a1 : Fin 176) (b0 b1 : Fin 200)
    (vx0 vx1 vy0 vy1 : Bool) :
    (∑ h : Fin 200, (∑ w : Fin 176,
        (f h w : EReal) *
          (ind (w = a0) * (if vx0 then (1 : EReal) - (wx : EReal) else 0)
            + ind (w = a1) * (if vx1 then (wx : EReal) else 0)))
        * (ind (h = b0) * (if vy0 then (1 : EReal) - (wy : EReal) else 0)
            + ind (h = b1) * (if vy1 then (wy : EReal) else 0)))
      = ((((f b0 a0 : EReal) * ind (vx0 && vy0)) * ((1 : EReal) - (wx : EReal))) * ((1 : EReal) - (wy : EReal))
          + (((f b0 a1 : EReal) * ind (vx1 && vy0)) * (wx : EReal)) * ((1 : EReal) - (wy : EReal))
          + (((f b1 a0 : EReal) * ind (vx0 && vy1)) * ((1 : EReal) - (wx : EReal))) * (wy : EReal))
          + (((f b1 a1 : EReal) * ind (vx1 && vy1)) * (wx : EReal)) * (wy : EReal) := by
  have e1 : ∀ v : Bool, (if v then (1 : EReal) - (wx : EReal) else 0) = (((if v then 1 - wx else 0 : ℝ)) : EReal) := by
    intro v; cases v <;> simp
  have e2 : ∀ v : Bool, (if v then (wx : EReal) else 0) = (((if v then wx else 0 : ℝ)) : EReal) := by
    intro v; cases v <;> simp
  have e3 : ∀ v : Bool, (if v then (1 : EReal) - (wy : EReal) else 0) = (((if v then 1 - wy else 0 : ℝ)) : EReal) := by
    intro v; cases v <;> simp
  have e4 : ∀ v : Bool, (if v then (wy : EReal) else 0) = (((if v then wy else 0 : ℝ)) : EReal) := by
    intro v; cases v <;> simp
  rw [e1, e2, e3, e4, separable_coe]
  have o : (1 : EReal) = ((1 : ℝ) : EReal) := rfl
  simp only [ind_coe, o, ← EReal.coe_sub, ← EReal.coe_mul, ← EReal.coe_add]
  congr 1
  cases vx0 <;> cases vx1 <;> cases vy0 <;> cases vy1 <;> simp <;> ring

/-- The join, stated for any real-valued data: the grid, the two fractional weights. -/
theorem bilinear_join' {F : Fin 200 → Fin 176 → EReal} {WX WY : EReal}
    (hF : ∀ h w, IsReal (F h w)) (hWX : IsReal WX) (hWY : IsReal WY)
    (a0 a1 : Fin 176) (b0 b1 : Fin 200) (vx0 vx1 vy0 vy1 : Bool) :
    (∑ h : Fin 200, (∑ w : Fin 176,
        F h w *
          (ind (w = a0) * (if vx0 then (1 : EReal) - WX else 0)
            + ind (w = a1) * (if vx1 then WX else 0)))
        * (ind (h = b0) * (if vy0 then (1 : EReal) - WY else 0)
            + ind (h = b1) * (if vy1 then WY else 0)))
      = (((F b0 a0 * ind (vx0 && vy0)) * ((1 : EReal) - WX)) * ((1 : EReal) - WY)
          + ((F b0 a1 * ind (vx1 && vy0)) * WX) * ((1 : EReal) - WY)
          + ((F b1 a0 * ind (vx0 && vy1)) * ((1 : EReal) - WX)) * WY)
          + ((F b1 a1 * ind (vx1 && vy1)) * WX) * WY := by
  obtain ⟨wx, rfl⟩ := hWX
  obtain ⟨wy, rfl⟩ := hWY
  choose f hf using hF
  have hF' : F = fun h w => ((f h w : ℝ) : EReal) := by funext h w; exact hf h w
  subst hF'
  exact bilinear_join f wx wy a0 a1 b0 b1 vx0 vx1 vy0 vy1

/-! ### The row-tiled accumulation

Addition of extended reals is associative and commutative, so an accumulation of 200 terms in
25 tiles of 8, each tile adding its eight terms one after another onto the running value, is the
plain sum of the 200 terms. -/

/-- One tile: the running value plus the tile's eight terms, added left to right. -/
noncomputable def tile8 (u : ℕ → EReal) (acc : EReal) (j : ℕ) : EReal :=
  acc + u (8 * j) + u (8 * j + 1) + u (8 * j + 2) + u (8 * j + 3) + u (8 * j + 4) + u (8 * j + 5)
    + u (8 * j + 6) + u (8 * j + 7)

theorem tile8_eq (u : ℕ → EReal) (acc : EReal) (j : ℕ) :
    tile8 u acc j = acc + ∑ i ∈ Finset.range 8, u (8 * j + i) := by
  simp only [tile8, Finset.sum_range_succ, Finset.sum_range_zero, zero_add, add_zero, add_assoc]

/-- The running value after `n` tiles, from zero. -/
noncomputable def tiled (u : ℕ → EReal) : ℕ → EReal
  | 0 => 0
  | j + 1 => tile8 u (tiled u j) j

theorem tiled_eq_sum_range (u : ℕ → EReal) (n : ℕ) : tiled u n = ∑ i ∈ Finset.range (8 * n), u i := by
  induction n with
  | zero => simp [tiled]
  | succ n ih =>
    rw [tiled, tile8_eq, ih, show 8 * (n + 1) = 8 * n + 8 by ring, Finset.sum_range_add]

/-- Any sequence of running values that starts at zero and advances by one tile a step is, after
    25 steps, the sum over the 200 rows. -/
theorem tiled_unique (u : ℕ → EReal) (A : ℕ → EReal) (h0 : A 0 = 0)
    (hs : ∀ j, j < 25 → A (j + 1) = tile8 u (A j) j) :
    A 25 = ∑ h : Fin 200, u h.val := by
  have key : ∀ n, n ≤ 25 → A n = tiled u n := by
    intro n
    induction n with
    | zero => intro _; rw [h0]; rfl
    | succ n ih => intro hn; rw [hs n (by omega), ih (by omega)]; rfl
  rw [key 25 le_rfl, tiled_eq_sum_range, show 8 * 25 = 200 by norm_num, Finset.sum_range]

theorem tiled_25 (u : ℕ → EReal) : tiled u 25 = ∑ h : Fin 200, u h.val :=
  tiled_unique u (tiled u) rfl (fun _ _ => rfl)

end Cert.BevMath
-- ==== Proof.KI.BevPoint.lean ====
/- One step of the second kernel's accumulator read at an index, at the ideal values: at (ch, k) the new value is
   the old one plus, for each of the eight rows r of the point's blocks, (Σ_w feat[ch, r, w] · Rx[w, k]) · Ry[r, k],
   the eight terms added left to right. The matmul into a zero accumulator is the plain sum over the contracted
   axis, a change of float format is the identity, and each slice, shape cast and broadcast reads one element of
   its operand. Also: the reset accumulator is zero, and the output block is the accumulator. -/
import proofs.«127700_j42417097016364_2_alg».proof.Proof.KI.Reg1
import proofs.«127700_j42417097016364_2_alg».proof.Proof.LibBilinear
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL Idealize.SL.Sem
open scoped BigOperators

/-! # The body's accumulation step, read at an index, at the ideal values

One step of the accumulator at (ch, k) is the old value plus the eight row terms of the block, added left to right;
each row term is the feature row's contraction with Rx over the 176 columns, times Ry's row at k: the matmul into the
zero constant is the plain sum, the changes of float format are the identity, the slices, shape casts and the
broadcast read one operand element each. -/

local notation "DOT" => dot_S256x176_S176x4096_S256x4096_1_0_0_1_n_n

/-- The matmul of one feature row against Rx into the zero constant, read at (ch, k). -/
theorem mm_at (A : FVec Ideal S256x176 .bf16) (B : FVec Ideal S176x4096 .bf16) (ch : Fin 256) (k : Fin 4096) :
    matmul DOT none A B (constant (F := Ideal) S256x4096 .f32 0x00000000#32) (ix2 ch k)
      = ∑ w : Fin 176, A (ix2 ch w) * B (ix2 w k) := by
  show FloatOps.matmul DOT none A B _ (ix2 ch k) = _
  rw [Ideal.matmul_constant_zero_apply, ← Equiv.sum_comp (contrEquiv1 DOT 176 rfl rfl).symm]
  refine Finset.sum_congr rfl fun w _ => ?_
  have c2 := contrEquiv1_symm_val DOT 176 rfl rfl w
  have l2 : (DOT).lhsIdx (ix2 ch k) ((contrEquiv1 DOT 176 rfl rfl).symm w) = ix2 ch w := by
    funext ax; apply Fin.ext
    match ax with
    | ⟨0, _⟩ => simp [DotDims.lhsIdx, dot_S256x176_S176x4096_S256x4096_1_0_0_1_n_n]; rfl
    | ⟨1, _⟩ => simp [DotDims.lhsIdx, dot_S256x176_S176x4096_S256x4096_1_0_0_1_n_n]; exact c2
  have r2 : (DOT).rhsIdx (ix2 ch k) ((contrEquiv1 DOT 176 rfl rfl).symm w) = ix2 w k := by
    funext ax; apply Fin.ext
    match ax with
    | ⟨0, _⟩ => simp [DotDims.rhsIdx, dot_S256x176_S176x4096_S256x4096_1_0_0_1_n_n]; exact c2
    | ⟨1, _⟩ => simp [DotDims.rhsIdx, dot_S256x176_S176x4096_S256x4096_1_0_0_1_n_n]; rfl
  rw [l2, r2]

/-- [a,1,b] viewed [a,b]: (i, j) reads (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- Row `r` of the block's contribution at (ch, k): the feature row contracted with Rx over the 176 columns,
    times Ry's row `r` at `k`. -/
def rowTerm (x0 : Vec Ideal S1x256x8x176 .f32) (x1 : Vec Ideal S1x176x4096 .f32) (x2 : Vec Ideal S1x8x4096 .f32)
    (ch : Fin 256) (k : Fin 4096) (r : Fin 8) : EReal :=
  (∑ w : Fin 176, x0 (ix4 (0 : Fin 1) ch r w) * x1 (ix3 (0 : Fin 1) w k)) * x2 (ix3 (0 : Fin 1) r k)

/-- One unrolled row of the body, at an index. -/
theorem row_at (r : Nat) (hr : r < 8) (x0 : Vec Ideal S1x256x8x176 .f32) (x1 : Vec Ideal S1x176x4096 .f32) (x2 : Vec Ideal S1x8x4096 .f32)
    (hs0 : S256x8x176.Slices ![0, r, 0] S256x1x176) (hs2 : S8x4096.Slices ![r, 0] S1x4096) (ch : Fin 256) (k : Fin 4096) :
    mulf (matmul DOT none (truncf .bf16 (shapeCast S256x176 (extractStridedSlice S256x1x176 ![0, r, 0] (k1_pay4 x0) hs0) shapeCasts_S256x1x176_S256x176) bitsLt_bf16_f32) (k1_pay5 x1) (constant S256x4096 .f32 0x00000000#32))
      (broadcastTo S256x4096 (extractStridedSlice S1x4096 ![r, 0] (k1_pay6 x2) hs2) broadcasts_S1x4096_S256x4096) (ix2 ch k)
    = rowTerm x0 x1 x2 ch k ⟨r, hr⟩ := by
  unfold rowTerm
  rw [mulf_apply, mm_at, broadcastTo_1b_ab_apply, slice2_axis0_apply r _ hs2 (0 : Fin 1) k ⟨r, hr⟩ (by show r = r + 0; rfl)]
  unfold k1_pay6
  rw [shapeCast_1ab_ab_apply]
  congr 1
  refine Finset.sum_congr rfl fun w _ => ?_
  rw [truncf_apply, shapeCast_a1b_ab_apply, slice3_axis1_apply r _ hs0 ch (0 : Fin 1) w ⟨r, hr⟩ (by show r = r + 0; rfl)]
  unfold k1_pay4 k1_pay5
  rw [shapeCast_1abc_abc_apply, truncf_apply, shapeCast_1ab_ab_apply]

/-- ONE STEP AT AN INDEX: the old accumulator plus the block's eight row terms, added left to right. -/
theorem step1_at (acc : Vec Ideal S256x4096 .f32) (x0 : Vec Ideal S1x256x8x176 .f32) (x1 : Vec Ideal S1x176x4096 .f32) (x2 : Vec Ideal S1x8x4096 .f32)
    (ch : Fin 256) (k : Fin 4096) :
    step1 acc x0 x1 x2 (ix2 ch k)
      = acc (ix2 ch k) + rowTerm x0 x1 x2 ch k ⟨0, by decide⟩ + rowTerm x0 x1 x2 ch k ⟨1, by decide⟩ + rowTerm x0 x1 x2 ch k ⟨2, by decide⟩ + rowTerm x0 x1 x2 ch k ⟨3, by decide⟩ + rowTerm x0 x1 x2 ch k ⟨4, by decide⟩ + rowTerm x0 x1 x2 ch k ⟨5, by decide⟩ + rowTerm x0 x1 x2 ch k ⟨6, by decide⟩ + rowTerm x0 x1 x2 ch k ⟨7, by decide⟩ := by
  rw [step1_eq]
  simp only [k1_pay1, k1_pay7, k1_pay8, shapeCast_self, addf_apply]
  rw [row_at 0 (by decide), row_at 1 (by decide), row_at 2 (by decide), row_at 3 (by decide), row_at 4 (by decide), row_at 5 (by decide), row_at 6 (by decide), row_at 7 (by decide)]

/-- The reset accumulator is zero everywhere. -/
theorem zero1_at (ch : Fin 256) (k : Fin 4096) : (zero1 : Vec Ideal S256x4096 .f32) (ix2 ch k) = 0 := by
  rw [zero1_eq]
  unfold k1_pay3
  rw [shapeCast_self, broadcast_apply]
  exact Ideal.ofBits_zero_f32

/-- The output block at an index: the accumulator there. -/
theorem out1_at (acc : Vec Ideal S256x4096 .f32) (u : Fin 1) (ch : Fin 256) (k : Fin 4096) :
    out1 acc (ix3 u ch k) = acc (ix2 ch k) := by
  rw [out1_eq, shapeCast_ab_1ab_apply]

end Cert.KernelIdeal.R1

end
-- ==== Proof.KI.BevValue.lean ====
/- The second result after the second pallas_call, at the ideal values, element by element: batch b, channel ch,
   cell k holds Σ_h (Σ_w feat[b, ch, h, w] · Rx[b, w, k]) · Ry[b, h, k], h over the 200 rows, w over the 176 columns.
   Grid point 25·b + j is batch b and tile j of eight rows; a block's element is the array's element at the block
   index times the block size plus the coordinate; the 25 points of a batch advance the accumulator by one tile of
   eight rows each, from zero, which is the sum over the 200 rows; the batch's last point stores it into the output
   block, which is written back to batch b of the result. Addition of extended reals is associative and commutative,
   so nothing is asked of the inputs. -/
import proofs.«127700_j42417097016364_2_alg».proof.Proof.KI.BevPoint

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! # The second result's array after the region, at the ideal values

Point t = 25·b + j of the grid is batch b, tile j of the 200 rows. The accumulator after the 25 points of batch b is,
at (ch, k), the sum over the 200 rows h of (Σ_w feat[b,ch,h,w]·Rx[b,w,k])·Ry[b,h,k]; the last point of the batch
stores it into the output block, which the pipeline writes back to batch b of the result. -/

section Value
variable (V : (c : Dev nD) → (b : Ref sig .tc) → Buf (Elt Ideal) ((c : Thread nD τ).loc b))

/-- The three input arrays and the result array as the region finds and leaves them, at their shapes. -/
abbrev featA (c : Dev nD) : Vec Ideal S4x256x200x176 .f32 := V c main_arg2
abbrev rxA (c : Dev nD) : Vec Ideal S4x176x4096 .f32 := V c main_v109
abbrev ryA (c : Dev nD) : Vec Ideal S4x200x4096 .f32 := V c main_v128
abbrev outA (c : Dev nD) : Vec Ideal S4x256x4096 .f32 := (dat1 V c).arrAt 3 cfg1.N

/-- The windows' block indices in closed form, decided over the grid. -/
theorem idx_facts1 : ∀ t : Fin cfg1.N,
    win1_0.index t (0 : Fin 4) = t.val / 25 ∧ win1_0.index t (1 : Fin 4) = 0 ∧ win1_0.index t (2 : Fin 4) = t.val % 25 ∧ win1_0.index t (3 : Fin 4) = 0
    ∧ win1_1.index t (0 : Fin 3) = t.val / 25 ∧ win1_1.index t (1 : Fin 3) = 0 ∧ win1_1.index t (2 : Fin 3) = 0
    ∧ win1_2.index t (0 : Fin 3) = t.val / 25 ∧ win1_2.index t (1 : Fin 3) = t.val % 25 ∧ win1_2.index t (2 : Fin 3) = 0
    ∧ win1_3.index t (0 : Fin 3) = t.val / 25 ∧ win1_3.index t (1 : Fin 3) = 0 ∧ win1_3.index t (2 : Fin 3) = 0 :=
  (by decide +kernel : ∀ t : Fin grid1.N, _)

/-! ## The input blocks, read in the arrays -/

theorem blk0_at (c : Dev nD) (t : Fin cfg1.N) (ch : Fin 256) (r : Fin 8) (w : Fin 176) (b : Fin 4) (h : Fin 200)
    (hb : b.val = t.val / 25) (hh : h.val = 8 * (t.val % 25) + r.val) :
    iblk1 V c 0 t (ix4 (0 : Fin 1) ch r w) = featA V c (ix4 b ch h w) := by
  obtain ⟨e0, e1, e2, e3, -⟩ := idx_facts1 t
  show V c main_arg2 (((cfg1.win 0).blk t).view.emb (ix4 (0 : Fin 1) ch r w)) = V c main_arg2 (ix4 b ch h w)
  refine congrArg _ ?_
  funext a; apply Fin.ext
  match a with
  | ⟨0, _⟩ => show win1_0.index t (0 : Fin 4) * 1 + 1 * 0 = b.val; rw [e0]; omega
  | ⟨1, _⟩ => show win1_0.index t (1 : Fin 4) * 256 + 1 * ch.val = ch.val; rw [e1]; omega
  | ⟨2, _⟩ => show win1_0.index t (2 : Fin 4) * 8 + 1 * r.val = h.val; rw [e2]; omega
  | ⟨3, _⟩ => show win1_0.index t (3 : Fin 4) * 176 + 1 * w.val = w.val; rw [e3]; omega

theorem blk1_at (c : Dev nD) (t : Fin cfg1.N) (w : Fin 176) (k : Fin 4096) (b : Fin 4) (hb : b.val = t.val / 25) :
    iblk1 V c 1 t (ix3 (0 : Fin 1) w k) = rxA V c (ix3 b w k) := by
  obtain ⟨-, -, -, -, e0, e1, e2, -⟩ := idx_facts1 t
  show V c main_v109 (((cfg1.win 1).blk t).view.emb (ix3 (0 : Fin 1) w k)) = V c main_v109 (ix3 b w k)
  refine congrArg _ ?_
  funext a; apply Fin.ext
  match a with
  | ⟨0, _⟩ => show win1_1.index t (0 : Fin 3) * 1 + 1 * 0 = b.val; rw [e0]; omega
  | ⟨1, _⟩ => show win1_1.index t (1 : Fin 3) * 176 + 1 * w.val = w.val; rw [e1]; omega
  | ⟨2, _⟩ => show win1_1.index t (2 : Fin 3) * 4096 + 1 * k.val = k.val; rw [e2]; omega

theorem blk2_at (c : Dev nD) (t : Fin cfg1.N) (r : Fin 8) (k : Fin 4096) (b : Fin 4) (h : Fin 200)
    (hb : b.val = t.val / 25) (hh : h.val = 8 * (t.val % 25) + r.val) :
    iblk1 V c 2 t (ix3 (0 : Fin 1) r k) = ryA V c (ix3 b h k) := by
  obtain ⟨-, -, -, -, -, -, -, e0, e1, e2, -⟩ := idx_facts1 t
  show V c main_v128 (((cfg1.win 2).blk t).view.emb (ix3 (0 : Fin 1) r k)) = V c main_v128 (ix3 b h k)
  refine congrArg _ ?_
  funext a; apply Fin.ext
  match a with
  | ⟨0, _⟩ => show win1_2.index t (0 : Fin 3) * 1 + 1 * 0 = b.val; rw [e0]; omega
  | ⟨1, _⟩ => show win1_2.index t (1 : Fin 3) * 8 + 1 * r.val = h.val; rw [e1]; omega
  | ⟨2, _⟩ => show win1_2.index t (2 : Fin 3) * 4096 + 1 * k.val = k.val; rw [e2]; omega

/-! ## The accumulation over a batch's 25 points -/

/-- Row `n` of batch `b`'s contribution at (ch, k) (zero past the 200 rows). -/
def uRow (c : Dev nD) (b : Fin 4) (ch : Fin 256) (k : Fin 4096) (n : ℕ) : EReal :=
  if h : n < 200 then
    (∑ w : Fin 176, featA V c (ix4 b ch ⟨n, h⟩ w) * rxA V c (ix3 b w k)) * ryA V c (ix3 b ⟨n, h⟩ k)
  else 0

/-- A block's row term is the array's row term. -/
theorem rowTerm_blk (c : Dev nD) (t : Fin cfg1.N) (b : Fin 4) (hb : b.val = t.val / 25) (ch : Fin 256) (k : Fin 4096) (r : Fin 8) :
    rowTerm (iblk1 V c 0 t) (iblk1 V c 1 t) (iblk1 V c 2 t) ch k r = uRow V c b ch k (8 * (t.val % 25) + r.val) := by
  have hr : r.val < 8 := r.isLt
  have hlt : 8 * (t.val % 25) + r.val < 200 := by omega
  unfold rowTerm uRow
  rw [dif_pos hlt, blk2_at V c t r k b ⟨_, hlt⟩ hb rfl]
  congr 1
  refine Finset.sum_congr rfl fun w _ => ?_
  rw [blk0_at V c t ch r w b ⟨_, hlt⟩ hb rfl, blk1_at V c t w k b hb]

theorem acc1_congr (c : Dev nD) {n n' : ℕ} (e : n = n') (h : n < cfg1.N) (h' : n' < cfg1.N) :
    acc1 V c n h = acc1 V c n' h' := by subst e; rfl

/-- The accumulator at (ch, k) before tile `j` of batch `b` (zero before the first). -/
def accRow (c : Dev nD) (b : Fin 4) (ch : Fin 256) (k : Fin 4096) : ℕ → EReal
  | 0 => 0
  | j + 1 => if h : 25 * b.val + j < cfg1.N then acc1 V c (25 * b.val + j) h (ix2 ch k) else 0

/-- Each point of the batch advances it by one tile of eight rows. -/
theorem accRow_step (c : Dev nD) (b : Fin 4) (ch : Fin 256) (k : Fin 4096) (j : ℕ) (hj : j < 25) :
    accRow V c b ch k (j + 1) = BevMath.tile8 (uRow V c b ch k) (accRow V c b ch k j) j := by
  have hN : cfg1.N = 100 := N_1
  have hb : b.val < 4 := b.isLt
  have hlt : 25 * b.val + j < cfg1.N := by omega
  show (if h : 25 * b.val + j < cfg1.N then acc1 V c (25 * b.val + j) h (ix2 ch k) else 0) = _
  rw [dif_pos hlt]
  have htb : b.val = (⟨25 * b.val + j, hlt⟩ : Fin cfg1.N).val / 25 := by show b.val = (25 * b.val + j) / 25; omega
  have htj : (⟨25 * b.val + j, hlt⟩ : Fin cfg1.N).val % 25 = j := by show (25 * b.val + j) % 25 = j; omega
  have hrows : ∀ r : Fin 8, rowTerm (iblk1 V c 0 ⟨25 * b.val + j, hlt⟩) (iblk1 V c 1 ⟨25 * b.val + j, hlt⟩) (iblk1 V c 2 ⟨25 * b.val + j, hlt⟩) ch k r
      = uRow V c b ch k (8 * j + r.val) := fun r => by
    rw [rowTerm_blk V c ⟨25 * b.val + j, hlt⟩ b htb ch k r, htj]
  unfold BevMath.tile8
  cases j with
  | zero =>
    refine (congrFun (acc1_first V c ⟨25 * b.val + 0, hlt⟩ htj) (ix2 ch k)).trans ?_
    rw [step1_at, zero1_at, hrows ⟨0, by decide⟩, hrows ⟨1, by decide⟩, hrows ⟨2, by decide⟩, hrows ⟨3, by decide⟩, hrows ⟨4, by decide⟩, hrows ⟨5, by decide⟩, hrows ⟨6, by decide⟩, hrows ⟨7, by decide⟩]
    rfl
  | succ j =>
    have hne : (⟨25 * b.val + (j + 1), hlt⟩ : Fin cfg1.N).val % 25 ≠ 0 := by rw [htj]; exact Nat.succ_ne_zero j
    have hlt' : 25 * b.val + j < cfg1.N := by omega
    refine (congrFun (acc1_next V c ⟨25 * b.val + (j + 1), hlt⟩ hne) (ix2 ch k)).trans ?_
    rw [step1_at, hrows ⟨0, by decide⟩, hrows ⟨1, by decide⟩, hrows ⟨2, by decide⟩, hrows ⟨3, by decide⟩, hrows ⟨4, by decide⟩, hrows ⟨5, by decide⟩, hrows ⟨6, by decide⟩, hrows ⟨7, by decide⟩]
    rw [acc1_congr V c (show (⟨25 * b.val + (j + 1), hlt⟩ : Fin cfg1.N).val - 1 = 25 * b.val + j from by show 25 * b.val + (j + 1) - 1 = _; omega) _ hlt']
    show _ = (if h : 25 * b.val + j < cfg1.N then acc1 V c (25 * b.val + j) h (ix2 ch k) else 0) + _ + _ + _ + _ + _ + _ + _ + _
    rw [dif_pos hlt']
    rfl

/-- After the batch's last point the accumulator holds the sum over the 200 rows. -/
theorem acc1_last_at (c : Dev nD) (b : Fin 4) (ch : Fin 256) (k : Fin 4096) (h : 25 * b.val + 24 < cfg1.N) :
    acc1 V c (25 * b.val + 24) h (ix2 ch k)
      = ∑ hh : Fin 200, (∑ w : Fin 176, featA V c (ix4 b ch hh w) * rxA V c (ix3 b w k)) * ryA V c (ix3 b hh k) := by
  have key := BevMath.tiled_unique (uRow V c b ch k) (accRow V c b ch k) rfl (fun j hj => accRow_step V c b ch k j hj)
  have e : accRow V c b ch k 25 = acc1 V c (25 * b.val + 24) h (ix2 ch k) := dif_pos h
  rw [← e, key]
  refine Finset.sum_congr rfl fun hh _ => ?_
  unfold uRow
  rw [dif_pos hh.isLt]

/-! ## From the blocks to the array -/

/-- The result's array where a batch has been written back. -/
def bevG (c : Dev nD) (b : Fin 4) (ch : Fin 256) (k : Fin 4096) : EReal :=
  ∑ hh : Fin 200, (∑ w : Fin 176, featA V c (ix4 b ch hh w) * rxA V c (ix3 b w k)) * ryA V c (ix3 b hh k)

def G3 (c : Dev nD) : S4x256x4096.Idx → EReal := fun i => bevG V c (i 0) (i 1) (i 2)

/-- What a batch's last point writes back is that batch's block of `G3`. -/
theorem flushed3_eq (c : Dev nD) (t : Fin cfg1.N) (hf : (cfg1.win 3).flush t = true) :
    (dat1 V c).flushed 3 t = ((cfg1.win 3).blk t).view.read (Elt Ideal) (G3 V c) := by
  have h24 : t.val % 25 = 24 := (flush1_3 t).mp hf
  have hN : t.val < 100 := lt_of_lt_of_eq t.isLt (show cfg1.N = 100 from N_1)
  obtain ⟨-, -, -, -, -, -, -, -, -, -, e0, e1, e2⟩ := idx_facts1 t
  show (cfg1.win 3).cut (grid1.coords t) ((dat1 V c).after 3 t) = _
  rw [after1_3]
  funext y
  obtain ⟨u, ch, k, rfl⟩ : ∃ (u : Fin 1) (ch : Fin 256) (k : Fin 4096), y = ix3 u ch k := ⟨y 0, y 1, y 2, eq_ix3 (n0 := 1) (n1 := 256) (n2 := 4096) y⟩
  show out1 (acc1 V c t.val t.isLt) (ix3 u ch k) = G3 V c (((cfg1.win 3).blk t).view.emb (ix3 u ch k))
  have hemb : ((cfg1.win 3).blk t).view.emb (ix3 u ch k) = ix3 (⟨t.val / 25, by omega⟩ : Fin 4) ch k := by
    funext a; apply Fin.ext
    have hu : u.val = 0 := by omega
    match a with
    | ⟨0, _⟩ => show win1_3.index t (0 : Fin 3) * 1 + 1 * u.val = t.val / 25; rw [e0]; omega
    | ⟨1, _⟩ => show win1_3.index t (1 : Fin 3) * 256 + 1 * ch.val = ch.val; rw [e1]; omega
    | ⟨2, _⟩ => show win1_3.index t (2 : Fin 3) * 4096 + 1 * k.val = k.val; rw [e2]; omega
  rw [hemb, out1_at]
  have hlt : 25 * (t.val / 25) + 24 < cfg1.N := by have : cfg1.N = 100 := N_1; omega
  rw [acc1_congr V c (show t.val = 25 * (t.val / 25) + 24 from by omega) t.isLt hlt]
  exact acc1_last_at V c ⟨t.val / 25, by omega⟩ ch k hlt

/-- An index of the result is in point `t`'s block iff each coordinate is in the block's range on its axis. -/
theorem mem_blk3 (t : Fin cfg1.N) (i : S4x256x4096.Idx) :
    i ∈ ((cfg1.win 3).blk t).view.set ↔ ∀ a : Fin 3, win1_3.index t a * S1x256x4096.size a ≤ (i a).val ∧ (i a).val < win1_3.index t a * S1x256x4096.size a + S1x256x4096.size a := by
  show i ∈ ((View.whole main_v129).slice (win1_3.rect t)).set ↔ _
  rw [View.set_slice_whole, Rect.mem_set_unit]
  exact Iff.rfl

/-- THE SECOND RESULT after the region, element by element: batch `b`, channel `ch`, cell `k` holds the sum over the
    200 rows of the feature row contracted with Rx over the 176 columns, times Ry. -/
theorem bev_value (c : Dev nD) (b : Fin 4) (ch : Fin 256) (k : Fin 4096) :
    outA V c (ix3 b ch k)
      = ∑ h : Fin 200, (∑ w : Fin 176, featA V c (ix4 b ch h w) * rxA V c (ix3 b w k)) * ryA V c (ix3 b h k) := by
  have hN : cfg1.N = 100 := N_1
  have hb : b.val < 4 := b.isLt
  have hlt : 25 * b.val + 24 < cfg1.N := by omega
  have hf : (cfg1.win 3).flush ⟨25 * b.val + 24, hlt⟩ = true :=
    (flush1_3 ⟨25 * b.val + 24, hlt⟩).mpr (by show (25 * b.val + 24) % 25 = 24; omega)
  have hi : ix3 b ch k ∈ ((cfg1.win 3).blk ⟨25 * b.val + 24, hlt⟩).view.set := by
    obtain ⟨-, -, -, -, -, -, -, -, -, -, e0, e1, e2⟩ := idx_facts1 ⟨25 * b.val + 24, hlt⟩
    have hch : ch.val < 256 := ch.isLt
    have hk : k.val < 4096 := k.isLt
    rw [mem_blk3]
    intro a
    match a with
    | ⟨0, _⟩ => show win1_3.index ⟨25 * b.val + 24, hlt⟩ (0 : Fin 3) * 1 ≤ b.val ∧ b.val < win1_3.index ⟨25 * b.val + 24, hlt⟩ (0 : Fin 3) * 1 + 1; rw [e0]; show (25 * b.val + 24) / 25 * 1 ≤ b.val ∧ b.val < (25 * b.val + 24) / 25 * 1 + 1; omega
    | ⟨1, _⟩ => show win1_3.index ⟨25 * b.val + 24, hlt⟩ (1 : Fin 3) * 256 ≤ ch.val ∧ ch.val < win1_3.index ⟨25 * b.val + 24, hlt⟩ (1 : Fin 3) * 256 + 256; rw [e1]; omega
    | ⟨2, _⟩ => show win1_3.index ⟨25 * b.val + 24, hlt⟩ (2 : Fin 3) * 4096 ≤ k.val ∧ k.val < win1_3.index ⟨25 * b.val + 24, hlt⟩ (2 : Fin 3) * 4096 + 4096; rw [e2]; omega
  exact (dat1 V c).arrAt_apply_of_mem 3 (G3 V c) (fun t hf => flushed3_eq V c t hf) cfg1.N ⟨25 * b.val + 24, hlt⟩ (ix3 b ch k) hlt hf hi

end Value

end Cert.KernelIdeal.R1

end
-- ==== Proof.LibWordsI32.lean ====
import Idealize.ShloMosaic.PureOps.Ideal
import Idealize.ShloMosaic.PureOps.Ideal.Laws
import Mathlib.Tactic
import proofs.«127700_j42417097016364_2_alg».proof.Proof.LibBilinear

/-!
# Integer words of integer-valued reals

An integer-valued real in the 32-bit signed range converts (toward zero, clamped) to the word of
that integer; on such words the signed comparisons, the increment and the signed clamp are the
integer's, and agree with the order comparisons, the addition of one and the clamp performed on
the real before converting.
-/

namespace Cert.BevMath
open Idealize.ShloMosaic

/-- An integer in the signed 32-bit range is read back from its word. -/
theorem toInt_ofInt32 (n : ℤ) (h0 : -2147483648 ≤ n) (h1 : n ≤ 2147483647) :
    (BitVec.ofInt 32 n).toInt = n := by
  rw [BitVec.toInt_ofInt]
  apply Int.bmod_eq_of_le <;> norm_num <;> omega

/-- A nonnegative integer in range has that natural number as its word's unsigned reading. -/
theorem toNat_ofInt32 (n : ℤ) (h0 : 0 ≤ n) (h1 : n ≤ 2147483647) :
    (BitVec.ofInt 32 n).toNat = n.toNat := by
  rw [BitVec.toNat_ofInt]
  norm_num
  omega

/-- Converting an integer-valued real in range gives the integer's word. -/
theorem fptosi32_intCast (n : ℤ) (h0 : -2147483648 ≤ n) (h1 : n ≤ 2147483647) :
    Ideal.fptosi 32 (((n : ℤ) : ℝ) : EReal) = BitVec.ofInt 32 n := by
  unfold Ideal.fptosi
  congr 1
  rw [Ideal.toIntClamped_coe]
  have : (if (0:ℝ) ≤ (n:ℝ) then ⌊(n:ℝ)⌋ else ⌈(n:ℝ)⌉) = n := by
    split_ifs <;> simp
  rw [this]
  norm_num
  omega

/-- The floor of a real, as the extended real of an integer. -/
theorem floor_coe (r : ℝ) : Ideal.liftRound Int.floor (r : EReal) = (((⌊r⌋ : ℤ) : ℝ) : EReal) := rfl

/-! ### Signed comparisons of a word against a small constant -/

theorem cmpi_sge_ofInt (n c : ℤ) (h0 : -2147483648 ≤ n) (h1 : n ≤ 2147483647)
    (c0 : -2147483648 ≤ c) (c1 : c ≤ 2147483647) :
    IntOp.cmpi .sge (BitVec.ofInt 32 n) (BitVec.ofInt 32 c) = BitVec.ofBool (decide (c ≤ n)) := by
  simp only [IntOp.cmpi, BitVec.sle_eq_decide, toInt_ofInt32 n h0 h1, toInt_ofInt32 c c0 c1]

theorem cmpi_sle_ofInt (n c : ℤ) (h0 : -2147483648 ≤ n) (h1 : n ≤ 2147483647)
    (c0 : -2147483648 ≤ c) (c1 : c ≤ 2147483647) :
    IntOp.cmpi .sle (BitVec.ofInt 32 n) (BitVec.ofInt 32 c) = BitVec.ofBool (decide (n ≤ c)) := by
  simp only [IntOp.cmpi, BitVec.sle_eq_decide, toInt_ofInt32 n h0 h1, toInt_ofInt32 c c0 c1]

theorem cmpi_slt_ofInt (n c : ℤ) (h0 : -2147483648 ≤ n) (h1 : n ≤ 2147483647)
    (c0 : -2147483648 ≤ c) (c1 : c ≤ 2147483647) :
    IntOp.cmpi .slt (BitVec.ofInt 32 n) (BitVec.ofInt 32 c) = BitVec.ofBool (decide (n < c)) := by
  simp only [IntOp.cmpi, BitVec.slt_eq_decide, toInt_ofInt32 n h0 h1, toInt_ofInt32 c c0 c1]

/-! ### The constants as words of integers -/

theorem w0 : (0#32 : BitVec 32) = BitVec.ofInt 32 0 := by decide
theorem w1 : (1#32 : BitVec 32) = BitVec.ofInt 32 1 := by decide
theorem w175 : (175#32 : BitVec 32) = BitVec.ofInt 32 175 := by decide
theorem w176 : (176#32 : BitVec 32) = BitVec.ofInt 32 176 := by decide
theorem w199 : (199#32 : BitVec 32) = BitVec.ofInt 32 199 := by decide
theorem w200 : (200#32 : BitVec 32) = BitVec.ofInt 32 200 := by decide

/-- A signed word converted to a float is its integer. -/
theorem sitofp_ofInt (n : ℤ) (h0 : -2147483648 ≤ n) (h1 : n ≤ 2147483647) :
    FloatOps.sitofp (F := Ideal) .f32 (BitVec.ofInt 32 n) = (((n : ℤ) : ℝ) : EReal) := by
  show (((BitVec.ofInt 32 n).toInt : ℝ) : EReal) = _
  rw [toInt_ofInt32 n h0 h1]

theorem sitofp_0 : FloatOps.sitofp (F := Ideal) .f32 (0#32 : BitVec 32) = (((0 : ℤ) : ℝ) : EReal) := by
  rw [w0]; exact sitofp_ofInt 0 (by norm_num) (by norm_num)
theorem sitofp_175 : FloatOps.sitofp (F := Ideal) .f32 (175#32 : BitVec 32) = (((175 : ℤ) : ℝ) : EReal) := by
  rw [w175]; exact sitofp_ofInt 175 (by norm_num) (by norm_num)
theorem sitofp_199 : FloatOps.sitofp (F := Ideal) .f32 (199#32 : BitVec 32) = (((199 : ℤ) : ℝ) : EReal) := by
  rw [w199]; exact sitofp_ofInt 199 (by norm_num) (by norm_num)

/-! ### Order comparisons of integer-valued reals -/

theorem cmpf_oge_intCast (n c : ℤ) :
    Ideal.cmp .oge (((n : ℤ) : ℝ) : EReal) (((c : ℤ) : ℝ) : EReal) = BitVec.ofBool (decide (c ≤ n)) := by
  simp only [Ideal.cmp, EReal.coe_le_coe_iff, Int.cast_le]

theorem cmpf_ole_intCast (n c : ℤ) :
    Ideal.cmp .ole (((n : ℤ) : ℝ) : EReal) (((c : ℤ) : ℝ) : EReal) = BitVec.ofBool (decide (n ≤ c)) := by
  simp only [Ideal.cmp, EReal.coe_le_coe_iff, Int.cast_le]

/-! ### One-bit words -/

theorem andi_ofBool (a b : Bool) :
    IntOp.andi (BitVec.ofBool a) (BitVec.ofBool b) = BitVec.ofBool (a && b) := by
  cases a <;> cases b <;> decide

theorem select_ofBool {α : Type} (b : Bool) (x y : α) :
    Scalar.select (BitVec.ofBool b) x y = if b then x else y := by
  cases b
  · exact if_neg (by decide)
  · exact if_pos rfl

/-- Whether an integer lies in `[0, hi]`. -/
def inRange (n hi : ℤ) : Bool := decide (0 ≤ n) && decide (n ≤ hi)

/-- The validity word of the integer form: both signed comparisons of the word. -/
theorem valid_word (n hi : ℤ) (h0 : -2147483648 ≤ n) (h1 : n ≤ 2147483647)
    (c0 : -2147483648 ≤ hi) (c1 : hi ≤ 2147483647) :
    IntOp.andi (IntOp.cmpi .sge (BitVec.ofInt 32 n) (0#32)) (IntOp.cmpi .sle (BitVec.ofInt 32 n) (BitVec.ofInt 32 hi))
      = BitVec.ofBool (inRange n hi) := by
  rw [w0, cmpi_sge_ofInt n 0 h0 h1 (by norm_num) (by norm_num), cmpi_sle_ofInt n hi h0 h1 c0 c1, andi_ofBool]
  rfl

/-- The validity word of the float form: both order comparisons of the integer-valued real. -/
theorem valid_float (n hi : ℤ) :
    IntOp.andi (Ideal.cmp .oge (((n : ℤ) : ℝ) : EReal) (((0 : ℤ) : ℝ) : EReal))
        (Ideal.cmp .ole (((n : ℤ) : ℝ) : EReal) (((hi : ℤ) : ℝ) : EReal))
      = BitVec.ofBool (inRange n hi) := by
  rw [cmpf_oge_intCast, cmpf_ole_intCast, andi_ofBool]
  rfl

/-- The four-comparison validity word of a corner, in the order x ≥ 0, x ≤ hx, y ≥ 0, y ≤ hy. -/
theorem valid_float2 (nx hx ny hy : ℤ) :
    IntOp.andi (IntOp.andi (IntOp.andi
        (Ideal.cmp .oge (((nx : ℤ) : ℝ) : EReal) (((0 : ℤ) : ℝ) : EReal))
        (Ideal.cmp .ole (((nx : ℤ) : ℝ) : EReal) (((hx : ℤ) : ℝ) : EReal)))
        (Ideal.cmp .oge (((ny : ℤ) : ℝ) : EReal) (((0 : ℤ) : ℝ) : EReal)))
        (Ideal.cmp .ole (((ny : ℤ) : ℝ) : EReal) (((hy : ℤ) : ℝ) : EReal))
      = BitVec.ofBool (inRange nx hx && inRange ny hy) := by
  simp only [cmpf_oge_intCast, cmpf_ole_intCast, andi_ofBool, inRange, Bool.and_assoc]

/-- A one-bit word read as a float is 1 or 0. -/
theorem uitofp_ofBool (b : Bool) :
    FloatOps.uitofp (F := Ideal) .f32 (BitVec.ofBool b) = if b then (1 : EReal) else 0 := by
  show (((BitVec.ofBool b).toNat : ℝ) : EReal) = _
  cases b <;> simp

/-! ### Increment, clamp, wrap -/

theorem addi_ofInt (n m : ℤ) :
    IntOp.addi (BitVec.ofInt 32 n) (BitVec.ofInt 32 m) = BitVec.ofInt 32 (n + m) := by
  rw [IntOp.addi, BitVec.ofInt_add]

theorem addi_one (n : ℤ) : IntOp.addi (BitVec.ofInt 32 n) (1#32) = BitVec.ofInt 32 (n + 1) := by
  rw [w1, addi_ofInt]

theorem coe_int_add_one (n : ℤ) : (((n : ℤ) : ℝ) : EReal) + 1 = (((n + 1 : ℤ) : ℝ) : EReal) := by
  rw [Int.cast_add, Int.cast_one, EReal.coe_add, EReal.coe_one]

/-- The signed clamp of a word into `[0, hi]` is the word of the clamped integer. -/
theorem clamp_word (n hi : ℤ) (h0 : -2147483648 ≤ n) (h1 : n ≤ 2147483647)
    (c0 : 0 ≤ hi) (c1 : hi ≤ 2147483647) :
    IntOp.minsi (BitVec.ofInt 32 hi) (IntOp.maxsi (0#32) (BitVec.ofInt 32 n))
      = BitVec.ofInt 32 (min hi (max 0 n)) := by
  have hm : IntOp.maxsi (0#32) (BitVec.ofInt 32 n) = BitVec.ofInt 32 (max 0 n) := by
    rw [IntOp.maxsi, w0, BitVec.slt_eq_decide, toInt_ofInt32 n h0 h1, toInt_ofInt32 0 (by norm_num) (by norm_num)]
    by_cases h : n < 0
    · rw [decide_eq_true h, if_pos rfl, max_eq_left h.le]
    · rw [decide_eq_false h, if_neg (by decide), max_eq_right (not_lt.mp h)]
  rw [hm, IntOp.minsi, BitVec.slt_eq_decide, toInt_ofInt32 hi (by omega) c1,
    toInt_ofInt32 (max 0 n) (by omega) (by omega)]
  by_cases h : hi < max 0 n
  · rw [decide_eq_true h, if_pos rfl, min_eq_left h.le]
  · rw [decide_eq_false h, if_neg (by decide), min_eq_right (not_lt.mp h)]

/-- Clamping the integer-valued real into `[0, hi]` and then converting gives the same word. -/
theorem clamp_float (n hi : ℤ) (h0 : -2147483648 ≤ n) (h1 : n ≤ 2147483647)
    (c0 : 0 ≤ hi) (c1 : hi ≤ 2147483647) :
    Ideal.fptosi 32 (min (((hi : ℤ) : ℝ) : EReal) (max (((0 : ℤ) : ℝ) : EReal) (((n : ℤ) : ℝ) : EReal)))
      = BitVec.ofInt 32 (min hi (max 0 n)) := by
  have emax : ∀ a b : ℝ, max (a : EReal) (b : EReal) = ((max a b : ℝ) : EReal) :=
    fun a b => (EReal.coe_strictMono.monotone.map_max).symm
  have emin : ∀ a b : ℝ, min (a : EReal) (b : EReal) = ((min a b : ℝ) : EReal) :=
    fun a b => (EReal.coe_strictMono.monotone.map_min).symm
  rw [emax, emin, ← Int.cast_max, ← Int.cast_min]
  exact fptosi32_intCast _ (by omega) (by omega)

/-- A word of a nonnegative integer is not negative, so a negative-index wrap keeps it. -/
theorem wrap_keep (m k : ℤ) (h0 : 0 ≤ m) (h1 : m ≤ 2147483647) :
    Scalar.select (IntOp.cmpi .slt (BitVec.ofInt 32 m) (0#32)) (IntOp.addi (BitVec.ofInt 32 m) (BitVec.ofInt 32 k))
      (BitVec.ofInt 32 m) = BitVec.ofInt 32 m := by
  rw [w0, cmpi_slt_ofInt m 0 (by omega) h1 (by norm_num) (by norm_num), select_ofBool,
    decide_eq_false (by omega), if_neg (by decide)]

/-- The gather's reading of a start word (signed, then as a natural number). -/
theorem toInt_toNat_ofInt32 (m : ℤ) (h0 : 0 ≤ m) (h1 : m ≤ 2147483647) :
    (BitVec.ofInt 32 m).toInt.toNat = m.toNat := by
  rw [toInt_ofInt32 m (by omega) h1]

/-! ### The one-hot factor -/

/-- A position word compared for equality with a word, read as a float, is the 1/0 factor of the
    position being that word's number. -/
theorem onehot (w : ℕ) (hw : w < 4294967296) (c : BitVec 32) :
    FloatOps.uitofp (F := Ideal) .f32 (IntOp.cmpi .eq (BitVec.ofNat 32 w) c)
      = if w = c.toNat then (1 : EReal) else 0 := by
  rw [IntOp.cmpi, uitofp_ofBool]
  have : (BitVec.ofNat 32 w == c) = decide (w = c.toNat) := by
    rw [Bool.eq_iff_iff, beq_iff_eq, decide_eq_true_iff]
    constructor
    · rintro rfl; rw [BitVec.toNat_ofNat]; omega
    · rintro rfl
      apply BitVec.eq_of_toNat_eq
      rw [BitVec.toNat_ofNat]
      exact Nat.mod_eq_of_lt c.isLt
  rw [this]
  by_cases h : w = c.toNat <;> simp [h]

/-! ### The same, at the programs' literal bounds -/

theorem valid_word_175 (n : ℤ) (h0 : -2147483648 ≤ n) (h1 : n ≤ 2147483647) :
    IntOp.andi (IntOp.cmpi .sge (BitVec.ofInt 32 n) (0#32)) (IntOp.cmpi .sle (BitVec.ofInt 32 n) (175#32))
      = BitVec.ofBool (inRange n 175) := by
  rw [w175]; exact valid_word n 175 h0 h1 (by norm_num) (by norm_num)

theorem valid_word_199 (n : ℤ) (h0 : -2147483648 ≤ n) (h1 : n ≤ 2147483647) :
    IntOp.andi (IntOp.cmpi .sge (BitVec.ofInt 32 n) (0#32)) (IntOp.cmpi .sle (BitVec.ofInt 32 n) (199#32))
      = BitVec.ofBool (inRange n 199) := by
  rw [w199]; exact valid_word n 199 h0 h1 (by norm_num) (by norm_num)

theorem clamp_word_175 (n : ℤ) (h0 : -2147483648 ≤ n) (h1 : n ≤ 2147483647) :
    IntOp.minsi (175#32) (IntOp.maxsi (0#32) (BitVec.ofInt 32 n)) = BitVec.ofInt 32 (min 175 (max 0 n)) := by
  rw [w175]; exact clamp_word n 175 h0 h1 (by norm_num) (by norm_num)

theorem clamp_word_199 (n : ℤ) (h0 : -2147483648 ≤ n) (h1 : n ≤ 2147483647) :
    IntOp.minsi (199#32) (IntOp.maxsi (0#32) (BitVec.ofInt 32 n)) = BitVec.ofInt 32 (min 199 (max 0 n)) := by
  rw [w199]; exact clamp_word n 199 h0 h1 (by norm_num) (by norm_num)

theorem clamp_float_175 (n : ℤ) (h0 : -2147483648 ≤ n) (h1 : n ≤ 2147483647) :
    Ideal.fptosi 32 (min (FloatOps.sitofp (F := Ideal) .f32 (175#32 : BitVec 32))
        (max (FloatOps.sitofp (F := Ideal) .f32 (0#32 : BitVec 32)) (((n : ℤ) : ℝ) : EReal)))
      = BitVec.ofInt 32 (min 175 (max 0 n)) := by
  rw [sitofp_175, sitofp_0]; exact clamp_float n 175 h0 h1 (by norm_num) (by norm_num)

theorem clamp_float_199 (n : ℤ) (h0 : -2147483648 ≤ n) (h1 : n ≤ 2147483647) :
    Ideal.fptosi 32 (min (FloatOps.sitofp (F := Ideal) .f32 (199#32 : BitVec 32))
        (max (FloatOps.sitofp (F := Ideal) .f32 (0#32 : BitVec 32)) (((n : ℤ) : ℝ) : EReal)))
      = BitVec.ofInt 32 (min 199 (max 0 n)) := by
  rw [sitofp_199, sitofp_0]; exact clamp_float n 199 h0 h1 (by norm_num) (by norm_num)

theorem wrap_keep_176 (m : ℤ) (h0 : 0 ≤ m) (h1 : m ≤ 2147483647) :
    Scalar.select (IntOp.cmpi .slt (BitVec.ofInt 32 m) (0#32)) (IntOp.addi (BitVec.ofInt 32 m) (176#32))
      (BitVec.ofInt 32 m) = BitVec.ofInt 32 m := by
  rw [w176]; exact wrap_keep m 176 h0 h1

theorem wrap_keep_200 (m : ℤ) (h0 : 0 ≤ m) (h1 : m ≤ 2147483647) :
    Scalar.select (IntOp.cmpi .slt (BitVec.ofInt 32 m) (0#32)) (IntOp.addi (BitVec.ofInt 32 m) (200#32))
      (BitVec.ofInt 32 m) = BitVec.ofInt 32 m := by
  rw [w200]; exact wrap_keep m 200 h0 h1

/-! ### The clamped integer as a grid position -/

/-- The column an integer clamps to. -/
def colIdx (n : ℤ) : Fin 176 := ⟨(min 175 (max 0 n)).toNat, by omega⟩
/-- The row an integer clamps to. -/
def rowIdx (n : ℤ) : Fin 200 := ⟨(min 199 (max 0 n)).toNat, by omega⟩

theorem colIdx_val (n : ℤ) : (colIdx n).val = (min 175 (max 0 n)).toNat := rfl
theorem rowIdx_val (n : ℤ) : (rowIdx n).val = (min 199 (max 0 n)).toNat := rfl

theorem toNat_colWord (n : ℤ) : (BitVec.ofInt 32 (min 175 (max 0 n))).toNat = (colIdx n).val :=
  toNat_ofInt32 _ (by omega) (by omega)
theorem toNat_rowWord (n : ℤ) : (BitVec.ofInt 32 (min 199 (max 0 n))).toNat = (rowIdx n).val :=
  toNat_ofInt32 _ (by omega) (by omega)

/-- What a gather reads of a clamped column word: signed, as a natural number, capped at the last column. -/
theorem gather_colWord (n : ℤ) :
    min (BitVec.ofInt 32 (min 175 (max 0 n))).toInt.toNat (176 - 1) = (colIdx n).val := by
  rw [toInt_toNat_ofInt32 _ (by omega) (by omega), colIdx_val]; omega
theorem gather_rowWord (n : ℤ) :
    min (BitVec.ofInt 32 (min 199 (max 0 n))).toInt.toNat (200 - 1) = (rowIdx n).val := by
  rw [toInt_toNat_ofInt32 _ (by omega) (by omega), rowIdx_val]; omega

/-- The one-hot factor of a column position against a clamped column word. -/
theorem onehot_col (w : Fin 176) (n : ℤ) :
    FloatOps.uitofp (F := Ideal) .f32 (IntOp.cmpi .eq (BitVec.ofNat 32 w.val) (BitVec.ofInt 32 (min 175 (max 0 n))))
      = ind (w = colIdx n) := by
  rw [onehot w.val (by omega), toNat_colWord]
  unfold ind
  by_cases h : w = colIdx n
  · rw [if_pos h, if_pos (congrArg Fin.val h)]
  · rw [if_neg h, if_neg (fun hv => h (Fin.ext hv))]

/-- The one-hot factor of a row position against a clamped row word. -/
theorem onehot_row (h : Fin 200) (n : ℤ) :
    FloatOps.uitofp (F := Ideal) .f32 (IntOp.cmpi .eq (BitVec.ofNat 32 h.val) (BitVec.ofInt 32 (min 199 (max 0 n))))
      = ind (h = rowIdx n) := by
  rw [onehot h.val (by omega), toNat_rowWord]
  unfold ind
  by_cases e : h = rowIdx n
  · rw [if_pos e, if_pos (congrArg Fin.val e)]
  · rw [if_neg e, if_neg (fun hv => e (Fin.ext hv))]

/-- The validity factor of a corner, as the 1/0 factor of both masks. -/
theorem uitofp_valid (a b : Bool) :
    FloatOps.uitofp (F := Ideal) .f32 (BitVec.ofBool (a && b)) = ind ((a && b) = true) := by
  rw [uitofp_ofBool]; rfl

end Cert.BevMath
-- ==== Proof.Math.Range.lean ====
import Idealize.ShloMosaic.PureOps.Ideal
import Idealize.ShloMosaic.PureOps.Ideal.Laws
import Mathlib.Tactic

/-!
# The sampling coordinates are reals in range

The constants of the coordinate computation are exact binary values; on a real position every step
stays real, and the resulting pixel coordinate lies in a bounded interval, so its floor is a small
nonnegative integer and its fractional part a real in `[0, 1)`.
-/

namespace Cert.BevMath
open Idealize.ShloMosaic

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee]
  rw [← EReal.coe_mul, ← EReal.coe_one]; congr 1; norm_num

theorem ofBits_two : Ideal.ofBits .f32 0x40000000#32 = ((2 : ℝ) : EReal) := by
  simp [Ideal.ofBits, Ideal.ieee]
  rw [← EReal.coe_mul]; congr 1; norm_num

theorem ofBits_half : Ideal.ofBits .f32 0x3F000000#32 = ((1 / 2 : ℝ) : EReal) := by
  simp [Ideal.ofBits, Ideal.ieee]
  rw [← EReal.coe_mul]; congr 1; norm_num

theorem ofBits_175 : Ideal.ofBits .f32 0x432F0000#32 = ((175 : ℝ) : EReal) := by
  simp [Ideal.ofBits, Ideal.ieee]
  rw [← EReal.coe_mul]; congr 1; norm_num

theorem ofBits_199 : Ideal.ofBits .f32 0x43470000#32 = ((199 : ℝ) : EReal) := by
  simp [Ideal.ofBits, Ideal.ieee]
  rw [← EReal.coe_mul]; congr 1; norm_num

theorem ofBits_eight : Ideal.ofBits .f32 0x41000000#32 = ((8 : ℝ) : EReal) := by
  simp [Ideal.ofBits, Ideal.ieee]
  rw [← EReal.coe_mul]; congr 1; norm_num

theorem ofBits_neg40 : Ideal.ofBits .f32 0xC2200000#32 = ((-40 : ℝ) : EReal) := by
  simp [Ideal.ofBits, Ideal.ieee]
  rw [← EReal.coe_mul]; congr 1; norm_num

theorem ofBits_p05 : Ideal.ofBits .f32 0x3D4CCCCD#32 = ((13421773 / 268435456 : ℝ) : EReal) := by
  simp [Ideal.ofBits, Ideal.ieee]
  rw [← EReal.coe_mul]; congr 1; norm_num

/-! ### Quotients of reals -/

/-- The quotient of two reals, the divisor nonzero, is the real quotient. -/
theorem div_coe (a d : ℝ) (hd : d ≠ 0) : Ideal.div (a : EReal) (d : EReal) = ((a / d : ℝ) : EReal) := by
  unfold Ideal.div
  rw [if_neg (by exact_mod_cast hd), ← EReal.coe_inv, ← EReal.coe_mul, div_eq_mul_inv]

theorem emax (a b : ℝ) : max (a : EReal) (b : EReal) = ((max a b : ℝ) : EReal) :=
  (EReal.coe_strictMono.monotone.map_max).symm
theorem emin (a b : ℝ) : min (a : EReal) (b : EReal) = ((min a b : ℝ) : EReal) :=
  (EReal.coe_strictMono.monotone.map_min).symm

/-! ### The pixel coordinate of a clamped, normalised, de-normalised position

A real position `q` is clamped into `[0, c]`, normalised to `2·(·/(c−1)) − 1`, and then
de-normalised along an axis of extent `s+1` as `(· + 1)·½·s`. The result is the real
`min (max q 0) c / (c − 1) · s`, which lies in `[0, c/(c−1)·s]`. -/

/-- The real the chain computes. -/
noncomputable def pix (q c s : ℝ) : ℝ := min (max q 0) c / (c - 1) * s

theorem pix_chain (q c s : ℝ) (hc : 1 < c) :
    ((((2 : ℝ) : EReal) * Ideal.div (min (max (q : EReal) ((0 : ℝ) : EReal)) (c : EReal)) ((c : EReal) - ((1 : ℝ) : EReal))
        - ((1 : ℝ) : EReal)) + ((1 : ℝ) : EReal)) * ((1 / 2 : ℝ) : EReal) * (s : EReal)
      = ((pix q c s : ℝ) : EReal) := by
  have hd : c - 1 ≠ 0 := by linarith
  rw [emax, emin, ← EReal.coe_sub, div_coe _ _ hd, ← EReal.coe_mul, ← EReal.coe_sub, ← EReal.coe_add,
    ← EReal.coe_mul, ← EReal.coe_mul]
  congr 1
  unfold pix
  ring

theorem pix_nonneg (q c s : ℝ) (hc : 1 < c) (hs : 0 ≤ s) : 0 ≤ pix q c s := by
  unfold pix
  have h1 : 0 ≤ min (max q 0) c := le_min (le_max_right _ _) (by linarith)
  have h2 : 0 < c - 1 := by linarith
  positivity

theorem pix_le (q c s : ℝ) (hc : 1 < c) (hs : 0 ≤ s) : pix q c s ≤ c / (c - 1) * s := by
  unfold pix
  have h2 : 0 < c - 1 := by linarith
  have h1 : min (max q 0) c ≤ c := min_le_right _ _
  gcongr

/-- Along the width: the row position clamped to `[0, 199]`, scaled to the 176 columns. -/
theorem pix_x_range (q : ℝ) : 0 ≤ pix q 199 175 ∧ pix q 199 175 < 176 := by
  refine ⟨pix_nonneg q 199 175 (by norm_num) (by norm_num), ?_⟩
  have := pix_le q 199 175 (by norm_num) (by norm_num)
  norm_num at this ⊢
  linarith

/-- Along the height: the column position clamped to `[0, 175]`, scaled to the 200 rows. -/
theorem pix_y_range (q : ℝ) : 0 ≤ pix q 175 199 ∧ pix q 175 199 < 201 := by
  refine ⟨pix_nonneg q 175 199 (by norm_num) (by norm_num), ?_⟩
  have := pix_le q 175 199 (by norm_num) (by norm_num)
  norm_num at this ⊢
  linarith

/-- The width coordinate as the programs spell it, at a real position. -/
theorem ix_printed (q : ℝ) :
    (((Ideal.ofBits .f32 0x40000000#32
          * Ideal.div (min (max (q : EReal) (Ideal.ofBits .f32 0x00000000#32)) (Ideal.ofBits .f32 0x43470000#32))
              (Ideal.ofBits .f32 0x43470000#32 - Ideal.ofBits .f32 0x3F800000#32)
        - Ideal.ofBits .f32 0x3F800000#32) + Ideal.ofBits .f32 0x3F800000#32)
        * Ideal.ofBits .f32 0x3F000000#32) * Ideal.ofBits .f32 0x432F0000#32
      = ((pix q 199 175 : ℝ) : EReal) := by
  rw [ofBits_two, ofBits_zero, ofBits_199, ofBits_one, ofBits_half, ofBits_175]
  exact pix_chain q 199 175 (by norm_num)

/-- The height coordinate as the programs spell it, at a real position. -/
theorem iy_printed (q : ℝ) :
    (((Ideal.ofBits .f32 0x40000000#32
          * Ideal.div (min (max (q : EReal) (Ideal.ofBits .f32 0x00000000#32)) (Ideal.ofBits .f32 0x432F0000#32))
              (Ideal.ofBits .f32 0x432F0000#32 - Ideal.ofBits .f32 0x3F800000#32)
        - Ideal.ofBits .f32 0x3F800000#32) + Ideal.ofBits .f32 0x3F800000#32)
        * Ideal.ofBits .f32 0x3F000000#32) * Ideal.ofBits .f32 0x43470000#32
      = ((pix q 175 199 : ℝ) : EReal) := by
  rw [ofBits_two, ofBits_zero, ofBits_175, ofBits_one, ofBits_half, ofBits_199]
  exact pix_chain q 175 199 (by norm_num)

/-- The position before clamping: a real keypoint coordinate less a real offset, over the pixel size
    (`0.05` as a binary32 value, times `8`). -/
theorem position_printed (kp off : ℝ) :
    Ideal.div ((kp : EReal) - (off : EReal)) (Ideal.ofBits .f32 0x3D4CCCCD#32 * Ideal.ofBits .f32 0x41000000#32)
      = (((kp - off) / (13421773 / 268435456 * 8) : ℝ) : EReal) := by
  rw [ofBits_p05, ofBits_eight, ← EReal.coe_sub, ← EReal.coe_mul]
  exact div_coe _ _ (by norm_num)

/-! ### Floor and fraction of a real in range -/

theorem floor_x (r : ℝ) (h0 : 0 ≤ r) (h1 : r < 176) : 0 ≤ ⌊r⌋ ∧ ⌊r⌋ ≤ 175 := by
  refine ⟨Int.floor_nonneg.mpr h0, ?_⟩
  have : ⌊r⌋ < 176 := Int.floor_lt.mpr (by exact_mod_cast h1)
  omega

theorem floor_y (r : ℝ) (h0 : 0 ≤ r) (h1 : r < 201) : 0 ≤ ⌊r⌋ ∧ ⌊r⌋ ≤ 200 := by
  refine ⟨Int.floor_nonneg.mpr h0, ?_⟩
  have : ⌊r⌋ < 201 := Int.floor_lt.mpr (by exact_mod_cast h1)
  omega

/-- The fractional weight: the real less its floor, both read as extended reals. -/
theorem frac_coe (r : ℝ) :
    (r : EReal) - Ideal.liftRound Int.floor (r : EReal) = ((r - (⌊r⌋ : ℝ) : ℝ) : EReal) := by
  rw [Ideal.liftRound_coe, ← EReal.coe_sub]

end Cert.BevMath
-- ==== Proof.Math.Spec.lean ====
import Idealize.ShloMosaic.PureOps.Ideal
import Idealize.ShloMosaic.PureOps.Ideal.Laws
import Mathlib.Tactic
import proofs.«127700_j42417097016364_2_alg».proof.Proof.LibBilinear
import proofs.«127700_j42417097016364_2_alg».proof.Proof.LibWordsI32
import proofs.«127700_j42417097016364_2_alg».proof.Proof.Math.Range

/-!
# The joint specification of the sampled value, and the bridge between its two spellings

The separable spelling: per axis, a weight vector over the positions built from the integer word
of the coordinate's floor (validity by signed comparisons, positions by a signed clamp, one-hot
factors by word equality); the sample is the grid contracted with both vectors.

The four-corner spelling: per corner, the grid value at the position obtained by clamping the
real corner coordinate and converting it to a word (with a negative-index wrap that never fires),
times the 1/0 factor of four order comparisons, times the two fractional weights.

For a real grid and real coordinates in range both are the same extended real.
-/

namespace Cert.BevMath
open Idealize.ShloMosaic
open scoped BigOperators

noncomputable abbrev cZero : EReal := Ideal.ofBits .f32 0x00000000#32
noncomputable abbrev cOne : EReal := Ideal.ofBits .f32 0x3F800000#32
noncomputable abbrev c175 : EReal := Ideal.ofBits .f32 0x432F0000#32
noncomputable abbrev c199 : EReal := Ideal.ofBits .f32 0x43470000#32

noncomputable abbrev cTwo : EReal := Ideal.ofBits .f32 0x40000000#32
noncomputable abbrev cHalf : EReal := Ideal.ofBits .f32 0x3F000000#32
noncomputable abbrev cP05 : EReal := Ideal.ofBits .f32 0x3D4CCCCD#32
noncomputable abbrev cEight : EReal := Ideal.ofBits .f32 0x41000000#32

theorem cZero_eq : cZero = 0 := by rw [cZero, ofBits_zero, EReal.coe_zero]
theorem cOne_eq : cOne = 1 := by rw [cOne, ofBits_one, EReal.coe_one]
theorem cZero_int : cZero = (((0 : ℤ) : ℝ) : EReal) := by rw [cZero, ofBits_zero, Int.cast_zero]
theorem c175_int : c175 = (((175 : ℤ) : ℝ) : EReal) := by rw [c175, ofBits_175]; norm_num
theorem c199_int : c199 = (((199 : ℤ) : ℝ) : EReal) := by rw [c199, ofBits_199]; norm_num

/-! ### The shared prefix: from a keypoint coordinate to a pixel coordinate -/

/-- The grid offset of each coordinate column (x, y), as words of binary32 values. -/
def offW : Fin 2 → BitVec 32 := fun
  | 0 => 0x00000000#32 | 1 => 0xC2200000#32
/-- The last pixel position of each coordinate column (x, y), as words of binary32 values. -/
def dimW : Fin 2 → BitVec 32 := fun
  | 0 => 0x432F0000#32 | 1 => 0x43470000#32

/-- A keypoint coordinate of column `c`, shifted by the grid offset, divided by the pixel size, clamped
    into the image, and normalised to `[-1, 1]` (slightly beyond at the upper end). -/
noncomputable def normS (c : Fin 2) (p : EReal) : EReal :=
  cTwo * Ideal.div
      (min (max (Ideal.div (p - Ideal.ofBits .f32 (offW c)) (cP05 * cEight)) cZero) (Ideal.ofBits .f32 (dimW c)))
      (Ideal.ofBits .f32 (dimW c) - cOne)
    - cOne

/-- The width pixel coordinate; after the coordinate swap it comes from the y column. -/
noncomputable def ixS (py : EReal) : EReal := ((normS 1 py + cOne) * cHalf) * c175
/-- The height pixel coordinate; after the coordinate swap it comes from the x column. -/
noncomputable def iyS (px : EReal) : EReal := ((normS 0 px + cOne) * cHalf) * c199

/-! ### The separable spelling -/

/-- The floor of a coordinate. -/
noncomputable def floorF (r : EReal) : EReal := Ideal.liftRound Int.floor r
/-- The word of the floor of a coordinate. -/
noncomputable def floorWord (r : EReal) : BitVec 32 := Ideal.fptosi 32 (floorF r)
/-- The fractional weight of a coordinate. -/
noncomputable def fracOf (r : EReal) : EReal := r - floorF r
/-- Validity of a position word on an axis whose last position is `hi`. -/
def validW (x hi : BitVec 32) : BitVec 1 := IntOp.andi (IntOp.cmpi .sge x (0#32)) (IntOp.cmpi .sle x hi)
/-- The signed clamp of a position word into `[0, hi]`. -/
def clampW (x hi : BitVec 32) : BitVec 32 := IntOp.minsi hi (IntOp.maxsi (0#32) x)
/-- The one-hot factor of position `w` against a position word. -/
noncomputable def hot (w : ℕ) (c : BitVec 32) : EReal :=
  FloatOps.uitofp (F := Ideal) .f32 (IntOp.cmpi .eq (BitVec.ofNat 32 w) c)

/-- The weight of position `w` on an axis whose last position is `hi`, for the coordinate `r`. -/
noncomputable def axisWeight (r : EReal) (hi : BitVec 32) (w : ℕ) : EReal :=
  hot w (clampW (floorWord r) hi) * Scalar.select (validW (floorWord r) hi) (cOne - fracOf r) cZero
    + hot w (clampW (IntOp.addi (floorWord r) (1#32)) hi)
        * Scalar.select (validW (IntOp.addi (floorWord r) (1#32)) hi) (fracOf r) cZero

/-- The separable sample. -/
noncomputable def sepSample (f : Fin 200 → Fin 176 → EReal) (rx ry : EReal) : EReal :=
  ∑ h : Fin 200, (∑ w : Fin 176, f h w * axisWeight rx (175#32) w.val) * axisWeight ry (199#32) h.val

/-! ### The four-corner spelling -/

/-- Validity of a corner by four order comparisons. -/
noncomputable def validF (xx yy : EReal) : BitVec 1 :=
  IntOp.andi (IntOp.andi (IntOp.andi (Ideal.cmp .oge xx cZero) (Ideal.cmp .ole xx c175)) (Ideal.cmp .oge yy cZero))
    (Ideal.cmp .ole yy c199)
/-- The word of a corner coordinate clamped into `[0, hi]`. -/
noncomputable def clampF (xx : EReal) (hi : BitVec 32) : BitVec 32 :=
  Ideal.fptosi 32 (min (FloatOps.sitofp (F := Ideal) .f32 hi) (max (FloatOps.sitofp (F := Ideal) .f32 (0#32 : BitVec 32)) xx))
/-- The negative-index wrap of a position word on an axis of `k` positions. -/
def wrapW (c k : BitVec 32) : BitVec 32 := Scalar.select (IntOp.cmpi .slt c (0#32)) (IntOp.addi c k) c
/-- The position a gather reads for a start word on an axis of `N` positions. -/
def gIdx (N : ℕ) (hN : 0 < N) (c : BitVec 32) : Fin N := ⟨min c.toInt.toNat (N - 1), by omega⟩

/-- One corner: the grid value there, times the validity factor. -/
noncomputable def corner (f : Fin 200 → Fin 176 → EReal) (yy xx : EReal) : EReal :=
  f (gIdx 200 (by norm_num) (wrapW (clampF yy (199#32)) (200#32)))
      (gIdx 176 (by norm_num) (wrapW (clampF xx (175#32)) (176#32)))
    * FloatOps.uitofp (F := Ideal) .f32 (validF xx yy)

/-- The four-corner sample. -/
noncomputable def cornerSample (f : Fin 200 → Fin 176 → EReal) (rx ry : EReal) : EReal :=
  (((corner f (floorF ry) (floorF rx) * (cOne - fracOf rx)) * (cOne - fracOf ry)
      + (corner f (floorF ry) (floorF rx + cOne) * fracOf rx) * (cOne - fracOf ry))
      + (corner f (floorF ry + cOne) (floorF rx) * (cOne - fracOf rx)) * fracOf ry)
      + (corner f (floorF ry + cOne) (floorF rx + cOne) * fracOf rx) * fracOf ry

/-! ### Reading both at an integer floor -/

theorem axisWeight_col (r : ℝ) (h0 : 0 ≤ r) (h1 : r < 176) (w : Fin 176) :
    axisWeight (r : EReal) (175#32) w.val
      = ind (w = colIdx ⌊r⌋) * (if inRange ⌊r⌋ 175 then (1 : EReal) - ((r - (⌊r⌋ : ℝ) : ℝ) : EReal) else 0)
        + ind (w = colIdx (⌊r⌋ + 1)) * (if inRange (⌊r⌋ + 1) 175 then ((r - (⌊r⌋ : ℝ) : ℝ) : EReal) else 0) := by
  obtain ⟨hn0, hn1⟩ := floor_x r h0 h1
  have hfw : floorWord (r : EReal) = BitVec.ofInt 32 ⌊r⌋ := by
    unfold floorWord floorF; rw [floor_coe]; exact fptosi32_intCast _ (by omega) (by omega)
  have hfr : fracOf (r : EReal) = ((r - (⌊r⌋ : ℝ) : ℝ) : EReal) := frac_coe r
  unfold axisWeight hot clampW validW
  rw [hfw, hfr, addi_one, clamp_word_175 _ (by omega) (by omega), clamp_word_175 _ (by omega) (by omega),
    valid_word_175 _ (by omega) (by omega), valid_word_175 _ (by omega) (by omega), onehot_col, onehot_col,
    select_ofBool, select_ofBool, cOne_eq, cZero_eq]

theorem axisWeight_row (r : ℝ) (h0 : 0 ≤ r) (h1 : r < 201) (h : Fin 200) :
    axisWeight (r : EReal) (199#32) h.val
      = ind (h = rowIdx ⌊r⌋) * (if inRange ⌊r⌋ 199 then (1 : EReal) - ((r - (⌊r⌋ : ℝ) : ℝ) : EReal) else 0)
        + ind (h = rowIdx (⌊r⌋ + 1)) * (if inRange (⌊r⌋ + 1) 199 then ((r - (⌊r⌋ : ℝ) : ℝ) : EReal) else 0) := by
  obtain ⟨hn0, hn1⟩ := floor_y r h0 h1
  have hfw : floorWord (r : EReal) = BitVec.ofInt 32 ⌊r⌋ := by
    unfold floorWord floorF; rw [floor_coe]; exact fptosi32_intCast _ (by omega) (by omega)
  have hfr : fracOf (r : EReal) = ((r - (⌊r⌋ : ℝ) : ℝ) : EReal) := frac_coe r
  unfold axisWeight hot clampW validW
  rw [hfw, hfr, addi_one, clamp_word_199 _ (by omega) (by omega), clamp_word_199 _ (by omega) (by omega),
    valid_word_199 _ (by omega) (by omega), valid_word_199 _ (by omega) (by omega), onehot_row, onehot_row,
    select_ofBool, select_ofBool, cOne_eq, cZero_eq]

/-- A corner at integer coordinates in the signed range. -/
theorem corner_int (f : Fin 200 → Fin 176 → EReal) (m n : ℤ)
    (hm0 : -2147483648 ≤ m) (hm1 : m ≤ 2147483647) (hn0 : -2147483648 ≤ n) (hn1 : n ≤ 2147483647) :
    corner f (((m : ℤ) : ℝ) : EReal) (((n : ℤ) : ℝ) : EReal)
      = f (rowIdx m) (colIdx n) * ind ((inRange n 175 && inRange m 199) = true) := by
  unfold corner clampF wrapW validF
  rw [clamp_float_199 m hm0 hm1, clamp_float_175 n hn0 hn1, wrap_keep_200 _ (by omega) (by omega),
    wrap_keep_176 _ (by omega) (by omega), cZero_int, c175_int, c199_int, valid_float2, uitofp_valid]
  have e1 : gIdx 200 (by norm_num) (BitVec.ofInt 32 (min 199 (max 0 m))) = rowIdx m := Fin.ext (gather_rowWord m)
  have e2 : gIdx 176 (by norm_num) (BitVec.ofInt 32 (min 175 (max 0 n))) = colIdx n := Fin.ext (gather_colWord n)
  rw [e1, e2]

/-- **The two spellings agree** on a real grid at real coordinates in range. -/
theorem sepSample_eq_cornerSample (f : Fin 200 → Fin 176 → EReal) (hf : ∀ h w, IsReal (f h w))
    (rx ry : ℝ) (hx0 : 0 ≤ rx) (hx1 : rx < 176) (hy0 : 0 ≤ ry) (hy1 : ry < 201) :
    sepSample f (rx : EReal) (ry : EReal) = cornerSample f (rx : EReal) (ry : EReal) := by
  obtain ⟨hn0, hn1⟩ := floor_x rx hx0 hx1
  obtain ⟨hm0, hm1⟩ := floor_y ry hy0 hy1
  have hfx : floorF (rx : EReal) = (((⌊rx⌋ : ℤ) : ℝ) : EReal) := floor_coe rx
  have hfy : floorF (ry : EReal) = (((⌊ry⌋ : ℤ) : ℝ) : EReal) := floor_coe ry
  have hwx : fracOf (rx : EReal) = ((rx - (⌊rx⌋ : ℝ) : ℝ) : EReal) := frac_coe rx
  have hwy : fracOf (ry : EReal) = ((ry - (⌊ry⌋ : ℝ) : ℝ) : EReal) := frac_coe ry
  unfold sepSample cornerSample
  simp only [axisWeight_col rx hx0 hx1, axisWeight_row ry hy0 hy1]
  rw [hfx, hfy, hwx, hwy, cOne_eq, coe_int_add_one, coe_int_add_one,
    corner_int f _ _ (by omega) (by omega) (by omega) (by omega),
    corner_int f _ _ (by omega) (by omega) (by omega) (by omega),
    corner_int f _ _ (by omega) (by omega) (by omega) (by omega),
    corner_int f _ _ (by omega) (by omega) (by omega) (by omega)]
  exact bilinear_join' hf (isReal_coe _) (isReal_coe _) _ _ _ _ _ _ _ _

/-! ### The named pieces of each spelling

Every name below unfolds by `rfl` to the scalar operations it is made of. -/

noncomputable def x0fS (ix : EReal) : EReal := floorF ix
noncomputable def y0fS (iy : EReal) : EReal := floorF iy
noncomputable def wxS (ix : EReal) : EReal := fracOf ix
noncomputable def wyS (iy : EReal) : EReal := fracOf iy
noncomputable def x0wS (ix : EReal) : BitVec 32 := floorWord ix
noncomputable def y0wS (iy : EReal) : BitVec 32 := floorWord iy
noncomputable def validx0S (ix : EReal) : BitVec 1 := validW (x0wS ix) (175#32)
noncomputable def validx1S (ix : EReal) : BitVec 1 := validW (IntOp.addi (x0wS ix) (1#32)) (175#32)
noncomputable def validy0S (iy : EReal) : BitVec 1 := validW (y0wS iy) (199#32)
noncomputable def validy1S (iy : EReal) : BitVec 1 := validW (IntOp.addi (y0wS iy) (1#32)) (199#32)
noncomputable def w0xS (ix : EReal) : EReal := Scalar.select (validx0S ix) (cOne - wxS ix) cZero
noncomputable def w1xS (ix : EReal) : EReal := Scalar.select (validx1S ix) (wxS ix) cZero
noncomputable def w0yS (iy : EReal) : EReal := Scalar.select (validy0S iy) (cOne - wyS iy) cZero
noncomputable def w1yS (iy : EReal) : EReal := Scalar.select (validy1S iy) (wyS iy) cZero
noncomputable def x0cS (ix : EReal) : BitVec 32 := clampW (x0wS ix) (175#32)
noncomputable def x1cS (ix : EReal) : BitVec 32 := clampW (IntOp.addi (x0wS ix) (1#32)) (175#32)
noncomputable def y0cS (iy : EReal) : BitVec 32 := clampW (y0wS iy) (199#32)
noncomputable def y1cS (iy : EReal) : BitVec 32 := clampW (IntOp.addi (y0wS iy) (1#32)) (199#32)

/-- The column weights of the separable spelling. -/
noncomputable def rxS (ix : EReal) (w : Fin 176) : EReal :=
  FloatOps.uitofp (F := Ideal) .f32 (IntOp.cmpi .eq (BitVec.ofNat 32 w.val) (x0cS ix)) * w0xS ix
    + FloatOps.uitofp (F := Ideal) .f32 (IntOp.cmpi .eq (BitVec.ofNat 32 w.val) (x1cS ix)) * w1xS ix
/-- The row weights of the separable spelling. -/
noncomputable def ryS (iy : EReal) (h : Fin 200) : EReal :=
  FloatOps.uitofp (F := Ideal) .f32 (IntOp.cmpi .eq (BitVec.ofNat 32 h.val) (y0cS iy)) * w0yS iy
    + FloatOps.uitofp (F := Ideal) .f32 (IntOp.cmpi .eq (BitVec.ofNat 32 h.val) (y1cS iy)) * w1yS iy

theorem rxS_eq_axisWeight (ix : EReal) (w : Fin 176) : rxS ix w = axisWeight ix (175#32) w.val := rfl
theorem ryS_eq_axisWeight (iy : EReal) (h : Fin 200) : ryS iy h = axisWeight iy (199#32) h.val := rfl

/-- The column weights in primitive operations only. -/
theorem rxS_prim (ix : EReal) (w : Fin 176) :
    rxS ix w =
      FloatOps.uitofp (F := Ideal) .f32 (IntOp.cmpi .eq (BitVec.ofNat 32 w.val)
          (IntOp.minsi (175#32) (IntOp.maxsi (0#32) (Ideal.fptosi 32 (Ideal.liftRound Int.floor ix)))))
        * Scalar.select
            (IntOp.andi (IntOp.cmpi .sge (Ideal.fptosi 32 (Ideal.liftRound Int.floor ix)) (0#32))
              (IntOp.cmpi .sle (Ideal.fptosi 32 (Ideal.liftRound Int.floor ix)) (175#32)))
            (Ideal.ofBits .f32 0x3F800000#32 - (ix - Ideal.liftRound Int.floor ix)) (Ideal.ofBits .f32 0x00000000#32)
      + FloatOps.uitofp (F := Ideal) .f32 (IntOp.cmpi .eq (BitVec.ofNat 32 w.val)
          (IntOp.minsi (175#32) (IntOp.maxsi (0#32)
            (IntOp.addi (Ideal.fptosi 32 (Ideal.liftRound Int.floor ix)) (1#32)))))
        * Scalar.select
            (IntOp.andi (IntOp.cmpi .sge (IntOp.addi (Ideal.fptosi 32 (Ideal.liftRound Int.floor ix)) (1#32)) (0#32))
              (IntOp.cmpi .sle (IntOp.addi (Ideal.fptosi 32 (Ideal.liftRound Int.floor ix)) (1#32)) (175#32)))
            (ix - Ideal.liftRound Int.floor ix) (Ideal.ofBits .f32 0x00000000#32) := rfl

/-- The row weights in primitive operations only. -/
theorem ryS_prim (iy : EReal) (h : Fin 200) :
    ryS iy h =
      FloatOps.uitofp (F := Ideal) .f32 (IntOp.cmpi .eq (BitVec.ofNat 32 h.val)
          (IntOp.minsi (199#32) (IntOp.maxsi (0#32) (Ideal.fptosi 32 (Ideal.liftRound Int.floor iy)))))
        * Scalar.select
            (IntOp.andi (IntOp.cmpi .sge (Ideal.fptosi 32 (Ideal.liftRound Int.floor iy)) (0#32))
              (IntOp.cmpi .sle (Ideal.fptosi 32 (Ideal.liftRound Int.floor iy)) (199#32)))
            (Ideal.ofBits .f32 0x3F800000#32 - (iy - Ideal.liftRound Int.floor iy)) (Ideal.ofBits .f32 0x00000000#32)
      + FloatOps.uitofp (F := Ideal) .f32 (IntOp.cmpi .eq (BitVec.ofNat 32 h.val)
          (IntOp.minsi (199#32) (IntOp.maxsi (0#32)
            (IntOp.addi (Ideal.fptosi 32 (Ideal.liftRound Int.floor iy)) (1#32)))))
        * Scalar.select
            (IntOp.andi (IntOp.cmpi .sge (IntOp.addi (Ideal.fptosi 32 (Ideal.liftRound Int.floor iy)) (1#32)) (0#32))
              (IntOp.cmpi .sle (IntOp.addi (Ideal.fptosi 32 (Ideal.liftRound Int.floor iy)) (1#32)) (199#32)))
            (iy - Ideal.liftRound Int.floor iy) (Ideal.ofBits .f32 0x00000000#32) := rfl

/-- The pixel coordinates in primitive operations only. -/
theorem ixS_prim (py : EReal) :
    ixS py =
      (((Ideal.ofBits .f32 0x40000000#32 * Ideal.div
          (min (max (Ideal.div (py - Ideal.ofBits .f32 0xC2200000#32)
              (Ideal.ofBits .f32 0x3D4CCCCD#32 * Ideal.ofBits .f32 0x41000000#32)) (Ideal.ofBits .f32 0x00000000#32))
            (Ideal.ofBits .f32 0x43470000#32))
          (Ideal.ofBits .f32 0x43470000#32 - Ideal.ofBits .f32 0x3F800000#32)
        - Ideal.ofBits .f32 0x3F800000#32) + Ideal.ofBits .f32 0x3F800000#32)
        * Ideal.ofBits .f32 0x3F000000#32) * Ideal.ofBits .f32 0x432F0000#32 := rfl

theorem iyS_prim (px : EReal) :
    iyS px =
      (((Ideal.ofBits .f32 0x40000000#32 * Ideal.div
          (min (max (Ideal.div (px - Ideal.ofBits .f32 0x00000000#32)
              (Ideal.ofBits .f32 0x3D4CCCCD#32 * Ideal.ofBits .f32 0x41000000#32)) (Ideal.ofBits .f32 0x00000000#32))
            (Ideal.ofBits .f32 0x432F0000#32))
          (Ideal.ofBits .f32 0x432F0000#32 - Ideal.ofBits .f32 0x3F800000#32)
        - Ideal.ofBits .f32 0x3F800000#32) + Ideal.ofBits .f32 0x3F800000#32)
        * Ideal.ofBits .f32 0x3F000000#32) * Ideal.ofBits .f32 0x43470000#32 := rfl

/-- The validity word of a corner of the four-corner spelling. -/
noncomputable def validS (xx yy : EReal) : BitVec 1 := validF xx yy
/-- The column word of a corner: clamp, convert, wrap. -/
noncomputable def xcS (xx : EReal) : BitVec 32 := wrapW (clampF xx (175#32)) (176#32)
/-- The row word of a corner: clamp, convert, wrap. -/
noncomputable def ycS (yy : EReal) : BitVec 32 := wrapW (clampF yy (199#32)) (200#32)

theorem corner_eq (f : Fin 200 → Fin 176 → EReal) (yy xx : EReal) :
    corner f yy xx
      = f (gIdx 200 (by norm_num) (ycS yy)) (gIdx 176 (by norm_num) (xcS xx))
          * FloatOps.uitofp (F := Ideal) .f32 (validS xx yy) := rfl

/-- The separable sample (the contraction with the column weights, then with the row weights). -/
noncomputable def kerS (feat : Fin 200 → Fin 176 → EReal) (ix iy : EReal) : EReal :=
  ∑ h : Fin 200, (∑ w : Fin 176, feat h w * rxS ix w) * ryS iy h

/-- The four-corner sample. -/
noncomputable def refS (feat : Fin 200 → Fin 176 → EReal) (ix iy : EReal) : EReal :=
  (((corner feat (y0fS iy) (x0fS ix) * (cOne - wxS ix)) * (cOne - wyS iy)
      + (corner feat (y0fS iy) (x0fS ix + cOne) * wxS ix) * (cOne - wyS iy))
      + (corner feat (y0fS iy + cOne) (x0fS ix) * (cOne - wxS ix)) * wyS iy)
      + (corner feat (y0fS iy + cOne) (x0fS ix + cOne) * wxS ix) * wyS iy

theorem kerS_eq_sepSample (feat : Fin 200 → Fin 176 → EReal) (ix iy : EReal) :
    kerS feat ix iy = sepSample feat ix iy := rfl
theorem refS_eq_cornerSample (feat : Fin 200 → Fin 176 → EReal) (ix iy : EReal) :
    refS feat ix iy = cornerSample feat ix iy := rfl

/-! ### The pixel coordinates of a real keypoint are reals in range -/

/-- The pixel size: `0.05` as a binary32 value, times `8`. -/
noncomputable def pixelSize : ℝ := 13421773 / 268435456 * 8

theorem ixS_coe (py : ℝ) : ixS (py : EReal) = ((pix ((py - (-40)) / pixelSize) 199 175 : ℝ) : EReal) := by
  rw [ixS_prim, ofBits_neg40, position_printed py (-40)]
  exact ix_printed _

theorem iyS_coe (px : ℝ) : iyS (px : EReal) = ((pix ((px - 0) / pixelSize) 175 199 : ℝ) : EReal) := by
  rw [iyS_prim, ofBits_zero, position_printed px 0, ← ofBits_zero]
  exact iy_printed _

/-- **The bridge.** On a real grid, at the pixel coordinates of a real keypoint, the separable
    sample is the four-corner sample. -/
theorem kerS_eq_refS (feat : Fin 200 → Fin 176 → EReal) (hf : ∀ h w, IsReal (feat h w))
    {px py : EReal} (hpx : IsReal px) (hpy : IsReal py) :
    kerS feat (ixS py) (iyS px) = refS feat (ixS py) (iyS px) := by
  obtain ⟨x, rfl⟩ := hpx
  obtain ⟨y, rfl⟩ := hpy
  rw [ixS_coe, iyS_coe]
  obtain ⟨hx0, hx1⟩ := pix_x_range ((y - (-40)) / pixelSize)
  obtain ⟨hy0, hy1⟩ := pix_y_range ((x - 0) / pixelSize)
  exact sepSample_eq_cornerSample feat hf _ _ hx0 hx1 hy0 hy1

end Cert.BevMath
-- ==== Proof.KI.Weights.lean ====
/-
  The two selection matrices the second region contracts the feature map with, read at an index.
  Between the two regions the program computes, per batch and keypoint, the pixel coordinates of the
  keypoint (normalise, swap the two columns, de-normalise), their floors and fractions, the integer
  words of the floors, the validity masks and the clamped positions along each axis, and from these
  the column weights (over the 176 columns) and the row weights (over the 200 rows). Here each
  stretch of those operations is read at one index, over arbitrary entry contents, and the readings
  are chained from the launch memory: the column weights of batch `b`, keypoint `k` at column `w` are
  the specification's `rxS` at the width coordinate `ixS` of the keypoint's y entry, the row weights
  its `ryS` at the height coordinate `iyS` of the keypoint's x entry.
-/
import proofs.«127700_j42417097016364_2_alg».proof.Proof.KI.Run
import proofs.«127700_j42417097016364_2_alg».proof.Proof.Math.Spec
import Idealize.ShloMosaic.Lib.ValueIdx
import Idealize.ShloMosaic.Lib.Pipeline.Value
import Idealize.ShloMosaic.Lib.IdealHost

set_option maxRecDepth 16384

noncomputable section

namespace Cert.KernelIdeal.Weights

open Idealize.ShloMosaic Idealize.ShloMosaic.TcCoe Idealize.ShloMosaic.ValueIdx
open Cert.KernelIdeal Cert.KernelIdeal.Gen Cert.KernelIdeal.Run
open Cert.BevMath

/-- A float buffer's contents read at an index, as an extended real. -/
abbrev rdF {s : Shape} (x : s.Idx → EReal) (i : s.Idx) : EReal := x i
/-- An integer buffer's contents read at an index, as a word. -/
abbrev rdI {s : Shape} {w : Nat} (x : s.Idx → BitVec w) (i : s.Idx) : BitVec w := x i

/-! ## Shape operations read at an index -/

section Reads
variable {α : Type}

theorem cmpi_apply {s : Shape} {w : Nat} (p : CmpIPredicate) (x y : IVec s w) (i : s.Idx) :
    cmpi p x y i = IntOp.cmpi p (x i) (y i) := rfl
theorem uitofp_apply {s : Shape} {w : Nat} (x : IVec s w) (i : s.Idx) :
    (uitofp .f32 x : FVec Ideal s .f32) i = FloatOps.uitofp (F := Ideal) .f32 (x i) := rfl
theorem fptosi_apply {s : Shape} (x : FVec Ideal s .f32) (i : s.Idx) :
    (fptosi 32 x : IVec s 32) i = Ideal.fptosi 32 (x i) := rfl
theorem hostFloor_apply {s : Shape} (x : FVec Ideal s .f32) (i : s.Idx) :
    Host.floor x i = Ideal.liftRound Int.floor (x i) := rfl
theorem andi_apply {s : Shape} {w : Nat} (x y : IVec s w) (i : s.Idx) : andi x y i = IntOp.andi (x i) (y i) := rfl
theorem addi_apply {s : Shape} {w : Nat} (x y : IVec s w) (i : s.Idx) : addi x y i = IntOp.addi (x i) (y i) := rfl
theorem maxsi_apply {s : Shape} {w : Nat} (x y : IVec s w) (i : s.Idx) : maxsi x y i = IntOp.maxsi (x i) (y i) := rfl
theorem minsi_apply {s : Shape} {w : Nat} (x y : IVec s w) (i : s.Idx) : minsi x y i = IntOp.minsi (x i) (y i) := rfl
theorem constantI_apply {s : Shape} {w : Nat} (c : BitVec w) (i : s.Idx) : constantI s w c i = c := rfl

/-- A per-keypoint array spread over the positions of an axis of 176: every position reads the keypoint's entry. -/
theorem bc176 (x : S4x4096.Idx → α) (b : Fin 4) (w : Fin 176) (k : Fin 4096) :
    broadcastInDim S4x176x4096 ![0, 1, 2] bcast_S4x1x4096_S4x176x4096_0_1_2
        (broadcastInDim S4x1x4096 ![0, 2] bcast_S4x4096_S4x1x4096_0_2 x) (ix3 b w k) = x (ix2 b k) := by
  have e1 := broadcastInDim_apply ![0, 1, 2] bcast_S4x1x4096_S4x176x4096_0_1_2
    (broadcastInDim S4x1x4096 ![0, 2] bcast_S4x4096_S4x1x4096_0_2 x) (ix3 b w k) (ix3 b (0 : Fin 1) k) (by
      intro a
      match a with
      | ⟨0, _⟩ => rfl
      | ⟨1, _⟩ => rfl
      | ⟨2, _⟩ => rfl)
  have e2 := broadcastInDim_apply ![0, 2] bcast_S4x4096_S4x1x4096_0_2 x (ix3 b (0 : Fin 1) k) (ix2 b k) (by
      intro a
      match a with
      | ⟨0, _⟩ => rfl
      | ⟨1, _⟩ => rfl)
  exact e1.trans e2

/-- The position numbers of an axis of 176 spread over batches and keypoints: position `w` reads the word of `w`. -/
theorem iota176 (b : Fin 4) (w : Fin 176) (k : Fin 4096) :
    broadcastInDim S4x176x4096 ![0, 1, 2] bcast_S1x176x1_S4x176x4096_0_1_2
        (broadcastInDim S1x176x1 ![1] bcast_S176_S1x176x1_1 (iotaInDim S176 32 0)) (ix3 b w k)
      = BitVec.ofNat 32 w.val := by
  have e1 := broadcastInDim_apply ![0, 1, 2] bcast_S1x176x1_S4x176x4096_0_1_2
    (broadcastInDim S1x176x1 ![1] bcast_S176_S1x176x1_1 (iotaInDim S176 32 0)) (ix3 b w k)
    (ix3 (0 : Fin 1) w (0 : Fin 1)) (by
      intro a
      match a with
      | ⟨0, _⟩ => rfl
      | ⟨1, _⟩ => rfl
      | ⟨2, _⟩ => rfl)
  have e2 := broadcastInDim_apply ![1] bcast_S176_S1x176x1_1 (iotaInDim S176 32 0) (ix3 (0 : Fin 1) w (0 : Fin 1)) (ix1 w) (by
      intro a
      match a with
      | ⟨0, _⟩ => rfl)
  exact e1.trans (e2.trans rfl)

theorem bc200 (x : S4x4096.Idx → α) (b : Fin 4) (h : Fin 200) (k : Fin 4096) :
    broadcastInDim S4x200x4096 ![0, 1, 2] bcast_S4x1x4096_S4x200x4096_0_1_2
        (broadcastInDim S4x1x4096 ![0, 2] bcast_S4x4096_S4x1x4096_0_2 x) (ix3 b h k) = x (ix2 b k) := by
  have e1 := broadcastInDim_apply ![0, 1, 2] bcast_S4x1x4096_S4x200x4096_0_1_2
    (broadcastInDim S4x1x4096 ![0, 2] bcast_S4x4096_S4x1x4096_0_2 x) (ix3 b h k) (ix3 b (0 : Fin 1) k) (by
      intro a
      match a with
      | ⟨0, _⟩ => rfl
      | ⟨1, _⟩ => rfl
      | ⟨2, _⟩ => rfl)
  have e2 := broadcastInDim_apply ![0, 2] bcast_S4x4096_S4x1x4096_0_2 x (ix3 b (0 : Fin 1) k) (ix2 b k) (by
      intro a
      match a with
      | ⟨0, _⟩ => rfl
      | ⟨1, _⟩ => rfl)
  exact e1.trans e2

theorem iota200 (b : Fin 4) (h : Fin 200) (k : Fin 4096) :
    broadcastInDim S4x200x4096 ![0, 1, 2] bcast_S1x200x1_S4x200x4096_0_1_2
        (broadcastInDim S1x200x1 ![1] bcast_S200_S1x200x1_1 (iotaInDim S200 32 0)) (ix3 b h k)
      = BitVec.ofNat 32 h.val := by
  have e1 := broadcastInDim_apply ![0, 1, 2] bcast_S1x200x1_S4x200x4096_0_1_2
    (broadcastInDim S1x200x1 ![1] bcast_S200_S1x200x1_1 (iotaInDim S200 32 0)) (ix3 b h k)
    (ix3 (0 : Fin 1) h (0 : Fin 1)) (by
      intro a
      match a with
      | ⟨0, _⟩ => rfl
      | ⟨1, _⟩ => rfl
      | ⟨2, _⟩ => rfl)
  have e2 := broadcastInDim_apply ![1] bcast_S200_S1x200x1_1 (iotaInDim S200 32 0) (ix3 (0 : Fin 1) h (0 : Fin 1)) (ix1 h) (by
      intro a
      match a with
      | ⟨0, _⟩ => rfl)
  exact e1.trans (e2.trans rfl)

end Reads

/-! ## The first stretches: the normalised grid and the coordinate swap -/

section PrefixReads
variable {α : Type}

theorem slice3 (x : S4x4096x3.Idx → α) (b : Fin 4) (k : Fin 4096) (c : Fin 2) :
    extractStridedSlice S4x4096x2 ![0, 0, 0] x slices_S4x4096x3_S4x4096x2_0_0_0 (ix3 b k c)
      = x (ix3 b k (⟨c.val, by omega⟩ : Fin 3)) := by
  refine extractStridedSlice_apply ![0, 0, 0] x slices_S4x4096x3_S4x4096x2_0_0_0 (ix3 b k c)
    (ix3 b k (⟨c.val, by omega⟩ : Fin 3)) ?_
  intro a
  match a with
  | ⟨0, _⟩ => show b.val = 0 + b.val; omega
  | ⟨1, _⟩ => show k.val = 0 + k.val; omega
  | ⟨2, _⟩ => show c.val = 0 + c.val; omega

theorem bcCol (x : S2.Idx → α) (b : Fin 4) (k : Fin 4096) (c : Fin 2) :
    broadcastInDim S4x4096x2 ![0, 1, 2] bcast_S1x1x2_S4x4096x2_0_1_2
        (broadcastInDim S1x1x2 ![2] bcast_S2_S1x1x2_2 x) (ix3 b k c) = x (ix1 c) := by
  have e1 := broadcastInDim_apply ![0, 1, 2] bcast_S1x1x2_S4x4096x2_0_1_2
    (broadcastInDim S1x1x2 ![2] bcast_S2_S1x1x2_2 x) (ix3 b k c) (ix3 (0 : Fin 1) (0 : Fin 1) c) (by
      intro a
      match a with
      | ⟨0, _⟩ => rfl
      | ⟨1, _⟩ => rfl
      | ⟨2, _⟩ => rfl)
  have e2 := broadcastInDim_apply ![2] bcast_S2_S1x1x2_2 x (ix3 (0 : Fin 1) (0 : Fin 1) c) (ix1 c) (by
      intro a
      match a with
      | ⟨0, _⟩ => rfl)
  exact e1.trans e2

theorem reverse2 (x : S4x4096x2.Idx → α) (b : Fin 4) (k : Fin 4096) (c : Fin 2) :
    Host.reverse [2] x (ix3 b k c) = x (ix3 b k c.rev) := by
  unfold Host.reverse
  congr 1
  funext a
  match a with
  | ⟨0, _⟩ => rfl
  | ⟨1, _⟩ => rfl
  | ⟨2, _⟩ => rfl

end PrefixReads

/-- The normalisation chain on given column constants. -/
abbrev normOf (p off ps dim : EReal) : EReal :=
  cTwo * Ideal.div (min (max (Ideal.div (p - off) (ps * cEight)) cZero) dim) (dim - cOne) - cOne

theorem s1_v23 (V : Valuation τ sig (Elt Ideal)) (b : Fin 4) (k : Fin 4096) (c : Fin 2) :
    rdF (s := S4x4096x2) (StableHlo.after (hostOps1 (F := Ideal)) V (Proc.devRef .tc main_v23)) (ix3 b k c)
      = normOf (rdF (s := S4x4096x3) (V (Proc.devRef .tc main_arg3)) (ix3 b k (⟨c.val, by omega⟩ : Fin 3)))
          (rdF (s := S2) (V (Proc.devRef .tc main_cst)) (ix1 c))
          (rdF (s := S2) (V (Proc.devRef .tc main_cst_0)) (ix1 c))
          (rdF (s := S2) (V (Proc.devRef .tc main_cst_1)) (ix1 c)) := by
  after_results_simp
  have h1 := slice3 (V (Proc.devRef .tc main_arg3) : S4x4096x3.Idx → EReal) b k c
  have h2 := bcCol (V (Proc.devRef .tc main_cst) : S2.Idx → EReal) b k c
  have h3 := bcCol (mulf (V (Proc.devRef .tc main_cst_0) : S2.Idx → EReal)
    (broadcastInDim S2 ![] bcast_S_S2 (constant (F := Ideal) S_ .f32 0x41000000#32))) b k c
  have h4 := bcCol (V (Proc.devRef .tc main_cst_1) : S2.Idx → EReal) b k c
  have h5 := bcCol (subf (V (Proc.devRef .tc main_cst_1) : S2.Idx → EReal)
    (broadcastInDim S2 ![] bcast_S_S2 (constant (F := Ideal) S_ .f32 0x3F800000#32))) b k c
  have e : ∀ l1 l1' l2 l2' l3 l3' l4 l4' l5 l5' : EReal, l1 = l1' → l2 = l2' → l3 = l3' → l4 = l4' → l5 = l5' →
      cTwo * Ideal.div (min (max (Ideal.div (l1 - l2) l3) cZero) l4) l5 - cOne
        = cTwo * Ideal.div (min (max (Ideal.div (l1' - l2') l3') cZero) l4') l5' - cOne := by
    intros; subst_vars; rfl
  exact e _ _ _ _ _ _ _ _ _ _ h1 h2 h3 h4 h5

theorem s1b_v24 (V : Valuation τ sig (Elt Ideal)) (b : Fin 4) (k : Fin 4096) (c : Fin 2) :
    rdF (s := S4x4096x2) (StableHlo.after (hostOps1_1 (F := Ideal)) V (Proc.devRef .tc main_v24)) (ix3 b k c)
      = rdF (s := S4x4096x2) (V (Proc.devRef .tc main_v23)) (ix3 b k c.rev) := by
  after_results_simp
  exact reverse2 (V (Proc.devRef .tc main_v23) : S4x4096x2.Idx → EReal) b k c

/-! ## The index arithmetic: from the normalised grid to floors, fractions, words and masks -/

section Slices
variable {α : Type}

theorem slice0 (x : S4x4096x2.Idx → α) (b : Fin 4) (k : Fin 4096) :
    shapeCast S4x4096 (extractStridedSlice S4x4096x1 ![0, 0, 0] x slices_S4x4096x2_S4x4096x1_0_0_0)
        shapeCasts_S4x4096x1_S4x4096 (ix2 b k) = x (ix3 b k (0 : Fin 2)) := by
  have e1 := shapeCast_apply (extractStridedSlice S4x4096x1 ![0, 0, 0] x slices_S4x4096x2_S4x4096x1_0_0_0)
    shapeCasts_S4x4096x1_S4x4096 (ix2 b k) (ix3 b k (0 : Fin 1)) (by
      rw [Shape.rowMajor_val_three, Shape.rowMajor_val_two]
      show (b.val * 4096 + k.val) * 1 + 0 = b.val * 4096 + k.val
      omega)
  have e2 := extractStridedSlice_apply ![0, 0, 0] x slices_S4x4096x2_S4x4096x1_0_0_0 (ix3 b k (0 : Fin 1))
    (ix3 b k (0 : Fin 2)) (by
      intro a
      match a with
      | ⟨0, _⟩ => show b.val = 0 + b.val; omega
      | ⟨1, _⟩ => show k.val = 0 + k.val; omega
      | ⟨2, _⟩ => rfl)
  exact e1.trans e2

theorem slice1 (x : S4x4096x2.Idx → α) (b : Fin 4) (k : Fin 4096) :
    shapeCast S4x4096 (extractStridedSlice S4x4096x1 ![0, 0, 1] x slices_S4x4096x2_S4x4096x1_0_0_1)
        shapeCasts_S4x4096x1_S4x4096 (ix2 b k) = x (ix3 b k (1 : Fin 2)) := by
  have e1 := shapeCast_apply (extractStridedSlice S4x4096x1 ![0, 0, 1] x slices_S4x4096x2_S4x4096x1_0_0_1)
    shapeCasts_S4x4096x1_S4x4096 (ix2 b k) (ix3 b k (0 : Fin 1)) (by
      rw [Shape.rowMajor_val_three, Shape.rowMajor_val_two]
      show (b.val * 4096 + k.val) * 1 + 0 = b.val * 4096 + k.val
      omega)
  have e2 := extractStridedSlice_apply ![0, 0, 1] x slices_S4x4096x2_S4x4096x1_0_0_1 (ix3 b k (0 : Fin 1))
    (ix3 b k (1 : Fin 2)) (by
      intro a
      match a with
      | ⟨0, _⟩ => show b.val = 0 + b.val; omega
      | ⟨1, _⟩ => show k.val = 0 + k.val; omega
      | ⟨2, _⟩ => rfl)
  exact e1.trans e2

end Slices

/-- The width pixel coordinate as the second stretch computes it from the swapped normalised grid. -/
abbrev ixOf (V : Valuation τ sig (Elt Ideal)) (b : Fin 4) (k : Fin 4096) : EReal :=
  ((rdF (s := S4x4096x2) (V (Proc.devRef .tc main_v24)) (ix3 b k (0 : Fin 2)) + cOne) * cHalf) * c175
/-- The height pixel coordinate likewise. -/
abbrev iyOf (V : Valuation τ sig (Elt Ideal)) (b : Fin 4) (k : Fin 4096) : EReal :=
  ((rdF (s := S4x4096x2) (V (Proc.devRef .tc main_v24)) (ix3 b k (1 : Fin 2)) + cOne) * cHalf) * c199

theorem s2_v45 (V : Valuation τ sig (Elt Ideal)) (b : Fin 4) (k : Fin 4096) :
    rdI (s := S4x4096) (StableHlo.after (hostOps1_2 (F := Ideal)) V (Proc.devRef .tc main_v45)) (ix2 b k)
      = x0wS (ixOf V b k) := by
  after_results_simp
  exact congrArg (fun t => x0wS (((t + cOne) * cHalf) * c175)) (slice0 (V (Proc.devRef .tc main_v24) : S4x4096x2.Idx → EReal) b k)

theorem s2_v46 (V : Valuation τ sig (Elt Ideal)) (b : Fin 4) (k : Fin 4096) :
    rdI (s := S4x4096) (StableHlo.after (hostOps1_2 (F := Ideal)) V (Proc.devRef .tc main_v46)) (ix2 b k)
      = y0wS (iyOf V b k) := by
  after_results_simp
  exact congrArg (fun t => y0wS (((t + cOne) * cHalf) * c199)) (slice1 (V (Proc.devRef .tc main_v24) : S4x4096x2.Idx → EReal) b k)

theorem s2_v43 (V : Valuation τ sig (Elt Ideal)) (b : Fin 4) (k : Fin 4096) :
    rdF (s := S4x4096) (StableHlo.after (hostOps1_2 (F := Ideal)) V (Proc.devRef .tc main_v43)) (ix2 b k)
      = wxS (ixOf V b k) := by
  after_results_simp
  exact congrArg (fun t => wxS (((t + cOne) * cHalf) * c175)) (slice0 (V (Proc.devRef .tc main_v24) : S4x4096x2.Idx → EReal) b k)

theorem s2_v44 (V : Valuation τ sig (Elt Ideal)) (b : Fin 4) (k : Fin 4096) :
    rdF (s := S4x4096) (StableHlo.after (hostOps1_2 (F := Ideal)) V (Proc.devRef .tc main_v44)) (ix2 b k)
      = wyS (iyOf V b k) := by
  after_results_simp
  exact congrArg (fun t => wyS (((t + cOne) * cHalf) * c199)) (slice1 (V (Proc.devRef .tc main_v24) : S4x4096x2.Idx → EReal) b k)

theorem s2_v51 (V : Valuation τ sig (Elt Ideal)) (b : Fin 4) (k : Fin 4096) :
    rdI (s := S4x4096) (StableHlo.after (hostOps1_2 (F := Ideal)) V (Proc.devRef .tc main_v51)) (ix2 b k)
      = validx0S (ixOf V b k) := by
  after_results_simp
  exact congrArg (fun t => validx0S (((t + cOne) * cHalf) * c175)) (slice0 (V (Proc.devRef .tc main_v24) : S4x4096x2.Idx → EReal) b k)

theorem s2_v60 (V : Valuation τ sig (Elt Ideal)) (b : Fin 4) (k : Fin 4096) :
    rdI (s := S4x4096) (StableHlo.after (hostOps1_2 (F := Ideal)) V (Proc.devRef .tc main_v60)) (ix2 b k)
      = validx1S (ixOf V b k) := by
  after_results_simp
  exact congrArg (fun t => validx1S (((t + cOne) * cHalf) * c175)) (slice0 (V (Proc.devRef .tc main_v24) : S4x4096x2.Idx → EReal) b k)

theorem s2_v65 (V : Valuation τ sig (Elt Ideal)) (b : Fin 4) (k : Fin 4096) :
    rdI (s := S4x4096) (StableHlo.after (hostOps1_2 (F := Ideal)) V (Proc.devRef .tc main_v65)) (ix2 b k)
      = validy0S (iyOf V b k) := by
  after_results_simp
  exact congrArg (fun t => validy0S (((t + cOne) * cHalf) * c199)) (slice1 (V (Proc.devRef .tc main_v24) : S4x4096x2.Idx → EReal) b k)

theorem s2_v74 (V : Valuation τ sig (Elt Ideal)) (b : Fin 4) (k : Fin 4096) :
    rdI (s := S4x4096) (StableHlo.after (hostOps1_2 (F := Ideal)) V (Proc.devRef .tc main_v74)) (ix2 b k)
      = validy1S (iyOf V b k) := by
  after_results_simp
  exact congrArg (fun t => validy1S (((t + cOne) * cHalf) * c199)) (slice1 (V (Proc.devRef .tc main_v24) : S4x4096x2.Idx → EReal) b k)

theorem s2_v76 (V : Valuation τ sig (Elt Ideal)) (b : Fin 4) (k : Fin 4096) :
    rdF (s := S4x4096) (StableHlo.after (hostOps1_2 (F := Ideal)) V (Proc.devRef .tc main_v76)) (ix2 b k)
      = cOne - wxS (ixOf V b k) := by
  after_results_simp
  exact congrArg (fun t => cOne - wxS (((t + cOne) * cHalf) * c175)) (slice0 (V (Proc.devRef .tc main_v24) : S4x4096x2.Idx → EReal) b k)

theorem s2_cst25 (V : Valuation τ sig (Elt Ideal)) :
    rdF (s := S_) (StableHlo.after (hostOps1_2 (F := Ideal)) V (Proc.devRef .tc main_cst_25)) ix0 = cZero := by
  after_results_simp
  rfl

/-! ## The middle stretches: the masked weights and the clamped words -/

/-- The buffers after the stretches between the index arithmetic and the selection matrices. -/
abbrev mid (V : Valuation τ sig (Elt Ideal)) : Valuation τ sig (Elt Ideal) :=
  StableHlo.after (hostOps1_17 (F := Ideal)) (StableHlo.after (hostOps1_16 (F := Ideal)) (StableHlo.after (hostOps1_15 (F := Ideal))
  (StableHlo.after (hostOps1_14 (F := Ideal)) (StableHlo.after (hostOps1_13 (F := Ideal)) (StableHlo.after (hostOps1_12 (F := Ideal))
  (StableHlo.after (hostOps1_11 (F := Ideal)) (StableHlo.after (hostOps1_10 (F := Ideal)) (StableHlo.after (hostOps1_9 (F := Ideal))
  (StableHlo.after (hostOps1_8 (F := Ideal)) (StableHlo.after (hostOps1_7 (F := Ideal)) (StableHlo.after (hostOps1_6 (F := Ideal))
  (StableHlo.after (hostOps1_5 (F := Ideal)) (StableHlo.after (hostOps1_4 (F := Ideal)) (StableHlo.after (hostOps1_3 (F := Ideal)) V))))))))))))))

theorem mid_v83 (V : Valuation τ sig (Elt Ideal)) (b : Fin 4) (k : Fin 4096) :
    rdI (s := S4x4096) (mid V (Proc.devRef .tc main_v83)) (ix2 b k)
      = IntOp.minsi (175#32) (IntOp.maxsi (0#32) (rdI (s := S4x4096) (V (Proc.devRef .tc main_v45)) (ix2 b k))) := by
  after_results_simp
  rfl

theorem mid_v86 (V : Valuation τ sig (Elt Ideal)) (b : Fin 4) (k : Fin 4096) :
    rdI (s := S4x4096) (mid V (Proc.devRef .tc main_v86)) (ix2 b k)
      = IntOp.minsi (175#32) (IntOp.maxsi (0#32)
          (IntOp.addi (rdI (s := S4x4096) (V (Proc.devRef .tc main_v45)) (ix2 b k)) (1#32))) := by
  after_results_simp
  rfl

theorem mid_v87 (V : Valuation τ sig (Elt Ideal)) (b : Fin 4) (k : Fin 4096) :
    rdI (s := S4x4096) (mid V (Proc.devRef .tc main_v87)) (ix2 b k)
      = IntOp.minsi (199#32) (IntOp.maxsi (0#32) (rdI (s := S4x4096) (V (Proc.devRef .tc main_v46)) (ix2 b k))) := by
  after_results_simp
  rfl

theorem mid_v90 (V : Valuation τ sig (Elt Ideal)) (b : Fin 4) (k : Fin 4096) :
    rdI (s := S4x4096) (mid V (Proc.devRef .tc main_v90)) (ix2 b k)
      = IntOp.minsi (199#32) (IntOp.maxsi (0#32)
          (IntOp.addi (rdI (s := S4x4096) (V (Proc.devRef .tc main_v46)) (ix2 b k)) (1#32))) := by
  after_results_simp
  rfl

theorem mid_v77 (V : Valuation τ sig (Elt Ideal)) (b : Fin 4) (k : Fin 4096) :
    rdF (s := S4x4096) (mid V (Proc.devRef .tc main_v77)) (ix2 b k)
      = Scalar.select (rdI (s := S4x4096) (V (Proc.devRef .tc main_v51)) (ix2 b k))
          (rdF (s := S4x4096) (V (Proc.devRef .tc main_v76)) (ix2 b k))
          (rdF (s := S_) (V (Proc.devRef .tc main_cst_25)) ix0) := by
  after_results_simp
  show Scalar.select _ _ (broadcastInDim S4x4096 ![] bcast_S_S4x4096
    (V (Proc.devRef .tc main_cst_25) : S_.Idx → EReal) (ix2 b k)) = _
  rw [broadcastInDim_scalar_apply]
  rfl

theorem mid_v78 (V : Valuation τ sig (Elt Ideal)) (b : Fin 4) (k : Fin 4096) :
    rdF (s := S4x4096) (mid V (Proc.devRef .tc main_v78)) (ix2 b k)
      = Scalar.select (rdI (s := S4x4096) (V (Proc.devRef .tc main_v60)) (ix2 b k))
          (rdF (s := S4x4096) (V (Proc.devRef .tc main_v43)) (ix2 b k)) cZero := by
  after_results_simp
  rfl

theorem mid_v81 (V : Valuation τ sig (Elt Ideal)) (b : Fin 4) (k : Fin 4096) :
    rdF (s := S4x4096) (mid V (Proc.devRef .tc main_v81)) (ix2 b k)
      = Scalar.select (rdI (s := S4x4096) (V (Proc.devRef .tc main_v65)) (ix2 b k))
          (cOne - rdF (s := S4x4096) (V (Proc.devRef .tc main_v44)) (ix2 b k)) cZero := by
  after_results_simp
  rfl

theorem mid_v82 (V : Valuation τ sig (Elt Ideal)) (b : Fin 4) (k : Fin 4096) :
    rdF (s := S4x4096) (mid V (Proc.devRef .tc main_v82)) (ix2 b k)
      = Scalar.select (rdI (s := S4x4096) (V (Proc.devRef .tc main_v74)) (ix2 b k))
          (rdF (s := S4x4096) (V (Proc.devRef .tc main_v44)) (ix2 b k)) cZero := by
  after_results_simp
  rfl

/-! ## The last stretch: the two selection matrices from the clamped words and the masked weights -/

theorem stretch18_rx (V : Valuation τ sig (Elt Ideal)) (b : Fin 4) (w : Fin 176) (k : Fin 4096) :
    rdF (s := S4x176x4096) (StableHlo.after (hostOps1_18 (F := Ideal)) V (Proc.devRef .tc main_v109)) (ix3 b w k)
      = FloatOps.uitofp (F := Ideal) .f32 (IntOp.cmpi .eq (BitVec.ofNat 32 w.val)
            (rdI (s := S4x4096) (V (Proc.devRef .tc main_v83)) (ix2 b k)))
          * rdF (s := S4x4096) (V (Proc.devRef .tc main_v77)) (ix2 b k)
        + FloatOps.uitofp (F := Ideal) .f32 (IntOp.cmpi .eq (BitVec.ofNat 32 w.val)
            (rdI (s := S4x4096) (V (Proc.devRef .tc main_v86)) (ix2 b k)))
          * rdF (s := S4x4096) (V (Proc.devRef .tc main_v78)) (ix2 b k) := by
  after_results_simp
  simp only [addf_apply, mulf_apply, uitofp_apply, cmpi_apply]
  rw [iota176 b w k, bc176 _ b w k, bc176 _ b w k, bc176 _ b w k, bc176 _ b w k]

theorem stretch18_ry (V : Valuation τ sig (Elt Ideal)) (b : Fin 4) (h : Fin 200) (k : Fin 4096) :
    rdF (s := S4x200x4096) (StableHlo.after (hostOps1_18 (F := Ideal)) V (Proc.devRef .tc main_v128)) (ix3 b h k)
      = FloatOps.uitofp (F := Ideal) .f32 (IntOp.cmpi .eq (BitVec.ofNat 32 h.val)
            (rdI (s := S4x4096) (V (Proc.devRef .tc main_v87)) (ix2 b k)))
          * rdF (s := S4x4096) (V (Proc.devRef .tc main_v81)) (ix2 b k)
        + FloatOps.uitofp (F := Ideal) .f32 (IntOp.cmpi .eq (BitVec.ofNat 32 h.val)
            (rdI (s := S4x4096) (V (Proc.devRef .tc main_v90)) (ix2 b k)))
          * rdF (s := S4x4096) (V (Proc.devRef .tc main_v82)) (ix2 b k) := by
  after_results_simp
  simp only [addf_apply, mulf_apply, uitofp_apply, cmpi_apply]
  rw [iota200 b h k, bc200 _ b h k, bc200 _ b h k, bc200 _ b h k, bc200 _ b h k]

/-! ## From the launch memory to the two selection matrices -/

section Launch
variable (m : (ℓ : Loc nD τ sig) → Buf (Elt Ideal) ℓ) (ρ : Dev nD → PrngReg)

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_kept m ρ c main_arg3 (Or.inr (Or.inr (Or.inr (Or.inl rfl))))
    _ = m ((c : Thread nD τ).loc main_arg3) := rfl

theorem W2_main_cst (c : Dev nD) (i : S2.Idx) :
    rdF (s := S2) (W2 m ρ c (Proc.devRef .tc main_cst)) i = Ideal.ofBits .f32 (lit0 (S2.rowMajor i)) := by
  rw [W2_of_ne m ρ c main_cst (by decide)]
  show rdF (s := S2) (StableHlo.after (hostOps0 (F := Ideal)) (W0 m ρ c) (Proc.devRef .tc main_cst)) i = _
  after_results_simp
  rfl

theorem W2_main_cst_0 (c : Dev nD) (i : S2.Idx) :
    rdF (s := S2) (W2 m ρ c (Proc.devRef .tc main_cst_0)) i = cP05 := by
  rw [W2_of_ne m ρ c main_cst_0 (by decide)]
  show rdF (s := S2) (StableHlo.after (hostOps0 (F := Ideal)) (W0 m ρ c) (Proc.devRef .tc main_cst_0)) i = _
  after_results_simp
  rfl

theorem W2_main_cst_1 (c : Dev nD) (i : S2.Idx) :
    rdF (s := S2) (W2 m ρ c (Proc.devRef .tc main_cst_1)) i = Ideal.ofBits .f32 (lit1 (S2.rowMajor i)) := by
  rw [W2_of_ne m ρ c main_cst_1 (by decide)]
  show rdF (s := S2) (StableHlo.after (hostOps0 (F := Ideal)) (W0 m ρ c) (Proc.devRef .tc main_cst_1)) i = _
  after_results_simp
  rfl

/-- The width pixel coordinate of keypoint `k` of batch `b`, from its y coordinate. -/
theorem ixOf_eq (c : Dev nD) (b : Fin 4) (k : Fin 4096) :
    ixOf (StableHlo.after (hostOps1_1 (F := Ideal)) (StableHlo.after (hostOps1 (F := Ideal)) (W2 m ρ c))) b k
      = ixS (rdF (s := S4x4096x3) (m ((c : Thread nD τ).loc main_arg3)) (ix3 b k (1 : Fin 3))) := by
  show ((rdF (s := S4x4096x2) (StableHlo.after (hostOps1_1 (F := Ideal)) (StableHlo.after (hostOps1 (F := Ideal)) (W2 m ρ c))
      (Proc.devRef .tc main_v24)) (ix3 b k (0 : Fin 2)) + cOne) * cHalf) * c175 = _
  rw [s1b_v24, s1_v23, W2_main_cst, W2_main_cst_0, W2_main_cst_1, W2_main_arg3]
  rfl

/-- The height pixel coordinate of keypoint `k` of batch `b`, from its x coordinate. -/
theorem iyOf_eq (c : Dev nD) (b : Fin 4) (k : Fin 4096) :
    iyOf (StableHlo.after (hostOps1_1 (F := Ideal)) (StableHlo.after (hostOps1 (F := Ideal)) (W2 m ρ c))) b k
      = iyS (rdF (s := S4x4096x3) (m ((c : Thread nD τ).loc main_arg3)) (ix3 b k (0 : Fin 3))) := by
  show ((rdF (s := S4x4096x2) (StableHlo.after (hostOps1_1 (F := Ideal)) (StableHlo.after (hostOps1 (F := Ideal)) (W2 m ρ c))
      (Proc.devRef .tc main_v24)) (ix3 b k (1 : Fin 2)) + cOne) * cHalf) * c199 = _
  rw [s1b_v24, s1_v23, W2_main_cst, W2_main_cst_0, W2_main_cst_1, W2_main_arg3]
  rfl

/-- **The column selection matrix** at the second region's entry. -/
theorem V21_rx (c : Dev nD) (b : Fin 4) (w : Fin 176) (k : Fin 4096) :
    rdF (s := S4x176x4096) (V21 m ρ c main_v109) (ix3 b w k)
      = rxS (ixS (rdF (s := S4x4096x3) (m ((c : Thread nD τ).loc main_arg3)) (ix3 b k (1 : Fin 3)))) w := by
  show rdF (s := S4x176x4096) (StableHlo.after (hostOps1_18 (F := Ideal)) (mid (StableHlo.after (hostOps1_2 (F := Ideal))
      (StableHlo.after (hostOps1_1 (F := Ideal)) (StableHlo.after (hostOps1 (F := Ideal)) (W2 m ρ c)))))
      (Proc.devRef .tc main_v109)) (ix3 b w k) = _
  rw [stretch18_rx, mid_v83, mid_v77, mid_v86, mid_v78, s2_v45, s2_v51, s2_v76, s2_cst25, s2_v60, s2_v43, ixOf_eq]
  rfl

/-- **The row selection matrix** at the second region's entry. -/
theorem V21_ry (c : Dev nD) (b : Fin 4) (h : Fin 200) (k : Fin 4096) :
    rdF (s := S4x200x4096) (V21 m ρ c main_v128) (ix3 b h k)
      = ryS (iyS (rdF (s := S4x4096x3) (m ((c : Thread nD τ).loc main_arg3)) (ix3 b k (0 : Fin 3)))) h := by
  show rdF (s := S4x200x4096) (StableHlo.after (hostOps1_18 (F := Ideal)) (mid (StableHlo.after (hostOps1_2 (F := Ideal))
      (StableHlo.after (hostOps1_1 (F := Ideal)) (StableHlo.after (hostOps1 (F := Ideal)) (W2 m ρ c)))))
      (Proc.devRef .tc main_v128)) (ix3 b h k) = _
  rw [stretch18_ry, mid_v87, mid_v81, mid_v90, mid_v82, s2_v46, s2_v65, s2_v44, s2_v74, iyOf_eq]
  rfl

end Launch

end Cert.KernelIdeal.Weights
-- ==== Proof.Alg.SecondK.lean ====
/-
  The kernel's second result at an index: the accumulated sum over the 200 rows of (the row's product with the
  column selection matrix) times the row selection matrix, with the two selection matrices read back to the
  keypoint's coordinates.
-/
import proofs.«127700_j42417097016364_2_alg».proof.Proof.KI.Run
import proofs.«127700_j42417097016364_2_alg».proof.Proof.KI.BevValue
import proofs.«127700_j42417097016364_2_alg».proof.Proof.KI.Weights
import proofs.«127700_j42417097016364_2_alg».proof.Proof.Math.Spec

noncomputable section

namespace Cert.Proof.Alg

open Idealize.ShloMosaic Idealize.ShloMosaic.TcCoe Idealize.ShloMosaic.ValueIdx Idealize.SL.Sem
open Cert.BevMath Cert.KernelIdeal Cert.KernelIdeal.Run Cert.KernelIdeal.R1 Cert.KernelIdeal.Weights

/-- Nothing before the gather's region writes the feature map. -/
theorem V21_arg2 (m : (ℓ : Loc nD τ sig) → Buf (Elt Ideal) ℓ) (ρ : Dev nD → PrngReg) (c : Dev nD) :
    V21 m ρ c main_arg2 = m ((c.tc : Thread nD τ).loc main_arg2) :=
  calc W21 m ρ c (Proc.devRef .tc main_arg2)
    _ = W2 m ρ c (Proc.devRef .tc main_arg2) := W21_kept m ρ c main_arg2 (Or.inr (Or.inr (Or.inl rfl)))
    _ = W1 m ρ c (Proc.devRef .tc main_arg2) := W2_of_ne m ρ c main_arg2 (by decide)
    _ = W0 m ρ c (Proc.devRef .tc main_arg2) := W1_kept m ρ c main_arg2 (Or.inr (Or.inr (Or.inl rfl)))
    _ = m ((c.tc : Thread nD τ).loc main_arg2) := rfl

theorem kernel_second (m : (ℓ : Loc nD τ sig) → Buf (Elt Ideal) ℓ) (ρ : Dev nD → PrngReg) (c : Dev nD)
    (b : Fin 4) (ch : Fin 256) (k : Fin 4096) :
    rdF (s := S4x256x4096) ((dat1 (V21 m ρ) c).arrAt 3 cfg1.N) (ix3 b ch k)
      = kerS (fun h w => rdF (s := S4x256x200x176) (m ((c.tc : Thread nD τ).loc main_arg2)) (ix4 b ch h w))
          (ixS (rdF (s := S4x4096x3) (m ((c.tc : Thread nD τ).loc main_arg3)) (ix3 b k (1 : Fin 3))))
          (iyS (rdF (s := S4x4096x3) (m ((c.tc : Thread nD τ).loc main_arg3)) (ix3 b k (0 : Fin 3)))) := by
  refine (bev_value (V21 m ρ) c b ch k).trans ?_
  unfold kerS
  refine Finset.sum_congr rfl fun h _ => ?_
  rw [← V21_ry m ρ c b h k]
  refine congrArg (· * _) ?_
  refine Finset.sum_congr rfl fun w _ => ?_
  rw [← V21_rx m ρ c b w k, ← V21_arg2 m ρ c]

end Cert.Proof.Alg

end
-- ==== Proof.KI.Finite.lean ====
/-
  The precondition read: every entry of the feature map and of the keypoint array is a real number.

  The printed precondition is the conjunction, over the four argument arrays, of "every entry's absolute value is
  below +∞". On the extended reals |x| < ⊤ excludes exactly ⊤ and ⊥.
-/
import proofs.«127700_j42417097016364_2_alg».proof.Defs
import proofs.«127700_j42417097016364_2_alg».proof.Proof.Gen.Pre_finite_inputs
import proofs.«127700_j42417097016364_2_alg».proof.Proof.Gen.KernelIdeal
import proofs.«127700_j42417097016364_2_alg».proof.Proof.LibBilinear
import Idealize.ShloMosaic.Lib.ReduceAll
import Idealize.ShloMosaic.Lib.Affine
import Idealize.ShloMosaic.Lib.ValueIdx

noncomputable section

namespace Cert.KernelIdeal.Finite

open Idealize.ShloMosaic Idealize.SL.Sem Cert.KernelIdeal Cert.BevMath

instance : Subsingleton Cert.Pre_finite_inputs.S_.Idx := ⟨fun a b => funext fun d => d.elim0⟩

theorem top_eq : Ideal.ofBits .f32 0x7F800000#32 = (⊤ : EReal) := by simp [Ideal.ofBits, Ideal.ieee]

/-- An extended real whose absolute value is below +∞ is a real. -/
theorem isReal_of_abs_lt_top (x : EReal) (h : Ideal.cmp .olt (max x (-x)) (Ideal.ofBits .f32 0x7F800000#32) = 1#1) : IsReal x := by
  rw [top_eq] at h
  induction x using EReal.rec with
  | bot => exfalso; revert h; simp [Ideal.cmp]
  | coe r => exact ⟨r, rfl⟩
  | top => exfalso; revert h; simp [Ideal.cmp]

theorem reals (m : (ℓ : Loc nD τ sig) → Buf (Elt Ideal) ℓ)
    (hpre : Cert.Pre_KernelIdeal (hPre_finite_inputs := Cert.Pre_finite_inputs.Gen.facts) m) (c : Dev nD) :
    (∀ i, IsReal (m ((c.tc : Thread nD τ).loc main_arg2) i)) ∧ (∀ i, IsReal (m ((c.tc : Thread nD τ).loc main_arg3) i)) := by
  have h := congrFun (hpre c) ValueIdx.ix0
  dsimp only [Cert.Pre_finite_inputs.fn, Cert.Pre_finite_inputs.fn_part1] at h
  obtain ⟨h012, h3⟩ := IntOp.andi_eq_one.mp h
  obtain ⟨h01, h2⟩ := IntOp.andi_eq_one.mp h012
  refine ⟨fun i => ?_, fun i => ?_⟩
  · have e := Host.reduce_andi_all _ _ _ _ _ h2 i
    exact isReal_of_abs_lt_top _ e
  · have e := Host.reduce_andi_all _ _ _ _ _ h3 i
    exact isReal_of_abs_lt_top _ e

end Cert.KernelIdeal.Finite

end
-- ==== Proof.Ref.BevDefs.lean ====
/- The reference's second result as arrays. Each key point `(b, k)` has a fractional column and row in the feature map;
   the result at channel `ch` is the bilinear blend of the map at the four integer corners around them, a corner outside
   the map contributing zero. This module names the arrays the reference's operations compose from the integer parts and
   the fractional weights on — one corner's masked gather as a function of the corner's coordinate arrays, the blend of
   the four — for any float values. -/
import proofs.«127700_j42417097016364_2_alg».proof.Proof.Gen.ReferenceIdeal
import Idealize.ShloMosaic.PureOps

noncomputable section

namespace Cert.ReferenceIdeal.HandRun

open Cert.ReferenceIdeal Cert.ReferenceIdeal.Gen Idealize.ShloMosaic

variable {F : FTy → Type} [FloatOps F]

/-- A word splat over the per-point shape `[4, 1, 4096]`, as a float. -/
def splatP (w : BitVec 32) : (⟨S4x1x4096, .f32⟩ : BufTy).Contents (Elt F) :=
  broadcastInDim S4x1x4096 ![] bcast_S_S4x1x4096 (constant S_ .f32 w)
/-- A word splat over the per-point shape, as an integer. -/
def splatPI (w : BitVec 32) : IVec S4x1x4096 32 :=
  broadcastInDim S4x1x4096 ![] bcast_S_S4x1x4096 (constantI S_ 32 w)
/-- The fractional row of every point: the second of the swapped pair, plus one, halved, times the last row. -/
def iyOf (g : (⟨S4x1x4096x2, .f32⟩ : BufTy).Contents (Elt F)) : (⟨S4x1x4096, .f32⟩ : BufTy).Contents (Elt F) :=
  mulf (mulf (addf (fun i => shapeCast S4x1x4096 (extractStridedSlice S4x1x4096x1 ![0, 0, 0, 1] g slices_S4x1x4096x2_S4x1x4096x1_0_0_0_1)
      shapeCasts_S4x1x4096x1_S4x1x4096 i) (splatP 0x3F800000#32)) (splatP 0x3F000000#32)) (splatP 0x43470000#32)

/-- A corner `(yy, xx)` lies in the map: `0 ≤ xx ≤ 175` and `0 ≤ yy ≤ 199`, as one bit per point. -/
def validT (xx yy : (⟨S4x1x4096, .f32⟩ : BufTy).Contents (Elt F)) : (⟨S4x1x4096, .i1⟩ : BufTy).Contents (Elt F) :=
  andi (andi (andi (cmpf .oge xx (splatP 0x00000000#32)) (cmpf .ole xx (splatP 0x432F0000#32))) (cmpf .oge yy (splatP 0x00000000#32)))
    (cmpf .ole yy (splatP 0x43470000#32))
/-- A coordinate clamped into `[0, hi]` (`hi` an integer word, converted). -/
def clipT (hi : BitVec 32) (xx : (⟨S4x1x4096, .f32⟩ : BufTy).Contents (Elt F)) : (⟨S4x1x4096, .f32⟩ : BufTy).Contents (Elt F) :=
  minimumf (broadcastInDim S4x1x4096 ![] bcast_S_S4x1x4096 (sitofp .f32 (constantI S_ 32 hi)))
    (maximumf (broadcastInDim S4x1x4096 ![] bcast_S_S4x1x4096 (sitofp .f32 (constantI S_ 32 0#32))) xx)
/-- An index word, `n` added when negative. -/
def wrapT (n : BitVec 32) (c : IVec S4x1x4096 32) : IVec S4x1x4096 32 :=
  select (cmpi .slt c (splatPI 0#32)) (addi c (splatPI n)) c
/-- The start indices `(row, column)` of a corner's gather. -/
def startT (yy xx : (⟨S4x1x4096, .f32⟩ : BufTy).Contents (Elt F)) : (⟨S4x1x4096x2, .i32⟩ : BufTy).Contents (Elt F) :=
  concatenate S4x1x4096x2 3
    [⟨S4x1x4096x1, broadcastInDim S4x1x4096x1 ![0, 1, 2] bcast_S4x1x4096_S4x1x4096x1_0_1_2 (wrapT 200#32 (fptosi 32 (clipT 199#32 yy)))⟩,
     ⟨S4x1x4096x1, broadcastInDim S4x1x4096x1 ![0, 1, 2] bcast_S4x1x4096_S4x1x4096x1_0_1_2 (wrapT 176#32 (fptosi 32 (clipT 175#32 xx)))⟩]
    concatenates_S4x1x4096x1_S4x1x4096x1_S4x1x4096x2_d3
/-- A per-point array laid over the channels: `[4, 1, 4096] → [4, 1, 1, 4096] → [4, 256, 1, 4096]`. -/
def overCh (w : (⟨S4x1x4096, .f32⟩ : BufTy).Contents (Elt F)) : (⟨S4x256x1x4096, .f32⟩ : BufTy).Contents (Elt F) :=
  broadcastInDim S4x256x1x4096 ![0, 1, 2, 3] bcast_S4x1x1x4096_S4x256x1x4096_0_1_2_3 (broadcastInDim S4x1x1x4096 ![0, 2, 3] bcast_S4x1x4096_S4x1x1x4096_0_2_3 w)
/-- One corner's contribution before weighting: the map gathered at the clamped corner, times the in-map bit. -/
def cornerT (A : (⟨S4x256x200x176, .f32⟩ : BufTy).Contents (Elt F)) (yy xx : (⟨S4x1x4096, .f32⟩ : BufTy).Contents (Elt F)) : (⟨S4x256x1x4096, .f32⟩ : BufTy).Contents (Elt F) :=
  mulf (Host.gather gather_S4x256x200x176_S4x1x4096x2_S4x256x1x4096_1_23_0_0_23_3_125611 A (startT yy xx)) (overCh (uitofp .f32 (validT xx yy)))

/-- The blend of four corner arrays' contributions around `(y0 + wy, x0 + wx)`, the first corner's masked gather given
    (`c00`), the other three computed, as the reference associates it, with the unit axis dropped. -/
def blendFrom (A : (⟨S4x256x200x176, .f32⟩ : BufTy).Contents (Elt F)) (c00 : (⟨S4x256x1x4096, .f32⟩ : BufTy).Contents (Elt F)) (x0 y0 wx wy : (⟨S4x1x4096, .f32⟩ : BufTy).Contents (Elt F)) : (⟨S4x256x4096, .f32⟩ : BufTy).Contents (Elt F) :=
  fun i => shapeCast S4x256x4096
    (addf
      (addf
        (addf
          (mulf (mulf c00 (overCh (subf (splatP 0x3F800000#32) wx))) (overCh (subf (splatP 0x3F800000#32) wy)))
          (mulf (mulf (cornerT A y0 (addf x0 (splatP 0x3F800000#32))) (overCh wx)) (overCh (subf (splatP 0x3F800000#32) wy))))
        (mulf (mulf (cornerT A (addf y0 (splatP 0x3F800000#32)) x0) (overCh (subf (splatP 0x3F800000#32) wx))) (overCh wy)))
      (mulf (mulf (cornerT A (addf y0 (splatP 0x3F800000#32)) (addf x0 (splatP 0x3F800000#32))) (overCh wx)) (overCh wy)))
    shapeCasts_S4x256x1x4096_S4x256x4096 i

/-- The blend of the four corners around `(y0 + wy, x0 + wx)`. -/
def blendT (A : (⟨S4x256x200x176, .f32⟩ : BufTy).Contents (Elt F)) (x0 y0 wx wy : (⟨S4x1x4096, .f32⟩ : BufTy).Contents (Elt F)) : (⟨S4x256x4096, .f32⟩ : BufTy).Contents (Elt F) :=
  blendFrom A (cornerT A y0 x0) x0 y0 wx wy

end Cert.ReferenceIdeal.HandRun

end
-- ==== Proof.Ref.BevW1.lean ====
/- What the second window leaves in the buffers later windows read: the integer parts of the fractional column and row, and the first corner masked and gathered. -/
import proofs.«127700_j42417097016364_2_alg».proof.Proof.Ref.Ops1
import proofs.«127700_j42417097016364_2_alg».proof.Proof.Ref.BevDefs

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The integer part of the fractional column. -/
theorem w1_v57 (W : Valuation τ sig (Elt F)) :
    after (ops_part1 (F := F)) W (Proc.devRef .tc main_v57) = Host.floor (W (Proc.devRef .tc main_v48)) := by
  simp only [ops_part1]
  after_results_simp <;> rfl

set_option maxRecDepth 8192 in
set_option maxHeartbeats 2000000 in
/-- The integer part of the fractional row. -/
theorem w1_v58 (W : Valuation τ sig (Elt F)) :
    after (ops_part1 (F := F)) W (Proc.devRef .tc main_v58) = Host.floor (iyOf (W (Proc.devRef .tc main_v40))) := by
  simp only [ops_part1]
  after_results_simp <;> rfl

set_option maxRecDepth 8192 in
set_option maxHeartbeats 2000000 in
/-- The corner at the integer parts themselves. -/
theorem w1_v93 (W : Valuation τ sig (Elt F)) :
    after (ops_part1 (F := F)) W (Proc.devRef .tc main_v93) = cornerT (W (Proc.devRef .tc main_arg2)) (after (ops_part1 (F := F)) W (Proc.devRef .tc main_v58)) (after (ops_part1 (F := F)) W (Proc.devRef .tc main_v57)) := by
  rw [w1_v57, w1_v58]
  simp only [ops_part1]
  after_results_simp <;> rfl

end Cert.ReferenceIdeal.HandRun

end
-- ==== Proof.Ref.BevW2.lean ====
/- What the third window leaves in the buffers a later window reads, as functions of what it finds in the buffers it reads: the first corner weighted, and the second corner (one column to the right) masked and gathered. -/
import proofs.«127700_j42417097016364_2_alg».proof.Proof.Ref.Ops2
import proofs.«127700_j42417097016364_2_alg».proof.Proof.Ref.BevDefs

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The first corner times the two complementary weights. -/
theorem w2_v103 (W : Valuation τ sig (Elt F)) :
    after (ops_part2 (F := F)) W (Proc.devRef .tc main_v103) = mulf (mulf (W (Proc.devRef .tc main_v93)) (overCh (subf (splatP 0x3F800000#32) (W (Proc.devRef .tc main_v59))))) (overCh (subf (splatP 0x3F800000#32) (W (Proc.devRef .tc main_v60)))) := by
  simp only [ops_part2]
  after_results_simp <;> rfl

set_option maxRecDepth 8192 in
set_option maxHeartbeats 2000000 in
/-- The corner one column to the right. -/
theorem w2_v138 (W : Valuation τ sig (Elt F)) :
    after (ops_part2 (F := F)) W (Proc.devRef .tc main_v138) = cornerT (W (Proc.devRef .tc main_arg2)) (W (Proc.devRef .tc main_v58)) (addf (W (Proc.devRef .tc main_v57)) (splatP 0x3F800000#32)) := by
  simp only [ops_part2]
  after_results_simp <;> rfl

end Cert.ReferenceIdeal.HandRun

end
-- ==== Proof.Ref.BevW3.lean ====
/- What the fourth window leaves in the buffers a later window reads: the first two corners' sum, the third corner (one row down) masked and gathered, and a splat of one. -/
import proofs.«127700_j42417097016364_2_alg».proof.Proof.Ref.Ops3
import proofs.«127700_j42417097016364_2_alg».proof.Proof.Ref.BevDefs

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The first corner's term plus the second's. -/
theorem w3_v147 (W : Valuation τ sig (Elt F)) :
    after (ops_part3 (F := F)) W (Proc.devRef .tc main_v147) = addf (W (Proc.devRef .tc main_v103)) (mulf (mulf (W (Proc.devRef .tc main_v138)) (overCh (W (Proc.devRef .tc main_v59)))) (overCh (subf (splatP 0x3F800000#32) (W (Proc.devRef .tc main_v60))))) := by
  simp only [ops_part3]
  after_results_simp <;> rfl

set_option maxRecDepth 8192 in
set_option maxHeartbeats 2000000 in
/-- The corner one row down. -/
theorem w3_v182 (W : Valuation τ sig (Elt F)) :
    after (ops_part3 (F := F)) W (Proc.devRef .tc main_v182) = cornerT (W (Proc.devRef .tc main_arg2)) (addf (W (Proc.devRef .tc main_v58)) (splatP 0x3F800000#32)) (W (Proc.devRef .tc main_v57)) := by
  simp only [ops_part3]
  after_results_simp <;> rfl

set_option maxRecDepth 8192 in
set_option maxHeartbeats 2000000 in
/-- A splat of one. -/
theorem w3_v183 (W : Valuation τ sig (Elt F)) :
    after (ops_part3 (F := F)) W (Proc.devRef .tc main_v183) = (splatP 0x3F800000#32) := by
  simp only [ops_part3]
  after_results_simp <;> rfl

end Cert.ReferenceIdeal.HandRun

end
-- ==== Proof.Ref.BevW4.lean ====
/- What the fifth window leaves in the buffers the last window reads: the first three corners' sum, the fourth corner (one row down, one column right) masked and gathered, and the column weight laid over one unit axis. -/
import proofs.«127700_j42417097016364_2_alg».proof.Proof.Ref.Ops4
import proofs.«127700_j42417097016364_2_alg».proof.Proof.Ref.BevDefs

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The first two corners' sum plus the third corner's term. -/
theorem w4_v191 (W : Valuation τ sig (Elt F)) :
    after (ops_part4 (F := F)) W (Proc.devRef .tc main_v191) = addf (W (Proc.devRef .tc main_v147)) (mulf (mulf (W (Proc.devRef .tc main_v182)) (overCh (subf (W (Proc.devRef .tc main_v183)) (W (Proc.devRef .tc main_v59))))) (overCh (W (Proc.devRef .tc main_v60)))) := by
  simp only [ops_part4]
  after_results_simp <;> rfl

set_option maxRecDepth 8192 in
set_option maxHeartbeats 2000000 in
/-- The corner one row down and one column right. -/
theorem w4_v228 (W : Valuation τ sig (Elt F)) :
    after (ops_part4 (F := F)) W (Proc.devRef .tc main_v228) = cornerT (W (Proc.devRef .tc main_arg2)) (addf (W (Proc.devRef .tc main_v58)) (splatP 0x3F800000#32)) (addf (W (Proc.devRef .tc main_v57)) (splatP 0x3F800000#32)) := by
  simp only [ops_part4]
  after_results_simp <;> rfl

set_option maxRecDepth 8192 in
set_option maxHeartbeats 2000000 in
/-- The column weight with a unit axis inserted. -/
theorem w4_v229 (W : Valuation τ sig (Elt F)) :
    after (ops_part4 (F := F)) W (Proc.devRef .tc main_v229) = broadcastInDim S4x1x1x4096 ![0, 2, 3] bcast_S4x1x4096_S4x1x1x4096_0_2_3 (W (Proc.devRef .tc main_v59)) := by
  simp only [ops_part4]
  after_results_simp <;> rfl

end Cert.ReferenceIdeal.HandRun

end
-- ==== Proof.Ref.BevW5.lean ====
/- What the last window leaves in the second result's buffer: the three corners' sum plus the fourth corner's term, the unit axis dropped. -/
import proofs.«127700_j42417097016364_2_alg».proof.Proof.Ref.Ops5
import proofs.«127700_j42417097016364_2_alg».proof.Proof.Ref.BevDefs

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The blend, reshaped. -/
theorem w5_v236 (W : Valuation τ sig (Elt F)) :
    after (ops_part5 (F := F)) W (Proc.devRef .tc main_v236) = fun i => shapeCast S4x256x4096 (addf (W (Proc.devRef .tc main_v191)) (mulf (mulf (W (Proc.devRef .tc main_v228)) (broadcastInDim S4x256x1x4096 ![0, 1, 2, 3] bcast_S4x1x1x4096_S4x256x1x4096_0_1_2_3 (W (Proc.devRef .tc main_v229)))) (overCh (W (Proc.devRef .tc main_v60))))) shapeCasts_S4x256x1x4096_S4x256x4096 i := by
  simp only [ops_part5]
  after_results_simp <;> rfl

end Cert.ReferenceIdeal.HandRun

end
-- ==== Proof.Ref.BevRun.lean ====
/- The second result over the whole line, as the blend of the four corners. Its buffer is written by the last window; what
   that window reads was left by the earlier ones: the integer parts and fractional weights of the two pixel coordinates by
   the second window — no later operation writes them —, each corner's masked gather and each partial sum by the window that
   computes it. Reading the windows' results one into the next gives the blend `blendT` of the feature map at the launch
   and the four stage arrays as the whole line leaves them. -/
import proofs.«127700_j42417097016364_2_alg».proof.Proof.Ref.Run
import proofs.«127700_j42417097016364_2_alg».proof.Proof.Ref.BevW1
import proofs.«127700_j42417097016364_2_alg».proof.Proof.Ref.BevW2
import proofs.«127700_j42417097016364_2_alg».proof.Proof.Ref.BevW3
import proofs.«127700_j42417097016364_2_alg».proof.Proof.Ref.BevW4
import proofs.«127700_j42417097016364_2_alg».proof.Proof.Ref.BevW5

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- The last four windows, from any contents: the second result's buffer ends at the blend of the first corner's masked
    gather as found, and of the other three corners computed from the feature map, the integer parts and the weights as
    found. -/
theorem tail_v236 (W : Valuation τ sig (Elt F)) :
    after (ops_part5 (F := F)) (after (ops_part4 (F := F)) (after (ops_part3 (F := F)) (after (ops_part2 (F := F)) W))) (Proc.devRef .tc main_v236)
      = blendFrom (W (Proc.devRef .tc main_arg2)) (W (Proc.devRef .tc main_v93)) (W (Proc.devRef .tc main_v57)) (W (Proc.devRef .tc main_v58)) (W (Proc.devRef .tc main_v59)) (W (Proc.devRef .tc main_v60)) := by
  have k4_v60 : ∀ (W : Valuation τ sig (Elt F)), after (ops_part4 (F := F)) W (Proc.devRef .tc main_v60) = W (Proc.devRef .tc main_v60) :=
    fun W => ops_part4_keep W main_v60 (by decide)
  have k3_v57 : ∀ (W : Valuation τ sig (Elt F)), after (ops_part3 (F := F)) W (Proc.devRef .tc main_v57) = W (Proc.devRef .tc main_v57) :=
    fun W => ops_part3_keep W main_v57 (by decide)
  have k3_v58 : ∀ (W : Valuation τ sig (Elt F)), after (ops_part3 (F := F)) W (Proc.devRef .tc main_v58) = W (Proc.devRef .tc main_v58) :=
    fun W => ops_part3_keep W main_v58 (by decide)
  have k3_v59 : ∀ (W : Valuation τ sig (Elt F)), after (ops_part3 (F := F)) W (Proc.devRef .tc main_v59) = W (Proc.devRef .tc main_v59) :=
    fun W => ops_part3_keep W main_v59 (by decide)
  have k3_v60 : ∀ (W : Valuation τ sig (Elt F)), after (ops_part3 (F := F)) W (Proc.devRef .tc main_v60) = W (Proc.devRef .tc main_v60) :=
    fun W => ops_part3_keep W main_v60 (by decide)
  have k3_arg2 : ∀ (W : Valuation τ sig (Elt F)), after (ops_part3 (F := F)) W (Proc.devRef .tc main_arg2) = W (Proc.devRef .tc main_arg2) :=
    fun W => ops_part3_keep W main_arg2 (by decide)
  have k2_v57 : ∀ (W : Valuation τ sig (Elt F)), after (ops_part2 (F := F)) W (Proc.devRef .tc main_v57) = W (Proc.devRef .tc main_v57) :=
    fun W => ops_part2_keep W main_v57 (by decide)
  have k2_v58 : ∀ (W : Valuation τ sig (Elt F)), after (ops_part2 (F := F)) W (Proc.devRef .tc main_v58) = W (Proc.devRef .tc main_v58) :=
    fun W => ops_part2_keep W main_v58 (by decide)
  have k2_v59 : ∀ (W : Valuation τ sig (Elt F)), after (ops_part2 (F := F)) W (Proc.devRef .tc main_v59) = W (Proc.devRef .tc main_v59) :=
    fun W => ops_part2_keep W main_v59 (by decide)
  have k2_v60 : ∀ (W : Valuation τ sig (Elt F)), after (ops_part2 (F := F)) W (Proc.devRef .tc main_v60) = W (Proc.devRef .tc main_v60) :=
    fun W => ops_part2_keep W main_v60 (by decide)
  have k2_arg2 : ∀ (W : Valuation τ sig (Elt F)), after (ops_part2 (F := F)) W (Proc.devRef .tc main_arg2) = W (Proc.devRef .tc main_arg2) :=
    fun W => ops_part2_keep W main_arg2 (by decide)
  rw [w5_v236, w4_v191, w4_v228, w4_v229, w3_v147, w3_v182, w3_v183, w2_v103, w2_v138]
  rw [k4_v60, k3_v57, k3_v58, k3_v59, k3_v60, k3_arg2, k2_v57, k2_v58, k2_v59, k2_v60, k2_arg2]
  rfl

/-- The buffers' contents after the first two windows. -/
abbrev st2 (V : Valuation τ sig (Elt F)) : Valuation τ sig (Elt F) := after ops_part1 (after ops_part0 V)

/-- A buffer the last four windows do not write holds, after the whole line, what it held after the second window. -/
theorem after_ops_eq_st2 (V : Valuation τ sig (Elt F)) (r : Ref sig .tc) (h2 : r ∉ ops_part2_W) (h3 : r ∉ ops_part3_W)
    (h4 : r ∉ ops_part4_W) (h5 : r ∉ ops_part5_W) :
    after (ops (F := F)) V (Proc.devRef .tc r) = st2 V (Proc.devRef .tc r) :=
  (congrFun (after_ops V) _).trans ((ops_part5_keep _ r h5).trans ((ops_part4_keep _ r h4).trans ((ops_part3_keep _ r h3).trans
    (ops_part2_keep _ r h2))))

/-- A blend from a given first corner is the blend, when the first corner is the feature map's. -/
theorem blendFrom_eq (A A' : (⟨S4x256x200x176, .f32⟩ : BufTy).Contents (Elt F)) (c : (⟨S4x256x1x4096, .f32⟩ : BufTy).Contents (Elt F)) (x0 y0 wx wy : (⟨S4x1x4096, .f32⟩ : BufTy).Contents (Elt F))
    (x0' y0' wx' wy' : (⟨S4x1x4096, .f32⟩ : BufTy).Contents (Elt F)) (ha : A = A') (hx : x0 = x0') (hy : y0 = y0') (hwx : wx = wx') (hwy : wy = wy')
    (hc : c = cornerT A' y0' x0') :
    blendFrom A c x0 y0 wx wy = blendT A' x0' y0' wx' wy' := by
  subst ha hx hy hwx hwy hc
  rfl

/-- THE SECOND RESULT OVER THE WHOLE LINE: the blend of the four corners of the feature map at the launch, at the integer
    parts (`main_v57`, `main_v58`) and fractional weights (`main_v59`, `main_v60`) the line leaves. -/
theorem after_ops_main_v236 (V : Valuation τ sig (Elt F)) :
    after (ops (F := F)) V (Proc.devRef .tc main_v236)
      = blendT (V (Proc.devRef .tc main_arg2)) (after (ops (F := F)) V (Proc.devRef .tc main_v57))
          (after (ops (F := F)) V (Proc.devRef .tc main_v58)) (after (ops (F := F)) V (Proc.devRef .tc main_v59))
          (after (ops (F := F)) V (Proc.devRef .tc main_v60)) :=
  have e57 := after_ops_eq_st2 V main_v57 (by decide) (by decide) (by decide) (by decide)
  have e58 := after_ops_eq_st2 V main_v58 (by decide) (by decide) (by decide) (by decide)
  have e59 := after_ops_eq_st2 V main_v59 (by decide) (by decide) (by decide) (by decide)
  have e60 := after_ops_eq_st2 V main_v60 (by decide) (by decide) (by decide) (by decide)
  have ea : st2 V (Proc.devRef .tc main_arg2) = V (Proc.devRef .tc main_arg2) :=
    (ops_part1_keep _ main_arg2 (by decide)).trans (ops_part0_keep V main_arg2 (by decide))
  have e93 : st2 V (Proc.devRef .tc main_v93)
      = cornerT (V (Proc.devRef .tc main_arg2)) (after (ops (F := F)) V (Proc.devRef .tc main_v58)) (after (ops (F := F)) V (Proc.devRef .tc main_v57)) :=
    (w1_v93 (after ops_part0 V)).trans
      (congr (congr (congrArg cornerT (ops_part0_keep V main_arg2 (by decide))) e58.symm) e57.symm)
  ((congrFun (after_ops V) _).trans (tail_v236 (st2 V))).trans
    (blendFrom_eq _ _ _ _ _ _ _ _ _ _ _ ea e57.symm e58.symm e59.symm e60.symm e93)

end Cert.ReferenceIdeal.HandRun

end
-- ==== Proof.Ref.ReadBev.lean ====
/- The reference's blend read at an index, at the ideal instance. A corner's masked gather at `(b, ch, z, k)` is the scalar
   `Cert.BevMath.corner` of the corner's two coordinates at point `(b, k)`: the gather reads the map of batch `b` and channel
   `ch` at the row and column its two start words name (each read signed and clamped), the start words are the row and
   column words of the coordinates (clamp, convert, wrap), the factor is the in-map bit of the four comparisons, and the
   broadcasts over the channels and unit axes read the per-point arrays at the point. The blend at `(b, ch, k)` is then the
   four-corner sum `refS'` over the integer parts and fractional weights at the point — the specification's `refS` at
   the two pixel coordinates when those are their integer parts and fractions. -/
import proofs.«127700_j42417097016364_2_alg».proof.Proof.Ref.BevDefs
import proofs.«127700_j42417097016364_2_alg».proof.Proof.Math.Spec
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.HandRun

open Cert.ReferenceIdeal Cert.ReferenceIdeal.Gen Idealize.ShloMosaic Idealize.ShloMosaic.ValueIdx

section Layout
variable {α : Type}

theorem gather_siIdx [Facts₀] (b : Fin 4) (ch : Fin 256) (z : Fin 1) (k : Fin 4096) (c : Fin 2) :
    gather_S4x256x200x176_S4x1x4096x2_S4x256x1x4096_1_23_0_0_23_3_125611.siIdx (ix4 b ch z k) c = ix4 b z k c := by
  funext a
  refine Fin.ext ?_
  match a with
  | ⟨0, _⟩ => rfl
  | ⟨1, _⟩ => rfl
  | ⟨2, _⟩ => rfl
  | ⟨3, _⟩ => rfl

/-- THE GATHER READ AT AN INDEX: element `(b, ch, z, k)` of the result is the operand's element of batch `b` and channel `ch`
    at the row and column the start index of point `(b, z, k)` names: its word 0 read signed and clamped into `[0, 199]`, its
    word 1 into `[0, 175]` (the batch axis is paired with the start indices' batch axis, the channel axis is the one
    offset axis, the row and column axes are collapsed slices of size one). -/
theorem gather_apply [Facts₀] (x : S4x256x200x176.Idx → α) (idx : IVec S4x1x4096x2 32)
    (b : Fin 4) (ch : Fin 256) (z : Fin 1) (k : Fin 4096) :
    Host.gather gather_S4x256x200x176_S4x1x4096x2_S4x256x1x4096_1_23_0_0_23_3_125611 x idx (ix4 b ch z k)
      = x (ix4 b ch ⟨min (idx (ix4 b z k 0)).toInt.toNat 199, by omega⟩ ⟨min (idx (ix4 b z k 1)).toInt.toNat 175, by omega⟩) := by
  unfold Host.gather
  refine congrArg x ?_
  funext a
  refine Fin.ext ?_
  show gather_S4x256x200x176_S4x1x4096x2_S4x256x1x4096_1_23_0_0_23_3_125611.start (ix4 b ch z k) idx a + gather_S4x256x200x176_S4x1x4096x2_S4x256x1x4096_1_23_0_0_23_3_125611.batchCoord (ix4 b ch z k) a + gather_S4x256x200x176_S4x1x4096x2_S4x256x1x4096_1_23_0_0_23_3_125611.offCoord (ix4 b ch z k) a = _
  match a with
  | ⟨0, h⟩ =>
    rw [show gather_S4x256x200x176_S4x1x4096x2_S4x256x1x4096_1_23_0_0_23_3_125611.start (ix4 b ch z k) idx ⟨0, h⟩ = 0 from rfl,
      show gather_S4x256x200x176_S4x1x4096x2_S4x256x1x4096_1_23_0_0_23_3_125611.batchCoord (ix4 b ch z k) ⟨0, h⟩ = b.val from rfl,
      show gather_S4x256x200x176_S4x1x4096x2_S4x256x1x4096_1_23_0_0_23_3_125611.offCoord (ix4 b ch z k) ⟨0, h⟩ = 0 from rfl]
    exact Nat.zero_add _
  | ⟨1, h⟩ =>
    rw [show gather_S4x256x200x176_S4x1x4096x2_S4x256x1x4096_1_23_0_0_23_3_125611.start (ix4 b ch z k) idx ⟨1, h⟩ = 0 from rfl,
      show gather_S4x256x200x176_S4x1x4096x2_S4x256x1x4096_1_23_0_0_23_3_125611.batchCoord (ix4 b ch z k) ⟨1, h⟩ = 0 from rfl,
      show gather_S4x256x200x176_S4x1x4096x2_S4x256x1x4096_1_23_0_0_23_3_125611.offCoord (ix4 b ch z k) ⟨1, h⟩ = ch.val from rfl]
    exact Nat.zero_add _
  | ⟨2, h⟩ =>
    rw [show gather_S4x256x200x176_S4x1x4096x2_S4x256x1x4096_1_23_0_0_23_3_125611.start (ix4 b ch z k) idx ⟨2, h⟩ = min (idx (gather_S4x256x200x176_S4x1x4096x2_S4x256x1x4096_1_23_0_0_23_3_125611.siIdx (ix4 b ch z k) (0 : Fin 2))).toInt.toNat 199 from rfl,
      show gather_S4x256x200x176_S4x1x4096x2_S4x256x1x4096_1_23_0_0_23_3_125611.batchCoord (ix4 b ch z k) ⟨2, h⟩ = 0 from rfl,
      show gather_S4x256x200x176_S4x1x4096x2_S4x256x1x4096_1_23_0_0_23_3_125611.offCoord (ix4 b ch z k) ⟨2, h⟩ = 0 from rfl, gather_siIdx]
    rfl
  | ⟨3, h⟩ =>
    rw [show gather_S4x256x200x176_S4x1x4096x2_S4x256x1x4096_1_23_0_0_23_3_125611.start (ix4 b ch z k) idx ⟨3, h⟩ = min (idx (gather_S4x256x200x176_S4x1x4096x2_S4x256x1x4096_1_23_0_0_23_3_125611.siIdx (ix4 b ch z k) (1 : Fin 2))).toInt.toNat 175 from rfl,
      show gather_S4x256x200x176_S4x1x4096x2_S4x256x1x4096_1_23_0_0_23_3_125611.batchCoord (ix4 b ch z k) ⟨3, h⟩ = 0 from rfl,
      show gather_S4x256x200x176_S4x1x4096x2_S4x256x1x4096_1_23_0_0_23_3_125611.offCoord (ix4 b ch z k) ⟨3, h⟩ = 0 from rfl, gather_siIdx]
    rfl

/-- The same with the two start words named. -/
theorem gather_apply_words [Facts₀] (x : S4x256x200x176.Idx → α) (idx : IVec S4x1x4096x2 32)
    (b : Fin 4) (ch : Fin 256) (z : Fin 1) (k : Fin 4096) (r c : BitVec 32)
    (hr : idx (ix4 b z k 0) = r) (hc : idx (ix4 b z k 1) = c) :
    Host.gather gather_S4x256x200x176_S4x1x4096x2_S4x256x1x4096_1_23_0_0_23_3_125611 x idx (ix4 b ch z k)
      = x (ix4 b ch ⟨min r.toInt.toNat 199, by omega⟩ ⟨min c.toInt.toNat 175, by omega⟩) := by
  subst hr hc
  exact gather_apply x idx b ch z k

/-- Two one-column pieces `[4, 1, 4096, 1]` laid side by side along the last axis: column `c` of the result is piece `c`'s only column. -/
theorem concat11_apply (u0 u1 : S4x1x4096x1.Idx → α)
    (h : Shape.Concatenates [S4x1x4096x1, S4x1x4096x1] S4x1x4096x2 3) (b : Fin 4) (z : Fin 1) (k : Fin 4096) (c : Fin 2) :
    concatenate S4x1x4096x2 3 [⟨S4x1x4096x1, u0⟩, ⟨S4x1x4096x1, u1⟩] h (ix4 b z k c)
      = ![u0 (ix4 b z k 0), u1 (ix4 b z k 0)] c := by
  match c with
  | ⟨0, _⟩ =>
    refine (congrArg u0 (funext fun ax => ?_) : concatenate S4x1x4096x2 3 [⟨S4x1x4096x1, u0⟩, ⟨S4x1x4096x1, u1⟩] h (ix4 b z k ⟨0, _⟩) = u0 (ix4 b z k 0))
    match ax with
    | ⟨0, _⟩ => rfl
    | ⟨1, _⟩ => rfl
    | ⟨2, _⟩ => rfl
    | ⟨3, _⟩ => rfl
  | ⟨1, _⟩ =>
    refine (congrArg u1 (funext fun ax => ?_) : concatenate S4x1x4096x2 3 [⟨S4x1x4096x1, u0⟩, ⟨S4x1x4096x1, u1⟩] h (ix4 b z k ⟨1, _⟩) = u1 (ix4 b z k 0))
    match ax with
    | ⟨0, _⟩ => rfl
    | ⟨1, _⟩ => rfl
    | ⟨2, _⟩ => rfl
    | ⟨3, _⟩ => rfl

/-- A per-point array `[4, 1, 4096]` with a trailing unit axis added reads, at `(b, z, k, c)`, the array at `(b, 0, k)`. -/
theorem bcast_tail_apply (w : S4x1x4096.Idx → α) (h : S4x1x4096.BroadcastsInDim S4x1x4096x1 ![0, 1, 2])
    (b : Fin 4) (z : Fin 1) (k : Fin 4096) (c : Fin 1) :
    broadcastInDim S4x1x4096x1 ![0, 1, 2] h w (ix4 b z k c) = w (ix3 b 0 k) :=
  broadcastInDim_apply _ _ _ _ (ix3 b 0 k) (fun ax => by
    match ax with
    | ⟨0, _⟩ => exact (if_neg (show ¬ ((4 : Nat) = 1) by decide)).symm
    | ⟨1, _⟩ => exact (if_pos (show ((1 : Nat) = 1) from rfl)).symm
    | ⟨2, _⟩ => exact (if_neg (show ¬ ((4096 : Nat) = 1) by decide)).symm)

/-- A per-point array `[4, 1, 4096]` with a unit axis inserted, `[4, 1, 1, 4096]`, reads at `(b, y, z, k)` the array at `(b, 0, k)`. -/
theorem bcast_mid_apply (w : S4x1x4096.Idx → α) (h : S4x1x4096.BroadcastsInDim S4x1x1x4096 ![0, 2, 3])
    (b : Fin 4) (y z : Fin 1) (k : Fin 4096) :
    broadcastInDim S4x1x1x4096 ![0, 2, 3] h w (ix4 b y z k) = w (ix3 b 0 k) :=
  broadcastInDim_apply _ _ _ _ (ix3 b 0 k) (fun ax => by
    match ax with
    | ⟨0, _⟩ => exact (if_neg (show ¬ ((4 : Nat) = 1) by decide)).symm
    | ⟨1, _⟩ => exact (if_pos (show ((1 : Nat) = 1) from rfl)).symm
    | ⟨2, _⟩ => exact (if_neg (show ¬ ((4096 : Nat) = 1) by decide)).symm)

/-- An array `[4, 1, 1, 4096]` laid over the 256 channels reads, at `(b, ch, z, k)`, the array at `(b, 0, 0, k)`. -/
theorem bcast_ch_apply (w : S4x1x1x4096.Idx → α) (h : S4x1x1x4096.BroadcastsInDim S4x256x1x4096 ![0, 1, 2, 3])
    (b : Fin 4) (ch : Fin 256) (z : Fin 1) (k : Fin 4096) :
    broadcastInDim S4x256x1x4096 ![0, 1, 2, 3] h w (ix4 b ch z k) = w (ix4 b 0 0 k) :=
  broadcastInDim_apply _ _ _ _ (ix4 b 0 0 k) (fun ax => by
    match ax with
    | ⟨0, _⟩ => exact (if_neg (show ¬ ((4 : Nat) = 1) by decide)).symm
    | ⟨1, _⟩ => exact (if_pos (show ((1 : Nat) = 1) from rfl)).symm
    | ⟨2, _⟩ => exact (if_pos (show ((1 : Nat) = 1) from rfl)).symm
    | ⟨3, _⟩ => exact (if_neg (show ¬ ((4096 : Nat) = 1) by decide)).symm)

/-- The blend's unit axis dropped: `[4, 256, 1, 4096] → [4, 256, 4096]` reads, at `(b, ch, k)`, the operand at `(b, ch, 0, k)`. -/
theorem cast_drop_apply (x : S4x256x1x4096.Idx → α) (h : S4x256x1x4096.ShapeCasts S4x256x4096) (b : Fin 4) (ch : Fin 256) (k : Fin 4096) :
    shapeCast S4x256x4096 x h (ix3 b ch k) = x (ix4 b ch 0 k) :=
  shapeCast_apply x h _ _ (by
    rw [Shape.rowMajor_val_four, Shape.rowMajor_val_three]
    show ((b.val * 256 + ch.val) * 1 + 0) * 4096 + k.val = (b.val * 256 + ch.val) * 4096 + k.val
    rw [Nat.mul_one, Nat.add_zero])

end Layout

section AtIdeal
open Cert.BevMath

variable (b : Fin 4) (ch : Fin 256) (z : Fin 1) (k : Fin 4096)

/-- A per-point array laid over the channels reads, at `(b, ch, z, k)`, the array at `(b, 0, k)`. -/
theorem overCh_apply (w : FVec Ideal S4x1x4096 .f32) : overCh (F := Ideal) w (ix4 b ch z k) = w (ix3 b 0 k) := by
  unfold overCh
  rw [bcast_ch_apply, bcast_mid_apply]

/-- A splat reads its word's value everywhere. -/
theorem splatP_apply (w : BitVec 32) (i : S4x1x4096.Idx) : splatP (F := Ideal) w i = Ideal.ofBits .f32 w := rfl

/-- The start indices of a corner's gather at a point: word 0 is the row word of the corner's row coordinate there,
    word 1 the column word of its column coordinate. -/
theorem startT_apply0 (yy xx : FVec Ideal S4x1x4096 .f32) :
    startT (F := Ideal) yy xx (ix4 b z k 0) = ycS (yy (ix3 b 0 k)) := by
  unfold startT
  rw [concat11_apply, bcast_tail_apply, bcast_tail_apply]
  rfl
theorem startT_apply1 (yy xx : FVec Ideal S4x1x4096 .f32) :
    startT (F := Ideal) yy xx (ix4 b z k 1) = xcS (xx (ix3 b 0 k)) := by
  unfold startT
  rw [concat11_apply, bcast_tail_apply, bcast_tail_apply]
  rfl

/-- ONE CORNER READ AT AN INDEX: the map of batch `b` and channel `ch` at the corner's clamped position, times its in-map
    factor — the scalar `corner` of the corner's two coordinates at the point. -/
theorem cornerT_apply (A : FVec Ideal S4x256x200x176 .f32) (yy xx : FVec Ideal S4x1x4096 .f32) :
    cornerT (F := Ideal) A yy xx (ix4 b ch z k)
      = corner (fun h w => A (ix4 b ch h w)) (yy (ix3 b 0 k)) (xx (ix3 b 0 k)) := by
  unfold cornerT
  rw [mulf_apply, gather_apply_words _ _ b ch z k _ _ (startT_apply0 b z k yy xx) (startT_apply1 b z k yy xx), overCh_apply]
  rfl

/-- The four-corner blend over abstract integer parts and fractional weights. -/
def refS' (feat : Fin 200 → Fin 176 → EReal) (x0f y0f wx wy : EReal) : EReal :=
  (((corner feat y0f x0f * (cOne - wx)) * (cOne - wy)
      + (corner feat y0f (x0f + cOne) * wx) * (cOne - wy))
      + (corner feat (y0f + cOne) x0f * (cOne - wx)) * wy)
      + (corner feat (y0f + cOne) (x0f + cOne) * wx) * wy

/-- The specification's blend is that, at the integer parts and fractional weights of the two pixel coordinates. -/
theorem refS_eq_refS' (feat : Fin 200 → Fin 176 → EReal) (ix iy : EReal) :
    refS feat ix iy = refS' feat (x0fS ix) (y0fS iy) (wxS ix) (wyS iy) := rfl

/-- THE BLEND READ AT AN INDEX: element `(b, ch, k)` is the four-corner blend of the map of batch `b` and channel `ch` at the
    integer parts and weights of point `(b, k)`. -/
theorem blendT_apply (A : FVec Ideal S4x256x200x176 .f32) (x0 y0 wx wy : FVec Ideal S4x1x4096 .f32) :
    blendT (F := Ideal) A x0 y0 wx wy (ix3 b ch k)
      = refS' (fun h w => A (ix4 b ch h w)) (x0 (ix3 b 0 k)) (y0 (ix3 b 0 k)) (wx (ix3 b 0 k)) (wy (ix3 b 0 k)) := by
  unfold blendT blendFrom
  rw [cast_drop_apply]
  simp only [addf_apply, mulf_apply, subf_apply, cornerT_apply, overCh_apply, splatP_apply]
  rfl

end AtIdeal

end Cert.ReferenceIdeal.HandRun

end
-- ==== Proof.Ref.ReadPrefix.lean ====
/- The reference's two pixel coordinates of each keypoint, their floors and their fractional parts, read at an index
   at the ideal values. Each ground column of a keypoint is shifted by the grid's offset, divided by the pixel size,
   clamped into the image and normalised to [-1, 1]; the two columns are swapped, so the width coordinate comes from
   the y column and the height coordinate from the x column; each is then mapped to its axis' pixel range by
   (v + 1) · ½ · last. The arrays are first named as whole-array terms of the keypoint argument (for any float
   instance), then read at (b, 0, k) through the layout operations, one operand element each. -/
import proofs.«127700_j42417097016364_2_alg».proof.Proof.Ref.ReadBox
import proofs.«127700_j42417097016364_2_alg».proof.Proof.Math.Spec

noncomputable section

namespace Cert.ReferenceIdeal.HandRun

open Cert.ReferenceIdeal Cert.ReferenceIdeal.Gen Idealize.ShloMosaic Idealize.ShloMosaic.TcCoe Idealize.SL.Sem Idealize.ShloMosaic.StableHlo Idealize.ShloMosaic.ValueIdx

/-! # The reference's pixel coordinates, read at an index

From the keypoints' two ground columns to the two pixel coordinates: each column is shifted by the grid's offset,
divided by the pixel size, clamped into the image and normalised; the two columns are swapped; each is then scaled to
its axis' pixel range. Then the floors and the fractional parts. -/

section AnyF
variable {F : FTy → Type} [FloatOps F]

/-- The grid's offsets (x, y) and the image's last positions (x, y): the two literal tables. -/
def kpOffT : (⟨S2, .f32⟩ : BufTy).Contents (Elt F) := fun i => FloatOps.ofBits .f32 (lit0 (S2.rowMajor i))
def kpDimT : (⟨S2, .f32⟩ : BufTy).Contents (Elt F) := fun i => FloatOps.ofBits .f32 (lit1 (S2.rowMajor i))

/-- A per-column pair spread over every batch and keypoint. -/
def colsOf (t : (⟨S2, .f32⟩ : BufTy).Contents (Elt F)) : (⟨S4x1x4096x2, .f32⟩ : BufTy).Contents (Elt F) :=
  broadcastInDim S4x1x4096x2 ![0, 1, 2, 3] bcast_S1x1x1x2_S4x1x4096x2_0_1_2_3 (broadcastInDim S1x1x1x2 ![3] bcast_S2_S1x1x1x2_3 t)
/-- A scalar spread over the two-column array, -/
def splat4 (w : BitVec 32) : (⟨S4x1x4096x2, .f32⟩ : BufTy).Contents (Elt F) :=
  broadcastInDim S4x1x4096x2 ![] bcast_S_S4x1x4096x2 (constant S_ .f32 w)
/-- over the one-column array, -/
def splat3 (w : BitVec 32) : (⟨S4x1x4096, .f32⟩ : BufTy).Contents (Elt F) :=
  broadcastInDim S4x1x4096 ![] bcast_S_S4x1x4096 (constant S_ .f32 w)
/-- over a pair. -/
def splat2 (w : BitVec 32) : (⟨S2, .f32⟩ : BufTy).Contents (Elt F) :=
  broadcastInDim S2 ![] bcast_S_S2 (constant S_ .f32 w)

/-- The keypoints' ground columns, each normalised to the image. -/
def kpNormT (A : (⟨S4x4096x3, .f32⟩ : BufTy).Contents (Elt F)) : (⟨S4x1x4096x2, .f32⟩ : BufTy).Contents (Elt F) :=
  subf (mulf (splat4 0x40000000#32)
      (Host.divf
        (minimumf
          (maximumf
            (Host.divf
              (subf (broadcastInDim S4x1x4096x2 ![0, 2, 3] bcast_S4x4096x2_S4x1x4096x2_0_2_3
                  (extractStridedSlice S4x4096x2 ![0, 0, 0] A slices_S4x4096x3_S4x4096x2_0_0_0))
                (colsOf kpOffT))
              (colsOf (mulf (constant S2 .f32 0x3D4CCCCD#32) (splat2 0x41000000#32))))
            (splat4 0x00000000#32))
          (colsOf kpDimT))
        (colsOf (subf kpDimT (splat2 0x3F800000#32)))))
    (splat4 0x3F800000#32)

/-- The two columns swapped. -/
def kpFlipT (A : (⟨S4x4096x3, .f32⟩ : BufTy).Contents (Elt F)) : (⟨S4x1x4096x2, .f32⟩ : BufTy).Contents (Elt F) :=
  Host.reverse [3] (kpNormT A)

/-- A column of the swapped pair scaled to its axis' pixel range: (x + 1) · ½ · last. -/
def pixT (X : (⟨S4x1x4096x2, .f32⟩ : BufTy).Contents (Elt F)) (o : Nat) (hs : S4x1x4096x2.Slices ![0, 0, 0, o] S4x1x4096x1) (w : BitVec 32) :
    (⟨S4x1x4096, .f32⟩ : BufTy).Contents (Elt F) :=
  mulf (mulf (addf (shapeCast S4x1x4096 (extractStridedSlice S4x1x4096x1 ![0, 0, 0, o] X hs) shapeCasts_S4x1x4096x1_S4x1x4096)
    (splat3 0x3F800000#32)) (splat3 0x3F000000#32)) (splat3 w)

set_option maxRecDepth 8192 in
set_option maxHeartbeats 4000000 in
/-- The first window leaves the swapped normalised columns in their buffer, -/
theorem after_part0_main_v40 (V : Valuation τ sig (Elt F)) :
    after (ops_part0 (F := F)) V (Proc.devRef .tc main_v40) = kpFlipT (V (Proc.devRef .tc main_arg3)) := by
  simp only [ops_part0]
  after_results_simp
  try dsimp only [Matrix.cons_val]
  rfl

set_option maxRecDepth 8192 in
set_option maxHeartbeats 4000000 in
/-- and the width pixel coordinate in its. -/
theorem after_part0_main_v48 (V : Valuation τ sig (Elt F)) :
    after (ops_part0 (F := F)) V (Proc.devRef .tc main_v48)
      = pixT (kpFlipT (V (Proc.devRef .tc main_arg3))) 0 slices_S4x1x4096x2_S4x1x4096x1_0_0_0_0 0x432F0000#32 := by
  simp only [ops_part0]
  after_results_simp
  try dsimp only [Matrix.cons_val]
  rfl

end AnyF

section AnyF2
variable {F : FTy → Type} [FloatOps F]

set_option maxRecDepth 8192 in
set_option maxHeartbeats 4000000 in
/-- The second window leaves the height pixel coordinate in its buffer, from the swapped columns the first left, -/
theorem after_part1_main_v56 (V : Valuation τ sig (Elt F)) :
    after (ops_part1 (F := F)) V (Proc.devRef .tc main_v56)
      = pixT (V (Proc.devRef .tc main_v40)) 1 slices_S4x1x4096x2_S4x1x4096x1_0_0_0_1 0x43470000#32 := by
  simp only [ops_part1]
  after_results_simp
  try dsimp only [Matrix.cons_val]
  rfl

set_option maxRecDepth 8192 in
set_option maxHeartbeats 4000000 in
/-- the floors of the two pixel coordinates, -/
theorem after_part1_main_v57 (V : Valuation τ sig (Elt F)) :
    after (ops_part1 (F := F)) V (Proc.devRef .tc main_v57) = Host.floor (V (Proc.devRef .tc main_v48)) := by
  simp only [ops_part1]
  after_results_simp

set_option maxRecDepth 8192 in
set_option maxHeartbeats 4000000 in
theorem after_part1_main_v58 (V : Valuation τ sig (Elt F)) :
    after (ops_part1 (F := F)) V (Proc.devRef .tc main_v58)
      = Host.floor (pixT (V (Proc.devRef .tc main_v40)) 1 slices_S4x1x4096x2_S4x1x4096x1_0_0_0_1 0x43470000#32) := by
  simp only [ops_part1]
  after_results_simp
  try dsimp only [Matrix.cons_val]
  rfl

set_option maxRecDepth 8192 in
set_option maxHeartbeats 4000000 in
/-- and their fractional parts. -/
theorem after_part1_main_v59 (V : Valuation τ sig (Elt F)) :
    after (ops_part1 (F := F)) V (Proc.devRef .tc main_v59)
      = subf (V (Proc.devRef .tc main_v48)) (Host.floor (V (Proc.devRef .tc main_v48))) := by
  simp only [ops_part1]
  after_results_simp

set_option maxRecDepth 8192 in
set_option maxHeartbeats 4000000 in
theorem after_part1_main_v60 (V : Valuation τ sig (Elt F)) :
    after (ops_part1 (F := F)) V (Proc.devRef .tc main_v60)
      = subf (pixT (V (Proc.devRef .tc main_v40)) 1 slices_S4x1x4096x2_S4x1x4096x1_0_0_0_1 0x43470000#32)
          (Host.floor (pixT (V (Proc.devRef .tc main_v40)) 1 slices_S4x1x4096x2_S4x1x4096x1_0_0_0_1 0x43470000#32)) := by
  simp only [ops_part1]
  after_results_simp
  try dsimp only [Matrix.cons_val]
  rfl

/-! ## Over the whole line: each of these buffers is written once -/

theorem after_ops_main_v48 (V : Valuation τ sig (Elt F)) :
    after (ops (F := F)) V (Proc.devRef .tc main_v48)
      = pixT (kpFlipT (V (Proc.devRef .tc main_arg3))) 0 slices_S4x1x4096x2_S4x1x4096x1_0_0_0_0 0x432F0000#32 := by
  rw [after_ops, ops_part5_keep _ main_v48 (by decide), ops_part4_keep _ main_v48 (by decide), ops_part3_keep _ main_v48 (by decide), ops_part2_keep _ main_v48 (by decide), ops_part1_keep _ main_v48 (by decide)]
  exact after_part0_main_v48 V

theorem after_ops_main_v56 (V : Valuation τ sig (Elt F)) :
    after (ops (F := F)) V (Proc.devRef .tc main_v56)
      = pixT (kpFlipT (V (Proc.devRef .tc main_arg3))) 1 slices_S4x1x4096x2_S4x1x4096x1_0_0_0_1 0x43470000#32 := by
  rw [after_ops, ops_part5_keep _ main_v56 (by decide), ops_part4_keep _ main_v56 (by decide), ops_part3_keep _ main_v56 (by decide), ops_part2_keep _ main_v56 (by decide), after_part1_main_v56, after_part0_main_v40]

theorem after_ops_main_v57 (V : Valuation τ sig (Elt F)) :
    after (ops (F := F)) V (Proc.devRef .tc main_v57)
      = Host.floor (pixT (kpFlipT (V (Proc.devRef .tc main_arg3))) 0 slices_S4x1x4096x2_S4x1x4096x1_0_0_0_0 0x432F0000#32) := by
  rw [after_ops, ops_part5_keep _ main_v57 (by decide), ops_part4_keep _ main_v57 (by decide), ops_part3_keep _ main_v57 (by decide), ops_part2_keep _ main_v57 (by decide), after_part1_main_v57, after_part0_main_v48]

theorem after_ops_main_v58 (V : Valuation τ sig (Elt F)) :
    after (ops (F := F)) V (Proc.devRef .tc main_v58)
      = Host.floor (pixT (kpFlipT (V (Proc.devRef .tc main_arg3))) 1 slices_S4x1x4096x2_S4x1x4096x1_0_0_0_1 0x43470000#32) := by
  rw [after_ops, ops_part5_keep _ main_v58 (by decide), ops_part4_keep _ main_v58 (by decide), ops_part3_keep _ main_v58 (by decide), ops_part2_keep _ main_v58 (by decide), after_part1_main_v58, after_part0_main_v40]

theorem after_ops_main_v59 (V : Valuation τ sig (Elt F)) :
    after (ops (F := F)) V (Proc.devRef .tc main_v59)
      = subf (pixT (kpFlipT (V (Proc.devRef .tc main_arg3))) 0 slices_S4x1x4096x2_S4x1x4096x1_0_0_0_0 0x432F0000#32)
          (Host.floor (pixT (kpFlipT (V (Proc.devRef .tc main_arg3))) 0 slices_S4x1x4096x2_S4x1x4096x1_0_0_0_0 0x432F0000#32)) := by
  rw [after_ops, ops_part5_keep _ main_v59 (by decide), ops_part4_keep _ main_v59 (by decide), ops_part3_keep _ main_v59 (by decide), ops_part2_keep _ main_v59 (by decide), after_part1_main_v59, after_part0_main_v48]

theorem after_ops_main_v60 (V : Valuation τ sig (Elt F)) :
    after (ops (F := F)) V (Proc.devRef .tc main_v60)
      = subf (pixT (kpFlipT (V (Proc.devRef .tc main_arg3))) 1 slices_S4x1x4096x2_S4x1x4096x1_0_0_0_1 0x43470000#32)
          (Host.floor (pixT (kpFlipT (V (Proc.devRef .tc main_arg3))) 1 slices_S4x1x4096x2_S4x1x4096x1_0_0_0_1 0x43470000#32)) := by
  rw [after_ops, ops_part5_keep _ main_v60 (by decide), ops_part4_keep _ main_v60 (by decide), ops_part3_keep _ main_v60 (by decide), ops_part2_keep _ main_v60 (by decide), after_part1_main_v60, after_part0_main_v40]

end AnyF2

/-! ## The layout operations at an index -/

section Layout2
variable {α : Type}

/-- A rank-4 array cut along its last axis from `o` reads, at `(a, b, e, j)`, the source at `(a, b, e, k)` with `k = o + j`. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (e : Fin n2) (j : Fin m) (k : Fin n3) (hk : k.val = o + j.val) :
    extractStridedSlice ⟨4, ![n0, n1, n2, m]⟩ ![0, 0, 0, o] X h (ix4 a b e j) = X (ix4 a b e k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- An `[a, b, c, 1]` array viewed `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- The keypoints' pair spread over a unit axis: `(b, z, k, c)` reads `(b, k, c)`. -/
theorem bcast_kp_apply (w : S4x4096x2.Idx → α) (h : S4x4096x2.BroadcastsInDim S4x1x4096x2 ![0, 2, 3])
    (b : Fin 4) (z : Fin 1) (k : Fin 4096) (c : Fin 2) :
    broadcastInDim S4x1x4096x2 ![0, 2, 3] h w (ix4 b z k c) = w (ix3 b k c) :=
  broadcastInDim_apply _ _ _ _ (ix3 b k c) (fun ax => by
    match ax with
    | ⟨0, _⟩ => exact (if_neg (show ¬ ((4 : Nat) = 1) by decide)).symm
    | ⟨1, _⟩ => exact (if_neg (show ¬ ((4096 : Nat) = 1) by decide)).symm
    | ⟨2, _⟩ => exact (if_neg (show ¬ ((2 : Nat) = 1) by decide)).symm)

/-- A pair spread over every batch and keypoint: `(b, z, k, c)` reads entry `c`. -/
theorem bcast_pair_apply (t : S2.Idx → α) (h1 : S2.BroadcastsInDim S1x1x1x2 ![3]) (h2 : S1x1x1x2.BroadcastsInDim S4x1x4096x2 ![0, 1, 2, 3])
    (b : Fin 4) (z : Fin 1) (k : Fin 4096) (c : Fin 2) :
    broadcastInDim S4x1x4096x2 ![0, 1, 2, 3] h2 (broadcastInDim S1x1x1x2 ![3] h1 t) (ix4 b z k c) = t (ix1 c) := by
  rw [broadcastInDim_apply _ h2 _ (ix4 b z k c) (ix4 (0 : Fin 1) (0 : Fin 1) (0 : Fin 1) c) (fun ax => by
    match ax with
    | ⟨0, _⟩ => exact (if_pos rfl).symm
    | ⟨1, _⟩ => exact (if_pos rfl).symm
    | ⟨2, _⟩ => exact (if_pos rfl).symm
    | ⟨3, _⟩ => exact (if_neg (show ¬ ((2 : Nat) = 1) by decide)).symm)]
  exact broadcastInDim_apply _ h1 _ _ (ix1 c) (fun ax => by
    match ax with
    | ⟨0, _⟩ => exact (if_neg (show ¬ ((2 : Nat) = 1) by decide)).symm)

/-- The swap of the two columns: `(b, z, k, c)` reads `(b, z, k, 1 - c)`. -/
theorem reverse3_apply (X : S4x1x4096x2.Idx → α) (b : Fin 4) (z : Fin 1) (k : Fin 4096) (c : Fin 2) :
    Host.reverse (s := S4x1x4096x2) [3] X (ix4 b z k c) = X (ix4 b z k c.rev) := by
  unfold Host.reverse
  refine congrArg X (funext fun a => ?_)
  match a with
  | ⟨0, _⟩ => rfl
  | ⟨1, _⟩ => rfl
  | ⟨2, _⟩ => rfl
  | ⟨3, _⟩ => rfl

end Layout2

/-! ## At the ideal values -/

section AtIdeal2

theorem splat4_apply (w : BitVec 32) (j : S4x1x4096x2.Idx) : splat4 (F := Ideal) w j = Ideal.ofBits .f32 w := by
  unfold splat4; rw [broadcastInDim_scalar_apply]; rfl
theorem splat3_apply (w : BitVec 32) (j : S4x1x4096.Idx) : splat3 (F := Ideal) w j = Ideal.ofBits .f32 w := by
  unfold splat3; rw [broadcastInDim_scalar_apply]; rfl
theorem splat2_apply (w : BitVec 32) (j : S2.Idx) : splat2 (F := Ideal) w j = Ideal.ofBits .f32 w := by
  unfold splat2; rw [broadcastInDim_scalar_apply]; rfl
theorem colsOf_apply (t : FVec Ideal S2 .f32) (b : Fin 4) (z : Fin 1) (k : Fin 4096) (c : Fin 2) :
    colsOf (F := Ideal) t (ix4 b z k c) = t (ix1 c) := by
  unfold colsOf; exact bcast_pair_apply t _ _ b z k c
theorem kpOffT_apply (c : Fin 2) : kpOffT (F := Ideal) (ix1 c) = Ideal.ofBits .f32 (Cert.BevMath.offW c) := by
  match c with
  | ⟨0, _⟩ => rfl
  | ⟨1, _⟩ => rfl
theorem kpDimT_apply (c : Fin 2) : kpDimT (F := Ideal) (ix1 c) = Ideal.ofBits .f32 (Cert.BevMath.dimW c) := by
  match c with
  | ⟨0, _⟩ => rfl
  | ⟨1, _⟩ => rfl

/-- A normalised ground column at a keypoint: the scalar normalisation of that column of the keypoint. -/
theorem kpNormT_apply (A : FVec Ideal S4x4096x3 .f32) (b : Fin 4) (z : Fin 1) (k : Fin 4096) (c : Fin 2) (c' : Fin 3) (hc : c'.val = 0 + c.val) :
    kpNormT (F := Ideal) A (ix4 b z k c) = Cert.BevMath.normS c (A (ix3 b k c')) := by
  unfold kpNormT Cert.BevMath.normS
  rw [subf_apply, mulf_apply, hostDivf_apply, minimumf_apply, maximumf_apply, hostDivf_apply, subf_apply, bcast_kp_apply,
    slice3_axis2_apply 0 A _ b k c c' hc, colsOf_apply, colsOf_apply, colsOf_apply, colsOf_apply, splat4_apply, splat4_apply, splat4_apply,
    mulf_apply, subf_apply, constant_apply, splat2_apply, splat2_apply, kpOffT_apply, kpDimT_apply]

/-- A pixel coordinate at a keypoint from the swapped column it scales. -/
theorem pixT_apply (X : FVec Ideal S4x1x4096x2 .f32) (o : Nat) (hs : S4x1x4096x2.Slices ![0, 0, 0, o] S4x1x4096x1) (w : BitVec 32)
    (b : Fin 4) (z : Fin 1) (k : Fin 4096) (c : Fin 2) (hc : c.val = o + (0 : Fin 1).val) :
    pixT (F := Ideal) X o hs w (ix3 b z k)
      = ((X (ix4 b z k c) + Ideal.ofBits .f32 0x3F800000#32) * Ideal.ofBits .f32 0x3F000000#32) * Ideal.ofBits .f32 w := by
  unfold pixT
  rw [mulf_apply, mulf_apply, addf_apply, splat3_apply, splat3_apply, splat3_apply, shapeCast_abc1_abc_apply,
    slice4_axis3_apply o X hs b z k (0 : Fin 1) c hc]

variable (A : FVec Ideal S4x4096x3 .f32) (b : Fin 4) (z : Fin 1) (k : Fin 4096)

/-- The width pixel coordinate of keypoint `(b, k)` comes from its y column, -/
theorem ixT_apply :
    pixT (F := Ideal) (kpFlipT (F := Ideal) A) 0 slices_S4x1x4096x2_S4x1x4096x1_0_0_0_0 0x432F0000#32 (ix3 b z k)
      = Cert.BevMath.ixS (A (ix3 b k 1)) := by
  rw [pixT_apply _ 0 _ _ b z k 0 rfl]
  unfold kpFlipT
  rw [reverse3_apply, kpNormT_apply A b z k (0 : Fin 2).rev 1 rfl]
  rfl

/-- the height pixel coordinate from its x column. -/
theorem iyT_apply :
    pixT (F := Ideal) (kpFlipT (F := Ideal) A) 1 slices_S4x1x4096x2_S4x1x4096x1_0_0_0_1 0x43470000#32 (ix3 b z k)
      = Cert.BevMath.iyS (A (ix3 b k 0)) := by
  rw [pixT_apply _ 1 _ _ b z k 1 rfl]
  unfold kpFlipT
  rw [reverse3_apply, kpNormT_apply A b z k (1 : Fin 2).rev 0 rfl]
  rfl

end AtIdeal2

/-! ## The reference's buffers after the whole line, at an index -/

section Result2
variable (V : Valuation τ sig (Elt Ideal)) (b : Fin 4) (z : Fin 1) (k : Fin 4096)

theorem main_v48_apply :
    after (ops (F := Ideal)) V (Proc.devRef .tc main_v48) (ix3 b z k) = Cert.BevMath.ixS (V (Proc.devRef .tc main_arg3) (ix3 b k 1)) := by
  rw [after_ops_main_v48]; exact ixT_apply _ b z k

theorem main_v56_apply :
    after (ops (F := Ideal)) V (Proc.devRef .tc main_v56) (ix3 b z k) = Cert.BevMath.iyS (V (Proc.devRef .tc main_arg3) (ix3 b k 0)) := by
  rw [after_ops_main_v56]; exact iyT_apply _ b z k

theorem main_v57_apply :
    after (ops (F := Ideal)) V (Proc.devRef .tc main_v57) (ix3 b z k)
      = Cert.BevMath.x0fS (Cert.BevMath.ixS (V (Proc.devRef .tc main_arg3) (ix3 b k 1))) := by
  rw [after_ops_main_v57]
  show FloatOps.hostUnary (F := Ideal) .floor _ = _
  rw [Ideal.hostUnary_floor_def, ixT_apply]
  rfl

theorem main_v58_apply :
    after (ops (F := Ideal)) V (Proc.devRef .tc main_v58) (ix3 b z k)
      = Cert.BevMath.y0fS (Cert.BevMath.iyS (V (Proc.devRef .tc main_arg3) (ix3 b k 0))) := by
  rw [after_ops_main_v58]
  show FloatOps.hostUnary (F := Ideal) .floor _ = _
  rw [Ideal.hostUnary_floor_def, iyT_apply]
  rfl

theorem main_v59_apply :
    after (ops (F := Ideal)) V (Proc.devRef .tc main_v59) (ix3 b z k)
      = Cert.BevMath.wxS (Cert.BevMath.ixS (V (Proc.devRef .tc main_arg3) (ix3 b k 1))) := by
  rw [after_ops_main_v59, subf_apply]
  show _ - FloatOps.hostUnary (F := Ideal) .floor _ = _
  rw [Ideal.hostUnary_floor_def, ixT_apply]
  rfl

theorem main_v60_apply :
    after (ops (F := Ideal)) V (Proc.devRef .tc main_v60) (ix3 b z k)
      = Cert.BevMath.wyS (Cert.BevMath.iyS (V (Proc.devRef .tc main_arg3) (ix3 b k 0))) := by
  rw [after_ops_main_v60, subf_apply]
  show _ - FloatOps.hostUnary (F := Ideal) .floor _ = _
  rw [Ideal.hostUnary_floor_def, iyT_apply]
  rfl

end Result2

end Cert.ReferenceIdeal.HandRun

end
-- ==== Proof.Ref.ReadBevResult.lean ====
/- The reference's second result read at an index, at the ideal instance: after the whole line, element `(b, ch, k)` of the
   second result is the specification's four-corner sample `Cert.BevMath.refS` of the feature map of batch `b` and channel
   `ch`, at the two pixel coordinates of key point `(b, k)`. The line leaves the blend of the four corners over the
   integer parts and fractional weights it computed (the run of the windows); the blend at an index is the four-corner
   sum over those four arrays at the point (the layout reads); and at the point they are the integer parts and the
   fractions of the two pixel coordinates (the prefix's reads). -/
import proofs.«127700_j42417097016364_2_alg».proof.Proof.Ref.BevRun
import proofs.«127700_j42417097016364_2_alg».proof.Proof.Ref.ReadBev
import proofs.«127700_j42417097016364_2_alg».proof.Proof.Ref.ReadPrefix

noncomputable section

namespace Cert.ReferenceIdeal.HandRun

open Cert.ReferenceIdeal Cert.ReferenceIdeal.Gen Idealize.ShloMosaic Idealize.ShloMosaic.TcCoe Idealize.SL.Sem Idealize.ShloMosaic.StableHlo Idealize.ShloMosaic.ValueIdx

/-- THE SECOND RESULT READ AT AN INDEX. -/
theorem main_v236_apply (V : Valuation τ sig (Elt Ideal)) (b : Fin 4) (ch : Fin 256) (k : Fin 4096) :
    after (ops (F := Ideal)) V (Proc.devRef .tc main_v236) (ix3 b ch k)
      = Cert.BevMath.refS (fun h w => V (Proc.devRef .tc main_arg2) (ix4 b ch h w))
          (Cert.BevMath.ixS (V (Proc.devRef .tc main_arg3) (ix3 b k 1)))
          (Cert.BevMath.iyS (V (Proc.devRef .tc main_arg3) (ix3 b k 0))) :=
  (congrFun (after_ops_main_v236 V) (ix3 b ch k)).trans
    ((blendT_apply b ch k _ _ _ _ _).trans
      ((congr (congr (congr (congrArg (refS' (fun h w => V (Proc.devRef .tc main_arg2) (ix4 b ch h w))) (main_v57_apply V b 0 k))
          (main_v58_apply V b 0 k)) (main_v59_apply V b 0 k)) (main_v60_apply V b 0 k)).trans
        (refS_eq_refS' _ _ _).symm))

/-- The same over the launch memory of a device, as the run states the result. -/
theorem main_v236_apply_mem (m : (ℓ : Loc nD τ sig) → Buf (Elt Ideal) ℓ) (c : Dev nD) (b : Fin 4) (ch : Fin 256) (k : Fin 4096) :
    after (ops (F := Ideal)) (fun x => m (c, x)) (Proc.devRef .tc main_v236) (ix3 b ch k)
      = Cert.BevMath.refS (fun h w => m ((c.tc : Thread nD τ).loc main_arg2) (ix4 b ch h w))
          (Cert.BevMath.ixS (m ((c.tc : Thread nD τ).loc main_arg3) (ix3 b k 1)))
          (Cert.BevMath.iyS (m ((c.tc : Thread nD τ).loc main_arg3) (ix3 b k 0))) :=
  main_v236_apply (fun x => m (c, x)) b ch k

end Cert.ReferenceIdeal.HandRun

end
-- ==== Proof.Alg.Second.lean ====
/-
  The two programs' second results agree. At batch b, channel ch and keypoint k the reference's array is the
  four-corner blend of the feature map at the keypoint's pixel coordinates; the kernel's is the sum over the rows
  of (the row's product with the column weights) times the row weight. For a real feature map and real keypoint
  coordinates the two are one number: the weights are one-hot at the clamped corner positions, scaled by the
  fractional weights and masked by the validity bits.
-/
import proofs.«127700_j42417097016364_2_alg».proof.Proof.Alg.SecondK
import proofs.«127700_j42417097016364_2_alg».proof.Proof.KI.Finite
import proofs.«127700_j42417097016364_2_alg».proof.Proof.Ref.ReadBevResult

noncomputable section

namespace Cert.Proof.Alg

open Idealize.ShloMosaic Idealize.ShloMosaic.TcCoe Idealize.ShloMosaic.ValueIdx Idealize.SL.Sem
open Cert.BevMath

theorem second_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal (hPre_finite_inputs := Cert.Pre_finite_inputs.Gen.facts) m)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    StableHlo.after (Cert.ReferenceIdeal.HandRun.ops (F := Ideal)) (fun b => m' (c, b)) (Proc.devRef .tc Cert.ReferenceIdeal.main_v236)
      = (Cert.KernelIdeal.R1.dat1 (Cert.KernelIdeal.Run.V21 m ρ) c).arrAt 3 Cert.KernelIdeal.cfg1.N := by
  funext i
  obtain ⟨b, ch, k, rfl⟩ : ∃ (b : Fin 4) (ch : Fin 256) (k : Fin 4096), i = ix3 b ch k := ⟨i 0, i 1, i 2, eq_ix3 i⟩
  refine (Cert.ReferenceIdeal.HandRun.main_v236_apply_mem m' c b ch k).trans ?_
  rw [h2, h3]
  obtain ⟨hf, hk⟩ := Cert.KernelIdeal.Finite.reals m hpre c
  refine ((kerS_eq_refS _ (fun h w => hf _) (hk (ix3 b k 0)) (hk (ix3 b k 1))).symm).trans ?_
  exact (kernel_second m ρ c b ch k).symm

end Cert.Proof.Alg

end
-- ==== Proof.lean ====
/-
  The certificate: the decoder-and-gather program against its plain reference.

  Frames. Each of the two printed kernel programs runs as a stretch of three constants, the box decoder's region,
  nineteen stretches of host operations and the gather's region; no host operation and no region writes an
  argument array (Proof/K/Run.lean, Proof/KI/Run.lean). The reference is host operations only and its run is the
  fold of its operations (Proof/Ref/Run.lean).

  The idealization rewrote no operation, so there is nothing to preserve.

  Values. At the ideal instance both programs' first result is, row by row, the decoded box of the regression
  row and the anchor row (Proof/KI/BoxesValue.lean, Proof/Ref/ReadBox.lean). The second result is the bilinear
  sample of the feature map at each keypoint: the reference blends four masked corner reads, the kernel contracts
  the map with two one-hot weight matrices and accumulates over the rows (Proof/KI/BevValue.lean,
  Proof/KI/Weights.lean, Proof/Ref/ReadBevResult.lean); on a real map and real keypoints the two are one
  number (Proof/Math/Spec.lean). The precondition is used only there: it makes every entry of the map and of the
  keypoints a real (Proof/KI/Finite.lean).
-/
import proofs.«127700_j42417097016364_2_alg».proof.Defs
import proofs.«127700_j42417097016364_2_alg».proof.Proof.Gen.Kernel
import proofs.«127700_j42417097016364_2_alg».proof.Proof.Gen.KernelIdeal
import proofs.«127700_j42417097016364_2_alg».proof.Proof.Gen.ReferenceIdeal
import proofs.«127700_j42417097016364_2_alg».proof.Proof.Gen.Pre_finite_inputs
import proofs.«127700_j42417097016364_2_alg».proof.Proof.K.Run
import proofs.«127700_j42417097016364_2_alg».proof.Proof.KI.Run
import proofs.«127700_j42417097016364_2_alg».proof.Proof.Ref.Run
import proofs.«127700_j42417097016364_2_alg».proof.Proof.Alg.First
import proofs.«127700_j42417097016364_2_alg».proof.Proof.Alg.Second
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Run.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

theorem frame_ri : Cert.frame_ReferenceIdeal (hReferenceIdeal := Cert.ReferenceIdeal.Gen.facts) (hPre_finite_inputs := Cert.Pre_finite_inputs.Gen.facts) :=
  fun m ρ _ => Cert.ReferenceIdeal.HandRun.frame m ρ

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => (Cert.KernelIdeal.R0.dat0 (Cert.KernelIdeal.Run.V1 m ρ) c).arrAt 2 Cert.KernelIdeal.cfg0.N,
    fun c => (Cert.KernelIdeal.R1.dat1 (Cert.KernelIdeal.Run.V21 m ρ) c).arrAt 3 Cert.KernelIdeal.cfg1.N, ?_, ?_⟩
  · exact (θ_run Cert.KernelIdeal.defs _ _).mono (fun _ h c => h c) (Cert.KernelIdeal.Run.run_main (F := Ideal) m ρ)
  · refine (θ_run Cert.ReferenceIdeal.defs _ _).mono (fun _ h c => ?_) (Cert.ReferenceIdeal.HandRun.run (F := Ideal) m' ρ')
    obtain ⟨h15, h236, ha0, ha1, ha2, ha3⟩ := h c
    obtain ⟨g0, g1, g2, g3⟩ := hagree c
    exact ⟨h15.trans (Cert.Proof.Alg.first_eq m ρ m' c g0 g1), h236.trans (Cert.Proof.Alg.second_eq m ρ m' c hpre g2 g3),
      ha0, ha1, ha2, ha3⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
